-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v67) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048x8x8 : Shape := ⟨4, ![256, 2048, 8, 8]⟩
abbrev S256 : Shape := ⟨1, ![256]⟩
abbrev S2048x2048 : Shape := ⟨2, ![2048, 2048]⟩
abbrev S2048 : Shape := ⟨1, ![2048]⟩
abbrev S_ : Shape := ⟨0, ![]⟩

class Facts : Prop where
  bcast_S_S256x2048x8x8 : S_.BroadcastsInDim S256x2048x8x8 (![] : Fin 0 → Fin S256x2048x8x8.rank)
  reducesTo_S256x2048x8x8_S_d0_1_2_3 : S256x2048x8x8.ReducesTo [0, 1, 2, 3] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg9 : FVec F S2048 .f32) (main_v33 : IVec S_ 1) : IVec S_ 1 :=
  let main_v34 : FVec F S2048 .f32 := Host.absf main_arg9
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg6 : FVec F S2048 .f32) (main_arg7 : FVec F S2048 .f32) (main_arg8 : FVec F S2048x2048 .f32) (main_arg9 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg6
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg7
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg8
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg9 main_v33

def fn {F : FTy → Type} [FloatOps F] (main_arg0 : FVec F S256x2048x8x8 .f32) (main_arg1 : FVec F S256x2048x8x8 .f32) (main_arg2 : IVec S256 32) (main_arg3 : IVec S256 32) (main_arg4 : FVec F S2048x2048 .f32) (main_arg5 : FVec F S2048 .f32) (main_arg6 : FVec F S2048 .f32) (main_arg7 : FVec F S2048 .f32) (main_arg8 : FVec F S2048x2048 .f32) (main_arg9 : FVec F S2048 .f32) : IVec S_ 1 :=
  let main_v0 : FVec F S256x2048x8x8 .f32 := Host.absf main_arg0
  let main_cst : FVec F S_ .f32 := constant S_ .f32 0x7F800000#32
  let main_v1 : FVec F S256x2048x8x8 .f32 := broadcastInDim S256x2048x8x8 ![] bcast_S_S256x2048x8x8 main_cst
  let main_v2 : IVec S256x2048x8x8 1 := cmpf .olt main_v0 main_v1
  let main_c : IVec S_ 1 := constantI S_ 1 1#1
  let main_v3 : IVec S_ 1 := (fun x v => Host.reduce IntOp.andi x v reducesTo_S256x2048x8x8_S_d0_1_2_3 h_S_) main_v2 main_c
  let main_v4 : FVec F S256x2048x8x8 .f32 := Host.absf main_arg1
  let main_cst_0 : FVec F S_ .f32 := constant S_ .f32 0x7F800000#32
  let main_v5 : FVec F S256x2048x8x8 .f32 := broadcastInDim S256x2048x8x8 ![] bcast_S_S256x2048x8x8 main_cst_0
  let main_v6 : IVec S256x2048x8x8 1 := cmpf .olt main_v4 main_v5
  let main_c_1 : IVec S_ 1 := constantI S_ 1 1#1
  let main_v7 : IVec S_ 1 := (fun x v => Host.reduce IntOp.andi x v reducesTo_S256x2048x8x8_S_d0_1_2_3 h_S_) main_v6 main_c_1
  let main_v8 : IVec S_ 1 := andi main_v3 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg5
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg6 main_arg7 main_arg8 main_arg9 main_v13 main_v16
-- ==== Kernel.lean ====
abbrev S256x2048x8x8 : Shape := ⟨4, ![256, 2048, 8, 8]⟩
abbrev S256 : Shape := ⟨1, ![256]⟩
abbrev S2048x2048 : Shape := ⟨2, ![2048, 2048]⟩
abbrev S2048 : Shape := ⟨1, ![2048]⟩
abbrev S256x2048x64 : Shape := ⟨3, ![256, 2048, 64]⟩
abbrev S256x2048 : Shape := ⟨2, ![256, 2048]⟩
abbrev S128x256x64 : Shape := ⟨3, ![128, 256, 64]⟩
abbrev S128x256 : Shape := ⟨2, ![128, 256]⟩
abbrev S512x2048 : Shape := ⟨2, ![512, 2048]⟩
abbrev S512x512 : Shape := ⟨2, ![512, 512]⟩
abbrev S1x2048 : Shape := ⟨2, ![1, 2048]⟩
abbrev S_ : Shape := ⟨0, ![]⟩
abbrev S512 : Shape := ⟨1, ![512]⟩
abbrev S1x512 : Shape := ⟨2, ![1, 512]⟩
abbrev S512x1 : Shape := ⟨2, ![512, 1]⟩
abbrev S2048x512 : Shape := ⟨2, ![2048, 512]⟩
abbrev S256x1 : Shape := ⟨2, ![256, 1]⟩
abbrev S1x256 : Shape := ⟨2, ![1, 256]⟩
abbrev S256x256 : Shape := ⟨2, ![256, 256]⟩

abbrev nBuf : Space → Nat
  | .hbm => 122
  | .vmem => 30
  | .smem => 0
  | _ => 0

abbrev bufTy : (tb : Table) → Fin (tcTables nBuf tb) → BufTy
  | .hbm, ⟨0, _⟩ => ⟨S256x2048x8x8, .f32⟩
  | .hbm, ⟨1, _⟩ => ⟨S256x2048x8x8, .f32⟩
  | .hbm, ⟨2, _⟩ => ⟨S256, .i32⟩
  | .hbm, ⟨3, _⟩ => ⟨S256, .i32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S256x2048x64, .f32⟩
  | .hbm, ⟨11, _⟩ => ⟨S256x2048, .f32⟩
  | .hbm, ⟨12, _⟩ => ⟨S256x2048x64, .f32⟩
  | .hbm, ⟨13, _⟩ => ⟨S256x2048, .f32⟩
  | .hbm, ⟨14, _⟩ => ⟨S512x2048, .f32⟩
  | .hbm, ⟨15, _⟩ => ⟨S2048x2048, .f32⟩
  | .hbm, ⟨16, _⟩ => ⟨S2048x2048, .f32⟩
  | .hbm, ⟨17, _⟩ => ⟨S512x2048, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S_, .i32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S_, .f32⟩
  | .hbm, ⟨28, _⟩ => ⟨S1x2048, .f32⟩
  | .hbm, ⟨29, _⟩ => ⟨S1x2048, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S2048, .f32⟩
  | .hbm, ⟨38, _⟩ => ⟨S2048, .f32⟩
  | .hbm, ⟨39, _⟩ => ⟨S2048, .f32⟩
  | .hbm, ⟨40, _⟩ => ⟨S_, .f32⟩
  | .hbm, ⟨41, _⟩ => ⟨S_, .i1⟩
  | .hbm, ⟨42, _⟩ => ⟨S_, .f32⟩
  | .hbm, ⟨43, _⟩ => ⟨S_, .f32⟩
  | .hbm, ⟨44, _⟩ => ⟨S2048, .f32⟩
  | .hbm, ⟨45, _⟩ => ⟨S2048, .f32⟩
  | .hbm, ⟨46, _⟩ => ⟨S512x2048, .f32⟩
  | .hbm, ⟨47, _⟩ => ⟨S512x2048, .f32⟩
  | .hbm, ⟨48, _⟩ => ⟨S_, .f32⟩
  | .hbm, ⟨49, _⟩ => ⟨S512, .f32⟩
  | .hbm, ⟨50, _⟩ => ⟨S512x1, .f32⟩
  | .hbm, ⟨51, _⟩ => ⟨S512x1, .f32⟩
  | .hbm, ⟨52, _⟩ => ⟨S_, .f32⟩
  | .hbm, ⟨53, _⟩ => ⟨S512x1, .f32⟩
  | .hbm, ⟨54, _⟩ => ⟨S512x1, .f32⟩
  | .hbm, ⟨55, _⟩ => ⟨S512x2048, .f32⟩
  | .hbm, ⟨56, _⟩ => ⟨S512x2048, .f32⟩
  | .hbm, ⟨57, _⟩ => ⟨S2048x512, .f32⟩
  | .hbm, ⟨58, _⟩ => ⟨S512x512, .f32⟩
  | .hbm, ⟨59, _⟩ => ⟨S_, .f32⟩
  | .hbm, ⟨60, _⟩ => ⟨S512x512, .f32⟩
  | .hbm, ⟨61, _⟩ => ⟨S512x512, .f32⟩
  | .hbm, ⟨62, _⟩ => ⟨S512x512, .f32⟩
  | .hbm, ⟨63, _⟩ => ⟨S256x1, .i32⟩
  | .hbm, ⟨64, _⟩ => ⟨S1x256, .i32⟩
  | .hbm, ⟨65, _⟩ => ⟨S256x256, .i32⟩
  | .hbm, ⟨66, _⟩ => ⟨S256x256, .i32⟩
  | .hbm, ⟨67, _⟩ => ⟨S256x256, .i32⟩
  | .hbm, ⟨68, _⟩ => ⟨S256x256, .i32⟩
  | .hbm, ⟨69, _⟩ => ⟨S256x256, .i32⟩
  | .hbm, ⟨70, _⟩ => ⟨S256x256, .i32⟩
  | .hbm, ⟨71, _⟩ => ⟨S_, .i32⟩
  | .hbm, ⟨72, _⟩ => ⟨S256x256, .i32⟩
  | .hbm, ⟨73, _⟩ => ⟨S256x256, .i32⟩
  | .hbm, ⟨74, _⟩ => ⟨S256x256, .i1⟩
  | .hbm, ⟨75, _⟩ => ⟨S_, .i32⟩
  | .hbm, ⟨76, _⟩ => ⟨S256x256, .i32⟩
  | .hbm, ⟨77, _⟩ => ⟨S256x256, .i1⟩
  | .hbm, ⟨78, _⟩ => ⟨S256x256, .i1⟩
  | .hbm, ⟨79, _⟩ => ⟨S256x256, .i1⟩
  | .hbm, ⟨80, _⟩ => ⟨S_, .i32⟩
  | .hbm, ⟨81, _⟩ => ⟨S256x256, .i32⟩
  | .hbm, ⟨82, _⟩ => ⟨S256x256, .i1⟩
  | .hbm, ⟨83, _⟩ => ⟨S256x256, .f32⟩
  | .hbm, ⟨84, _⟩ => ⟨S256x256, .f32⟩
  | .hbm, ⟨85, _⟩ => ⟨S256x256, .f32⟩
  | .hbm, ⟨86, _⟩ => ⟨S_, .f32⟩
  | .hbm, ⟨87, _⟩ => ⟨S256, .f32⟩
  | .hbm, ⟨88, _⟩ => ⟨S256x256, .f32⟩
  | .hbm, ⟨89, _⟩ => ⟨S_, .f32⟩
  | .hbm, ⟨90, _⟩ => ⟨S256, .f32⟩
  | .hbm, ⟨91, _⟩ => ⟨S256, .f32⟩
  | .hbm, ⟨92, _⟩ => ⟨S256x1, .f32⟩
  | .hbm, ⟨93, _⟩ => ⟨S256x256, .f32⟩
  | .hbm, ⟨94, _⟩ => ⟨S256x256, .f32⟩
  | .hbm, ⟨95, _⟩ => ⟨S256x256, .f32⟩
  | .hbm, ⟨96, _⟩ => ⟨S256x256, .f32⟩
  | .hbm, ⟨97, _⟩ => ⟨S256x256, .f32⟩
  | .hbm, ⟨98, _⟩ => ⟨S256x256, .i32⟩
  | .hbm, ⟨99, _⟩ => ⟨S_, .i32⟩
  | .hbm, ⟨100, _⟩ => ⟨S256, .i32⟩
  | .hbm, ⟨101, _⟩ => ⟨S256x256, .f32⟩
  | .hbm, ⟨102, _⟩ => ⟨S256x256, .f32⟩
  | .hbm, ⟨103, _⟩ => ⟨S_, .f32⟩
  | .hbm, ⟨104, _⟩ => ⟨S256, .f32⟩
  | .hbm, ⟨105, _⟩ => ⟨S_, .i32⟩
  | .hbm, ⟨106, _⟩ => ⟨S256, .i32⟩
  | .hbm, ⟨107, _⟩ => ⟨S256, .i32⟩
  | .hbm, ⟨108, _⟩ => ⟨S256, .f32⟩
  | .hbm, ⟨109, _⟩ => ⟨S256, .f32⟩
  | .hbm, ⟨110, _⟩ => ⟨S_, .i32⟩
  | .hbm, ⟨111, _⟩ => ⟨S256, .i32⟩
  | .hbm, ⟨112, _⟩ => ⟨S256, .i1⟩
  | .hbm, ⟨113, _⟩ => ⟨S_, .f32⟩
  | .hbm, ⟨114, _⟩ => ⟨S_, .f32⟩
  | .hbm, ⟨115, _⟩ => ⟨S256, .f32⟩
  | .hbm, ⟨116, _⟩ => ⟨S256, .f32⟩
  | .hbm, ⟨117, _⟩ => ⟨S_, .f32⟩
  | .hbm, ⟨118, _⟩ => ⟨S_, .f32⟩
  | .hbm, ⟨119, _⟩ => ⟨S256, .i32⟩
  | .hbm, ⟨120, _⟩ => ⟨S_, .i32⟩
  | .hbm, ⟨121, _⟩ => ⟨S_, .i32⟩
  | .local _ .vmem, ⟨0, _⟩ => ⟨S128x256x64, .f32⟩
  | .local _ .vmem, ⟨1, _⟩ => ⟨S128x256x64, .f32⟩
  | .local _ .vmem, ⟨2, _⟩ => ⟨S128x256, .f32⟩
  | .local _ .vmem, ⟨3, _⟩ => ⟨S128x256, .f32⟩
  | .local _ .vmem, ⟨4, _⟩ => ⟨S128x256x64, .f32⟩
  | .local _ .vmem, ⟨5, _⟩ => ⟨S128x256x64, .f32⟩
  | .local _ .vmem, ⟨6, _⟩ => ⟨S128x256, .f32⟩
  | .local _ .vmem, ⟨7, _⟩ => ⟨S128x256, .f32⟩
  | .local _ .vmem, ⟨8, _⟩ => ⟨S512x512, .f32⟩
  | .local _ .vmem, ⟨9, _⟩ => ⟨S512x512, .f32⟩
  | .local _ .vmem, ⟨10, _⟩ => ⟨S512x2048, .f32⟩
  | .local _ .vmem, ⟨11, _⟩ => ⟨S512x2048, .f32⟩
  | .local _ .vmem, ⟨12, _⟩ => ⟨S2048, .f32⟩
  | .local _ .vmem, ⟨13, _⟩ => ⟨S512x2048, .f32⟩
  | .local _ .vmem, ⟨14, _⟩ => ⟨S512x2048, .f32⟩
  | .local _ .vmem, ⟨15, _⟩ => ⟨S512x512, .f32⟩
  | .local _ .vmem, ⟨16, _⟩ => ⟨S512x512, .f32⟩
  | .local _ .vmem, ⟨17, _⟩ => ⟨S512, .f32⟩
  | .local _ .vmem, ⟨18, _⟩ => ⟨S512, .f32⟩
  | .local _ .vmem, ⟨19, _⟩ => ⟨S512, .f32⟩
  | .local _ .vmem, ⟨20, _⟩ => ⟨S512, .f32⟩
  | .local _ .vmem, ⟨21, _⟩ => ⟨S512, .f32⟩
  | .local _ .vmem, ⟨22, _⟩ => ⟨S512, .f32⟩
  | .local _ .vmem, ⟨23, _⟩ => ⟨S512, .f32⟩
  | .local _ .vmem, ⟨24, _⟩ => ⟨S512, .f32⟩
  | .local _ .vmem, ⟨25, _⟩ => ⟨S512x2048, .f32⟩
  | .local _ .vmem, ⟨26, _⟩ => ⟨S512x2048, .f32⟩
  | .local _ .vmem, ⟨27, _⟩ => ⟨S2048, .f32⟩
  | .local _ .vmem, ⟨28, _⟩ => ⟨S512x2048, .f32⟩
  | .local _ .vmem, ⟨29, _⟩ => ⟨S512x2048, .f32⟩
  | _, _ => ⟨S256x2048x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_cst_3 : Ref sig .tc := ⟨.hbm, 40, rfl⟩
abbrev main_call0_v12 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v11 : Ref sig .tc := ⟨.hbm, 45, rfl⟩
abbrev main_v12 : Ref sig .tc := ⟨.hbm, 46, rfl⟩
abbrev main_call1_v0 : Ref sig .tc := ⟨.hbm, 47, rfl⟩
abbrev main_call1_cst : Ref sig .tc := ⟨.hbm, 48, rfl⟩
abbrev main_call1_v1 : Ref sig .tc := ⟨.hbm, 49, rfl⟩
abbrev main_call1_v2 : Ref sig .tc := ⟨.hbm, 50, rfl⟩
abbrev main_v13 : Ref sig .tc := ⟨.hbm, 51, rfl⟩
abbrev main_cst_1 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_cst_2 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_c_3 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_c_4 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_c_5 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_6 : Ref sig .tc := ⟨.hbm, 86, rfl⟩
abbrev main_v43 : Ref sig .tc := ⟨.hbm, 87, rfl⟩
abbrev main_v44 : Ref sig .tc := ⟨.hbm, 88, rfl⟩
abbrev main_cst_7 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_c_8 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_9 : Ref sig .tc := ⟨.hbm, 103, rfl⟩
abbrev main_v57 : Ref sig .tc := ⟨.hbm, 104, rfl⟩
abbrev main_c_10 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_c_11 : Ref sig .tc := ⟨.hbm, 110, rfl⟩
abbrev main_v62 : Ref sig .tc := ⟨.hbm, 111, rfl⟩
abbrev main_v63 : Ref sig .tc := ⟨.hbm, 112, rfl⟩
abbrev main_cst_12 : Ref sig .tc := ⟨.hbm, 113, rfl⟩
abbrev main_call2_v0 : Ref sig .tc := ⟨.hbm, 114, rfl⟩
abbrev main_call2_v1 : Ref sig .tc := ⟨.hbm, 115, rfl⟩
abbrev main_v64 : Ref sig .tc := ⟨.hbm, 116, rfl⟩
abbrev main_cst_13 : Ref sig .tc := ⟨.hbm, 117, rfl⟩
abbrev main_v65 : Ref sig .tc := ⟨.hbm, 118, rfl⟩
abbrev main_v66 : Ref sig .tc := ⟨.hbm, 119, rfl⟩
abbrev main_c_14 : Ref sig .tc := ⟨.hbm, 120, rfl⟩
abbrev main_v67 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_scratch0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc3_stg5_0 : Ref sig .tc := ⟨.vmem, 25, rfl⟩
abbrev cc3_stg5_1 : Ref sig .tc := ⟨.vmem, 26, rfl⟩
abbrev cc3_stg6_0 : Ref sig .tc := ⟨.vmem, 27, rfl⟩
abbrev cc3_stg7_0 : Ref sig .tc := ⟨.vmem, 28, rfl⟩
abbrev cc3_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem2_1 : DmaSem sig := 19
abbrev cc3_sem3_0 : DmaSem sig := 20
abbrev cc3_sem3_1 : DmaSem sig := 21
abbrev cc3_sem4_0 : DmaSem sig := 22
abbrev cc3_sem4_1 : DmaSem sig := 23
abbrev cc3_sem5_0 : DmaSem sig := 24
abbrev cc3_sem5_1 : DmaSem sig := 25
abbrev cc3_sem6_0 : DmaSem sig := 26
abbrev cc3_sem7_0 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S128x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨1, ![4], ![false]⟩

def k2_cond2 (i : grid2.Coords) : BitVec 1 :=
  let arg0 : BitVec 32 := BitVec.ofNat 32 (i 0).val
  let c3_i32 : BitVec 32 := 3#32
  let v15 : BitVec 1 := Scalar.cmpi .eq arg0 c3_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![4], ![false]⟩

def k3_cond2 (i : grid3.Coords) : BitVec 1 :=
  let arg0 : BitVec 32 := BitVec.ofNat 32 (i 0).val
  let c3_i32 : BitVec 32 := 3#32
  let v38 : BitVec 1 := Scalar.cmpi .eq arg0 c3_i32
  let v39 : BitVec 32 := Scalar.extui v38
  let c0_i32_14 : BitVec 32 := 0#32
  let v40 : BitVec 1 := Scalar.cmpi .ne v39 c0_i32_14
  v40

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 1 → Nat :=
  let arg0 : BitVec 32 := BitVec.ofNat 32 (i 0).val
  let c0_i32 : BitVec 32 := 0#32
  ![arg0.toNat]

def cc3_transform_2 (i : grid3.Coords) : Fin 1 → Nat :=
  let arg0 : BitVec 32 := BitVec.ofNat 32 (i 0).val
  let c0_i32 : BitVec 32 := 0#32
  ![arg0.toNat]

def cc3_transform_3 (i : grid3.Coords) : Fin 1 → Nat :=
  let arg0 : BitVec 32 := BitVec.ofNat 32 (i 0).val
  let c0_i32 : BitVec 32 := 0#32
  ![arg0.toNat]

def cc3_transform_4 (i : grid3.Coords) : Fin 1 → Nat :=
  let arg0 : BitVec 32 := BitVec.ofNat 32 (i 0).val
  let c0_i32 : BitVec 32 := 0#32
  ![arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S2048 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x2048 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  shapeCasts_S256x2048x8x8_S256x2048x64 : S256x2048x8x8.ShapeCasts S256x2048x64
  inb_S128x256x64_S128x256x64_0_0_0 : ∀ a, (![0, 0, 0] : Fin 3 → Nat) a + S128x256x64.size a ≤ S128x256x64.size a
  h_S128x256x64 : 0 < S128x256x64.numel
  shapeCasts_S128x256x64_S128x256x64 : S128x256x64.ShapeCasts S128x256x64
  reduces_S128x256x64_S128x256 : S128x256x64.Reduces [2] S128x256
  inb_S128x256_S128x256_0_0 : ∀ a, (![0, 0] : Fin 2 → Nat) a + S128x256.size a ≤ S128x256.size a
  h_S128x256 : 0 < S128x256.numel
  concatenates_S256x2048_S256x2048_S512x2048_d0 : Shape.Concatenates [S256x2048, S256x2048] S512x2048 0
  transposes_S2048x2048_S2048x2048_1_0 : S2048x2048.Transposes [1, 0] S2048x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  reducesTo_S512x2048_S2048_d0 : S512x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S512x2048_0_1 : S1x2048.BroadcastsInDim S512x2048 (![0, 1] : Fin 2 → Fin S512x2048.rank)
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S512x512 : S1x512.Broadcasts S512x512
  reducesTo_S512x2048_S512_d1 : S512x2048.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x2048_0_1 : S512x1.BroadcastsInDim S512x2048 (![0, 1] : Fin 2 → Fin S512x2048.rank)
  transposes_S512x2048_S2048x512_1_0 : S512x2048.Transposes [1, 0] S2048x512
  bcast_S_S512x512 : S_.BroadcastsInDim S512x512 (![] : Fin 0 → Fin S512x512.rank)
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  slices_S512x512_S256x256_0_0 : S512x512.Slices ![0, 0] S256x256
  reducesTo_S256x256_S256_d1 : S256x256.ReducesTo [1] S256
  slices_S512x512_S256x256_0_256 : S512x512.Slices ![0, 256] S256x256
  natLt_1_32 : 1 < 32
  bcast_S_S256 : S_.BroadcastsInDim S256 (![] : Fin 0 → Fin S256.rank)
  reducesTo_S256_S_d0 : S256.ReducesTo [0] S_
  dot_S512x512_S512x2048_S512x2048_1_0_0_1_n_n_wf : DotDims.WF S512x512 S512x2048 S512x2048 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256x64.size a ≤ S256x2048x64.size a
  hwx0_0 : ∀ i : grid0.Coords, EltTy.bits .f32 = 32 ∨ (Rect.block (s := S256x2048x64) S128x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S256x2048.size a
  hwx0_1 : ∀ i : grid0.Coords, EltTy.bits .f32 = 32 ∨ (Rect.block (s := S256x2048) S128x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x256x64.size a ≤ S256x2048x64.size a
  hwx1_0 : ∀ i : grid1.Coords, EltTy.bits .f32 = 32 ∨ (Rect.block (s := S256x2048x64) S128x256x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S256x2048.size a
  hwx1_1 : ∀ i : grid1.Coords, EltTy.bits .f32 = 32 ∨ (Rect.block (s := S256x2048) S128x256.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S512x2048.size a
  hwx2_0 : ∀ i : grid2.Coords, EltTy.bits .f32 = 32 ∨ (Rect.block (s := S512x2048) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S2048x2048.size a
  hwx2_1 : ∀ i : grid2.Coords, EltTy.bits .f32 = 32 ∨ (Rect.block (s := S2048x2048) S512x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048.size a ≤ S2048.size a
  hwx2_2 : ∀ i : grid2.Coords, EltTy.bits .f32 = 32 ∨ (Rect.block (s := S2048) S2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S512x2048.size a
  hwx2_3 : ∀ i : grid2.Coords, EltTy.bits .f32 = 32 ∨ (Rect.block (s := S512x2048) S512x2048.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S512x2048.size a
  hwx3_0 : ∀ i : grid3.Coords, EltTy.bits .f32 = 32 ∨ (Rect.block (s := S512x2048) S512x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512.size a ≤ S2048.size a
  hwx3_1 : ∀ i : grid3.Coords, EltTy.bits .f32 = 32 ∨ (Rect.block (s := S2048) S512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512.size a ≤ S2048.size a
  hwx3_2 : ∀ i : grid3.Coords, EltTy.bits .f32 = 32 ∨ (Rect.block (s := S2048) S512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512.size a ≤ S2048.size a
  hwx3_3 : ∀ i : grid3.Coords, EltTy.bits .f32 = 32 ∨ (Rect.block (s := S2048) S512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512.size a ≤ S2048.size a
  hwx3_4 : ∀ i : grid3.Coords, EltTy.bits .f32 = 32 ∨ (Rect.block (s := S2048) S512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x2048.size a ≤ S2048x2048.size a
  hwx3_5 : ∀ i : grid3.Coords, EltTy.bits .f32 = 32 ∨ (Rect.block (s := S2048x2048) S512x2048.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S2048.size a ≤ S2048.size a
  hwx3_6 : ∀ i : grid3.Coords, EltTy.bits .f32 = 32 ∨ (Rect.block (s := S2048) S2048.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x2048.size a ≤ S512x2048.size a
  hwx3_7 : ∀ i : grid3.Coords, EltTy.bits .f32 = 32 ∨ (Rect.block (s := S512x2048) S512x2048.size (cc3_transform_7 i) (hinb3_7 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v0) S128x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S128x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v4) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v7) S512x2048.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v7) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg7) S512.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v6) S512x2048.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_arg9) S2048.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v12) S512x2048.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

class Facts : Prop extends Facts₀ where

variable [Facts]
-- ==== ReferenceIdeal.lean ====
abbrev S256x2048x8x8 : Shape := ⟨4, ![256, 2048, 8, 8]⟩
abbrev S256 : Shape := ⟨1, ![256]⟩
abbrev S2048x2048 : Shape := ⟨2, ![2048, 2048]⟩
abbrev S2048 : Shape := ⟨1, ![2048]⟩
abbrev S512x2048x8x8 : Shape := ⟨4, ![512, 2048, 8, 8]⟩
abbrev S_ : Shape := ⟨0, ![]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S256x1 : Shape := ⟨2, ![256, 1]⟩
abbrev S1x256 : Shape := ⟨2, ![1, 256]⟩
abbrev S256x256 : Shape := ⟨2, ![256, 256]⟩

abbrev nBuf : Space → Nat
  | .hbm => 148
  | .vmem => 0
  | .smem => 0
  | _ => 0

abbrev hbmTy0_0 (i : Nat) : BufTy := match i % 128 with
  | 0 => ⟨S256x2048x8x8, .f32⟩
  | 1 => ⟨S256x2048x8x8, .f32⟩
  | 2 => ⟨S256, .i32⟩
  | 3 => ⟨S256, .i32⟩
  | 4 => ⟨S2048x2048, .f32⟩
  | 5 => ⟨S2048, .f32⟩
  | 6 => ⟨S2048, .f32⟩
  | 7 => ⟨S2048, .f32⟩
  | 8 => ⟨S2048x2048, .f32⟩
  | 9 => ⟨S2048, .f32⟩
  | 10 => ⟨S512x2048x8x8, .f32⟩
  | 11 => ⟨S_, .f32⟩
  | 12 => ⟨S512x2048, .f32⟩
  | 13 => ⟨S_, .f32⟩
  | 14 => ⟨S512x2048, .f32⟩
  | 15 => ⟨S512x2048, .f32⟩
  | 16 => ⟨S2048x2048, .f32⟩
  | 17 => ⟨S512x2048, .f32⟩
  | 18 => ⟨S1x2048, .f32⟩
  | 19 => ⟨S512x2048, .f32⟩
  | 20 => ⟨S512x2048, .f32⟩
  | 21 => ⟨S_, .f32⟩
  | 22 => ⟨S2048, .f32⟩
  | 23 => ⟨S_, .f32⟩
  | 24 => ⟨S2048, .f32⟩
  | 25 => ⟨S2048, .f32⟩
  | 26 => ⟨S_, .i32⟩
  | 27 => ⟨S_, .f32⟩
  | 28 => ⟨S2048, .f32⟩
  | 29 => ⟨S1x2048, .f32⟩
  | 30 => ⟨S_, .f32⟩
  | 31 => ⟨S1x2048, .f32⟩
  | 32 => ⟨S1x2048, .f32⟩
  | 33 => ⟨S512x2048, .f32⟩
  | 34 => ⟨S512x2048, .f32⟩
  | 35 => ⟨S512x2048, .f32⟩
  | 36 => ⟨S_, .f32⟩
  | 37 => ⟨S_, .f32⟩
  | 38 => ⟨S_, .f32⟩
  | 39 => ⟨S_, .f32⟩
  | 40 => ⟨S2048, .f32⟩
  | 41 => ⟨S2048, .f32⟩
  | 42 => ⟨S2048, .f32⟩
  | 43 => ⟨S_, .f32⟩
  | 44 => ⟨S_, .i1⟩
  | 45 => ⟨S_, .f32⟩
  | 46 => ⟨S_, .f32⟩
  | 47 => ⟨S2048, .f32⟩
  | 48 => ⟨S2048, .f32⟩
  | 49 => ⟨S1x2048, .f32⟩
  | 50 => ⟨S512x2048, .f32⟩
  | 51 => ⟨S512x2048, .f32⟩
  | 52 => ⟨S_, .f32⟩
  | 53 => ⟨S2048, .f32⟩
  | 54 => ⟨S2048, .f32⟩
  | 55 => ⟨S2048, .f32⟩
  | 56 => ⟨S1x2048, .f32⟩
  | 57 => ⟨S512x2048, .f32⟩
  | 58 => ⟨S512x2048, .f32⟩
  | 59 => ⟨S1x2048, .f32⟩
  | 60 => ⟨S512x2048, .f32⟩
  | 61 => ⟨S512x2048, .f32⟩
  | 62 => ⟨S1x2048, .f32⟩
  | 63 => ⟨S512x2048, .f32⟩
  | 64 => ⟨S512x2048, .f32⟩
  | 65 => ⟨S_, .f32⟩
  | 66 => ⟨S512x2048, .f32⟩
  | 67 => ⟨S512x2048, .f32⟩
  | 68 => ⟨S2048x2048, .f32⟩
  | 69 => ⟨S512x2048, .f32⟩
  | 70 => ⟨S1x2048, .f32⟩
  | 71 => ⟨S512x2048, .f32⟩
  | 72 => ⟨S512x2048, .f32⟩
  | 73 => ⟨S512x2048, .f32⟩
  | 74 => ⟨S_, .f32⟩
  | 75 => ⟨S512, .f32⟩
  | 76 => ⟨S512x1, .f32⟩
  | 77 => ⟨S512x1, .f32⟩
  | 78 => ⟨S_, .f32⟩
  | 79 => ⟨S512x1, .f32⟩
  | 80 => ⟨S512x1, .f32⟩
  | 81 => ⟨S512x2048, .f32⟩
  | 82 => ⟨S512x2048, .f32⟩
  | 83 => ⟨S2048x512, .f32⟩
  | 84 => ⟨S512x512, .f32⟩
  | 85 => ⟨S_, .f32⟩
  | 86 => ⟨S512x512, .f32⟩
  | 87 => ⟨S512x512, .f32⟩
  | 88 => ⟨S512x512, .f32⟩
  | 89 => ⟨S256x1, .i32⟩
  | 90 => ⟨S1x256, .i32⟩
  | 91 => ⟨S256x256, .i32⟩
  | 92 => ⟨S256x256, .i32⟩
  | 93 => ⟨S256x256, .i32⟩
  | 94 => ⟨S256x256, .i32⟩
  | 95 => ⟨S256x256, .i32⟩
  | 96 => ⟨S256x256, .i32⟩
  | 97 => ⟨S_, .i32⟩
  | 98 => ⟨S256x256, .i32⟩
  | 99 => ⟨S256x256, .i32⟩
  | 100 => ⟨S256x256, .i1⟩
  | 101 => ⟨S_, .i32⟩
  | 102 => ⟨S256x256, .i32⟩
  | 103 => ⟨S256x256, .i1⟩
  | 104 => ⟨S256x256, .i1⟩
  | 105 => ⟨S256x256, .i1⟩
  | 106 => ⟨S_, .i32⟩
  | 107 => ⟨S256x256, .i32⟩
  | 108 => ⟨S256x256, .i1⟩
  | 109 => ⟨S256x256, .f32⟩
  | 110 => ⟨S256x256, .f32⟩
  | 111 => ⟨S256x256, .f32⟩
  | 112 => ⟨S_, .f32⟩
  | 113 => ⟨S256, .f32⟩
  | 114 => ⟨S256x256, .f32⟩
  | 115 => ⟨S_, .f32⟩
  | 116 => ⟨S256, .f32⟩
  | 117 => ⟨S256, .f32⟩
  | 118 => ⟨S256x1, .f32⟩
  | 119 => ⟨S256x256, .f32⟩
  | 120 => ⟨S256x256, .f32⟩
  | 121 => ⟨S256x256, .f32⟩
  | 122 => ⟨S256x256, .f32⟩
  | 123 => ⟨S256x256, .f32⟩
  | 124 => ⟨S256x256, .i32⟩
  | 125 => ⟨S_, .i32⟩
  | 126 => ⟨S256, .i32⟩
  | 127 => ⟨S256x256, .f32⟩
  | _ => ⟨S256x2048x8x8, .f32⟩

abbrev hbmTy0_1 (i : Nat) : BufTy := match i % 128 with
  | 0 => ⟨S256x256, .f32⟩
  | 1 => ⟨S_, .f32⟩
  | 2 => ⟨S256, .f32⟩
  | 3 => ⟨S_, .i32⟩
  | 4 => ⟨S256, .i32⟩
  | 5 => ⟨S256, .i32⟩
  | 6 => ⟨S256, .f32⟩
  | 7 => ⟨S256, .f32⟩
  | 8 => ⟨S_, .i32⟩
  | 9 => ⟨S256, .i32⟩
  | 10 => ⟨S256, .i1⟩
  | 11 => ⟨S_, .f32⟩
  | 12 => ⟨S_, .f32⟩
  | 13 => ⟨S256, .f32⟩
  | 14 => ⟨S256, .f32⟩
  | 15 => ⟨S_, .f32⟩
  | 16 => ⟨S_, .f32⟩
  | 17 => ⟨S256, .i32⟩
  | 18 => ⟨S_, .i32⟩
  | 19 => ⟨S_, .i32⟩
  | _ => ⟨S256x2048x8x8, .f32⟩

abbrev hbmTy (i : Nat) : BufTy := match i / 128 with
  | 0 => hbmTy0_0 i
  | 1 => hbmTy0_1 i
  | _ => ⟨S256x2048x8x8, .f32⟩

abbrev bufTy : (tb : Table) → Fin (tcTables nBuf tb) → BufTy
  | .hbm, ⟨i, _⟩ => hbmTy i
  | _, _ => ⟨S256x2048x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_cst_3 : Ref sig .tc := ⟨.hbm, 43, rfl⟩
abbrev main_call0_v12 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_cst_3 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_call1_cst : Ref sig .tc := ⟨.hbm, 65, rfl⟩
abbrev main_call1_v0 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_call2_v0 : Ref sig .tc := ⟨.hbm, 73, rfl⟩
abbrev main_call2_cst : Ref sig .tc := ⟨.hbm, 74, rfl⟩
abbrev main_call2_v1 : Ref sig .tc := ⟨.hbm, 75, rfl⟩
abbrev main_call2_v2 : Ref sig .tc := ⟨.hbm, 76, rfl⟩
abbrev main_v34 : Ref sig .tc := ⟨.hbm, 77, rfl⟩
abbrev main_cst_4 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_cst_5 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_c_6 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_c_7 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_c_8 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_9 : Ref sig .tc := ⟨.hbm, 112, rfl⟩
abbrev main_v64 : Ref sig .tc := ⟨.hbm, 113, rfl⟩
abbrev main_v65 : Ref sig .tc := ⟨.hbm, 114, rfl⟩
abbrev main_cst_10 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_c_11 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_12 : Ref sig .tc := ⟨.hbm, 129, rfl⟩
abbrev main_v78 : Ref sig .tc := ⟨.hbm, 130, rfl⟩
abbrev main_c_13 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_c_14 : Ref sig .tc := ⟨.hbm, 136, rfl⟩
abbrev main_v83 : Ref sig .tc := ⟨.hbm, 137, rfl⟩
abbrev main_v84 : Ref sig .tc := ⟨.hbm, 138, rfl⟩
abbrev main_cst_15 : Ref sig .tc := ⟨.hbm, 139, rfl⟩
abbrev main_call3_v0 : Ref sig .tc := ⟨.hbm, 140, rfl⟩
abbrev main_call3_v1 : Ref sig .tc := ⟨.hbm, 141, rfl⟩
abbrev main_v85 : Ref sig .tc := ⟨.hbm, 142, rfl⟩
abbrev main_cst_16 : Ref sig .tc := ⟨.hbm, 143, rfl⟩
abbrev main_v86 : Ref sig .tc := ⟨.hbm, 144, rfl⟩
abbrev main_v87 : Ref sig .tc := ⟨.hbm, 145, rfl⟩
abbrev main_c_17 : Ref sig .tc := ⟨.hbm, 146, rfl⟩
abbrev main_v88 : Ref sig .tc := ⟨.hbm, 147, rfl⟩

abbrev nD : Nat := 1
abbrev τ : Topo := Topo.v7x

variable {F : FTy → Type} [FloatOps F]

class Facts₀ : Prop where
  concatenates_S256x2048x8x8_S256x2048x8x8_S512x2048x8x8_d0 : Shape.Concatenates [S256x2048x8x8, S256x2048x8x8] S512x2048x8x8 0
  reducesTo_S512x2048x8x8_S512x2048_d2_3 : S512x2048x8x8.ReducesTo [2, 3] S512x2048
  h_S_ : 0 < S_.numel
  bcast_S_S512x2048 : S_.BroadcastsInDim S512x2048 (![] : Fin 0 → Fin S512x2048.rank)
  transposes_S2048x2048_S2048x2048_1_0 : S2048x2048.Transposes [1, 0] S2048x2048
  bcast_S2048_S1x2048_1 : S2048.BroadcastsInDim S1x2048 (![1] : Fin 1 → Fin S1x2048.rank)
  bcast_S1x2048_S512x2048_0_1 : S1x2048.BroadcastsInDim S512x2048 (![0, 1] : Fin 2 → Fin S512x2048.rank)
  reducesTo_S512x2048_S2048_d0 : S512x2048.ReducesTo [0] S2048
  bcast_S_S2048 : S_.BroadcastsInDim S2048 (![] : Fin 0 → Fin S2048.rank)
  bcast_S_S1x2048 : S_.BroadcastsInDim S1x2048 (![] : Fin 0 → Fin S1x2048.rank)
  reducesTo_S512x2048_S512_d1 : S512x2048.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x2048_0_1 : S512x1.BroadcastsInDim S512x2048 (![0, 1] : Fin 2 → Fin S512x2048.rank)
  transposes_S512x2048_S2048x512_1_0 : S512x2048.Transposes [1, 0] S2048x512
  bcast_S_S512x512 : S_.BroadcastsInDim S512x512 (![] : Fin 0 → Fin S512x512.rank)
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  slices_S512x512_S256x256_0_0 : S512x512.Slices ![0, 0] S256x256
  reducesTo_S256x256_S256_d1 : S256x256.ReducesTo [1] S256
  slices_S512x512_S256x256_0_256 : S512x512.Slices ![0, 256] S256x256
  natLt_1_32 : 1 < 32
  bcast_S_S256 : S_.BroadcastsInDim S256 (![] : Fin 0 → Fin S256.rank)
  reducesTo_S256_S_d0 : S256.ReducesTo [0] S_
  dot_S512x2048_S2048x2048_S512x2048_1_0_0_1_n_n_wf : DotDims.WF S512x2048 S2048x2048 S512x2048 [1] [0] [0] [1] [] []
  dot_S512x2048_S2048x512_S512x512_1_0_0_1_n_n_wf : DotDims.WF S512x2048 S2048x512 S512x512 [1] [0] [0] [1] [] []

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

class Facts : Prop extends Facts₀ where

variable [Facts]
-- ==== Proof.WholeRunKernel.lean ====
/-
  @main of the four-call program run to its end, GIVEN one segment record per kernel call: every weakly fair execution
  terminates, nothing faults, and in every final state each unscoped TensorCore buffer holds what the last boundary's
  valuation says — the launch contents pushed through each stretch of host operations and updated, at each call's result
  array, by what that call leaves. Both the frame (an argument array is written by no stretch and no call) and the value
  (the two results are buffers of the last stretch) are read off this one run.
-/
import proofs.«154134_j25494925869443_2_alg».proof.Proof.RegionsPatchedKernel

set_option maxRecDepth 1120

noncomputable section

namespace Cert.Kernel.Whole

open Cert.Kernel Cert.Kernel.Gen Cert.Kernel.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the library's launch theorem finds its implicit arguments by unifying its conclusion with this one, which takes
-- unfolding plain definitions in a metavariable's type
set_option backward.isDefEq.respectTransparency.types false in
/-- The run of @main from the four calls' records, each entered from the thread state before it and left at the one
    after it: the final memory agrees with the last valuation on every unscoped TensorCore buffer. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c)) :
    θ_run defs (onTc (τ := τ) (main (F := F))) ⟨m, fun _ => 0, ρ⟩ (fun r => ∀ c : Dev nD,
      ∀ b ∈ Pipeline.ucRefs τ sig, r.2.mem ((c : Thread nD τ).1, b) = V13 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          Prog.lift (.customCall (Pipeline.entry 3) ()),
          StableHlo.seq hostOps4,
          StableHlo.seq hostOps4_1,
          StableHlo.seq hostOps4_2,
          StableHlo.seq hostOps4_3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, hpre0 c, hpost0 c, hpre1 c, hpost1 c, hpre2 c, hpost2 c, .rfl, hpre3 c, hpost3 c, .rfl, .rfl, .rfl, sep_mono .rfl (hE4 c)⟩)
    (hinit := ?_)
    (QY := fun c s => ∀ b ∈ Pipeline.ucRefs τ sig, s.mem ((c : Thread nD τ).1, b) = V13 m outs c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact h
    · iexact HSI

end Cert.Kernel.Whole

end
-- ==== Proof.PoolCall0Kernel.lean ====
/-
  The first pooling call (pipeline 0 of @main). Its input is a [256, 2048, 64] array cut into 2 × 8 blocks of
  [128, 256, 64]; at each grid point the body sums its block along the last axis (64 entries), scales the sums by 2⁻⁶ and
  stores them as one [128, 256] block of the [256, 2048] result, so the result is the mean over the last axis.
  Here: what a point leaves in the result's staging buffer as a function of the input block (`pooled`), the body run on
  whole staging buffers, the proof data of the call entered from any buffer contents `V`, and the body obligation.
-/
import proofs.«154134_j25494925869443_2_alg».proof.Proof.LaunchPatchedKernel
import proofs.«154134_j25494925869443_2_alg».proof.Proof.Gen.Kernel.Points
import proofs.«154134_j25494925869443_2_alg».proof.Proof.Gen.Kernel.Skeleton
import Idealize.ShloMosaic.Lib.Pipeline.Frame
import Idealize.ShloMosaic.Lib.Pipeline.FrameBody
import Idealize.ShloMosaic.Lib.Tactic

set_option maxRecDepth 16384

noncomputable section

namespace Cert.Kernel.Pool0

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-- The block of window `w` at grid point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the point's block whenever the body runs: every point fetches it, the blocks tile
    the array (nothing is cut), and the body leaves the buffer as it found it. -/
theorem staged_in {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The two rectangles the body touches: the whole input block and the whole output block. -/
abbrev inBox : Rect S128x256x64 := Rect.unit (s := S128x256x64) ![0, 0, 0] S128x256x64.size inb_S128x256x64_S128x256x64_0_0_0
abbrev outBox : Rect S128x256 := Rect.unit (s := S128x256) ![0, 0] S128x256.size inb_S128x256_S128x256_0_0

/-- What a point leaves in the result's staging buffer, from the input block `x`: one store of the whole block, its
    value the scaled sums along the last axis of what the body loaded. -/
def pooled (x : Vec F S128x256x64 .f32) : Vec F S128x256 .f32 :=
  View.canon [⟨outBox, k0_pay1 (View.ld x inBox)⟩]

/-- That one store covers the buffer. -/
theorem pooled_cover (p : Vec F S128x256 .f32) (y : S128x256.Idx) :
    ∃ pc ∈ ([⟨outBox, p⟩] : List (View.Piece (Elt F) S128x256 .f32)), y ∈ pc.1.set :=
  View.cover_of_tiled [⟨outBox, p⟩] S128x256.size (by rfl) y

set_option maxHeartbeats 1000000 in
/-- The body on whole staging buffers, the input's at contents `x` and the result's at anything: it runs to its return
    with the input's buffer as it was and the result's at `pooled x`. -/
theorem body_runs (c : Dev nD) (E : Set ℕ) (i : grid0.Coords) (a : Memref sig .tc .vmem S128x256x64 .f32) (ha : a.IsWhole)
    (b : Memref sig .tc .vmem S128x256 .f32) (hb : b.IsWhole) (x : Vec F S128x256x64 .f32) (K : PUnit → sProp 𝕄) :
    iprop(owns (c : Thread nD τ) a fullShare x ∗ (∃ d, owns (c : Thread nD τ) b fullShare d)
        ∗ (iprop(owns (c : Thread nD τ) a fullShare x ∗ owns (c : Thread nD τ) b fullShare (pooled x)) -∗ K ⟨⟩))
      ⊢ wp frame (wpE (defs₀ (F := F)) Variants.none c none) E (cc0__pool_mean_kernel i a ha b hb) K := by
  simp only [cc0__pool_mean_kernel_eq_skeleton]; unfold cc0__pool_mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (pooled_cover _)

/-- The proof data of the call on core `c`: the arrays as found; after the body at point `t` the input's buffer at its
    block and the result's at `pooled` of that block; the invariant the scoped buffers no window stages and the generator
    register, untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => pooled (blockAt V c 0 t)
  Φ _ := Pipeline.ΦA spec0 c
  q _ := fullShare
  owed _ := 0

theorem dat_A (c : Dev nD) (w : Fin cfg0.W) : (dat V c).A w = V c (Pipeline.arrRef spec0 w) := by
  dsimp only [dat]
theorem dat_after_in (c : Dev nD) (t : Fin cfg0.N) : (dat V c).after 0 t = blockAt V c 0 t := by dsimp only [dat]
theorem dat_after_out (c : Dev nD) (t : Fin cfg0.N) : (dat V c).after 1 t = pooled (blockAt V c 0 t) := by dsimp only [dat]

theorem dat_before_in (c : Dev nD) (t : Fin cfg0.N) (d) : (dat V c).before 0 t d = blockAt V c 0 t :=
  staged_in V (dat V c) (dat_A V c 0) (dat_after_in V c) t d

/-- What the body is called with at point `t`, and what it returns. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

/-- The body at any point: the input's buffer holds its block, so `body_runs` applies; the invariant and what the core
    owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [dat_before_in]
  rw [show (dat V c).Φ t.succ = (dat V c).Φ t.castSucc from rfl,
    show (dat V c).owesAt () t.succ = (dat V c).owesAt () t.castSucc from rfl,
    dat_after_in, dat_after_out]
  iintro ⟨HΦ, Ho, ⟨%d0, H0⟩, ⟨%d1, H1⟩⟩
  iapply (body_runs c Set.univ _ _ _ _ _ (blockAt V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the call, at every point. -/
theorem body_obligation (c : Dev nD) : BodyObligation (dat (F := F) V c) (defs₀ (F := F)) Variants.none () Set.univ := fun t => by
  rw [bigSep_W0, bigSep_W0]
  exact body_at V c t

end Cert.Kernel.Pool0

end
-- ==== Proof.PoolCall1Kernel.lean ====
/-
  The second pooling call (pipeline 1 of @main). Its input is a [256, 2048, 64] array cut into 2 × 8 blocks of
  [128, 256, 64]; at each grid point the body sums its block along the last axis (64 entries), scales the sums by 2⁻⁶ and
  stores them as one [128, 256] block of the [256, 2048] result, so the result is the mean over the last axis.
  Here: what a point leaves in the result's staging buffer as a function of the input block (`pooled`), the body run on
  whole staging buffers, the proof data of the call entered from any buffer contents `V`, and the body obligation.
-/
import proofs.«154134_j25494925869443_2_alg».proof.Proof.LaunchPatchedKernel
import proofs.«154134_j25494925869443_2_alg».proof.Proof.Gen.Kernel.Points
import proofs.«154134_j25494925869443_2_alg».proof.Proof.Gen.Kernel.Skeleton
import Idealize.ShloMosaic.Lib.Pipeline.Frame
import Idealize.ShloMosaic.Lib.Pipeline.FrameBody
import Idealize.ShloMosaic.Lib.Tactic

set_option maxRecDepth 16384

noncomputable section

namespace Cert.Kernel.Pool1

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-- The block of window `w` at grid point `t`, read off its array as the call finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer holds the point's block whenever the body runs: every point fetches it, the blocks tile
    the array (nothing is cut), and the body leaves the buffer as it found it. -/
theorem staged_in {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The two rectangles the body touches: the whole input block and the whole output block. -/
abbrev inBox : Rect S128x256x64 := Rect.unit (s := S128x256x64) ![0, 0, 0] S128x256x64.size inb_S128x256x64_S128x256x64_0_0_0
abbrev outBox : Rect S128x256 := Rect.unit (s := S128x256) ![0, 0] S128x256.size inb_S128x256_S128x256_0_0

/-- What a point leaves in the result's staging buffer, from the input block `x`: one store of the whole block, its
    value the scaled sums along the last axis of what the body loaded. -/
def pooled (x : Vec F S128x256x64 .f32) : Vec F S128x256 .f32 :=
  View.canon [⟨outBox, k1_pay1 (View.ld x inBox)⟩]

/-- That one store covers the buffer. -/
theorem pooled_cover (p : Vec F S128x256 .f32) (y : S128x256.Idx) :
    ∃ pc ∈ ([⟨outBox, p⟩] : List (View.Piece (Elt F) S128x256 .f32)), y ∈ pc.1.set :=
  View.cover_of_tiled [⟨outBox, p⟩] S128x256.size (by rfl) y

set_option maxHeartbeats 1000000 in
/-- The body on whole staging buffers, the input's at contents `x` and the result's at anything: it runs to its return
    with the input's buffer as it was and the result's at `pooled x`. -/
theorem body_runs (c : Dev nD) (E : Set ℕ) (i : grid1.Coords) (a : Memref sig .tc .vmem S128x256x64 .f32) (ha : a.IsWhole)
    (b : Memref sig .tc .vmem S128x256 .f32) (hb : b.IsWhole) (x : Vec F S128x256x64 .f32) (K : PUnit → sProp 𝕄) :
    iprop(owns (c : Thread nD τ) a fullShare x ∗ (∃ d, owns (c : Thread nD τ) b fullShare d)
        ∗ (iprop(owns (c : Thread nD τ) a fullShare x ∗ owns (c : Thread nD τ) b fullShare (pooled x)) -∗ K ⟨⟩))
      ⊢ wp frame (wpE (defs₀ (F := F)) Variants.none c none) E (cc1__pool_mean_kernel i a ha b hb) K := by
  simp only [cc1__pool_mean_kernel_eq_skeleton]; unfold cc1__pool_mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (pooled_cover _)

/-- The proof data of the call on core `c`: the arrays as found; after the body at point `t` the input's buffer at its
    block and the result's at `pooled` of that block; the invariant the scoped buffers no window stages and the generator
    register, untouched; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => pooled (blockAt V c 0 t)
  Φ _ := Pipeline.ΦA spec1 c
  q _ := fullShare
  owed _ := 0

theorem dat_A (c : Dev nD) (w : Fin cfg1.W) : (dat V c).A w = V c (Pipeline.arrRef spec1 w) := by
  dsimp only [dat]
theorem dat_after_in (c : Dev nD) (t : Fin cfg1.N) : (dat V c).after 0 t = blockAt V c 0 t := by dsimp only [dat]
theorem dat_after_out (c : Dev nD) (t : Fin cfg1.N) : (dat V c).after 1 t = pooled (blockAt V c 0 t) := by dsimp only [dat]

theorem dat_before_in (c : Dev nD) (t : Fin cfg1.N) (d) : (dat V c).before 0 t d = blockAt V c 0 t :=
  staged_in V (dat V c) (dat_A V c 0) (dat_after_in V c) t d

/-- What the body is called with at point `t`, and what it returns. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d)))
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t))

/-- The body at any point: the input's buffer holds its block, so `body_runs` applies; the invariant and what the core
    owes pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [dat_before_in]
  rw [show (dat V c).Φ t.succ = (dat V c).Φ t.castSucc from rfl,
    show (dat V c).owesAt () t.succ = (dat V c).owesAt () t.castSucc from rfl,
    dat_after_in, dat_after_out]
  iintro ⟨HΦ, Ho, ⟨%d0, H0⟩, ⟨%d1, H1⟩⟩
  iapply (body_runs c Set.univ _ _ _ _ _ (blockAt V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the call, at every point. -/
theorem body_obligation (c : Dev nD) : BodyObligation (dat (F := F) V c) (defs₀ (F := F)) Variants.none () Set.univ := fun t => by
  rw [bigSep_W1, bigSep_W1]
  exact body_at V c t

end Cert.Kernel.Pool1

end
-- ==== Proof.MatmulCall2Kernel.lean ====
/-
  The matmul-with-bias call (pipeline 2 of @main). The left operand [512, 2048] is cut along its columns into 4 blocks
  of [512, 512], the right operand [2048, 2048] along its rows into 4 blocks of [512, 2048]; the grid has one axis
  k = 0..3. An accumulator buffer [512, 2048] that no window stages is carried from point to point: the first point
  fills it with zeros, every point adds the product of its two blocks to it, and the last point adds the bias, spread
  over the rows, to the accumulated sum and stores that as the one [512, 2048] block of the result.
  Here: the three ways the body runs (first, middle, last point), what each leaves in the accumulator and in the result's
  staging buffer, the invariant that carries the accumulator's contents from a point to the next, the proof data of
  the call entered from any buffer contents `V`, and the body obligation.
-/
import proofs.«154134_j25494925869443_2_alg».proof.Proof.LaunchPatchedKernel
import proofs.«154134_j25494925869443_2_alg».proof.Proof.Gen.Kernel.Points
import proofs.«154134_j25494925869443_2_alg».proof.Proof.Gen.Kernel.Skeleton
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Kernel.Call2

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The blocks the windows stage -/

/-- The block of window `w` at grid point `t`, read off its array as the call finds it. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds the point's block whenever the body runs, fetched at that point or not (an unfetched
    point has the block index of the point before, whose block the body left in place): the left operand's, -/
theorem staged_lhs {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- the right operand's, -/
theorem staged_rhs {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- and the bias's, which only the first point fetches. -/
theorem staged_bias {c : Dev nD} (dat : Dat τ (Elt F) Unit ℕ (UR sig nD τ) ℕ cfg2 c) (hA : dat.A 2 = V c (Pipeline.arrRef spec2 2))
    (hafter : ∀ t, dat.after 2 t = blockAt V c 2 t) (t : Fin cfg2.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body's two conditions, over the grid -/

/-- The condition under which the body zeroes the accumulator, from the grid coordinate. -/
abbrev atFirst (i : grid2.Coords) : Prop := (Scalar.cmpi .ne (Scalar.extui (Scalar.cmpi .eq (BitVec.ofNat 32 (i 0).val) 0#32)) 0#32) = 1#1
/-- It holds at point 0 only. -/
theorem atFirst_iff : ∀ t : Fin cfg2.N, atFirst (grid2.coords t) ↔ t.val = 0 :=
  (by decide +kernel : ∀ t : Fin grid2.N, atFirst (grid2.coords t) ↔ t.val = 0)

/-- The condition under which the body stores the result. -/
abbrev atLast (i : grid2.Coords) : Prop := k2_cond2 i = 1#1
/-- It holds at point 3 only. -/
theorem atLast_iff : ∀ t : Fin cfg2.N, atLast (grid2.coords t) ↔ t.val = 3 :=
  (by decide +kernel : ∀ t : Fin grid2.N, atLast (grid2.coords t) ↔ t.val = 3)

/-- The inputs are never idle; the result's window is idle, and not written back, exactly where the body does not
    store it. -/
theorem live_lhs : ∀ t : Fin cfg2.N, cfg2.idle 0 (grid2.coords t) = false := by decide +kernel
theorem live_rhs : ∀ t : Fin cfg2.N, cfg2.idle 1 (grid2.coords t) = false := by decide +kernel
theorem live_bias : ∀ t : Fin cfg2.N, cfg2.idle 2 (grid2.coords t) = false := by decide +kernel
theorem idle_out : ∀ t : Fin cfg2.N, ¬atLast (grid2.coords t) → cfg2.idle 3 (grid2.coords t) = true := by decide +kernel
theorem noFlush_out : ∀ t : Fin cfg2.N, ¬atLast (grid2.coords t) → (cfg2.win 3).flush t = false := by decide +kernel
theorem live_out : ∀ t : Fin cfg2.N, atLast (grid2.coords t) → cfg2.idle 3 (grid2.coords t) = false := by decide +kernel

/-! ## The accumulator buffer and the rest of the invariant -/

/-- The accumulator: a whole buffer of the kernel's own, passed to the body beside the windows. -/
abbrev acc : Memref sig .tc .vmem S512x2048 .f32 := Memref.whole cc2_scratch0

/-- The accumulator at some contents. -/
abbrev accAny (c : Dev nD) : sProp 𝕄 := iprop(∃ d, owns (c : Thread nD τ) acc fullShare d)

/-- What the class's invariant holds beside the accumulator: whatever gives the invariant back once the accumulator
    returns at some contents. -/
def accRest (c : Dev nD) : sProp 𝕄 := iprop(accAny (F := F) c -∗ Pipeline.ΦA spec2 c)

/-- The invariant is the accumulator at some contents and the rest: the accumulator is one of the scoped buffers no
    window stages. -/
theorem PhiA_split (c : Dev nD) : (Pipeline.ΦA spec2 c : sProp 𝕄) ⊢ iprop(accAny (F := F) c ∗ accRest (F := F) c) := by
  unfold accRest accAny Pipeline.ΦA; rw [scopedRest2_eq]; simp only [acc, owns_whole]
  iintro ⟨⟨B0, B1, B2, B3, B4, B5, B6, B7, S, B9, B10, B11, B12, B13, B14, B15, B16, B17, B18, B19, B20, B21, B22, B23⟩, Hg⟩
  isplitl [S]; · iexact S
  iintro S
  iframe

theorem PhiA_join (c : Dev nD) : iprop(accAny (F := F) c ∗ accRest (F := F) c) ⊢ (Pipeline.ΦA spec2 c : sProp 𝕄) := by
  unfold accRest
  iintro ⟨S, Hw⟩
  iapply Hw
  iexact S

/-! ## The body on whole buffers, in its three cases -/

set_option maxHeartbeats 1000000 in
/-- THE FIRST POINT. On whole buffers — the operands' at their blocks `x0`, `x1`, the bias's and the result's at any
    contents, handed back untouched, the accumulator at anything — the body runs to its return with the accumulator
    written by the pieces `LS` (last store first: the accumulated product over the zero fill). The pieces are what the
    run of the skeleton finds. -/
noncomputable def runFirst (c : Dev nD) (i : grid2.Coords)
    (a : Memref sig .tc .vmem S512x512 .f32) (ha : a.IsWhole) (b : Memref sig .tc .vmem S512x2048 .f32) (hb : b.IsWhole)
    (bi : Memref sig .tc .vmem S2048 .f32) (hbi : bi.IsWhole) (o : Memref sig .tc .vmem S512x2048 .f32) (ho : o.IsWhole)
    (s : Memref sig .tc .vmem S512x2048 .f32) (hs : s.IsWhole) (h0 : atFirst i) (h1 : ¬atLast i)
    (x0 : Vec F S512x512 .f32) (x1 : Vec F S512x2048 .f32) :
    { LS : List (View.Piece (Elt F) S512x2048 .f32) //
      ∀ (x2 : Vec F S2048 .f32) (xo : Vec F S512x2048 .f32) (E : Set ℕ) (K : PUnit → sProp 𝕄),
        iprop(owns (c : Thread nD τ) a fullShare x0 ∗ owns (c : Thread nD τ) b fullShare x1 ∗ owns (c : Thread nD τ) bi fullShare x2
            ∗ owns (c : Thread nD τ) o fullShare xo ∗ (∃ d, owns (c : Thread nD τ) s fullShare d)
            ∗ (iprop(owns (c : Thread nD τ) a fullShare x0 ∗ owns (c : Thread nD τ) b fullShare x1 ∗ owns (c : Thread nD τ) bi fullShare x2
                ∗ owns (c : Thread nD τ) o fullShare xo
                ∗ (∃ f, s.view.loc (c : Thread nD τ) ↦[s.view.set]{fullShare} s.view.writes (Elt F) f LS)) -∗ K ⟨⟩))
          ⊢ wp frame (wpE (defs₀ (F := F)) Variants.none c none) E (cc2__matmul_bias_kernel i a ha b hb bi hbi o ho s hs) K } := by
  refine ⟨?_, fun x2 xo E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := ha.eq_unread hf0; obtain rfl := hb.eq_unread hf1; obtain rfl := hbi.eq_unread hf2; obtain rfl := ho.eq_unread hf3
    sl_exec (disch := first | exact h0 | exact h1)
    sl_step
    iapply Hk
    isplitl [H0]
    · iexists _; isplitr; · ipureintro; exact ha.read_unread _
      iexact H0
    isplitl [H1]
    · iexists _; isplitr; · ipureintro; exact hb.read_unread _
      iexact H1
    isplitl [H2]
    · iexists _; isplitr; · ipureintro; exact hbi.read_unread _
      iexact H2
    isplitl [H3]
    · iexists _; isplitr; · ipureintro; exact ho.read_unread _
      iexact H3
    iexists _; iexact HS

set_option maxHeartbeats 1000000 in
/-- A MIDDLE POINT. The same with the accumulator at the contents `xs` the point before left: the pieces are the one
    store of the accumulated product over `xs`. -/
noncomputable def runMiddle (c : Dev nD) (i : grid2.Coords)
    (a : Memref sig .tc .vmem S512x512 .f32) (ha : a.IsWhole) (b : Memref sig .tc .vmem S512x2048 .f32) (hb : b.IsWhole)
    (bi : Memref sig .tc .vmem S2048 .f32) (hbi : bi.IsWhole) (o : Memref sig .tc .vmem S512x2048 .f32) (ho : o.IsWhole)
    (s : Memref sig .tc .vmem S512x2048 .f32) (hs : s.IsWhole) (h0 : ¬atFirst i) (h1 : ¬atLast i)
    (x0 : Vec F S512x512 .f32) (x1 : Vec F S512x2048 .f32) (xs : Vec F S512x2048 .f32) :
    { LS : List (View.Piece (Elt F) S512x2048 .f32) //
      ∀ (x2 : Vec F S2048 .f32) (xo : Vec F S512x2048 .f32) (E : Set ℕ) (K : PUnit → sProp 𝕄),
        iprop(owns (c : Thread nD τ) a fullShare x0 ∗ owns (c : Thread nD τ) b fullShare x1 ∗ owns (c : Thread nD τ) bi fullShare x2
            ∗ owns (c : Thread nD τ) o fullShare xo ∗ owns (c : Thread nD τ) s fullShare xs
            ∗ (iprop(owns (c : Thread nD τ) a fullShare x0 ∗ owns (c : Thread nD τ) b fullShare x1 ∗ owns (c : Thread nD τ) bi fullShare x2
                ∗ owns (c : Thread nD τ) o fullShare xo
                ∗ (∃ f, s.view.loc (c : Thread nD τ) ↦[s.view.set]{fullShare} s.view.writes (Elt F) f LS)) -∗ K ⟨⟩))
          ⊢ wp frame (wpE (defs₀ (F := F)) Variants.none c none) E (cc2__matmul_bias_kernel i a ha b hb bi hbi o ho s hs) K } := by
  refine ⟨?_, fun x2 xo E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := ha.eq_unread hf0; obtain rfl := hb.eq_unread hf1; obtain rfl := hbi.eq_unread hf2; obtain rfl := ho.eq_unread hf3
    obtain rfl := hs.eq_unread hfs
    sl_exec (disch := first | exact h0 | exact h1)
    sl_step
    iapply Hk
    isplitl [H0]
    · iexists _; isplitr; · ipureintro; exact ha.read_unread _
      iexact H0
    isplitl [H1]
    · iexists _; isplitr; · ipureintro; exact hb.read_unread _
      iexact H1
    isplitl [H2]
    · iexists _; isplitr; · ipureintro; exact hbi.read_unread _
      iexact H2
    isplitl [H3]
    · iexists _; isplitr; · ipureintro; exact ho.read_unread _
      iexact H3
    iexists _; iexact HS

set_option maxHeartbeats 1000000 in
/-- THE LAST POINT. The bias's buffer at its block `x2`, the result's at anything, the accumulator at `xs`: the
    accumulator is written as at a middle point, and the result's buffer by the pieces `LO` (the one store of the
    accumulated sum plus the bias). -/
noncomputable def runLast (c : Dev nD) (i : grid2.Coords)
    (a : Memref sig .tc .vmem S512x512 .f32) (ha : a.IsWhole) (b : Memref sig .tc .vmem S512x2048 .f32) (hb : b.IsWhole)
    (bi : Memref sig .tc .vmem S2048 .f32) (hbi : bi.IsWhole) (o : Memref sig .tc .vmem S512x2048 .f32) (ho : o.IsWhole)
    (s : Memref sig .tc .vmem S512x2048 .f32) (hs : s.IsWhole) (h0 : ¬atFirst i) (h1 : atLast i)
    (x0 : Vec F S512x512 .f32) (x1 : Vec F S512x2048 .f32) (x2 : Vec F S2048 .f32) (xs : Vec F S512x2048 .f32) :
    Σ' (LO : List (View.Piece (Elt F) S512x2048 .f32)), { LS : List (View.Piece (Elt F) S512x2048 .f32) //
      ∀ (E : Set ℕ) (K : PUnit → sProp 𝕄),
        iprop(owns (c : Thread nD τ) a fullShare x0 ∗ owns (c : Thread nD τ) b fullShare x1 ∗ owns (c : Thread nD τ) bi fullShare x2
            ∗ (∃ d, owns (c : Thread nD τ) o fullShare d) ∗ owns (c : Thread nD τ) s fullShare xs
            ∗ (iprop(owns (c : Thread nD τ) a fullShare x0 ∗ owns (c : Thread nD τ) b fullShare x1 ∗ owns (c : Thread nD τ) bi fullShare x2
                ∗ (∃ f, o.view.loc (c : Thread nD τ) ↦[o.view.set]{fullShare} o.view.writes (Elt F) f LO)
                ∗ (∃ f, s.view.loc (c : Thread nD τ) ↦[s.view.set]{fullShare} s.view.writes (Elt F) f LS)) -∗ K ⟨⟩))
          ⊢ wp frame (wpE (defs₀ (F := F)) Variants.none c none) E (cc2__matmul_bias_kernel i a ha b hb bi hbi o ho s hs) K } := by
  refine ⟨?_, ?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := ha.eq_unread hf0; obtain rfl := hb.eq_unread hf1; obtain rfl := hbi.eq_unread hf2
    obtain rfl := hs.eq_unread hfs
    sl_exec (disch := first | exact h0 | exact h1)
    sl_step
    iapply Hk
    isplitl [H0]
    · iexists _; isplitr; · ipureintro; exact ha.read_unread _
      iexact H0
    isplitl [H1]
    · iexists _; isplitr; · ipureintro; exact hb.read_unread _
      iexact H1
    isplitl [H2]
    · iexists _; isplitr; · ipureintro; exact hbi.read_unread _
      iexact H2
    isplitl [H3]; · iexists _; iexact H3
    iexists _; iexact HS

/-! ## What each case leaves -/

/-- A view of the accumulator's shape through which the contents the stores leave are stated (they depend on neither
    the view nor what the buffer held before: the stores cover it). -/
abbrev accView : View sig .tc .vmem S512x2048 .f32 := (acc : Memref sig .tc .vmem S512x2048 .f32).view

/-- The staging memrefs the pipeline passes the body at point `t`, and their wholeness. -/
abbrev mLhs (t : Fin cfg2.N) : Memref sig .tc .vmem S512x512 .f32 := win2_0.stage (cfg2.slots t 0)
abbrev hLhs (t : Fin cfg2.N) : (mLhs t).IsWhole := hstage2_0 ((cfg2.slots t 0).cast nbuf2_0)
abbrev mRhs (t : Fin cfg2.N) : Memref sig .tc .vmem S512x2048 .f32 := win2_1.stage (cfg2.slots t 1)
abbrev hRhs (t : Fin cfg2.N) : (mRhs t).IsWhole := hstage2_1 ((cfg2.slots t 1).cast nbuf2_1)
abbrev mBias (t : Fin cfg2.N) : Memref sig .tc .vmem S2048 .f32 := win2_2.stage (cfg2.slots t 2)
abbrev hBias (t : Fin cfg2.N) : (mBias t).IsWhole := hstage2_2 ((cfg2.slots t 2).cast nbuf2_2)
abbrev mOut (t : Fin cfg2.N) : Memref sig .tc .vmem S512x2048 .f32 := win2_3.stage (cfg2.slots t 3)
abbrev hOut (t : Fin cfg2.N) : (mOut t).IsWhole := hstage2_3 ((cfg2.slots t 3).cast nbuf2_3)

/-- The first point's stores cover the accumulator. -/
theorem cover_first (c : Dev nD) (t : Fin cfg2.N) (h0 : atFirst (grid2.coords t)) (h1 : ¬atLast (grid2.coords t))
    (x0 : Vec F S512x512 .f32) (x1 : Vec F S512x2048 .f32) (y : S512x2048.Idx) :
    ∃ pc ∈ (runFirst c (grid2.coords t) (mLhs t) (hLhs t) (mRhs t) (hRhs t) (mBias t) (hBias t) (mOut t) (hOut t) acc (Memref.isWhole_whole _) h0 h1 x0 x1).1, y ∈ pc.1.set :=
  View.cover_of_tiledL _ S512x2048.size (by sl_kernel_rfl) y

/-- What the first point leaves in the accumulator: its pieces read back. -/
def accFirst (c : Dev nD) (t : Fin cfg2.N) (h0 : atFirst (grid2.coords t)) (h1 : ¬atLast (grid2.coords t))
    (x0 : Vec F S512x512 .f32) (x1 : Vec F S512x2048 .f32) : Vec F S512x2048 .f32 :=
  accView.read (Elt F) (accView.writes (Elt F) accView.junk
    (runFirst c (grid2.coords t) (mLhs t) (hLhs t) (mRhs t) (hRhs t) (mBias t) (hBias t) (mOut t) (hOut t) acc (Memref.isWhole_whole _) h0 h1 x0 x1).1)

/-- A middle point's store covers the accumulator. -/
theorem cover_middle (c : Dev nD) (t : Fin cfg2.N) (h0 : ¬atFirst (grid2.coords t)) (h1 : ¬atLast (grid2.coords t))
    (x0 : Vec F S512x512 .f32) (x1 : Vec F S512x2048 .f32) (xs : Vec F S512x2048 .f32) (y : S512x2048.Idx) :
    ∃ pc ∈ (runMiddle c (grid2.coords t) (mLhs t) (hLhs t) (mRhs t) (hRhs t) (mBias t) (hBias t) (mOut t) (hOut t) acc (Memref.isWhole_whole _) h0 h1 x0 x1 xs).1, y ∈ pc.1.set :=
  View.cover_of_tiledL _ S512x2048.size (by sl_kernel_rfl) y

/-- What a middle point leaves in the accumulator. -/
def accMiddle (c : Dev nD) (t : Fin cfg2.N) (h0 : ¬atFirst (grid2.coords t)) (h1 : ¬atLast (grid2.coords t))
    (x0 : Vec F S512x512 .f32) (x1 : Vec F S512x2048 .f32) (xs : Vec F S512x2048 .f32) : Vec F S512x2048 .f32 :=
  accView.read (Elt F) (accView.writes (Elt F) accView.junk
    (runMiddle c (grid2.coords t) (mLhs t) (hLhs t) (mRhs t) (hRhs t) (mBias t) (hBias t) (mOut t) (hOut t) acc (Memref.isWhole_whole _) h0 h1 x0 x1 xs).1)

/-- The last point's stores cover the result's buffer and the accumulator. -/
theorem cover_last_out (c : Dev nD) (t : Fin cfg2.N) (h0 : ¬atFirst (grid2.coords t)) (h1 : atLast (grid2.coords t))
    (x0 : Vec F S512x512 .f32) (x1 : Vec F S512x2048 .f32) (x2 : Vec F S2048 .f32) (xs : Vec F S512x2048 .f32) (y : S512x2048.Idx) :
    ∃ pc ∈ (runLast c (grid2.coords t) (mLhs t) (hLhs t) (mRhs t) (hRhs t) (mBias t) (hBias t) (mOut t) (hOut t) acc (Memref.isWhole_whole _) h0 h1 x0 x1 x2 xs).1, y ∈ pc.1.set :=
  View.cover_of_tiledL _ S512x2048.size (by sl_kernel_rfl) y
theorem cover_last_acc (c : Dev nD) (t : Fin cfg2.N) (h0 : ¬atFirst (grid2.coords t)) (h1 : atLast (grid2.coords t))
    (x0 : Vec F S512x512 .f32) (x1 : Vec F S512x2048 .f32) (x2 : Vec F S2048 .f32) (xs : Vec F S512x2048 .f32) (y : S512x2048.Idx) :
    ∃ pc ∈ (runLast c (grid2.coords t) (mLhs t) (hLhs t) (mRhs t) (hRhs t) (mBias t) (hBias t) (mOut t) (hOut t) acc (Memref.isWhole_whole _) h0 h1 x0 x1 x2 xs).2.1, y ∈ pc.1.set :=
  View.cover_of_tiledL _ S512x2048.size (by sl_kernel_rfl) y

/-- What the last point leaves in the result's staging buffer, and in the accumulator. -/
def outLast (c : Dev nD) (t : Fin cfg2.N) (h0 : ¬atFirst (grid2.coords t)) (h1 : atLast (grid2.coords t))
    (x0 : Vec F S512x512 .f32) (x1 : Vec F S512x2048 .f32) (x2 : Vec F S2048 .f32) (xs : Vec F S512x2048 .f32) : Vec F S512x2048 .f32 :=
  accView.read (Elt F) (accView.writes (Elt F) accView.junk
    (runLast c (grid2.coords t) (mLhs t) (hLhs t) (mRhs t) (hRhs t) (mBias t) (hBias t) (mOut t) (hOut t) acc (Memref.isWhole_whole _) h0 h1 x0 x1 x2 xs).1)
def accLast (c : Dev nD) (t : Fin cfg2.N) (h0 : ¬atFirst (grid2.coords t)) (h1 : atLast (grid2.coords t))
    (x0 : Vec F S512x512 .f32) (x1 : Vec F S512x2048 .f32) (x2 : Vec F S2048 .f32) (xs : Vec F S512x2048 .f32) : Vec F S512x2048 .f32 :=
  accView.read (Elt F) (accView.writes (Elt F) accView.junk
    (runLast c (grid2.coords t) (mLhs t) (hLhs t) (mRhs t) (hRhs t) (mBias t) (hBias t) (mOut t) (hOut t) acc (Memref.isWhole_whole _) h0 h1 x0 x1 x2 xs).2.1)

/-! ## Point by point -/

theorem notLast_of_zero (t : Fin cfg2.N) (hz : t.val = 0) : ¬atLast (grid2.coords t) :=
  fun h => by have := (atLast_iff t).mp h; omega
theorem notFirst_of_pos (t : Fin cfg2.N) (hz : t.val ≠ 0) : ¬atFirst (grid2.coords t) :=
  fun h => hz ((atFirst_iff t).mp h)
theorem notLast_of_ne (t : Fin cfg2.N) (h3 : t.val ≠ 3) : ¬atLast (grid2.coords t) :=
  fun h => h3 ((atLast_iff t).mp h)

/-- THE ACCUMULATION. What the accumulator holds after the body at position `n`: the case of the point, run on the point's
    blocks, from what the point before left. -/
def accAt (c : Dev nD) : (n : ℕ) → n < cfg2.N → Vec F S512x2048 .f32
  | 0, hn => accFirst c ⟨0, hn⟩ ((atFirst_iff ⟨0, hn⟩).mpr rfl) (notLast_of_zero ⟨0, hn⟩ rfl) (blockAt V c 0 ⟨0, hn⟩) (blockAt V c 1 ⟨0, hn⟩)
  | n + 1, hn =>
    if h3 : n + 1 = 3 then
      accLast c ⟨n + 1, hn⟩ (notFirst_of_pos ⟨n + 1, hn⟩ (Nat.succ_ne_zero n)) ((atLast_iff ⟨n + 1, hn⟩).mpr h3)
        (blockAt V c 0 ⟨n + 1, hn⟩) (blockAt V c 1 ⟨n + 1, hn⟩) (blockAt V c 2 ⟨n + 1, hn⟩) (accAt c n (Nat.lt_of_succ_lt hn))
    else
      accMiddle c ⟨n + 1, hn⟩ (notFirst_of_pos ⟨n + 1, hn⟩ (Nat.succ_ne_zero n)) (notLast_of_ne ⟨n + 1, hn⟩ h3)
        (blockAt V c 0 ⟨n + 1, hn⟩) (blockAt V c 1 ⟨n + 1, hn⟩) (accAt c n (Nat.lt_of_succ_lt hn))

theorem accAt_first (c : Dev nD) (t : Fin cfg2.N) (hz : t.val = 0) :
    accAt V c t.val t.isLt = accFirst c t ((atFirst_iff t).mpr hz) (notLast_of_zero t hz) (blockAt V c 0 t) (blockAt V c 1 t) := by
  obtain ⟨n, hn⟩ := t
  cases n with
  | zero => rfl
  | succ n => exact absurd hz (Nat.succ_ne_zero n)

theorem accAt_middle (c : Dev nD) (t : Fin cfg2.N) (hz : t.val ≠ 0) (h3 : t.val ≠ 3) :
    accAt V c t.val t.isLt = accMiddle c t (notFirst_of_pos t hz) (notLast_of_ne t h3) (blockAt V c 0 t) (blockAt V c 1 t)
      (accAt V c (t.val - 1) (Nat.lt_of_le_of_lt (Nat.sub_le _ _) t.isLt)) := by
  obtain ⟨n, hn⟩ := t
  cases n with
  | zero => exact absurd rfl hz
  | succ n => exact (dif_neg h3).trans rfl

theorem accAt_last (c : Dev nD) (t : Fin cfg2.N) (hz : t.val ≠ 0) (h3 : t.val = 3) :
    accAt V c t.val t.isLt = accLast c t (notFirst_of_pos t hz) ((atLast_iff t).mpr h3) (blockAt V c 0 t) (blockAt V c 1 t) (blockAt V c 2 t)
      (accAt V c (t.val - 1) (Nat.lt_of_le_of_lt (Nat.sub_le _ _) t.isLt)) := by
  obtain ⟨n, hn⟩ := t
  cases n with
  | zero => exact absurd rfl hz
  | succ n => exact (dif_pos h3).trans rfl

/-- What the result's staging buffer holds after the body at point `t`: at the last point what that case stores; elsewhere
    the body stores nothing there and the window is idle (a placeholder nothing consults). -/
def outAt (c : Dev nD) (t : Fin cfg2.N) : Vec F S512x2048 .f32 :=
  if h3 : t.val = 3 then
    outLast c t (notFirst_of_pos t (by omega)) ((atLast_iff t).mpr h3) (blockAt V c 0 t) (blockAt V c 1 t) (blockAt V c 2 t)
      (accAt V c (t.val - 1) (Nat.lt_of_le_of_lt (Nat.sub_le _ _) t.isLt))
  else accView.read (Elt F) accView.junk

theorem outAt_last (c : Dev nD) (t : Fin cfg2.N) (hz : t.val ≠ 0) (h3 : t.val = 3) :
    outAt V c t = outLast c t (notFirst_of_pos t hz) ((atLast_iff t).mpr h3) (blockAt V c 0 t) (blockAt V c 1 t) (blockAt V c 2 t)
      (accAt V c (t.val - 1) (Nat.lt_of_le_of_lt (Nat.sub_le _ _) t.isLt)) := dif_pos h3

/-- The invariant before position `n`: before the first point the class's; afterwards the accumulator at what the point
    before left in it, and the rest. -/
def PhiS (c : Dev nD) : (n : ℕ) → n ≤ cfg2.N → sProp 𝕄
  | 0, _ => Pipeline.ΦA spec2 c
  | n + 1, hn => iprop(owns (c : Thread nD τ) acc fullShare (accAt V c n hn) ∗ accRest (F := F) c)

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(owns (c : Thread nD τ) acc fullShare (accAt V c n hn) ∗ accRest (F := F) c) := rfl

theorem PhiS_pos (c : Dev nD) (n : ℕ) (h : n ≤ cfg2.N) (hz : n ≠ 0) :
    PhiS V c n h = iprop(owns (c : Thread nD τ) acc fullShare (accAt V c (n - 1) (by omega)) ∗ accRest (F := F) c) := by
  cases n with
  | zero => exact absurd rfl hz
  | succ n => rfl

/-! ## The proof data -/

/-- The proof data of the call on core `c`: the arrays as found; after the body at point `t` each input's buffer at its
    block and the result's at `outAt`; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => outAt V c t
  Φ t := PhiS V c t.val (Nat.le_of_lt_succ t.isLt)
  q _ := fullShare
  owed _ := 0

theorem dat_A (c : Dev nD) (w : Fin cfg2.W) : (dat V c).A w = V c (Pipeline.arrRef spec2 w) := by
  dsimp only [dat]

theorem dat_Phi_castSucc (c : Dev nD) (t : Fin cfg2.N) : (dat V c).Φ t.castSucc = PhiS V c t.val (Nat.le_of_lt t.isLt) := by
  dsimp only [dat]; simp only [Fin.coe_castSucc]

theorem dat_after_lhs (c : Dev nD) (t : Fin cfg2.N) : (dat V c).after 0 t = blockAt V c 0 t := by dsimp only [dat]
theorem dat_after_rhs (c : Dev nD) (t : Fin cfg2.N) : (dat V c).after 1 t = blockAt V c 1 t := by dsimp only [dat]
theorem dat_after_bias (c : Dev nD) (t : Fin cfg2.N) : (dat V c).after 2 t = blockAt V c 2 t := by dsimp only [dat]
theorem dat_after_out (c : Dev nD) (t : Fin cfg2.N) : (dat V c).after 3 t = outAt V c t := by dsimp only [dat]

theorem dat_before_lhs (c : Dev nD) (t : Fin cfg2.N) (d) : (dat V c).before 0 t d = blockAt V c 0 t :=
  staged_lhs V (dat V c) (dat_A V c 0) (dat_after_lhs V c) t d
theorem dat_before_rhs (c : Dev nD) (t : Fin cfg2.N) (d) : (dat V c).before 1 t d = blockAt V c 1 t :=
  staged_rhs V (dat V c) (dat_A V c 1) (dat_after_rhs V c) t d
theorem dat_before_bias (c : Dev nD) (t : Fin cfg2.N) (d) : (dat V c).before 2 t d = blockAt V c 2 t :=
  staged_bias V (dat V c) (dat_A V c 2) (dat_after_bias V c) t d

/-! ## The body obligation -/

/-- What the body is called with at point `t`, and what it returns. -/
def bodyPre (c : Dev nD) (t : Fin cfg2.N) : sProp 𝕄 :=
  iprop((dat V c).Φ t.castSucc ∗ (dat V c).owesAt () t.castSucc
    ∗ (∃ d, owns (c : Thread nD τ) (mLhs t) fullShare ((dat V c).before 0 t d))
    ∗ (∃ d, owns (c : Thread nD τ) (mRhs t) fullShare ((dat V c).before 1 t d))
    ∗ (∃ d, owns (c : Thread nD τ) (mBias t) fullShare ((dat V c).before 2 t d))
    ∗ (∃ d, owns (c : Thread nD τ) (mOut t) fullShare ((dat V c).before 3 t d)))
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point. The inputs' buffers hold their blocks; the point is the first, a middle or the last one, and
    that case's run applies: the invariant hands it the accumulator — at anything before the first point, at what the
    point before left afterwards — and takes it back at this point's contents (the case's stores cover it); where the
    body does not store the result, its window is idle and its buffer is handed back as found; the core owes nothing
    throughout. -/
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [dat_before_lhs, dat_before_rhs, dat_before_bias]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg2.N = 4 from N_2)
  rw [show (dat V c).leavesExact 0 t = owns (c : Thread nD τ) (mLhs t) fullShare ((dat V c).after 0 t) from by
      unfold Dat.leavesExact; rw [live_lhs t], dat_after_lhs]
  rw [show (dat V c).leavesExact 1 t = owns (c : Thread nD τ) (mRhs t) fullShare ((dat V c).after 1 t) from by
      unfold Dat.leavesExact; rw [live_rhs t], dat_after_rhs]
  rw [show (dat V c).leavesExact 2 t = owns (c : Thread nD τ) (mBias t) fullShare ((dat V c).after 2 t) from by
      unfold Dat.leavesExact; rw [live_bias t], dat_after_bias]
  by_cases hz : t.val = 0
  · have h0 : atFirst (grid2.coords t) := (atFirst_iff t).mpr hz
    have h1 : ¬atLast (grid2.coords t) := notLast_of_zero t hz
    rw [Dat.leavesExact_idle (dat V c) 3 t (idle_out t h1) (noFlush_out t h1)]
    rw [accAt_first V c t hz]
    unfold accFirst; (try dsimp only)
    rw [dat_Phi_castSucc V c t, PhiS_zero V c _ _ hz]
    iintro ⟨HΦ, Ho, ⟨%d0, H0⟩, ⟨%d1, H1⟩, ⟨%d2, H2⟩, ⟨%d3, H3⟩⟩
    ihave ⟨HS, HR⟩ := (PhiA_split (F := F) c) $$ HΦ
    iapply ((runFirst c (grid2.coords t) _ _ _ _ _ _ _ _ _ _ h0 h1 (blockAt V c 0 t) (blockAt V c 1 t)).2 _ _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS HR]
    · isplitl [HS]
      · unfold owns; iexists _; isplitr
        swap; · iexact HS
        ipureintro; exact View.read_writes_of_cover _ _ _ _ _ (cover_first c t h0 h1 _ _)
      iexact HR
    isplitl [Ho]; · iexact Ho
    isplitl [H0]; · iexact H0
    isplitl [H1]; · iexact H1
    isplitl [H2]; · iexact H2
    iexists _; iexact H3
  · have h0 : ¬atFirst (grid2.coords t) := notFirst_of_pos t hz
    by_cases h3 : t.val = 3
    · have h1 : atLast (grid2.coords t) := (atLast_iff t).mpr h3
      rw [show (dat V c).leavesExact 3 t = owns (c : Thread nD τ) (mOut t) fullShare ((dat V c).after 3 t) from by
          unfold Dat.leavesExact; rw [live_out t h1], dat_after_out]
      rw [outAt_last V c t hz h3, accAt_last V c t hz h3]
      unfold outLast accLast; (try dsimp only)
      rw [dat_Phi_castSucc V c t, PhiS_pos V c _ _ hz]
      iintro ⟨⟨HS, HR⟩, Ho, ⟨%d0, H0⟩, ⟨%d1, H1⟩, ⟨%d2, H2⟩, ⟨%d3, H3⟩⟩
      iapply ((runLast c (grid2.coords t) _ _ _ _ _ _ _ _ _ _ h0 h1 (blockAt V c 0 t) (blockAt V c 1 t) (blockAt V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR]
      · isplitl [HS]
        · unfold owns; iexists _; isplitr
          swap; · iexact HS
          ipureintro; exact View.read_writes_of_cover _ _ _ _ _ (cover_last_acc c t h0 h1 _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_last_out c t h0 h1 _ _ _ _)
    · have h1 : ¬atLast (grid2.coords t) := notLast_of_ne t h3
      rw [Dat.leavesExact_idle (dat V c) 3 t (idle_out t h1) (noFlush_out t h1)]
      rw [accAt_middle V c t hz h3]
      unfold accMiddle; (try dsimp only)
      rw [dat_Phi_castSucc V c t, PhiS_pos V c _ _ hz]
      iintro ⟨⟨HS, HR⟩, Ho, ⟨%d0, H0⟩, ⟨%d1, H1⟩, ⟨%d2, H2⟩, ⟨%d3, H3⟩⟩
      iapply ((runMiddle c (grid2.coords t) _ _ _ _ _ _ _ _ _ _ h0 h1 (blockAt V c 0 t) (blockAt V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR]
      · isplitl [HS]
        · unfold owns; iexists _; isplitr
          swap; · iexact HS
          ipureintro; exact View.read_writes_of_cover _ _ _ _ _ (cover_middle c t h0 h1 _ _ _)
        iexact HR
      isplitl [Ho]; · iexact Ho
      isplitl [H0]; · iexact H0
      isplitl [H1]; · iexact H1
      isplitl [H2]; · iexact H2
      iexists _; iexact H3

/-- The body obligation of the call, at every point. -/
theorem body_obligation (c : Dev nD) : BodyObligation (dat (F := F) V c) (defs₀ (F := F)) Variants.none () Set.univ := fun t => by
  rw [bigSep_W2, bigSep_W2]
  exact body_at V c t

/-- What the call is entered with is the invariant before the first point. -/
theorem phi_in (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem phi_out (c : Dev nD) : (dat V c).Φ (Fin.last cfg2.N) ⊢ Pipeline.ΦA spec2 c := by
  have hN : cfg2.N = 4 := N_2
  rw [show (dat V c).Φ (Fin.last cfg2.N) = PhiS V c (Fin.last cfg2.N).val (Nat.le_of_lt_succ (Fin.last cfg2.N).isLt) from rfl,
    PhiS_pos V c _ _ (by rw [Fin.val_last]; omega)]
  iintro ⟨HS, HR⟩
  iapply (PhiA_join (F := F) c)
  isplitl [HS]
  · iexists _; iexact HS
  iexact HR

end Cert.Kernel.Call2

end
-- ==== Proof.NormMatmulCall3Kernel.lean ====
/-
  The fused normalise / ReLU / matmul call (pipeline 3 of @main). Its grid is one axis of 4 points k = 0..3. At point k
  the body normalises a [512, 512] block of the [512, 2048] activations with the k-th [512] blocks of the mean, variance,
  scale and shift vectors, clamps at zero, multiplies by the k-th [512, 2048] block of the [2048, 2048] right operand and
  adds the product to a [512, 2048] accumulator it keeps in a scratch buffer between points: zeroed at the first point,
  and at the last point stored, plus the bias, as the [512, 2048] result.
  Here: the body run on whole buffers in its three cases (first, middle, last point), the running value of the
  accumulator, the proof data of the call entered from any buffer contents V (its invariant carries the accumulator), the
  body obligation, and what the result's staging buffer holds after the last point.
-/
import proofs.«154134_j25494925869443_2_alg».proof.Proof.LaunchPatchedKernel
import proofs.«154134_j25494925869443_2_alg».proof.Proof.Gen.Kernel.Points
import proofs.«154134_j25494925869443_2_alg».proof.Proof.Gen.Kernel.Skeleton
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.Kernel.Call3

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Arithmetic of the offsets and of the two conditions -/

theorem zeros1 : (![0] : Fin 1 → Nat) = fun _ => 0 := funext fun a => by fin_cases a <;> rfl
theorem zeros2 : (![0, 0] : Fin 2 → Nat) = fun _ => 0 := funext fun a => by fin_cases a <;> rfl

/-- The body's first conditional (reset the accumulator) tests whether the grid coordinate is 0. -/
abbrev isFirst (i : grid3.Coords) : Prop :=
  (Scalar.cmpi .ne (Scalar.extui (Scalar.cmpi .eq (BitVec.ofNat 32 (i 0).val) 0#32)) 0#32) = 1#1
/-- Its second conditional (add the bias and store the result) tests whether the grid coordinate is 3. -/
abbrev isLast (i : grid3.Coords) : Prop := k3_cond2 i = 1#1

theorem isFirst_iff : ∀ t : Fin cfg3.N, isFirst (grid3.coords t) ↔ t.val = 0 :=
  (by decide +kernel : ∀ t : Fin grid3.N, isFirst (grid3.coords t) ↔ t.val = 0)
theorem isLast_iff : ∀ t : Fin cfg3.N, isLast (grid3.coords t) ↔ t.val = 3 :=
  (by decide +kernel : ∀ t : Fin grid3.N, isLast (grid3.coords t) ↔ t.val = 3)

/-- The result's window is idle, and not written back, at every point but the last, and live there. -/
theorem out_idle : ∀ t : Fin cfg3.N, t.val ≠ 3 → cfg3.idle 7 (grid3.coords t) = true := by decide +kernel
theorem out_kept : ∀ t : Fin cfg3.N, t.val ≠ 3 → (cfg3.win 7).flush t = false := by decide +kernel
theorem out_live : ∀ t : Fin cfg3.N, t.val = 3 → cfg3.idle 7 (grid3.coords t) = false := by decide +kernel

/-- A store through the whole [512, 2048] rectangle, made last, covers the buffer whatever was stored before. -/
theorem whole_store_covers (p : Vec F S512x2048 .f32) (L : List (View.Piece (Elt F) S512x2048 .f32)) (y : S512x2048.Idx) :
    ∃ pc ∈ ((⟨Rect.unit (s := S512x2048) ![0, 0] S512x2048.size inb_S512x2048_S512x2048_0_0, p⟩ : View.Piece (Elt F) S512x2048 .f32) :: L), y ∈ pc.1.set :=
  ⟨_, List.mem_cons_self, View.mem_set_unit_zero zeros2 inb_S512x2048_S512x2048_0_0 y⟩

/-! ## The body on whole buffers, case by case

x, mu, var, g, b, w are the six input blocks of the point, bias the bias vector, acc what the accumulator holds when the
body starts. In every case the body leaves the accumulator at k3_pay3 x mu var g b w acc', where acc' is the zero block
k3_pay2 at the first point (the body has just stored it) and acc elsewhere; the input buffers are left as found; the
buffer of the result is left as found except at the last point, where it receives the new accumulator plus the bias
(k3_pay1). -/

set_option maxHeartbeats 1000000 in
/-- A middle point: neither conditional is taken. -/
theorem run_middle (c : Dev nD) (E : Set ℕ) (i : grid3.Coords)
    (a1 : Memref sig .tc .vmem S512x512 .f32) (h1 : a1.IsWhole) (a2 : Memref sig .tc .vmem S512 .f32) (h2 : a2.IsWhole)
    (a3 : Memref sig .tc .vmem S512 .f32) (h3 : a3.IsWhole) (a4 : Memref sig .tc .vmem S512 .f32) (h4 : a4.IsWhole)
    (a5 : Memref sig .tc .vmem S512 .f32) (h5 : a5.IsWhole) (a6 : Memref sig .tc .vmem S512x2048 .f32) (h6 : a6.IsWhole)
    (a7 : Memref sig .tc .vmem S2048 .f32) (h7 : a7.IsWhole) (a8 : Memref sig .tc .vmem S512x2048 .f32) (h8 : a8.IsWhole)
    (a9 : Memref sig .tc .vmem S512x2048 .f32) (h9 : a9.IsWhole) (hf : ¬isFirst i) (hl : ¬isLast i)
    (x : Vec F S512x512 .f32) (mu var g b : Vec F S512 .f32) (w : Vec F S512x2048 .f32) (bias : Vec F S2048 .f32)
    (o acc : Vec F S512x2048 .f32) (K : PUnit → sProp 𝕄) :
    iprop(owns (c : Thread nD τ) a1 fullShare x ∗ owns (c : Thread nD τ) a2 fullShare mu ∗ owns (c : Thread nD τ) a3 fullShare var
        ∗ owns (c : Thread nD τ) a4 fullShare g ∗ owns (c : Thread nD τ) a5 fullShare b ∗ owns (c : Thread nD τ) a6 fullShare w
        ∗ owns (c : Thread nD τ) a7 fullShare bias ∗ owns (c : Thread nD τ) a8 fullShare o ∗ owns (c : Thread nD τ) a9 fullShare acc
        ∗ (iprop(owns (c : Thread nD τ) a1 fullShare x ∗ owns (c : Thread nD τ) a2 fullShare mu ∗ owns (c : Thread nD τ) a3 fullShare var
        ∗ owns (c : Thread nD τ) a4 fullShare g ∗ owns (c : Thread nD τ) a5 fullShare b ∗ owns (c : Thread nD τ) a6 fullShare w
        ∗ owns (c : Thread nD τ) a7 fullShare bias ∗ owns (c : Thread nD τ) a8 fullShare o
            ∗ owns (c : Thread nD τ) a9 fullShare (k3_pay3 x mu var g b w acc)) -∗ K ⟨⟩))
      ⊢ wp frame (wpE (defs₀ (F := F)) Variants.none c none) E (cc3__bn_relu_matmul_kernel i a1 h1 a2 h2 a3 h3 a4 h4 a5 h5 a6 h6 a7 h7 a8 h8 a9 h9) K := by
  simp only [cc3__bn_relu_matmul_kernel_eq_skeleton]; unfold cc3__bn_relu_matmul_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  subst e1 e2 e3 e4 e5 e6 e7 e8 e9
  sl_exec (disch := first | exact hf | exact hl)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (whole_store_covers _ _), View.canon_unit_zero zeros2]
  simp only [View.readAt_eq_ld, View.ld_unit_zero (S := S512x512) zeros2, View.ld_unit_zero (S := S512) zeros1,
    View.ld_unit_zero (S := S512x2048) zeros2, View.ld_unit_zero (S := S2048) zeros1]

set_option maxHeartbeats 1000000 in
/-- The first point: the accumulator, found at anything, is zeroed and read back before the accumulation. -/
theorem run_first (c : Dev nD) (E : Set ℕ) (i : grid3.Coords)
    (a1 : Memref sig .tc .vmem S512x512 .f32) (h1 : a1.IsWhole) (a2 : Memref sig .tc .vmem S512 .f32) (h2 : a2.IsWhole)
    (a3 : Memref sig .tc .vmem S512 .f32) (h3 : a3.IsWhole) (a4 : Memref sig .tc .vmem S512 .f32) (h4 : a4.IsWhole)
    (a5 : Memref sig .tc .vmem S512 .f32) (h5 : a5.IsWhole) (a6 : Memref sig .tc .vmem S512x2048 .f32) (h6 : a6.IsWhole)
    (a7 : Memref sig .tc .vmem S2048 .f32) (h7 : a7.IsWhole) (a8 : Memref sig .tc .vmem S512x2048 .f32) (h8 : a8.IsWhole)
    (a9 : Memref sig .tc .vmem S512x2048 .f32) (h9 : a9.IsWhole) (hf : isFirst i) (hl : ¬isLast i)
    (x : Vec F S512x512 .f32) (mu var g b : Vec F S512 .f32) (w : Vec F S512x2048 .f32) (bias : Vec F S2048 .f32)
    (o : Vec F S512x2048 .f32) (K : PUnit → sProp 𝕄) :
    iprop(owns (c : Thread nD τ) a1 fullShare x ∗ owns (c : Thread nD τ) a2 fullShare mu ∗ owns (c : Thread nD τ) a3 fullShare var
        ∗ owns (c : Thread nD τ) a4 fullShare g ∗ owns (c : Thread nD τ) a5 fullShare b ∗ owns (c : Thread nD τ) a6 fullShare w
        ∗ owns (c : Thread nD τ) a7 fullShare bias ∗ owns (c : Thread nD τ) a8 fullShare o ∗ (∃ d, owns (c : Thread nD τ) a9 fullShare d)
        ∗ (iprop(owns (c : Thread nD τ) a1 fullShare x ∗ owns (c : Thread nD τ) a2 fullShare mu ∗ owns (c : Thread nD τ) a3 fullShare var
        ∗ owns (c : Thread nD τ) a4 fullShare g ∗ owns (c : Thread nD τ) a5 fullShare b ∗ owns (c : Thread nD τ) a6 fullShare w
        ∗ owns (c : Thread nD τ) a7 fullShare bias ∗ owns (c : Thread nD τ) a8 fullShare o
            ∗ owns (c : Thread nD τ) a9 fullShare (k3_pay3 x mu var g b w k3_pay2)) -∗ K ⟨⟩))
      ⊢ wp frame (wpE (defs₀ (F := F)) Variants.none c none) E (cc3__bn_relu_matmul_kernel i a1 h1 a2 h2 a3 h3 a4 h4 a5 h5 a6 h6 a7 h7 a8 h8 a9 h9) K := by
  simp only [cc3__bn_relu_matmul_kernel_eq_skeleton]; unfold cc3__bn_relu_matmul_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, Hk⟩
  subst e1 e2 e3 e4 e5 e6 e7 e8
  sl_exec (disch := first | exact hf | exact hl)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  sl_unfold_words
  rw [View.read_writes_eq_canon _ _ _ (whole_store_covers _ _), View.canon_cons_unit_zero (S := S512x2048) zeros2,
    View.readCov_unit_zero (S := S512x2048) _ zeros2]
  simp only [View.readAt_eq_ld, View.ld_unit_zero (S := S512x512) zeros2, View.ld_unit_zero (S := S512) zeros1,
    View.ld_unit_zero (S := S512x2048) zeros2, View.ld_unit_zero (S := S2048) zeros1]

set_option maxHeartbeats 1000000 in
/-- The last point: after the accumulation the accumulator is read back, the bias added, and the sum stored as the result. -/
theorem run_last (c : Dev nD) (E : Set ℕ) (i : grid3.Coords)
    (a1 : Memref sig .tc .vmem S512x512 .f32) (h1 : a1.IsWhole) (a2 : Memref sig .tc .vmem S512 .f32) (h2 : a2.IsWhole)
    (a3 : Memref sig .tc .vmem S512 .f32) (h3 : a3.IsWhole) (a4 : Memref sig .tc .vmem S512 .f32) (h4 : a4.IsWhole)
    (a5 : Memref sig .tc .vmem S512 .f32) (h5 : a5.IsWhole) (a6 : Memref sig .tc .vmem S512x2048 .f32) (h6 : a6.IsWhole)
    (a7 : Memref sig .tc .vmem S2048 .f32) (h7 : a7.IsWhole) (a8 : Memref sig .tc .vmem S512x2048 .f32) (h8 : a8.IsWhole)
    (a9 : Memref sig .tc .vmem S512x2048 .f32) (h9 : a9.IsWhole) (hf : ¬isFirst i) (hl : isLast i)
    (x : Vec F S512x512 .f32) (mu var g b : Vec F S512 .f32) (w : Vec F S512x2048 .f32) (bias : Vec F S2048 .f32)
    (acc : Vec F S512x2048 .f32) (K : PUnit → sProp 𝕄) :
    iprop(owns (c : Thread nD τ) a1 fullShare x ∗ owns (c : Thread nD τ) a2 fullShare mu ∗ owns (c : Thread nD τ) a3 fullShare var
        ∗ owns (c : Thread nD τ) a4 fullShare g ∗ owns (c : Thread nD τ) a5 fullShare b ∗ owns (c : Thread nD τ) a6 fullShare w
        ∗ owns (c : Thread nD τ) a7 fullShare bias ∗ (∃ d, owns (c : Thread nD τ) a8 fullShare d) ∗ owns (c : Thread nD τ) a9 fullShare acc
        ∗ (iprop(owns (c : Thread nD τ) a1 fullShare x ∗ owns (c : Thread nD τ) a2 fullShare mu ∗ owns (c : Thread nD τ) a3 fullShare var
        ∗ owns (c : Thread nD τ) a4 fullShare g ∗ owns (c : Thread nD τ) a5 fullShare b ∗ owns (c : Thread nD τ) a6 fullShare w
        ∗ owns (c : Thread nD τ) a7 fullShare bias ∗ owns (c : Thread nD τ) a8 fullShare (k3_pay1 (k3_pay3 x mu var g b w acc) bias)
            ∗ owns (c : Thread nD τ) a9 fullShare (k3_pay3 x mu var g b w acc)) -∗ K ⟨⟩))
      ⊢ wp frame (wpE (defs₀ (F := F)) Variants.none c none) E (cc3__bn_relu_matmul_kernel i a1 h1 a2 h2 a3 h3 a4 h4 a5 h5 a6 h6 a7 h7 a8 h8 a9 h9) K := by
  simp only [cc3__bn_relu_matmul_kernel_eq_skeleton]; unfold cc3__bn_relu_matmul_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%f9, %e9, H9⟩, Hk⟩
  subst e1 e2 e3 e4 e5 e6 e7 e9
  sl_exec (disch := first | exact hf | exact hl)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [View.read_writes_eq_canon _ _ _ (whole_store_covers _ _), View.canon_unit_zero zeros2,
      View.readCov_unit_zero (S := S512x2048) _ zeros2]
    simp only [View.readAt_eq_ld, View.ld_unit_zero (S := S512x512) zeros2, View.ld_unit_zero (S := S512) zeros1,
    View.ld_unit_zero (S := S512x2048) zeros2, View.ld_unit_zero (S := S2048) zeros1]
  iexists _; isplitr
  swap; · iexact H9
  ipureintro
  sl_unfold_words
  rw [View.read_writes_eq_canon _ _ _ (whole_store_covers _ _), View.canon_unit_zero zeros2]
  simp only [View.readAt_eq_ld, View.ld_unit_zero (S := S512x512) zeros2, View.ld_unit_zero (S := S512) zeros1,
    View.ld_unit_zero (S := S512x2048) zeros2, View.ld_unit_zero (S := S2048) zeros1]

/-! ## The blocks, and the running accumulator -/

-- the contents of the buffers of the TensorCore when the call is entered
variable (V : (c : Dev nD) → (b : Ref sig .tc) → Buf (Elt F) ((c : Thread nD τ).loc b))

/-- The block of window w at grid point t, read off its array as the call finds it. -/
def blockAt (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the accumulator holds after the body at point n: the zero block at the start, then one matmul term per point,
    added in the order of the points. -/
def accAfter (c : Dev nD) : (n : ℕ) → n < cfg3.N → Vec F S512x2048 .f32
  | 0, h => k3_pay3 (blockAt V c 0 ⟨0, h⟩) (blockAt V c 1 ⟨0, h⟩) (blockAt V c 2 ⟨0, h⟩) (blockAt V c 3 ⟨0, h⟩) (blockAt V c 4 ⟨0, h⟩) (blockAt V c 5 ⟨0, h⟩) k3_pay2
  | n + 1, h => k3_pay3 (blockAt V c 0 ⟨n + 1, h⟩) (blockAt V c 1 ⟨n + 1, h⟩) (blockAt V c 2 ⟨n + 1, h⟩) (blockAt V c 3 ⟨n + 1, h⟩) (blockAt V c 4 ⟨n + 1, h⟩) (blockAt V c 5 ⟨n + 1, h⟩) (accAfter c n (Nat.lt_of_succ_lt h))

/-- The two defining steps of the running accumulator, as equations. -/
theorem accAfter_zero (c : Dev nD) (h : 0 < cfg3.N) :
    accAfter V c 0 h = k3_pay3 (blockAt V c 0 ⟨0, h⟩) (blockAt V c 1 ⟨0, h⟩) (blockAt V c 2 ⟨0, h⟩) (blockAt V c 3 ⟨0, h⟩) (blockAt V c 4 ⟨0, h⟩) (blockAt V c 5 ⟨0, h⟩) k3_pay2 := rfl
theorem accAfter_succ (c : Dev nD) (n : ℕ) (h : n + 1 < cfg3.N) :
    accAfter V c (n + 1) h = k3_pay3 (blockAt V c 0 ⟨n + 1, h⟩) (blockAt V c 1 ⟨n + 1, h⟩) (blockAt V c 2 ⟨n + 1, h⟩) (blockAt V c 3 ⟨n + 1, h⟩) (blockAt V c 4 ⟨n + 1, h⟩) (blockAt V c 5 ⟨n + 1, h⟩) (accAfter V c n (Nat.lt_of_succ_lt h)) := rfl

theorem accAfter_first (c : Dev nD) (t : Fin cfg3.N) (h0 : t.val = 0) :
    accAfter V c t.val t.isLt = k3_pay3 (blockAt V c 0 t) (blockAt V c 1 t) (blockAt V c 2 t) (blockAt V c 3 t) (blockAt V c 4 t) (blockAt V c 5 t) k3_pay2 := by
  obtain ⟨n, hn⟩ := t
  cases n with
  | zero => rfl
  | succ n => exact absurd h0 (Nat.succ_ne_zero n)

theorem accAfter_later (c : Dev nD) (t : Fin cfg3.N) (h0 : t.val ≠ 0) :
    accAfter V c t.val t.isLt = k3_pay3 (blockAt V c 0 t) (blockAt V c 1 t) (blockAt V c 2 t) (blockAt V c 3 t) (blockAt V c 4 t) (blockAt V c 5 t) (accAfter V c (t.val - 1) (Nat.lt_of_le_of_lt (Nat.sub_le _ _) t.isLt)) := by
  obtain ⟨n, hn⟩ := t
  cases n with
  | zero => exact absurd rfl h0
  | succ n => rfl

/-! ## Input windows: the staging buffer holds the block of the point -/

/-- Window 0: its staging buffer holds the block of the point whenever the body runs, fetched there or not (an unfetched
    point has the block index of the point before), for any proof data over V that leaves the block in place. -/
theorem staged0 {c : Dev nD} (dat : Dat τ (Elt F) Unit ℕ (UR sig nD τ) ℕ cfg3 c) (hA : dat.A 0 = V c (Pipeline.arrRef spec3 0))
    (hafter : ∀ t, dat.after 0 t = blockAt V c 0 t) (t : Fin cfg3.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Window 1: its staging buffer holds the block of the point whenever the body runs, fetched there or not (an unfetched
    point has the block index of the point before), for any proof data over V that leaves the block in place. -/
theorem staged1 {c : Dev nD} (dat : Dat τ (Elt F) Unit ℕ (UR sig nD τ) ℕ cfg3 c) (hA : dat.A 1 = V c (Pipeline.arrRef spec3 1))
    (hafter : ∀ t, dat.after 1 t = blockAt V c 1 t) (t : Fin cfg3.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Window 2: its staging buffer holds the block of the point whenever the body runs, fetched there or not (an unfetched
    point has the block index of the point before), for any proof data over V that leaves the block in place. -/
theorem staged2 {c : Dev nD} (dat : Dat τ (Elt F) Unit ℕ (UR sig nD τ) ℕ cfg3 c) (hA : dat.A 2 = V c (Pipeline.arrRef spec3 2))
    (hafter : ∀ t, dat.after 2 t = blockAt V c 2 t) (t : Fin cfg3.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Window 3: its staging buffer holds the block of the point whenever the body runs, fetched there or not (an unfetched
    point has the block index of the point before), for any proof data over V that leaves the block in place. -/
theorem staged3 {c : Dev nD} (dat : Dat τ (Elt F) Unit ℕ (UR sig nD τ) ℕ cfg3 c) (hA : dat.A 3 = V c (Pipeline.arrRef spec3 3))
    (hafter : ∀ t, dat.after 3 t = blockAt V c 3 t) (t : Fin cfg3.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Window 4: its staging buffer holds the block of the point whenever the body runs, fetched there or not (an unfetched
    point has the block index of the point before), for any proof data over V that leaves the block in place. -/
theorem staged4 {c : Dev nD} (dat : Dat τ (Elt F) Unit ℕ (UR sig nD τ) ℕ cfg3 c) (hA : dat.A 4 = V c (Pipeline.arrRef spec3 4))
    (hafter : ∀ t, dat.after 4 t = blockAt V c 4 t) (t : Fin cfg3.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Window 5: its staging buffer holds the block of the point whenever the body runs, fetched there or not (an unfetched
    point has the block index of the point before), for any proof data over V that leaves the block in place. -/
theorem staged5 {c : Dev nD} (dat : Dat τ (Elt F) Unit ℕ (UR sig nD τ) ℕ cfg3 c) (hA : dat.A 5 = V c (Pipeline.arrRef spec3 5))
    (hafter : ∀ t, dat.after 5 t = blockAt V c 5 t) (t : Fin cfg3.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Window 6: its staging buffer holds the block of the point whenever the body runs, fetched there or not (an unfetched
    point has the block index of the point before), for any proof data over V that leaves the block in place. -/
theorem staged6 {c : Dev nD} (dat : Dat τ (Elt F) Unit ℕ (UR sig nD τ) ℕ cfg3 c) (hA : dat.A 6 = V c (Pipeline.arrRef spec3 6))
    (hafter : ∀ t, dat.after 6 t = blockAt V c 6 t) (t : Fin cfg3.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The invariant: the scoped buffers no window stages, the accumulator among them at its running value -/

/-- The accumulator: the kernel's own scratch buffer, whole. -/
abbrev accM : Memref sig .tc .vmem S512x2048 .f32 := Memref.whole cc3_scratch0

/-- A scoped buffer of the core held whole at some contents. -/
abbrev heldAny (c : Dev nD) (r : Ref sig .tc) : sProp 𝕄 :=
  iprop(∃ f : Buf (Elt F) ((c : Thread nD τ).loc r), ((c : Thread nD τ).loc r) ↦{fullShare} f)

/-- The scoped buffers that are neither staging buffers of this call nor its accumulator: those of the three earlier calls. -/
def otherScoped (c : Dev nD) : sProp 𝕄 :=
  iprop(heldAny (F := F) c cc0_stg0_0 ∗ heldAny (F := F) c cc0_stg0_1 ∗ heldAny (F := F) c cc0_stg1_0 ∗ heldAny (F := F) c cc0_stg1_1 ∗ heldAny (F := F) c cc1_stg0_0 ∗ heldAny (F := F) c cc1_stg0_1 ∗ heldAny (F := F) c cc1_stg1_0 ∗ heldAny (F := F) c cc1_stg1_1 ∗ heldAny (F := F) c cc2_stg0_0 ∗ heldAny (F := F) c cc2_stg0_1 ∗ heldAny (F := F) c cc2_stg1_0 ∗ heldAny (F := F) c cc2_stg1_1 ∗ heldAny (F := F) c cc2_stg2_0 ∗ heldAny (F := F) c cc2_stg3_0 ∗ heldAny (F := F) c cc2_scratch0)

/-- The accumulator before point n: at anything before the first point, then at what the point before left. -/
def accHeld (c : Dev nD) : (n : ℕ) → n ≤ cfg3.N → sProp 𝕄
  | 0, _ => iprop(∃ d, owns (c : Thread nD τ) accM fullShare d)
  | n + 1, hn => owns (c : Thread nD τ) accM fullShare (accAfter V c n hn)

theorem accHeld_zero (c : Dev nD) (n : ℕ) (h : n ≤ cfg3.N) (hz : n = 0) :
    accHeld V c n h = iprop(∃ d, owns (c : Thread nD τ) accM fullShare d) := by
  subst hz; rfl

theorem accHeld_succ (c : Dev nD) (n : ℕ) (hn : n < cfg3.N) :
    accHeld V c (n + 1) hn = owns (c : Thread nD τ) accM fullShare (accAfter V c n hn) := rfl

theorem accHeld_pos (c : Dev nD) (n : ℕ) (h : n ≤ cfg3.N) (hz : n ≠ 0) :
    accHeld V c n h = owns (c : Thread nD τ) accM fullShare (accAfter V c (n - 1) (by omega)) := by
  cases n with
  | zero => exact absurd rfl hz
  | succ n => rfl

/-- The invariant before point n. -/
def carried (c : Dev nD) (n : ℕ) (h : n ≤ cfg3.N) : sProp 𝕄 :=
  iprop(otherScoped (F := F) c ∗ accHeld V c n h ∗ (∃ r, prngReg c r))

/-- What the launch hands the call is the invariant with the accumulator at anything, and back. -/
theorem scoped_open (c : Dev nD) :
    (Pipeline.ΦA spec3 c : sProp 𝕄) ⊢ iprop(otherScoped (F := F) c ∗ (∃ d, owns (c : Thread nD τ) accM fullShare d) ∗ (∃ r, prngReg c r)) := by
  unfold Pipeline.ΦA otherScoped; rw [scopedRest3_eq]; simp only [accM, owns_whole]
  iintro ⟨⟨R0, R1, R2, R3, R4, R5, R6, R7, R8, R9, R10, R11, R12, R13, R14, HS⟩, Hg⟩
  isplitl [R0 R1 R2 R3 R4 R5 R6 R7 R8 R9 R10 R11 R12 R13 R14]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexact R14
  isplitl [HS]; · iexact HS
  iexact Hg

theorem scoped_close (c : Dev nD) :
    iprop(otherScoped (F := F) c ∗ (∃ d, owns (c : Thread nD τ) accM fullShare d) ∗ (∃ r, prngReg c r)) ⊢ (Pipeline.ΦA spec3 c : sProp 𝕄) := by
  unfold Pipeline.ΦA otherScoped; rw [scopedRest3_eq]; simp only [accM, owns_whole]
  iintro ⟨⟨R0, R1, R2, R3, R4, R5, R6, R7, R8, R9, R10, R11, R12, R13, R14⟩, HS, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact HS

/-! ## The proof data -/

/-- The proof data of the call on core c: the arrays as found; after the body at point t each input buffer at its block
    and the buffer of the result at the running accumulator plus the bias (read at the last point only: elsewhere the
    window is idle); the invariant above; nothing owed; full shares. -/
def dat (c : Dev nD) : Dat τ (Elt F) Unit ℕ (UR sig nD τ) ℕ cfg3 c where
  A w := V c (Pipeline.arrRef spec3 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => k3_pay1 (accAfter V c t.val t.isLt) (blockAt V c 6 t)
  Φ t := carried V c t.val (Nat.le_of_lt_succ t.isLt)
  q _ := fullShare
  owed _ := 0

theorem dat_A (c : Dev nD) (w : Fin cfg3.W) : (dat V c).A w = V c (Pipeline.arrRef spec3 w) := by
  dsimp only [dat]
theorem dat_after0 (c : Dev nD) (t : Fin cfg3.N) : (dat V c).after 0 t = blockAt V c 0 t := by dsimp only [dat]
theorem dat_after1 (c : Dev nD) (t : Fin cfg3.N) : (dat V c).after 1 t = blockAt V c 1 t := by dsimp only [dat]
theorem dat_after2 (c : Dev nD) (t : Fin cfg3.N) : (dat V c).after 2 t = blockAt V c 2 t := by dsimp only [dat]
theorem dat_after3 (c : Dev nD) (t : Fin cfg3.N) : (dat V c).after 3 t = blockAt V c 3 t := by dsimp only [dat]
theorem dat_after4 (c : Dev nD) (t : Fin cfg3.N) : (dat V c).after 4 t = blockAt V c 4 t := by dsimp only [dat]
theorem dat_after5 (c : Dev nD) (t : Fin cfg3.N) : (dat V c).after 5 t = blockAt V c 5 t := by dsimp only [dat]
theorem dat_after6 (c : Dev nD) (t : Fin cfg3.N) : (dat V c).after 6 t = blockAt V c 6 t := by dsimp only [dat]
theorem dat_after_out (c : Dev nD) (t : Fin cfg3.N) :
    (dat V c).after 7 t = k3_pay1 (accAfter V c t.val t.isLt) (blockAt V c 6 t) := by dsimp only [dat]

theorem dat_before0 (c : Dev nD) (t : Fin cfg3.N) (d) : (dat V c).before 0 t d = blockAt V c 0 t :=
  staged0 V (dat V c) (dat_A V c 0) (dat_after0 V c) t d
theorem dat_before1 (c : Dev nD) (t : Fin cfg3.N) (d) : (dat V c).before 1 t d = blockAt V c 1 t :=
  staged1 V (dat V c) (dat_A V c 1) (dat_after1 V c) t d
theorem dat_before2 (c : Dev nD) (t : Fin cfg3.N) (d) : (dat V c).before 2 t d = blockAt V c 2 t :=
  staged2 V (dat V c) (dat_A V c 2) (dat_after2 V c) t d
theorem dat_before3 (c : Dev nD) (t : Fin cfg3.N) (d) : (dat V c).before 3 t d = blockAt V c 3 t :=
  staged3 V (dat V c) (dat_A V c 3) (dat_after3 V c) t d
theorem dat_before4 (c : Dev nD) (t : Fin cfg3.N) (d) : (dat V c).before 4 t d = blockAt V c 4 t :=
  staged4 V (dat V c) (dat_A V c 4) (dat_after4 V c) t d
theorem dat_before5 (c : Dev nD) (t : Fin cfg3.N) (d) : (dat V c).before 5 t d = blockAt V c 5 t :=
  staged5 V (dat V c) (dat_A V c 5) (dat_after5 V c) t d
theorem dat_before6 (c : Dev nD) (t : Fin cfg3.N) (d) : (dat V c).before 6 t d = blockAt V c 6 t :=
  staged6 V (dat V c) (dat_A V c 6) (dat_after6 V c) t d

theorem dat_Φ_start (c : Dev nD) (t : Fin cfg3.N) :
    (dat V c).Φ t.castSucc = carried V c t.val (Nat.le_of_lt t.isLt) := by
  dsimp only [dat]; simp only [Fin.coe_castSucc]

/-! ## The body obligation -/

/-- What the body is called with at point t: the invariant, what the core owes, every current staging buffer at what it
    then holds; -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d))
    ∗ (∃ d, owns (c : Thread nD τ) (st3_7 t) fullShare ((dat V c).before 7 t d)))

/-- and what it returns: the inputs' buffers at their blocks, the buffer of the result as found where its window is idle,
    at the accumulator plus the bias where it is live. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t)
    ∗ (dat V c).leavesExact 7 t)

set_option maxHeartbeats 4800000 in
/-- The body at any point. The inputs' buffers hold their blocks; the point is the first, a middle one or the last, and
    the run of that case applies: the invariant hands the body the accumulator (at anything at the first point, at what the
    point before left elsewhere) and takes it back at the value of this point; the other scoped buffers, the generator
    register and what the core owes pass through unread. -/
theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [dat_before0, dat_before1, dat_before2, dat_before3, dat_before4, dat_before5, dat_before6]
  rw [show (dat V c).owesAt () t.succ = (dat V c).owesAt () t.castSucc from rfl]
  rw [show (dat V c).Φ t.succ = carried V c (t.val + 1) t.isLt from rfl, dat_Φ_start]
  unfold carried
  rw [accHeld_succ, dat_after0, dat_after1, dat_after2, dat_after3, dat_after4, dat_after5, dat_after6]
  have hN : t.val < 4 := lt_of_lt_of_eq t.isLt (show cfg3.N = 4 from N_3)
  by_cases h0 : t.val = 0
  · have hf : isFirst (grid3.coords t) := (isFirst_iff t).mpr h0
    have hl : ¬isLast (grid3.coords t) := fun h => by have := (isLast_iff t).mp h; omega
    rw [Dat.leavesExact_idle (dat V c) 7 t (out_idle t (by omega)) (out_kept t (by omega))]
    rw [accHeld_zero V c _ _ h0, accAfter_first V c t h0]
    iintro ⟨⟨HR, ⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c Set.univ (grid3.coords t) _ _ _ _ _ _ _ _ _ _ _ _ _ _ _ _ _ _ hf hl (blockAt V c 0 t) (blockAt V c 1 t) (blockAt V c 2 t) (blockAt V c 3 t) (blockAt V c 4 t) (blockAt V c 5 t) (blockAt V c 6 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexists _; iexact HS
    iintro ⟨H0, H1, H2, H3, H4, H5, H6, H7, HS⟩
    isplitl [HR HS Hg]
    · isplitl [HR]; · iexact HR
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hf : ¬isFirst (grid3.coords t) := fun h => h0 ((isFirst_iff t).mp h)
    by_cases h3 : t.val = 3
    · have hl : isLast (grid3.coords t) := (isLast_iff t).mpr h3
      rw [show (dat V c).leavesExact 7 t = owns (c : Thread nD τ) (st3_7 t) fullShare ((dat V c).after 7 t) from by
        unfold Dat.leavesExact; rw [out_live t h3], dat_after_out]
      rw [accHeld_pos V c _ _ h0, accAfter_later V c t h0]
      iintro ⟨⟨HR, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c Set.univ (grid3.coords t) _ _ _ _ _ _ _ _ _ _ _ _ _ _ _ _ _ _ hf hl (blockAt V c 0 t) (blockAt V c 1 t) (blockAt V c 2 t) (blockAt V c 3 t) (blockAt V c 4 t) (blockAt V c 5 t) (blockAt V c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hl : ¬isLast (grid3.coords t) := fun h => h3 ((isLast_iff t).mp h)
      rw [Dat.leavesExact_idle (dat V c) 7 t (out_idle t h3) (out_kept t h3)]
      rw [accHeld_pos V c _ _ h0, accAfter_later V c t h0]
      iintro ⟨⟨HR, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_middle c Set.univ (grid3.coords t) _ _ _ _ _ _ _ _ _ _ _ _ _ _ _ _ _ _ hf hl (blockAt V c 0 t) (blockAt V c 1 t) (blockAt V c 2 t) (blockAt V c 3 t) (blockAt V c 4 t) (blockAt V c 5 t) (blockAt V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation of the call, at every point. -/
theorem body_obligation (c : Dev nD) : BodyObligation (dat (F := F) V c) (defs₀ (F := F)) Variants.none () Set.univ := fun t => by
  rw [bigSep_W3, bigSep_W3]
  exact body_at V c t

/-- What the launch hands the call is the invariant before the first point. -/
theorem phi_in (c : Dev nD) : Pipeline.ΦA spec3 c ⊢ (dat V c).Φ 0 := by
  rw [show (dat V c).Φ 0 = carried V c 0 (Nat.zero_le _) from rfl]
  unfold carried; rw [accHeld_zero V c 0 _ rfl]
  exact scoped_open c

/-- After the last point the invariant gives it back: the value of the accumulator is forgotten. -/
theorem phi_out (c : Dev nD) : (dat V c).Φ (Fin.last cfg3.N) ⊢ Pipeline.ΦA spec3 c := by
  rw [show (dat V c).Φ (Fin.last cfg3.N) = carried V c (Fin.last cfg3.N).val (Nat.le_of_lt_succ (Fin.last cfg3.N).isLt) from rfl]
  unfold carried
  rw [accHeld_pos V c _ _ (by rw [Fin.val_last]; have : cfg3.N = 4 := N_3; omega)]
  iintro ⟨HR, HS, Hg⟩
  iapply (scoped_close c)
  isplitl [HR]; · iexact HR
  isplitl [HS]; · iexists _; iexact HS
  iexact Hg

/-! ## The value the call leaves -/

theorem three_lt : 3 < cfg3.N := by rw [show cfg3.N = 4 from N_3]; decide

/-- After the last point the staging buffer of the result holds the accumulator of the four points plus the bias. -/
theorem out_last (c : Dev nD) :
    (dat V c).after 7 ⟨3, three_lt⟩ = k3_pay1 (accAfter V c 3 three_lt) (blockAt V c 6 ⟨3, three_lt⟩) :=
  dat_after_out V c ⟨3, three_lt⟩

end Cert.Kernel.Call3

end
-- ==== Proof.AssembleKernel.lean ====
/-
  The four kernel calls of @main put together. Between two items of @main every unscoped TensorCore buffer is held at a
  valuation: the launch contents pushed through the stretches of host operations, and updated at a call's result array by
  what that call leaves there (`left0` … `left3`: the call's write-backs folded over its grid). Each call is a segment
  entered from the valuation before it and left at the one after it; its arrays are split out of the unscoped buffers on
  entry and put back on exit, the generator register and what the core owes (nothing) ride along.
-/
import proofs.«154134_j25494925869443_2_alg».proof.Proof.WholeRunKernel
import proofs.«154134_j25494925869443_2_alg».proof.Proof.PoolCall0Kernel
import proofs.«154134_j25494925869443_2_alg».proof.Proof.PoolCall1Kernel
import proofs.«154134_j25494925869443_2_alg».proof.Proof.MatmulCall2Kernel
import proofs.«154134_j25494925869443_2_alg».proof.Proof.NormMatmulCall3Kernel
import Idealize.ShloMosaic.Lib.Pipeline.RegionsLoop

set_option maxRecDepth 16384

noncomputable section

namespace Cert.Kernel.Whole

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- For ANY entry contents `W`: proof data whose arrays are `W`'s and whose result array ends at `x` leave every array of
    the call at `W` updated at the result array by `x` (an input array ends as it was found). -/
theorem arrays_after_any2 (c : Dev nD) (W : Valuation τ sig (Elt F)) (x : Buf (Elt F) ((c : Thread nD τ).loc main_v7))
    (dat : Dat τ (Elt F) Unit ℕ (UR sig nD τ) ℕ cfg2 c) (hA : ∀ w, dat.A w = W (Pipeline.arrRef spec2 w))
    (hx : dat.arrAt 3 cfg2.N = x) (w : Fin cfg2.W) :
    dat.arrAt w cfg2.N = Function.update W (Proc.devRef .tc main_v7) x (Pipeline.arrRef spec2 w) := by
  match w with
  | ⟨0, _⟩ =>
    exact ((dat.arrAt_in 0 rfl _).trans (hA 0)).trans
      (Function.update_of_ne (StableHlo.devRef_ne_of_ne (by decide) : (Proc.devRef .tc main_v4 : DevRef τ sig) ≠ Proc.devRef .tc main_v7) x W).symm
  | ⟨1, _⟩ =>
    exact ((dat.arrAt_in 1 rfl _).trans (hA 1)).trans
      (Function.update_of_ne (StableHlo.devRef_ne_of_ne (by decide) : (Proc.devRef .tc main_v5 : DevRef τ sig) ≠ Proc.devRef .tc main_v7) x W).symm
  | ⟨2, _⟩ =>
    exact ((dat.arrAt_in 2 rfl _).trans (hA 2)).trans
      (Function.update_of_ne (StableHlo.devRef_ne_of_ne (by decide) : (Proc.devRef .tc main_arg5 : DevRef τ sig) ≠ Proc.devRef .tc main_v7) x W).symm
  | ⟨3, _⟩ =>
    exact hx.trans (Function.update_self (Proc.devRef .tc main_v7 : DevRef τ sig) x W).symm

set_option maxHeartbeats 1000000 in
/-- For ANY entry contents `W`: proof data whose arrays are `W`'s and whose result array ends at `x` leave every array of
    the call at `W` updated at the result array by `x` (an input array ends as it was found). -/
theorem arrays_after_any3 (c : Dev nD) (W : Valuation τ sig (Elt F)) (x : Buf (Elt F) ((c : Thread nD τ).loc main_v12))
    (dat : Dat τ (Elt F) Unit ℕ (UR sig nD τ) ℕ cfg3 c) (hA : ∀ w, dat.A w = W (Pipeline.arrRef spec3 w))
    (hx : dat.arrAt 7 cfg3.N = x) (w : Fin cfg3.W) :
    dat.arrAt w cfg3.N = Function.update W (Proc.devRef .tc main_v12) x (Pipeline.arrRef spec3 w) := by
  match w with
  | ⟨0, _⟩ =>
    exact ((dat.arrAt_in 0 rfl _).trans (hA 0)).trans
      (Function.update_of_ne (StableHlo.devRef_ne_of_ne (by decide) : (Proc.devRef .tc main_v7 : DevRef τ sig) ≠ Proc.devRef .tc main_v12) x W).symm
  | ⟨1, _⟩ =>
    exact ((dat.arrAt_in 1 rfl _).trans (hA 1)).trans
      (Function.update_of_ne (StableHlo.devRef_ne_of_ne (by decide) : (Proc.devRef .tc main_v10 : DevRef τ sig) ≠ Proc.devRef .tc main_v12) x W).symm
  | ⟨2, _⟩ =>
    exact ((dat.arrAt_in 2 rfl _).trans (hA 2)).trans
      (Function.update_of_ne (StableHlo.devRef_ne_of_ne (by decide) : (Proc.devRef .tc main_v11 : DevRef τ sig) ≠ Proc.devRef .tc main_v12) x W).symm
  | ⟨3, _⟩ =>
    exact ((dat.arrAt_in 3 rfl _).trans (hA 3)).trans
      (Function.update_of_ne (StableHlo.devRef_ne_of_ne (by decide) : (Proc.devRef .tc main_arg6 : DevRef τ sig) ≠ Proc.devRef .tc main_v12) x W).symm
  | ⟨4, _⟩ =>
    exact ((dat.arrAt_in 4 rfl _).trans (hA 4)).trans
      (Function.update_of_ne (StableHlo.devRef_ne_of_ne (by decide) : (Proc.devRef .tc main_arg7 : DevRef τ sig) ≠ Proc.devRef .tc main_v12) x W).symm
  | ⟨5, _⟩ =>
    exact ((dat.arrAt_in 5 rfl _).trans (hA 5)).trans
      (Function.update_of_ne (StableHlo.devRef_ne_of_ne (by decide) : (Proc.devRef .tc main_v6 : DevRef τ sig) ≠ Proc.devRef .tc main_v12) x W).symm
  | ⟨6, _⟩ =>
    exact ((dat.arrAt_in 6 rfl _).trans (hA 6)).trans
      (Function.update_of_ne (StableHlo.devRef_ne_of_ne (by decide) : (Proc.devRef .tc main_arg9 : DevRef τ sig) ≠ Proc.devRef .tc main_v12) x W).symm
  | ⟨7, _⟩ =>
    exact hx.trans (Function.update_self (Proc.devRef .tc main_v12 : DevRef τ sig) x W).symm

/-! ## The valuations at the boundaries, and what each call leaves -/

/-- Before the first call: the launch contents after the first reshape. -/
abbrev B1 (c : Dev nD) : Valuation τ sig (Elt F) := V1 m c
/-- The contents read at the TensorCore's references (what a call's proof data take). -/
abbrev at1 (c : Dev nD) (b : Ref sig .tc) : Buf (Elt F) ((c : Thread nD τ).loc b) := B1 m c b
/-- What the first pooling call leaves in its result array. -/
def left0 (c : Dev nD) : Buf (Elt F) ((c : Thread nD τ).loc main_v1) := (Pool0.dat (at1 m) c).arrAt 1 cfg0.N
abbrev B2 (c : Dev nD) : Valuation τ sig (Elt F) := Function.update (B1 m c) main_v1 (left0 m c)
abbrev B3 (c : Dev nD) : Valuation τ sig (Elt F) := StableHlo.after hostOps1 (B2 m c)
abbrev at3 (c : Dev nD) (b : Ref sig .tc) : Buf (Elt F) ((c : Thread nD τ).loc b) := B3 m c b
/-- What the second pooling call leaves in its result array. -/
def left1 (c : Dev nD) : Buf (Elt F) ((c : Thread nD τ).loc main_v3) := (Pool1.dat (at3 m) c).arrAt 1 cfg1.N
abbrev B4 (c : Dev nD) : Valuation τ sig (Elt F) := Function.update (B3 m c) main_v3 (left1 m c)
abbrev B5 (c : Dev nD) : Valuation τ sig (Elt F) := StableHlo.after hostOps2 (B4 m c)
abbrev at5 (c : Dev nD) (b : Ref sig .tc) : Buf (Elt F) ((c : Thread nD τ).loc b) := B5 m c b
/-- What the first matrix-product call leaves in its result array. -/
def left2 (c : Dev nD) : Buf (Elt F) ((c : Thread nD τ).loc main_v7) := (Call2.dat (at5 m) c).arrAt 3 cfg2.N
abbrev B6 (c : Dev nD) : Valuation τ sig (Elt F) := Function.update (B5 m c) main_v7 (left2 m c)
abbrev B7 (c : Dev nD) : Valuation τ sig (Elt F) := StableHlo.after hostOps3 (B6 m c)
abbrev B8 (c : Dev nD) : Valuation τ sig (Elt F) := StableHlo.after hostOps3_1 (B7 m c)
abbrev at8 (c : Dev nD) (b : Ref sig .tc) : Buf (Elt F) ((c : Thread nD τ).loc b) := B8 m c b
/-- What the normalise-and-multiply call leaves in its result array. -/
def left3 (c : Dev nD) : Buf (Elt F) ((c : Thread nD τ).loc main_v12) := (Call3.dat (at8 m) c).arrAt 7 cfg3.N
abbrev B9 (c : Dev nD) : Valuation τ sig (Elt F) := Function.update (B8 m c) main_v12 (left3 m c)

/-- What the calls leave, as the table the boundary valuations are written over: read only at the four result arrays. -/
def leftBy : Outs (F := F) := fun _ r c =>
  if h1 : r = main_v1 then h1 ▸ left0 m c
  else if h3 : r = main_v3 then h3 ▸ left1 m c
  else if h7 : r = main_v7 then h7 ▸ left2 m c
  else if h12 : r = main_v12 then h12 ▸ left3 m c
  else fun _ => Classical.arbitrary _

theorem leftBy_v1 (J : ℕ) (c : Dev nD) : leftBy m J main_v1 c = left0 m c := by
  unfold leftBy; rw [dif_pos rfl]
theorem leftBy_v3 (J : ℕ) (c : Dev nD) : leftBy m J main_v3 c = left1 m c := by
  unfold leftBy; rw [dif_neg (by decide), dif_pos rfl]
theorem leftBy_v7 (J : ℕ) (c : Dev nD) : leftBy m J main_v7 c = left2 m c := by
  unfold leftBy; rw [dif_neg (by decide), dif_neg (by decide), dif_pos rfl]
theorem leftBy_v12 (J : ℕ) (c : Dev nD) : leftBy m J main_v12 c = left3 m c := by
  unfold leftBy; rw [dif_neg (by decide), dif_neg (by decide), dif_neg (by decide), dif_pos rfl]

/-- The boundary valuations over that table are the staged ones. -/
theorem V2_eq (c : Dev nD) : V2 m (leftBy m) c = B2 m c := by
  show Function.update (V1 m c) main_v1 (leftBy m 2 main_v1 c) = _; rw [leftBy_v1]
theorem V3_eq (c : Dev nD) : V3 m (leftBy m) c = B3 m c := by
  show StableHlo.after hostOps1 (V2 m (leftBy m) c) = _; rw [V2_eq]
theorem V4_eq (c : Dev nD) : V4 m (leftBy m) c = B4 m c := by
  show Function.update (V3 m (leftBy m) c) main_v3 (leftBy m 4 main_v3 c) = _; rw [leftBy_v3, V3_eq]
theorem V5_eq (c : Dev nD) : V5 m (leftBy m) c = B5 m c := by
  show StableHlo.after hostOps2 (V4 m (leftBy m) c) = _; rw [V4_eq]
theorem V6_eq (c : Dev nD) : V6 m (leftBy m) c = B6 m c := by
  show Function.update (V5 m (leftBy m) c) main_v7 (leftBy m 6 main_v7 c) = _; rw [leftBy_v7, V5_eq]
theorem V8_eq (c : Dev nD) : V8 m (leftBy m) c = B8 m c := by
  show StableHlo.after hostOps3_1 (StableHlo.after hostOps3 (V6 m (leftBy m) c)) = _; rw [V6_eq]
theorem V9_eq (c : Dev nD) : V9 m (leftBy m) c = B9 m c := by
  show Function.update (V8 m (leftBy m) c) main_v12 (leftBy m 9 main_v12 c) = _; rw [leftBy_v12, V8_eq]

/-! ## The proof data family and what rides beside the buffers -/

/-- Every call's proof data, each at its entry contents — a literal match, so that the family at a numeral is that call's. -/
def pdats : (p : Fin 4) → (c : Dev nD) → Dat τ (Elt F) Unit ℕ (UR sig nD τ) ℕ (cfgs p) c
  | ⟨0, _⟩ => fun c => Pool0.dat (at1 m) c
  | ⟨1, _⟩ => fun c => Pool1.dat (at3 m) c
  | ⟨2, _⟩ => fun c => Call2.dat (at5 m) c
  | ⟨3, _⟩ => fun c => Call3.dat (at8 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)

/-- The first pooling call leaves its input array as found and its result array at `left0`; every other buffer as found. -/
theorem arrays_after0 (c : Dev nD) (w : Fin cfg0.W) : (pdats m 0 c).arrAt w cfg0.N = B2 m c (Pipeline.arrRef spec0 w) := by
  match w with
  | ⟨0, _⟩ =>
    refine ((pdats m 0 c).arrAt_in 0 rfl _).trans ?_
    show B1 m c main_v0 = Function.update (B1 m c) main_v1 (left0 m c) main_v0
    rw [Function.update_of_ne (StableHlo.devRef_ne_of_ne (by decide) : (Proc.devRef .tc main_v0 : DevRef τ sig) ≠ Proc.devRef .tc main_v1)]
  | ⟨1, _⟩ =>
    show left0 m c = Function.update (B1 m c) main_v1 (left0 m c) main_v1
    rw [Function.update_self]
theorem rest_after0 (c : Dev nD) : ∀ b : Ref sig .tc, b ∉ Finset.univ.image (Pipeline.arrRef spec0) → B2 m c b = B1 m c b := by
  intro b hb
  have hne : b ≠ main_v1 := fun e => hb (Finset.mem_image.mpr ⟨1, Finset.mem_univ _, e.symm ▸ rfl⟩)
  show Function.update (B1 m c) main_v1 (left0 m c) b = _
  rw [Function.update_of_ne (StableHlo.devRef_ne_of_ne hne : (Proc.devRef .tc b : DevRef τ sig) ≠ Proc.devRef .tc main_v1)]

-- a library lemma stated over the pinned configuration unifies with the printed one only when unification may unfold
-- plain definitions in a metavariable's type
set_option backward.isDefEq.respectTransparency.types false in
/-- The first pooling call as a segment of @main: entered with every unscoped buffer at `B1`, left with them at `B2`. -/
def call0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pool0.body_obligation (at1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (at1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (at1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (at1 m c) (fun b => B2 m c b) ((pdats m 0 c).arrAt · cfg0.N) (arrays_after0 m c) (rest_after0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second pooling call leaves its input array as found and its result array at `left1`; every other buffer as found. -/
theorem arrays_after1 (c : Dev nD) (w : Fin cfg1.W) : (pdats m 1 c).arrAt w cfg1.N = B4 m c (Pipeline.arrRef spec1 w) := by
  match w with
  | ⟨0, _⟩ =>
    refine ((pdats m 1 c).arrAt_in 0 rfl _).trans ?_
    show B3 m c main_v2 = Function.update (B3 m c) main_v3 (left1 m c) main_v2
    rw [Function.update_of_ne (StableHlo.devRef_ne_of_ne (by decide) : (Proc.devRef .tc main_v2 : DevRef τ sig) ≠ Proc.devRef .tc main_v3)]
  | ⟨1, _⟩ =>
    show left1 m c = Function.update (B3 m c) main_v3 (left1 m c) main_v3
    rw [Function.update_self]
theorem rest_after1 (c : Dev nD) : ∀ b : Ref sig .tc, b ∉ Finset.univ.image (Pipeline.arrRef spec1) → B4 m c b = B3 m c b := by
  intro b hb
  have hne : b ≠ main_v3 := fun e => hb (Finset.mem_image.mpr ⟨1, Finset.mem_univ _, e.symm ▸ rfl⟩)
  show Function.update (B3 m c) main_v3 (left1 m c) b = _
  rw [Function.update_of_ne (StableHlo.devRef_ne_of_ne hne : (Proc.devRef .tc b : DevRef τ sig) ≠ Proc.devRef .tc main_v3)]

-- a library lemma stated over the pinned configuration unifies with the printed one only when unification may unfold
-- plain definitions in a metavariable's type
set_option backward.isDefEq.respectTransparency.types false in
/-- The second pooling call as a segment of @main: entered with every unscoped buffer at `B3`, left with them at `B4`. -/
def call1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pool1.body_obligation (at3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (at3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (at3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (at3 m c) (fun b => B4 m c b) ((pdats m 1 c).arrAt · cfg1.N) (arrays_after1 m c) (rest_after1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The first matrix-product call leaves its input arrays as found and its result array at `left2`; every other buffer as found. -/
theorem arrays_after2 (c : Dev nD) (w : Fin cfg2.W) : (pdats m 2 c).arrAt w cfg2.N = B6 m c (Pipeline.arrRef spec2 w) :=
  arrays_after_any2 c (B5 m c) (left2 m c) (Call2.dat (at5 m) c) (fun w => Call2.dat_A (at5 m) c w) rfl w
theorem rest_after2 (c : Dev nD) : ∀ b : Ref sig .tc, b ∉ Finset.univ.image (Pipeline.arrRef spec2) → B6 m c b = B5 m c b := by
  intro b hb
  have hne : b ≠ main_v7 := fun e => hb (Finset.mem_image.mpr ⟨3, Finset.mem_univ _, e.symm ▸ rfl⟩)
  show Function.update (B5 m c) main_v7 (left2 m c) b = _
  rw [Function.update_of_ne (StableHlo.devRef_ne_of_ne hne : (Proc.devRef .tc b : DevRef τ sig) ≠ Proc.devRef .tc main_v7)]

set_option backward.isDefEq.respectTransparency.types false in
/-- The first matrix-product call as a segment of @main: entered with every unscoped buffer at `B5`, left with them at `B6`. Its
    invariant takes the scoped buffers no window stages (the accumulator among them) and the generator register in at the
    first point and gives them back after the last. -/
def call2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Call2.body_obligation (at5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec2 c (at5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (at5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Call2.phi_in (at5 m) c
    unfold Pipeline.ΦA at h
    rw [show (pdats m 2 c).Φ 0 = (Call2.dat (at5 m) c).Φ 0 from rfl]
    iintro ⟨Hp, -, Hr⟩
    iapply h
    isplitl [Hr]; · iexact Hr
    iexact Hp
  hout c := by
    have h := Call2.phi_out (at5 m) c
    unfold Pipeline.ΦA at h
    have hswap : (iprop(Pipeline.scopedRest (Ix := Unit) (Name := ℕ) (U := UR sig nD τ) (Lvl := ℕ) (Val := Elt F) spec2 c ∗ ∃ r, prngReg c r) : sProp 𝕄)
        ⊢ iprop((∃ r, prngReg c r) ∗ BI.emp ∗ Pipeline.scopedRest (Ix := Unit) (Name := ℕ) (U := UR sig nD τ) (Lvl := ℕ) (Val := Elt F) spec2 c) := by
      iintro ⟨Hr, Hp⟩
      isplitl [Hp]; · iexact Hp
      isplitr; · iempintro
      iexact Hr
    rw [Pipeline.ownSems0_none, show (pdats m 2 c).Φ (Fin.last _) = (Call2.dat (at5 m) c).Φ (Fin.last cfg2.N) from rfl]
    exact h.trans hswap
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (at5 m c) (fun b => B6 m c b) ((pdats m 2 c).arrAt · cfg2.N) (arrays_after2 m c) (rest_after2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The normalise-and-multiply call leaves its input arrays as found and its result array at `left3`; every other buffer as found. -/
theorem arrays_after3 (c : Dev nD) (w : Fin cfg3.W) : (pdats m 3 c).arrAt w cfg3.N = B9 m c (Pipeline.arrRef spec3 w) :=
  arrays_after_any3 c (B8 m c) (left3 m c) (Call3.dat (at8 m) c) (fun w => Call3.dat_A (at8 m) c w) rfl w
theorem rest_after3 (c : Dev nD) : ∀ b : Ref sig .tc, b ∉ Finset.univ.image (Pipeline.arrRef spec3) → B9 m c b = B8 m c b := by
  intro b hb
  have hne : b ≠ main_v12 := fun e => hb (Finset.mem_image.mpr ⟨7, Finset.mem_univ _, e.symm ▸ rfl⟩)
  show Function.update (B8 m c) main_v12 (left3 m c) b = _
  rw [Function.update_of_ne (StableHlo.devRef_ne_of_ne hne : (Proc.devRef .tc b : DevRef τ sig) ≠ Proc.devRef .tc main_v12)]

set_option backward.isDefEq.respectTransparency.types false in
/-- The normalise-and-multiply call as a segment of @main: entered with every unscoped buffer at `B8`, left with them at `B9`. Its
    invariant takes the scoped buffers no window stages (the accumulator among them) and the generator register in at the
    first point and gives them back after the last. -/
def call3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Call3.body_obligation (at8 m) c).loose
  hwaits := Pipeline.hwaits_of_owed_zero _ _ _ _ L lv 3 fun _ _ => rfl
  pre c := iprop(StableHlo.held (c : Thread nD τ) (Pipeline.ucRefs τ sig) (B8 m c) ∗ R c)
  post c := iprop(StableHlo.held (c : Thread nD τ) (Pipeline.ucRefs τ sig) (B9 m c) ∗ R c)
  X c := iprop(∃ r, prngReg c r)
  Y c := iprop(∃ r, prngReg c r)
  Z c := Pipeline.unscopedRest (Ix := Unit) (Name := ℕ) (U := UR sig nD τ) (Lvl := ℕ) spec3 c (at8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (at8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Call3.phi_in (at8 m) c
    unfold Pipeline.ΦA at h
    rw [show (pdats m 3 c).Φ 0 = (Call3.dat (at8 m) c).Φ 0 from rfl]
    iintro ⟨Hp, -, Hr⟩
    iapply h
    isplitl [Hr]; · iexact Hr
    iexact Hp
  hout c := by
    have h := Call3.phi_out (at8 m) c
    unfold Pipeline.ΦA at h
    have hswap : (iprop(Pipeline.scopedRest (Ix := Unit) (Name := ℕ) (U := UR sig nD τ) (Lvl := ℕ) (Val := Elt F) spec3 c ∗ ∃ r, prngReg c r) : sProp 𝕄)
        ⊢ iprop((∃ r, prngReg c r) ∗ BI.emp ∗ Pipeline.scopedRest (Ix := Unit) (Name := ℕ) (U := UR sig nD τ) (Lvl := ℕ) (Val := Elt F) spec3 c) := by
      iintro ⟨Hr, Hp⟩
      isplitl [Hp]; · iexact Hp
      isplitr; · iempintro
      iexact Hr
    rw [Pipeline.ownSems0_none, show (pdats m 3 c).Φ (Fin.last _) = (Call3.dat (at8 m) c).Φ (Fin.last cfg3.N) from rfl]
    exact h.trans hswap
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (at8 m c) (fun b => B9 m c b) ((pdats m 3 c).arrAt · cfg3.N) (arrays_after3 m c) (rest_after3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- At the launch each core keeps, of what it is dealt, its generator register and its empty account of what it owes. -/
theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts L lv)
      ⊢ (|={Set.univ}=> bigSep Finset.univ (fun c => R c) : sProp 𝕄) := by
  have hcore : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c) : sProp 𝕄) ⊢ R c := fun c => by
    iintro ⟨-, HO, -, Hp, -⟩
    isplitl [Hp]; · iexists _; iexact Hp
    iexists ∅; iexact HO
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c))
      ⊢ (bigSep Finset.univ (fun c => R c) : sProp 𝕄) :=
    bigSep_mono fun c _ => hcore c
  iintro ⟨H, -⟩
  imodintro
  iapply hmono
  iexact H

/-- @main run to its end: every weakly fair execution terminates, nothing faults, and every unscoped TensorCore buffer ends at
    the last boundary's valuation over what the four calls leave. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V13 m (leftBy m) c b) :=
  run_cond m emb₁ () 𝒱₀ L lv (fun _ _ => rfl) ρ (leftBy m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (rest_init ρ)
    (fun c => by iintro ⟨-, H⟩; iexact H)
    (call0 m) (fun c => .rfl) (fun c => by rw [V2_eq]; exact .rfl)
    (call1 m) (fun c => by rw [V3_eq]; exact .rfl) (fun c => by rw [V4_eq]; exact .rfl)
    (call2 m) (fun c => by rw [V5_eq]; exact .rfl) (fun c => by rw [V6_eq]; exact .rfl)
    (call3 m) (fun c => by rw [V8_eq]; exact .rfl) (fun c => by rw [V9_eq]; exact .rfl)

/-- Each argument array ends as launched. -/
theorem args_kept (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (V13_main_arg0 m (leftBy m) c),
     (h c _ (mem_uc main_arg1 (by decide))).trans (V13_main_arg1 m (leftBy m) c),
     (h c _ (mem_uc main_arg2 (by decide))).trans (V13_main_arg2 m (leftBy m) c),
     (h c _ (mem_uc main_arg3 (by decide))).trans (V13_main_arg3 m (leftBy m) c),
     (h c _ (mem_uc main_arg4 (by decide))).trans (V13_main_arg4 m (leftBy m) c),
     (h c _ (mem_uc main_arg5 (by decide))).trans (V13_main_arg5 m (leftBy m) c),
     (h c _ (mem_uc main_arg6 (by decide))).trans (V13_main_arg6 m (leftBy m) c),
     (h c _ (mem_uc main_arg7 (by decide))).trans (V13_main_arg7 m (leftBy m) c),
     (h c _ (mem_uc main_arg8 (by decide))).trans (V13_main_arg8 m (leftBy m) c),
     (h c _ (mem_uc main_arg9 (by decide))).trans (V13_main_arg9 m (leftBy m) c)⟩) (run_all m ρ)

end Cert.Kernel.Whole

end
-- ==== Proof.WholeRunKernelIdeal.lean ====
/-
  @main of the four-call program run to its end, GIVEN one segment record per kernel call: every weakly fair execution
  terminates, nothing faults, and in every final state each unscoped TensorCore buffer holds what the last boundary's
  valuation says — the launch contents pushed through each stretch of host operations and updated, at each call's result
  array, by what that call leaves. Both the frame (an argument array is written by no stretch and no call) and the value
  (the two results are buffers of the last stretch) are read off this one run.
-/
import proofs.«154134_j25494925869443_2_alg».proof.Proof.RegionsPatchedKernelIdeal

set_option maxRecDepth 1120

noncomputable section

namespace Cert.KernelIdeal.Whole

open Cert.KernelIdeal Cert.KernelIdeal.Gen Cert.KernelIdeal.GenP
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- the library's launch theorem finds its implicit arguments by unifying its conclusion with this one, which takes
-- unfolding plain definitions in a metavariable's type
set_option backward.isDefEq.respectTransparency.types false in
/-- The run of @main from the four calls' records, each entered from the thread state before it and left at the one
    after it: the final memory agrees with the last valuation on every unscoped TensorCore buffer. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 4) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 5 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE4 : ∀ c : Dev nD, E 4 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V8 m outs c) ∗ E 3 c) ⊢ R3.pre c)
    (hpost3 : ∀ c : Dev nD, R3.post c ⊢ iprop(StableHlo.held (c : Thread nD τ) (Pipeline.ucRefs τ sig) (V9 m outs c) ∗ E 4 c)) :
    θ_run defs (onTc (τ := τ) (main (F := F))) ⟨m, fun _ => 0, ρ⟩ (fun r => ∀ c : Dev nD,
      ∀ b ∈ Pipeline.ucRefs τ sig, r.2.mem ((c : Thread nD τ).1, b) = V13 m outs c b) := by
  refine Pipeline.θ_run_regions_kit_dev (pcfgs (F := F)) adm pdats ι cellOf_inj EP defs₀ 𝒱₀ L lv m ρ main
    (segs m outs 𝒱₀ L lv E ι pdats R0 R1 R2 R3)
    (fun c Q => by
      rewrite [main_chain c, Seg.run_eq_chain,
        show (segs m outs 𝒱₀ L lv E ι pdats R0 R1 R2 R3 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          Prog.lift (.customCall (Pipeline.entry 3) ()),
          StableHlo.seq hostOps4,
          StableHlo.seq hostOps4_1,
          StableHlo.seq hostOps4_2,
          StableHlo.seq hostOps4_3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, hpre0 c, hpost0 c, hpre1 c, hpost1 c, hpre2 c, hpost2 c, .rfl, hpre3 c, hpost3 c, .rfl, .rfl, .rfl, sep_mono .rfl (hE4 c)⟩)
    (hinit := ?_)
    (QY := fun c s => ∀ b ∈ Pipeline.ucRefs τ sig, s.mem ((c : Thread nD τ).1, b) = V13 m outs c b)
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact h
    · iexact HSI

end Cert.KernelIdeal.Whole

end
-- ==== Proof.PoolCall0KernelIdeal.lean ====
/-
  The first pooling call (pipeline 0 of @main). Its input is a [256, 2048, 64] array cut into 2 × 8 blocks of
  [128, 256, 64]; at each grid point the body sums its block along the last axis (64 entries), scales the sums by 2⁻⁶ and
  stores them as one [128, 256] block of the [256, 2048] result, so the result is the mean over the last axis.
  Here: what a point leaves in the result's staging buffer as a function of the input block (`pooled`), the body run on
  whole staging buffers, the proof data of the call entered from any buffer contents `V`, and the body obligation.
-/
import proofs.«154134_j25494925869443_2_alg».proof.Proof.LaunchPatchedKernelIdeal
import proofs.«154134_j25494925869443_2_alg».proof.Proof.Gen.KernelIdeal.Points
import proofs.«154134_j25494925869443_2_alg».proof.Proof.Gen.KernelIdeal.Skeleton
import Idealize.ShloMosaic.Lib.Pipeline.Frame
import Idealize.ShloMosaic.Lib.Pipeline.FrameBody
import Idealize.ShloMosaic.Lib.Tactic

set_option maxRecDepth 16384

noncomputable section

namespace Cert.KernelIdeal.Pool0

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-- The block of window `w` at grid point `t`, read off its array as the call finds it. -/
def blockAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the point's block whenever the body runs: every point fetches it, the blocks tile
    the array (nothing is cut), and the body leaves the buffer as it found it. -/
theorem staged_in {c : Dev nD} (dat : Dat τ (Elt F) Unit ℕ (UR sig nD τ) ℕ cfg0 c) (hA : dat.A 0 = V c (Pipeline.arrRef spec0 0))
    (hafter : ∀ t, dat.after 0 t = blockAt V c 0 t) (t : Fin cfg0.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The two rectangles the body touches: the whole input block and the whole output block. -/
abbrev inBox : Rect S128x256x64 := Rect.unit (s := S128x256x64) ![0, 0, 0] S128x256x64.size inb_S128x256x64_S128x256x64_0_0_0
abbrev outBox : Rect S128x256 := Rect.unit (s := S128x256) ![0, 0] S128x256.size inb_S128x256_S128x256_0_0

/-- What a point leaves in the result's staging buffer, from the input block `x`: one store of the whole block, its
    value the scaled sums along the last axis of what the body loaded. -/
def pooled (x : Vec F S128x256x64 .f32) : Vec F S128x256 .f32 :=
  View.canon [⟨outBox, k0_pay1 (View.ld x inBox)⟩]

/-- That one store covers the buffer. -/
theorem pooled_cover (p : Vec F S128x256 .f32) (y : S128x256.Idx) :
    ∃ pc ∈ ([⟨outBox, p⟩] : List (View.Piece (Elt F) S128x256 .f32)), y ∈ pc.1.set :=
  View.cover_of_tiled [⟨outBox, p⟩] S128x256.size (by rfl) y

set_option maxHeartbeats 1000000 in
/-- The body on whole staging buffers, the input's at contents `x` and the result's at anything: it runs to its return
    with the input's buffer as it was and the result's at `pooled x`. -/
theorem body_runs (c : Dev nD) (E : Set ℕ) (i : grid0.Coords) (a : Memref sig .tc .vmem S128x256x64 .f32) (ha : a.IsWhole)
    (b : Memref sig .tc .vmem S128x256 .f32) (hb : b.IsWhole) (x : Vec F S128x256x64 .f32) (K : PUnit → sProp 𝕄) :
    iprop(owns (c : Thread nD τ) a fullShare x ∗ (∃ d, owns (c : Thread nD τ) b fullShare d)
        ∗ (iprop(owns (c : Thread nD τ) a fullShare x ∗ owns (c : Thread nD τ) b fullShare (pooled x)) -∗ K ⟨⟩))
      ⊢ wp frame (wpE (defs₀ (F := F)) Variants.none c none) E (cc0__pool_mean_kernel i a ha b hb) K := by
  simp only [cc0__pool_mean_kernel_eq_skeleton]; unfold cc0__pool_mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (pooled_cover _)

/-- The proof data of the call on core `c`: the arrays as found; after the body at point `t` the input's buffer at its
    block and the result's at `pooled` of that block; the invariant the scoped buffers no window stages and the generator
    register, untouched; nothing owed; full shares. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => pooled (blockAt V c 0 t)
  Φ _ := Pipeline.ΦA spec0 c
  q _ := fullShare
  owed _ := 0

theorem dat_A (c : Dev nD) (w : Fin cfg0.W) : (dat V c).A w = V c (Pipeline.arrRef spec0 w) := by
  dsimp only [dat]
theorem dat_after_in (c : Dev nD) (t : Fin cfg0.N) : (dat V c).after 0 t = blockAt V c 0 t := by dsimp only [dat]
theorem dat_after_out (c : Dev nD) (t : Fin cfg0.N) : (dat V c).after 1 t = pooled (blockAt V c 0 t) := by dsimp only [dat]

theorem dat_before_in (c : Dev nD) (t : Fin cfg0.N) (d) : (dat V c).before 0 t d = blockAt V c 0 t :=
  staged_in V (dat V c) (dat_A V c 0) (dat_after_in V c) t d

/-- What the body is called with at point `t`, and what it returns. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

/-- The body at any point: the input's buffer holds its block, so `body_runs` applies; the invariant and what the core
    owes pass through unread. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [dat_before_in]
  rw [show (dat V c).Φ t.succ = (dat V c).Φ t.castSucc from rfl,
    show (dat V c).owesAt () t.succ = (dat V c).owesAt () t.castSucc from rfl,
    dat_after_in, dat_after_out]
  iintro ⟨HΦ, Ho, ⟨%d0, H0⟩, ⟨%d1, H1⟩⟩
  iapply (body_runs c Set.univ _ _ _ _ _ (blockAt V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the call, at every point. -/
theorem body_obligation (c : Dev nD) : BodyObligation (dat (F := F) V c) (defs₀ (F := F)) Variants.none () Set.univ := fun t => by
  rw [bigSep_W0, bigSep_W0]
  exact body_at V c t

end Cert.KernelIdeal.Pool0

end
-- ==== Proof.PoolCall1KernelIdeal.lean ====
/-
  The second pooling call (pipeline 1 of @main). Its input is a [256, 2048, 64] array cut into 2 × 8 blocks of
  [128, 256, 64]; at each grid point the body sums its block along the last axis (64 entries), scales the sums by 2⁻⁶ and
  stores them as one [128, 256] block of the [256, 2048] result, so the result is the mean over the last axis.
  Here: what a point leaves in the result's staging buffer as a function of the input block (`pooled`), the body run on
  whole staging buffers, the proof data of the call entered from any buffer contents `V`, and the body obligation.
-/
import proofs.«154134_j25494925869443_2_alg».proof.Proof.LaunchPatchedKernelIdeal
import proofs.«154134_j25494925869443_2_alg».proof.Proof.Gen.KernelIdeal.Points
import proofs.«154134_j25494925869443_2_alg».proof.Proof.Gen.KernelIdeal.Skeleton
import Idealize.ShloMosaic.Lib.Pipeline.Frame
import Idealize.ShloMosaic.Lib.Pipeline.FrameBody
import Idealize.ShloMosaic.Lib.Tactic

set_option maxRecDepth 16384

noncomputable section

namespace Cert.KernelIdeal.Pool1

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-- The block of window `w` at grid point `t`, read off its array as the call finds it. -/
def blockAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer holds the point's block whenever the body runs: every point fetches it, the blocks tile
    the array (nothing is cut), and the body leaves the buffer as it found it. -/
theorem staged_in {c : Dev nD} (dat : Dat τ (Elt F) Unit ℕ (UR sig nD τ) ℕ cfg1 c) (hA : dat.A 0 = V c (Pipeline.arrRef spec1 0))
    (hafter : ∀ t, dat.after 0 t = blockAt V c 0 t) (t : Fin cfg1.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- The two rectangles the body touches: the whole input block and the whole output block. -/
abbrev inBox : Rect S128x256x64 := Rect.unit (s := S128x256x64) ![0, 0, 0] S128x256x64.size inb_S128x256x64_S128x256x64_0_0_0
abbrev outBox : Rect S128x256 := Rect.unit (s := S128x256) ![0, 0] S128x256.size inb_S128x256_S128x256_0_0

/-- What a point leaves in the result's staging buffer, from the input block `x`: one store of the whole block, its
    value the scaled sums along the last axis of what the body loaded. -/
def pooled (x : Vec F S128x256x64 .f32) : Vec F S128x256 .f32 :=
  View.canon [⟨outBox, k1_pay1 (View.ld x inBox)⟩]

/-- That one store covers the buffer. -/
theorem pooled_cover (p : Vec F S128x256 .f32) (y : S128x256.Idx) :
    ∃ pc ∈ ([⟨outBox, p⟩] : List (View.Piece (Elt F) S128x256 .f32)), y ∈ pc.1.set :=
  View.cover_of_tiled [⟨outBox, p⟩] S128x256.size (by rfl) y

set_option maxHeartbeats 1000000 in
/-- The body on whole staging buffers, the input's at contents `x` and the result's at anything: it runs to its return
    with the input's buffer as it was and the result's at `pooled x`. -/
theorem body_runs (c : Dev nD) (E : Set ℕ) (i : grid1.Coords) (a : Memref sig .tc .vmem S128x256x64 .f32) (ha : a.IsWhole)
    (b : Memref sig .tc .vmem S128x256 .f32) (hb : b.IsWhole) (x : Vec F S128x256x64 .f32) (K : PUnit → sProp 𝕄) :
    iprop(owns (c : Thread nD τ) a fullShare x ∗ (∃ d, owns (c : Thread nD τ) b fullShare d)
        ∗ (iprop(owns (c : Thread nD τ) a fullShare x ∗ owns (c : Thread nD τ) b fullShare (pooled x)) -∗ K ⟨⟩))
      ⊢ wp frame (wpE (defs₀ (F := F)) Variants.none c none) E (cc1__pool_mean_kernel i a ha b hb) K := by
  simp only [cc1__pool_mean_kernel_eq_skeleton]; unfold cc1__pool_mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (pooled_cover _)

/-- The proof data of the call on core `c`: the arrays as found; after the body at point `t` the input's buffer at its
    block and the result's at `pooled` of that block; the invariant the scoped buffers no window stages and the generator
    register, untouched; nothing owed; full shares. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => pooled (blockAt V c 0 t)
  Φ _ := Pipeline.ΦA spec1 c
  q _ := fullShare
  owed _ := 0

theorem dat_A (c : Dev nD) (w : Fin cfg1.W) : (dat V c).A w = V c (Pipeline.arrRef spec1 w) := by
  dsimp only [dat]
theorem dat_after_in (c : Dev nD) (t : Fin cfg1.N) : (dat V c).after 0 t = blockAt V c 0 t := by dsimp only [dat]
theorem dat_after_out (c : Dev nD) (t : Fin cfg1.N) : (dat V c).after 1 t = pooled (blockAt V c 0 t) := by dsimp only [dat]

theorem dat_before_in (c : Dev nD) (t : Fin cfg1.N) (d) : (dat V c).before 0 t d = blockAt V c 0 t :=
  staged_in V (dat V c) (dat_A V c 0) (dat_after_in V c) t d

/-- What the body is called with at point `t`, and what it returns. -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d)))
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t))

/-- The body at any point: the input's buffer holds its block, so `body_runs` applies; the invariant and what the core
    owes pass through unread. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [dat_before_in]
  rw [show (dat V c).Φ t.succ = (dat V c).Φ t.castSucc from rfl,
    show (dat V c).owesAt () t.succ = (dat V c).owesAt () t.castSucc from rfl,
    dat_after_in, dat_after_out]
  iintro ⟨HΦ, Ho, ⟨%d0, H0⟩, ⟨%d1, H1⟩⟩
  iapply (body_runs c Set.univ _ _ _ _ _ (blockAt V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the call, at every point. -/
theorem body_obligation (c : Dev nD) : BodyObligation (dat (F := F) V c) (defs₀ (F := F)) Variants.none () Set.univ := fun t => by
  rw [bigSep_W1, bigSep_W1]
  exact body_at V c t

end Cert.KernelIdeal.Pool1

end
-- ==== Proof.MatmulCall2KernelIdeal.lean ====
/-
  The matmul-with-bias call (pipeline 2 of @main). The left operand [512, 2048] is cut along its columns into 4 blocks
  of [512, 512], the right operand [2048, 2048] along its rows into 4 blocks of [512, 2048]; the grid has one axis
  k = 0..3. An accumulator buffer [512, 2048] that no window stages is carried from point to point: the first point
  fills it with zeros, every point adds the product of its two blocks to it, and the last point adds the bias, spread
  over the rows, to the accumulated sum and stores that as the one [512, 2048] block of the result.
  Here: the three ways the body runs (first, middle, last point), what each leaves in the accumulator and in the result's
  staging buffer, the invariant that carries the accumulator's contents from a point to the next, the proof data of
  the call entered from any buffer contents `V`, and the body obligation.
-/
import proofs.«154134_j25494925869443_2_alg».proof.Proof.LaunchPatchedKernelIdeal
import proofs.«154134_j25494925869443_2_alg».proof.Proof.Gen.KernelIdeal.Points
import proofs.«154134_j25494925869443_2_alg».proof.Proof.Gen.KernelIdeal.Skeleton
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.KernelIdeal.Call2

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## The blocks the windows stage -/

/-- The block of window `w` at grid point `t`, read off its array as the call finds it. -/
def blockAt (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's staging buffer holds the point's block whenever the body runs, fetched at that point or not (an unfetched
    point has the block index of the point before, whose block the body left in place): the left operand's, -/
theorem staged_lhs {c : Dev nD} (dat : Dat τ (Elt F) Unit ℕ (UR sig nD τ) ℕ cfg2 c) (hA : dat.A 0 = V c (Pipeline.arrRef spec2 0))
    (hafter : ∀ t, dat.after 0 t = blockAt V c 0 t) (t : Fin cfg2.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- the right operand's, -/
theorem staged_rhs {c : Dev nD} (dat : Dat τ (Elt F) Unit ℕ (UR sig nD τ) ℕ cfg2 c) (hA : dat.A 1 = V c (Pipeline.arrRef spec2 1))
    (hafter : ∀ t, dat.after 1 t = blockAt V c 1 t) (t : Fin cfg2.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- and the bias's, which only the first point fetches. -/
theorem staged_bias {c : Dev nD} (dat : Dat τ (Elt F) Unit ℕ (UR sig nD τ) ℕ cfg2 c) (hA : dat.A 2 = V c (Pipeline.arrRef spec2 2))
    (hafter : ∀ t, dat.after 2 t = blockAt V c 2 t) (t : Fin cfg2.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body's two conditions, over the grid -/

/-- The condition under which the body zeroes the accumulator, from the grid coordinate. -/
abbrev atFirst (i : grid2.Coords) : Prop := (Scalar.cmpi .ne (Scalar.extui (Scalar.cmpi .eq (BitVec.ofNat 32 (i 0).val) 0#32)) 0#32) = 1#1
/-- It holds at point 0 only. -/
theorem atFirst_iff : ∀ t : Fin cfg2.N, atFirst (grid2.coords t) ↔ t.val = 0 :=
  (by decide +kernel : ∀ t : Fin grid2.N, atFirst (grid2.coords t) ↔ t.val = 0)

/-- The condition under which the body stores the result. -/
abbrev atLast (i : grid2.Coords) : Prop := k2_cond2 i = 1#1
/-- It holds at point 3 only. -/
theorem atLast_iff : ∀ t : Fin cfg2.N, atLast (grid2.coords t) ↔ t.val = 3 :=
  (by decide +kernel : ∀ t : Fin grid2.N, atLast (grid2.coords t) ↔ t.val = 3)

/-- The inputs are never idle; the result's window is idle, and not written back, exactly where the body does not
    store it. -/
theorem live_lhs : ∀ t : Fin cfg2.N, cfg2.idle 0 (grid2.coords t) = false := by decide +kernel
theorem live_rhs : ∀ t : Fin cfg2.N, cfg2.idle 1 (grid2.coords t) = false := by decide +kernel
theorem live_bias : ∀ t : Fin cfg2.N, cfg2.idle 2 (grid2.coords t) = false := by decide +kernel
theorem idle_out : ∀ t : Fin cfg2.N, ¬atLast (grid2.coords t) → cfg2.idle 3 (grid2.coords t) = true := by decide +kernel
theorem noFlush_out : ∀ t : Fin cfg2.N, ¬atLast (grid2.coords t) → (cfg2.win 3).flush t = false := by decide +kernel
theorem live_out : ∀ t : Fin cfg2.N, atLast (grid2.coords t) → cfg2.idle 3 (grid2.coords t) = false := by decide +kernel

/-! ## The accumulator buffer and the rest of the invariant -/

/-- The accumulator: a whole buffer of the kernel's own, passed to the body beside the windows. -/
abbrev acc : Memref sig .tc .vmem S512x2048 .f32 := Memref.whole cc2_scratch0

/-- The accumulator at some contents. -/
abbrev accAny (c : Dev nD) : sProp 𝕄 := iprop(∃ d, owns (c : Thread nD τ) acc fullShare d)

/-- What the class's invariant holds beside the accumulator: whatever gives the invariant back once the accumulator
    returns at some contents. -/
def accRest (c : Dev nD) : sProp 𝕄 := iprop(accAny (F := F) c -∗ Pipeline.ΦA spec2 c)

/-- The invariant is the accumulator at some contents and the rest: the accumulator is one of the scoped buffers no
    window stages. -/
theorem PhiA_split (c : Dev nD) : (Pipeline.ΦA spec2 c : sProp 𝕄) ⊢ iprop(accAny (F := F) c ∗ accRest (F := F) c) := by
  unfold accRest accAny Pipeline.ΦA; rw [scopedRest2_eq]; simp only [acc, owns_whole]
  iintro ⟨⟨B0, B1, B2, B3, B4, B5, B6, B7, S, B9, B10, B11, B12, B13, B14, B15, B16, B17, B18, B19, B20, B21, B22, B23⟩, Hg⟩
  isplitl [S]; · iexact S
  iintro S
  iframe

theorem PhiA_join (c : Dev nD) : iprop(accAny (F := F) c ∗ accRest (F := F) c) ⊢ (Pipeline.ΦA spec2 c : sProp 𝕄) := by
  unfold accRest
  iintro ⟨S, Hw⟩
  iapply Hw
  iexact S

/-! ## The body on whole buffers, in its three cases -/

set_option maxHeartbeats 1000000 in
/-- THE FIRST POINT. On whole buffers — the operands' at their blocks `x0`, `x1`, the bias's and the result's at any
    contents, handed back untouched, the accumulator at anything — the body runs to its return with the accumulator
    written by the pieces `LS` (last store first: the accumulated product over the zero fill). The pieces are what the
    run of the skeleton finds. -/
noncomputable def runFirst (c : Dev nD) (i : grid2.Coords)
    (a : Memref sig .tc .vmem S512x512 .f32) (ha : a.IsWhole) (b : Memref sig .tc .vmem S512x2048 .f32) (hb : b.IsWhole)
    (bi : Memref sig .tc .vmem S2048 .f32) (hbi : bi.IsWhole) (o : Memref sig .tc .vmem S512x2048 .f32) (ho : o.IsWhole)
    (s : Memref sig .tc .vmem S512x2048 .f32) (hs : s.IsWhole) (h0 : atFirst i) (h1 : ¬atLast i)
    (x0 : Vec F S512x512 .f32) (x1 : Vec F S512x2048 .f32) :
    { LS : List (View.Piece (Elt F) S512x2048 .f32) //
      ∀ (x2 : Vec F S2048 .f32) (xo : Vec F S512x2048 .f32) (E : Set ℕ) (K : PUnit → sProp 𝕄),
        iprop(owns (c : Thread nD τ) a fullShare x0 ∗ owns (c : Thread nD τ) b fullShare x1 ∗ owns (c : Thread nD τ) bi fullShare x2
            ∗ owns (c : Thread nD τ) o fullShare xo ∗ (∃ d, owns (c : Thread nD τ) s fullShare d)
            ∗ (iprop(owns (c : Thread nD τ) a fullShare x0 ∗ owns (c : Thread nD τ) b fullShare x1 ∗ owns (c : Thread nD τ) bi fullShare x2
                ∗ owns (c : Thread nD τ) o fullShare xo
                ∗ (∃ f, s.view.loc (c : Thread nD τ) ↦[s.view.set]{fullShare} s.view.writes (Elt F) f LS)) -∗ K ⟨⟩))
          ⊢ wp frame (wpE (defs₀ (F := F)) Variants.none c none) E (cc2__matmul_bias_kernel i a ha b hb bi hbi o ho s hs) K } := by
  refine ⟨?_, fun x2 xo E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := ha.eq_unread hf0; obtain rfl := hb.eq_unread hf1; obtain rfl := hbi.eq_unread hf2; obtain rfl := ho.eq_unread hf3
    sl_exec (disch := first | exact h0 | exact h1)
    sl_step
    iapply Hk
    isplitl [H0]
    · iexists _; isplitr; · ipureintro; exact ha.read_unread _
      iexact H0
    isplitl [H1]
    · iexists _; isplitr; · ipureintro; exact hb.read_unread _
      iexact H1
    isplitl [H2]
    · iexists _; isplitr; · ipureintro; exact hbi.read_unread _
      iexact H2
    isplitl [H3]
    · iexists _; isplitr; · ipureintro; exact ho.read_unread _
      iexact H3
    iexists _; iexact HS

set_option maxHeartbeats 1000000 in
/-- A MIDDLE POINT. The same with the accumulator at the contents `xs` the point before left: the pieces are the one
    store of the accumulated product over `xs`. -/
noncomputable def runMiddle (c : Dev nD) (i : grid2.Coords)
    (a : Memref sig .tc .vmem S512x512 .f32) (ha : a.IsWhole) (b : Memref sig .tc .vmem S512x2048 .f32) (hb : b.IsWhole)
    (bi : Memref sig .tc .vmem S2048 .f32) (hbi : bi.IsWhole) (o : Memref sig .tc .vmem S512x2048 .f32) (ho : o.IsWhole)
    (s : Memref sig .tc .vmem S512x2048 .f32) (hs : s.IsWhole) (h0 : ¬atFirst i) (h1 : ¬atLast i)
    (x0 : Vec F S512x512 .f32) (x1 : Vec F S512x2048 .f32) (xs : Vec F S512x2048 .f32) :
    { LS : List (View.Piece (Elt F) S512x2048 .f32) //
      ∀ (x2 : Vec F S2048 .f32) (xo : Vec F S512x2048 .f32) (E : Set ℕ) (K : PUnit → sProp 𝕄),
        iprop(owns (c : Thread nD τ) a fullShare x0 ∗ owns (c : Thread nD τ) b fullShare x1 ∗ owns (c : Thread nD τ) bi fullShare x2
            ∗ owns (c : Thread nD τ) o fullShare xo ∗ owns (c : Thread nD τ) s fullShare xs
            ∗ (iprop(owns (c : Thread nD τ) a fullShare x0 ∗ owns (c : Thread nD τ) b fullShare x1 ∗ owns (c : Thread nD τ) bi fullShare x2
                ∗ owns (c : Thread nD τ) o fullShare xo
                ∗ (∃ f, s.view.loc (c : Thread nD τ) ↦[s.view.set]{fullShare} s.view.writes (Elt F) f LS)) -∗ K ⟨⟩))
          ⊢ wp frame (wpE (defs₀ (F := F)) Variants.none c none) E (cc2__matmul_bias_kernel i a ha b hb bi hbi o ho s hs) K } := by
  refine ⟨?_, fun x2 xo E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := ha.eq_unread hf0; obtain rfl := hb.eq_unread hf1; obtain rfl := hbi.eq_unread hf2; obtain rfl := ho.eq_unread hf3
    obtain rfl := hs.eq_unread hfs
    sl_exec (disch := first | exact h0 | exact h1)
    sl_step
    iapply Hk
    isplitl [H0]
    · iexists _; isplitr; · ipureintro; exact ha.read_unread _
      iexact H0
    isplitl [H1]
    · iexists _; isplitr; · ipureintro; exact hb.read_unread _
      iexact H1
    isplitl [H2]
    · iexists _; isplitr; · ipureintro; exact hbi.read_unread _
      iexact H2
    isplitl [H3]
    · iexists _; isplitr; · ipureintro; exact ho.read_unread _
      iexact H3
    iexists _; iexact HS

set_option maxHeartbeats 1000000 in
/-- THE LAST POINT. The bias's buffer at its block `x2`, the result's at anything, the accumulator at `xs`: the
    accumulator is written as at a middle point, and the result's buffer by the pieces `LO` (the one store of the
    accumulated sum plus the bias). -/
noncomputable def runLast (c : Dev nD) (i : grid2.Coords)
    (a : Memref sig .tc .vmem S512x512 .f32) (ha : a.IsWhole) (b : Memref sig .tc .vmem S512x2048 .f32) (hb : b.IsWhole)
    (bi : Memref sig .tc .vmem S2048 .f32) (hbi : bi.IsWhole) (o : Memref sig .tc .vmem S512x2048 .f32) (ho : o.IsWhole)
    (s : Memref sig .tc .vmem S512x2048 .f32) (hs : s.IsWhole) (h0 : ¬atFirst i) (h1 : atLast i)
    (x0 : Vec F S512x512 .f32) (x1 : Vec F S512x2048 .f32) (x2 : Vec F S2048 .f32) (xs : Vec F S512x2048 .f32) :
    Σ' (LO : List (View.Piece (Elt F) S512x2048 .f32)), { LS : List (View.Piece (Elt F) S512x2048 .f32) //
      ∀ (E : Set ℕ) (K : PUnit → sProp 𝕄),
        iprop(owns (c : Thread nD τ) a fullShare x0 ∗ owns (c : Thread nD τ) b fullShare x1 ∗ owns (c : Thread nD τ) bi fullShare x2
            ∗ (∃ d, owns (c : Thread nD τ) o fullShare d) ∗ owns (c : Thread nD τ) s fullShare xs
            ∗ (iprop(owns (c : Thread nD τ) a fullShare x0 ∗ owns (c : Thread nD τ) b fullShare x1 ∗ owns (c : Thread nD τ) bi fullShare x2
                ∗ (∃ f, o.view.loc (c : Thread nD τ) ↦[o.view.set]{fullShare} o.view.writes (Elt F) f LO)
                ∗ (∃ f, s.view.loc (c : Thread nD τ) ↦[s.view.set]{fullShare} s.view.writes (Elt F) f LS)) -∗ K ⟨⟩))
          ⊢ wp frame (wpE (defs₀ (F := F)) Variants.none c none) E (cc2__matmul_bias_kernel i a ha b hb bi hbi o ho s hs) K } := by
  refine ⟨?_, ?_, fun E K => ?run⟩
  case run =>
    simp only [cc2__matmul_bias_kernel_eq_skeleton]; unfold cc2__matmul_bias_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := ha.eq_unread hf0; obtain rfl := hb.eq_unread hf1; obtain rfl := hbi.eq_unread hf2
    obtain rfl := hs.eq_unread hfs
    sl_exec (disch := first | exact h0 | exact h1)
    sl_step
    iapply Hk
    isplitl [H0]
    · iexists _; isplitr; · ipureintro; exact ha.read_unread _
      iexact H0
    isplitl [H1]
    · iexists _; isplitr; · ipureintro; exact hb.read_unread _
      iexact H1
    isplitl [H2]
    · iexists _; isplitr; · ipureintro; exact hbi.read_unread _
      iexact H2
    isplitl [H3]; · iexists _; iexact H3
    iexists _; iexact HS

/-! ## What each case leaves -/

/-- A view of the accumulator's shape through which the contents the stores leave are stated (they depend on neither
    the view nor what the buffer held before: the stores cover it). -/
abbrev accView : View sig .tc .vmem S512x2048 .f32 := (acc : Memref sig .tc .vmem S512x2048 .f32).view

/-- The staging memrefs the pipeline passes the body at point `t`, and their wholeness. -/
abbrev mLhs (t : Fin cfg2.N) : Memref sig .tc .vmem S512x512 .f32 := win2_0.stage (cfg2.slots t 0)
abbrev hLhs (t : Fin cfg2.N) : (mLhs t).IsWhole := hstage2_0 ((cfg2.slots t 0).cast nbuf2_0)
abbrev mRhs (t : Fin cfg2.N) : Memref sig .tc .vmem S512x2048 .f32 := win2_1.stage (cfg2.slots t 1)
abbrev hRhs (t : Fin cfg2.N) : (mRhs t).IsWhole := hstage2_1 ((cfg2.slots t 1).cast nbuf2_1)
abbrev mBias (t : Fin cfg2.N) : Memref sig .tc .vmem S2048 .f32 := win2_2.stage (cfg2.slots t 2)
abbrev hBias (t : Fin cfg2.N) : (mBias t).IsWhole := hstage2_2 ((cfg2.slots t 2).cast nbuf2_2)
abbrev mOut (t : Fin cfg2.N) : Memref sig .tc .vmem S512x2048 .f32 := win2_3.stage (cfg2.slots t 3)
abbrev hOut (t : Fin cfg2.N) : (mOut t).IsWhole := hstage2_3 ((cfg2.slots t 3).cast nbuf2_3)

/-- The first point's stores cover the accumulator. -/
theorem cover_first (c : Dev nD) (t : Fin cfg2.N) (h0 : atFirst (grid2.coords t)) (h1 : ¬atLast (grid2.coords t))
    (x0 : Vec F S512x512 .f32) (x1 : Vec F S512x2048 .f32) (y : S512x2048.Idx) :
    ∃ pc ∈ (runFirst c (grid2.coords t) (mLhs t) (hLhs t) (mRhs t) (hRhs t) (mBias t) (hBias t) (mOut t) (hOut t) acc (Memref.isWhole_whole _) h0 h1 x0 x1).1, y ∈ pc.1.set :=
  View.cover_of_tiledL _ S512x2048.size (by sl_kernel_rfl) y

/-- What the first point leaves in the accumulator: its pieces read back. -/
def accFirst (c : Dev nD) (t : Fin cfg2.N) (h0 : atFirst (grid2.coords t)) (h1 : ¬atLast (grid2.coords t))
    (x0 : Vec F S512x512 .f32) (x1 : Vec F S512x2048 .f32) : Vec F S512x2048 .f32 :=
  accView.read (Elt F) (accView.writes (Elt F) accView.junk
    (runFirst c (grid2.coords t) (mLhs t) (hLhs t) (mRhs t) (hRhs t) (mBias t) (hBias t) (mOut t) (hOut t) acc (Memref.isWhole_whole _) h0 h1 x0 x1).1)

/-- A middle point's store covers the accumulator. -/
theorem cover_middle (c : Dev nD) (t : Fin cfg2.N) (h0 : ¬atFirst (grid2.coords t)) (h1 : ¬atLast (grid2.coords t))
    (x0 : Vec F S512x512 .f32) (x1 : Vec F S512x2048 .f32) (xs : Vec F S512x2048 .f32) (y : S512x2048.Idx) :
    ∃ pc ∈ (runMiddle c (grid2.coords t) (mLhs t) (hLhs t) (mRhs t) (hRhs t) (mBias t) (hBias t) (mOut t) (hOut t) acc (Memref.isWhole_whole _) h0 h1 x0 x1 xs).1, y ∈ pc.1.set :=
  View.cover_of_tiledL _ S512x2048.size (by sl_kernel_rfl) y

/-- What a middle point leaves in the accumulator. -/
def accMiddle (c : Dev nD) (t : Fin cfg2.N) (h0 : ¬atFirst (grid2.coords t)) (h1 : ¬atLast (grid2.coords t))
    (x0 : Vec F S512x512 .f32) (x1 : Vec F S512x2048 .f32) (xs : Vec F S512x2048 .f32) : Vec F S512x2048 .f32 :=
  accView.read (Elt F) (accView.writes (Elt F) accView.junk
    (runMiddle c (grid2.coords t) (mLhs t) (hLhs t) (mRhs t) (hRhs t) (mBias t) (hBias t) (mOut t) (hOut t) acc (Memref.isWhole_whole _) h0 h1 x0 x1 xs).1)

/-- The last point's stores cover the result's buffer and the accumulator. -/
theorem cover_last_out (c : Dev nD) (t : Fin cfg2.N) (h0 : ¬atFirst (grid2.coords t)) (h1 : atLast (grid2.coords t))
    (x0 : Vec F S512x512 .f32) (x1 : Vec F S512x2048 .f32) (x2 : Vec F S2048 .f32) (xs : Vec F S512x2048 .f32) (y : S512x2048.Idx) :
    ∃ pc ∈ (runLast c (grid2.coords t) (mLhs t) (hLhs t) (mRhs t) (hRhs t) (mBias t) (hBias t) (mOut t) (hOut t) acc (Memref.isWhole_whole _) h0 h1 x0 x1 x2 xs).1, y ∈ pc.1.set :=
  View.cover_of_tiledL _ S512x2048.size (by sl_kernel_rfl) y
theorem cover_last_acc (c : Dev nD) (t : Fin cfg2.N) (h0 : ¬atFirst (grid2.coords t)) (h1 : atLast (grid2.coords t))
    (x0 : Vec F S512x512 .f32) (x1 : Vec F S512x2048 .f32) (x2 : Vec F S2048 .f32) (xs : Vec F S512x2048 .f32) (y : S512x2048.Idx) :
    ∃ pc ∈ (runLast c (grid2.coords t) (mLhs t) (hLhs t) (mRhs t) (hRhs t) (mBias t) (hBias t) (mOut t) (hOut t) acc (Memref.isWhole_whole _) h0 h1 x0 x1 x2 xs).2.1, y ∈ pc.1.set :=
  View.cover_of_tiledL _ S512x2048.size (by sl_kernel_rfl) y

/-- What the last point leaves in the result's staging buffer, and in the accumulator. -/
def outLast (c : Dev nD) (t : Fin cfg2.N) (h0 : ¬atFirst (grid2.coords t)) (h1 : atLast (grid2.coords t))
    (x0 : Vec F S512x512 .f32) (x1 : Vec F S512x2048 .f32) (x2 : Vec F S2048 .f32) (xs : Vec F S512x2048 .f32) : Vec F S512x2048 .f32 :=
  accView.read (Elt F) (accView.writes (Elt F) accView.junk
    (runLast c (grid2.coords t) (mLhs t) (hLhs t) (mRhs t) (hRhs t) (mBias t) (hBias t) (mOut t) (hOut t) acc (Memref.isWhole_whole _) h0 h1 x0 x1 x2 xs).1)
def accLast (c : Dev nD) (t : Fin cfg2.N) (h0 : ¬atFirst (grid2.coords t)) (h1 : atLast (grid2.coords t))
    (x0 : Vec F S512x512 .f32) (x1 : Vec F S512x2048 .f32) (x2 : Vec F S2048 .f32) (xs : Vec F S512x2048 .f32) : Vec F S512x2048 .f32 :=
  accView.read (Elt F) (accView.writes (Elt F) accView.junk
    (runLast c (grid2.coords t) (mLhs t) (hLhs t) (mRhs t) (hRhs t) (mBias t) (hBias t) (mOut t) (hOut t) acc (Memref.isWhole_whole _) h0 h1 x0 x1 x2 xs).2.1)

/-! ## Point by point -/

theorem notLast_of_zero (t : Fin cfg2.N) (hz : t.val = 0) : ¬atLast (grid2.coords t) :=
  fun h => by have := (atLast_iff t).mp h; omega
theorem notFirst_of_pos (t : Fin cfg2.N) (hz : t.val ≠ 0) : ¬atFirst (grid2.coords t) :=
  fun h => hz ((atFirst_iff t).mp h)
theorem notLast_of_ne (t : Fin cfg2.N) (h3 : t.val ≠ 3) : ¬atLast (grid2.coords t) :=
  fun h => h3 ((atLast_iff t).mp h)

/-- THE ACCUMULATION. What the accumulator holds after the body at position `n`: the case of the point, run on the point's
    blocks, from what the point before left. -/
def accAt (c : Dev nD) : (n : ℕ) → n < cfg2.N → Vec F S512x2048 .f32
  | 0, hn => accFirst c ⟨0, hn⟩ ((atFirst_iff ⟨0, hn⟩).mpr rfl) (notLast_of_zero ⟨0, hn⟩ rfl) (blockAt V c 0 ⟨0, hn⟩) (blockAt V c 1 ⟨0, hn⟩)
  | n + 1, hn =>
    if h3 : n + 1 = 3 then
      accLast c ⟨n + 1, hn⟩ (notFirst_of_pos ⟨n + 1, hn⟩ (Nat.succ_ne_zero n)) ((atLast_iff ⟨n + 1, hn⟩).mpr h3)
        (blockAt V c 0 ⟨n + 1, hn⟩) (blockAt V c 1 ⟨n + 1, hn⟩) (blockAt V c 2 ⟨n + 1, hn⟩) (accAt c n (Nat.lt_of_succ_lt hn))
    else
      accMiddle c ⟨n + 1, hn⟩ (notFirst_of_pos ⟨n + 1, hn⟩ (Nat.succ_ne_zero n)) (notLast_of_ne ⟨n + 1, hn⟩ h3)
        (blockAt V c 0 ⟨n + 1, hn⟩) (blockAt V c 1 ⟨n + 1, hn⟩) (accAt c n (Nat.lt_of_succ_lt hn))

theorem accAt_first (c : Dev nD) (t : Fin cfg2.N) (hz : t.val = 0) :
    accAt V c t.val t.isLt = accFirst c t ((atFirst_iff t).mpr hz) (notLast_of_zero t hz) (blockAt V c 0 t) (blockAt V c 1 t) := by
  obtain ⟨n, hn⟩ := t
  cases n with
  | zero => rfl
  | succ n => exact absurd hz (Nat.succ_ne_zero n)

theorem accAt_middle (c : Dev nD) (t : Fin cfg2.N) (hz : t.val ≠ 0) (h3 : t.val ≠ 3) :
    accAt V c t.val t.isLt = accMiddle c t (notFirst_of_pos t hz) (notLast_of_ne t h3) (blockAt V c 0 t) (blockAt V c 1 t)
      (accAt V c (t.val - 1) (Nat.lt_of_le_of_lt (Nat.sub_le _ _) t.isLt)) := by
  obtain ⟨n, hn⟩ := t
  cases n with
  | zero => exact absurd rfl hz
  | succ n => exact (dif_neg h3).trans rfl

theorem accAt_last (c : Dev nD) (t : Fin cfg2.N) (hz : t.val ≠ 0) (h3 : t.val = 3) :
    accAt V c t.val t.isLt = accLast c t (notFirst_of_pos t hz) ((atLast_iff t).mpr h3) (blockAt V c 0 t) (blockAt V c 1 t) (blockAt V c 2 t)
      (accAt V c (t.val - 1) (Nat.lt_of_le_of_lt (Nat.sub_le _ _) t.isLt)) := by
  obtain ⟨n, hn⟩ := t
  cases n with
  | zero => exact absurd rfl hz
  | succ n => exact (dif_pos h3).trans rfl

/-- What the result's staging buffer holds after the body at point `t`: at the last point what that case stores; elsewhere
    the body stores nothing there and the window is idle (a placeholder nothing consults). -/
def outAt (c : Dev nD) (t : Fin cfg2.N) : Vec F S512x2048 .f32 :=
  if h3 : t.val = 3 then
    outLast c t (notFirst_of_pos t (by omega)) ((atLast_iff t).mpr h3) (blockAt V c 0 t) (blockAt V c 1 t) (blockAt V c 2 t)
      (accAt V c (t.val - 1) (Nat.lt_of_le_of_lt (Nat.sub_le _ _) t.isLt))
  else accView.read (Elt F) accView.junk

theorem outAt_last (c : Dev nD) (t : Fin cfg2.N) (hz : t.val ≠ 0) (h3 : t.val = 3) :
    outAt V c t = outLast c t (notFirst_of_pos t hz) ((atLast_iff t).mpr h3) (blockAt V c 0 t) (blockAt V c 1 t) (blockAt V c 2 t)
      (accAt V c (t.val - 1) (Nat.lt_of_le_of_lt (Nat.sub_le _ _) t.isLt)) := dif_pos h3

/-- The invariant before position `n`: before the first point the class's; afterwards the accumulator at what the point
    before left in it, and the rest. -/
def PhiS (c : Dev nD) : (n : ℕ) → n ≤ cfg2.N → sProp 𝕄
  | 0, _ => Pipeline.ΦA spec2 c
  | n + 1, hn => iprop(owns (c : Thread nD τ) acc fullShare (accAt V c n hn) ∗ accRest (F := F) c)

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(owns (c : Thread nD τ) acc fullShare (accAt V c n hn) ∗ accRest (F := F) c) := rfl

theorem PhiS_pos (c : Dev nD) (n : ℕ) (h : n ≤ cfg2.N) (hz : n ≠ 0) :
    PhiS V c n h = iprop(owns (c : Thread nD τ) acc fullShare (accAt V c (n - 1) (by omega)) ∗ accRest (F := F) c) := by
  cases n with
  | zero => exact absurd rfl hz
  | succ n => rfl

/-! ## The proof data -/

/-- The proof data of the call on core `c`: the arrays as found; after the body at point `t` each input's buffer at its
    block and the result's at `outAt`; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => blockAt V c 0 t
    | ⟨1, _⟩ => blockAt V c 1 t
    | ⟨2, _⟩ => blockAt V c 2 t
    | ⟨3, _⟩ => outAt V c t
  Φ t := PhiS V c t.val (Nat.le_of_lt_succ t.isLt)
  q _ := fullShare
  owed _ := 0

theorem dat_A (c : Dev nD) (w : Fin cfg2.W) : (dat V c).A w = V c (Pipeline.arrRef spec2 w) := by
  dsimp only [dat]

theorem dat_Phi_castSucc (c : Dev nD) (t : Fin cfg2.N) : (dat V c).Φ t.castSucc = PhiS V c t.val (Nat.le_of_lt t.isLt) := by
  dsimp only [dat]; simp only [Fin.coe_castSucc]

theorem dat_after_lhs (c : Dev nD) (t : Fin cfg2.N) : (dat V c).after 0 t = blockAt V c 0 t := by dsimp only [dat]
theorem dat_after_rhs (c : Dev nD) (t : Fin cfg2.N) : (dat V c).after 1 t = blockAt V c 1 t := by dsimp only [dat]
theorem dat_after_bias (c : Dev nD) (t : Fin cfg2.N) : (dat V c).after 2 t = blockAt V c 2 t := by dsimp only [dat]
theorem dat_after_out (c : Dev nD) (t : Fin cfg2.N) : (dat V c).after 3 t = outAt V c t := by dsimp only [dat]

theorem dat_before_lhs (c : Dev nD) (t : Fin cfg2.N) (d) : (dat V c).before 0 t d = blockAt V c 0 t :=
  staged_lhs V (dat V c) (dat_A V c 0) (dat_after_lhs V c) t d
theorem dat_before_rhs (c : Dev nD) (t : Fin cfg2.N) (d) : (dat V c).before 1 t d = blockAt V c 1 t :=
  staged_rhs V (dat V c) (dat_A V c 1) (dat_after_rhs V c) t d
theorem dat_before_bias (c : Dev nD) (t : Fin cfg2.N) (d) : (dat V c).before 2 t d = blockAt V c 2 t :=
  staged_bias V (dat V c) (dat_A V c 2) (dat_after_bias V c) t d

/-! ## The body obligation -/

/-- What the body is called with at point `t`, and what it returns. -/
def bodyPre (c : Dev nD) (t : Fin cfg2.N) : sProp 𝕄 :=
  iprop((dat V c).Φ t.castSucc ∗ (dat V c).owesAt () t.castSucc
    ∗ (∃ d, owns (c : Thread nD τ) (mLhs t) fullShare ((dat V c).before 0 t d))
    ∗ (∃ d, owns (c : Thread nD τ) (mRhs t) fullShare ((dat V c).before 1 t d))
    ∗ (∃ d, owns (c : Thread nD τ) (mBias t) fullShare ((dat V c).before 2 t d))
    ∗ (∃ d, owns (c : Thread nD τ) (mOut t) fullShare ((dat V c).before 3 t d)))
def bodyPost (c : Dev nD) (t : Fin cfg2.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4800000 in
/-- The body at any point. The inputs' buffers hold their blocks; the point is the first, a middle or the last one, and
    that case's run applies: the invariant hands it the accumulator — at anything before the first point, at what the
    point before left afterwards — and takes it back at this point's contents (the case's stores cover it); where the
    body does not store the result, its window is idle and its buffer is handed back as found; the core owes nothing
    throughout. -/
theorem body_at (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [dat_before_lhs, dat_before_rhs, dat_before_bias]
  rw [show (dat V c).owesAt () t.succ = (dat V c).owesAt () t.castSucc from rfl]
  rw [show (dat V c).Φ t.succ = PhiS V c (t.val + 1) t.isLt from rfl, PhiS_succ]
  have hN : t.val < 4 := lt_of_lt_of_eq t.isLt (show cfg2.N = 4 from N_2)
  rw [show (dat V c).leavesExact 0 t = owns (c : Thread nD τ) (mLhs t) fullShare ((dat V c).after 0 t) from by
      unfold Dat.leavesExact; rw [live_lhs t], dat_after_lhs]
  rw [show (dat V c).leavesExact 1 t = owns (c : Thread nD τ) (mRhs t) fullShare ((dat V c).after 1 t) from by
      unfold Dat.leavesExact; rw [live_rhs t], dat_after_rhs]
  rw [show (dat V c).leavesExact 2 t = owns (c : Thread nD τ) (mBias t) fullShare ((dat V c).after 2 t) from by
      unfold Dat.leavesExact; rw [live_bias t], dat_after_bias]
  by_cases hz : t.val = 0
  · have h0 : atFirst (grid2.coords t) := (atFirst_iff t).mpr hz
    have h1 : ¬atLast (grid2.coords t) := notLast_of_zero t hz
    rw [Dat.leavesExact_idle (dat V c) 3 t (idle_out t h1) (noFlush_out t h1)]
    rw [accAt_first V c t hz]
    unfold accFirst; (try dsimp only)
    rw [dat_Phi_castSucc V c t, PhiS_zero V c _ _ hz]
    iintro ⟨HΦ, Ho, ⟨%d0, H0⟩, ⟨%d1, H1⟩, ⟨%d2, H2⟩, ⟨%d3, H3⟩⟩
    ihave ⟨HS, HR⟩ := (PhiA_split (F := F) c) $$ HΦ
    iapply ((runFirst c (grid2.coords t) _ _ _ _ _ _ _ _ _ _ h0 h1 (blockAt V c 0 t) (blockAt V c 1 t)).2 _ _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS HR]
    · isplitl [HS]
      · unfold owns; iexists _; isplitr
        swap; · iexact HS
        ipureintro; exact View.read_writes_of_cover _ _ _ _ _ (cover_first c t h0 h1 _ _)
      iexact HR
    isplitl [Ho]; · iexact Ho
    isplitl [H0]; · iexact H0
    isplitl [H1]; · iexact H1
    isplitl [H2]; · iexact H2
    iexists _; iexact H3
  · have h0 : ¬atFirst (grid2.coords t) := notFirst_of_pos t hz
    by_cases h3 : t.val = 3
    · have h1 : atLast (grid2.coords t) := (atLast_iff t).mpr h3
      rw [show (dat V c).leavesExact 3 t = owns (c : Thread nD τ) (mOut t) fullShare ((dat V c).after 3 t) from by
          unfold Dat.leavesExact; rw [live_out t h1], dat_after_out]
      rw [outAt_last V c t hz h3, accAt_last V c t hz h3]
      unfold outLast accLast; (try dsimp only)
      rw [dat_Phi_castSucc V c t, PhiS_pos V c _ _ hz]
      iintro ⟨⟨HS, HR⟩, Ho, ⟨%d0, H0⟩, ⟨%d1, H1⟩, ⟨%d2, H2⟩, ⟨%d3, H3⟩⟩
      iapply ((runLast c (grid2.coords t) _ _ _ _ _ _ _ _ _ _ h0 h1 (blockAt V c 0 t) (blockAt V c 1 t) (blockAt V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR]
      · isplitl [HS]
        · unfold owns; iexists _; isplitr
          swap; · iexact HS
          ipureintro; exact View.read_writes_of_cover _ _ _ _ _ (cover_last_acc c t h0 h1 _ _ _ _)
        iexact HR
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_last_out c t h0 h1 _ _ _ _)
    · have h1 : ¬atLast (grid2.coords t) := notLast_of_ne t h3
      rw [Dat.leavesExact_idle (dat V c) 3 t (idle_out t h1) (noFlush_out t h1)]
      rw [accAt_middle V c t hz h3]
      unfold accMiddle; (try dsimp only)
      rw [dat_Phi_castSucc V c t, PhiS_pos V c _ _ hz]
      iintro ⟨⟨HS, HR⟩, Ho, ⟨%d0, H0⟩, ⟨%d1, H1⟩, ⟨%d2, H2⟩, ⟨%d3, H3⟩⟩
      iapply ((runMiddle c (grid2.coords t) _ _ _ _ _ _ _ _ _ _ h0 h1 (blockAt V c 0 t) (blockAt V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR]
      · isplitl [HS]
        · unfold owns; iexists _; isplitr
          swap; · iexact HS
          ipureintro; exact View.read_writes_of_cover _ _ _ _ _ (cover_middle c t h0 h1 _ _ _)
        iexact HR
      isplitl [Ho]; · iexact Ho
      isplitl [H0]; · iexact H0
      isplitl [H1]; · iexact H1
      isplitl [H2]; · iexact H2
      iexists _; iexact H3

/-- The body obligation of the call, at every point. -/
theorem body_obligation (c : Dev nD) : BodyObligation (dat (F := F) V c) (defs₀ (F := F)) Variants.none () Set.univ := fun t => by
  rw [bigSep_W2, bigSep_W2]
  exact body_at V c t

/-- What the call is entered with is the invariant before the first point. -/
theorem phi_in (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point the invariant gives the class's back: the accumulator's contents are forgotten. -/
theorem phi_out (c : Dev nD) : (dat V c).Φ (Fin.last cfg2.N) ⊢ Pipeline.ΦA spec2 c := by
  have hN : cfg2.N = 4 := N_2
  rw [show (dat V c).Φ (Fin.last cfg2.N) = PhiS V c (Fin.last cfg2.N).val (Nat.le_of_lt_succ (Fin.last cfg2.N).isLt) from rfl,
    PhiS_pos V c _ _ (by rw [Fin.val_last]; omega)]
  iintro ⟨HS, HR⟩
  iapply (PhiA_join (F := F) c)
  isplitl [HS]
  · iexists _; iexact HS
  iexact HR

end Cert.KernelIdeal.Call2

end
-- ==== Proof.NormMatmulCall3KernelIdeal.lean ====
/-
  The fused normalise / ReLU / matmul call (pipeline 3 of @main). Its grid is one axis of 4 points k = 0..3. At point k
  the body normalises a [512, 512] block of the [512, 2048] activations with the k-th [512] blocks of the mean, variance,
  scale and shift vectors, clamps at zero, multiplies by the k-th [512, 2048] block of the [2048, 2048] right operand and
  adds the product to a [512, 2048] accumulator it keeps in a scratch buffer between points: zeroed at the first point,
  and at the last point stored, plus the bias, as the [512, 2048] result.
  Here: the body run on whole buffers in its three cases (first, middle, last point), the running value of the
  accumulator, the proof data of the call entered from any buffer contents V (its invariant carries the accumulator), the
  body obligation, and what the result's staging buffer holds after the last point.
-/
import proofs.«154134_j25494925869443_2_alg».proof.Proof.LaunchPatchedKernelIdeal
import proofs.«154134_j25494925869443_2_alg».proof.Proof.Gen.KernelIdeal.Points
import proofs.«154134_j25494925869443_2_alg».proof.Proof.Gen.KernelIdeal.Skeleton
import Idealize.ShloMosaic.Lib.Pipeline.Frame
import Idealize.ShloMosaic.Lib.Pipeline.FrameBody
import Idealize.ShloMosaic.Lib.Pipeline.Value
import Idealize.ShloMosaic.Lib.Tactic

set_option maxRecDepth 16384

noncomputable section

namespace Cert.KernelIdeal.Call3

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Arithmetic of the offsets and of the two conditions -/

theorem zeros1 : (![0] : Fin 1 → Nat) = fun _ => 0 := funext fun a => by fin_cases a <;> rfl
theorem zeros2 : (![0, 0] : Fin 2 → Nat) = fun _ => 0 := funext fun a => by fin_cases a <;> rfl

/-- The body's first conditional (reset the accumulator) tests whether the grid coordinate is 0. -/
abbrev isFirst (i : grid3.Coords) : Prop :=
  (Scalar.cmpi .ne (Scalar.extui (Scalar.cmpi .eq (BitVec.ofNat 32 (i 0).val) 0#32)) 0#32) = 1#1
/-- Its second conditional (add the bias and store the result) tests whether the grid coordinate is 3. -/
abbrev isLast (i : grid3.Coords) : Prop := k3_cond2 i = 1#1

theorem isFirst_iff : ∀ t : Fin cfg3.N, isFirst (grid3.coords t) ↔ t.val = 0 :=
  (by decide +kernel : ∀ t : Fin grid3.N, isFirst (grid3.coords t) ↔ t.val = 0)
theorem isLast_iff : ∀ t : Fin cfg3.N, isLast (grid3.coords t) ↔ t.val = 3 :=
  (by decide +kernel : ∀ t : Fin grid3.N, isLast (grid3.coords t) ↔ t.val = 3)

/-- The result's window is idle, and not written back, at every point but the last, and live there. -/
theorem out_idle : ∀ t : Fin cfg3.N, t.val ≠ 3 → cfg3.idle 7 (grid3.coords t) = true := by decide +kernel
theorem out_kept : ∀ t : Fin cfg3.N, t.val ≠ 3 → (cfg3.win 7).flush t = false := by decide +kernel
theorem out_live : ∀ t : Fin cfg3.N, t.val = 3 → cfg3.idle 7 (grid3.coords t) = false := by decide +kernel

/-- A store through the whole [512, 2048] rectangle, made last, covers the buffer whatever was stored before. -/
theorem whole_store_covers (p : Vec F S512x2048 .f32) (L : List (View.Piece (Elt F) S512x2048 .f32)) (y : S512x2048.Idx) :
    ∃ pc ∈ ((⟨Rect.unit (s := S512x2048) ![0, 0] S512x2048.size inb_S512x2048_S512x2048_0_0, p⟩ : View.Piece (Elt F) S512x2048 .f32) :: L), y ∈ pc.1.set :=
  ⟨_, List.mem_cons_self, View.mem_set_unit_zero zeros2 inb_S512x2048_S512x2048_0_0 y⟩

/-! ## The body on whole buffers, case by case

x, mu, var, g, b, w are the six input blocks of the point, bias the bias vector, acc what the accumulator holds when the
body starts. In every case the body leaves the accumulator at k3_pay3 x mu var g b w acc', where acc' is the zero block
k3_pay2 at the first point (the body has just stored it) and acc elsewhere; the input buffers are left as found; the
buffer of the result is left as found except at the last point, where it receives the new accumulator plus the bias
(k3_pay1). -/

set_option maxHeartbeats 1000000 in
/-- A middle point: neither conditional is taken. -/
theorem run_middle (c : Dev nD) (E : Set ℕ) (i : grid3.Coords)
    (a1 : Memref sig .tc .vmem S512x512 .f32) (h1 : a1.IsWhole) (a2 : Memref sig .tc .vmem S512 .f32) (h2 : a2.IsWhole)
    (a3 : Memref sig .tc .vmem S512 .f32) (h3 : a3.IsWhole) (a4 : Memref sig .tc .vmem S512 .f32) (h4 : a4.IsWhole)
    (a5 : Memref sig .tc .vmem S512 .f32) (h5 : a5.IsWhole) (a6 : Memref sig .tc .vmem S512x2048 .f32) (h6 : a6.IsWhole)
    (a7 : Memref sig .tc .vmem S2048 .f32) (h7 : a7.IsWhole) (a8 : Memref sig .tc .vmem S512x2048 .f32) (h8 : a8.IsWhole)
    (a9 : Memref sig .tc .vmem S512x2048 .f32) (h9 : a9.IsWhole) (hf : ¬isFirst i) (hl : ¬isLast i)
    (x : Vec F S512x512 .f32) (mu var g b : Vec F S512 .f32) (w : Vec F S512x2048 .f32) (bias : Vec F S2048 .f32)
    (o acc : Vec F S512x2048 .f32) (K : PUnit → sProp 𝕄) :
    iprop(owns (c : Thread nD τ) a1 fullShare x ∗ owns (c : Thread nD τ) a2 fullShare mu ∗ owns (c : Thread nD τ) a3 fullShare var
        ∗ owns (c : Thread nD τ) a4 fullShare g ∗ owns (c : Thread nD τ) a5 fullShare b ∗ owns (c : Thread nD τ) a6 fullShare w
        ∗ owns (c : Thread nD τ) a7 fullShare bias ∗ owns (c : Thread nD τ) a8 fullShare o ∗ owns (c : Thread nD τ) a9 fullShare acc
        ∗ (iprop(owns (c : Thread nD τ) a1 fullShare x ∗ owns (c : Thread nD τ) a2 fullShare mu ∗ owns (c : Thread nD τ) a3 fullShare var
        ∗ owns (c : Thread nD τ) a4 fullShare g ∗ owns (c : Thread nD τ) a5 fullShare b ∗ owns (c : Thread nD τ) a6 fullShare w
        ∗ owns (c : Thread nD τ) a7 fullShare bias ∗ owns (c : Thread nD τ) a8 fullShare o
            ∗ owns (c : Thread nD τ) a9 fullShare (k3_pay3 x mu var g b w acc)) -∗ K ⟨⟩))
      ⊢ wp frame (wpE (defs₀ (F := F)) Variants.none c none) E (cc3__bn_relu_matmul_kernel i a1 h1 a2 h2 a3 h3 a4 h4 a5 h5 a6 h6 a7 h7 a8 h8 a9 h9) K := by
  simp only [cc3__bn_relu_matmul_kernel_eq_skeleton]; unfold cc3__bn_relu_matmul_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, Hk⟩
  subst e1 e2 e3 e4 e5 e6 e7 e8 e9
  sl_exec (disch := first | exact hf | exact hl)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (whole_store_covers _ _), View.canon_unit_zero zeros2]
  simp only [View.readAt_eq_ld, View.ld_unit_zero (S := S512x512) zeros2, View.ld_unit_zero (S := S512) zeros1,
    View.ld_unit_zero (S := S512x2048) zeros2, View.ld_unit_zero (S := S2048) zeros1]

set_option maxHeartbeats 1000000 in
/-- The first point: the accumulator, found at anything, is zeroed and read back before the accumulation. -/
theorem run_first (c : Dev nD) (E : Set ℕ) (i : grid3.Coords)
    (a1 : Memref sig .tc .vmem S512x512 .f32) (h1 : a1.IsWhole) (a2 : Memref sig .tc .vmem S512 .f32) (h2 : a2.IsWhole)
    (a3 : Memref sig .tc .vmem S512 .f32) (h3 : a3.IsWhole) (a4 : Memref sig .tc .vmem S512 .f32) (h4 : a4.IsWhole)
    (a5 : Memref sig .tc .vmem S512 .f32) (h5 : a5.IsWhole) (a6 : Memref sig .tc .vmem S512x2048 .f32) (h6 : a6.IsWhole)
    (a7 : Memref sig .tc .vmem S2048 .f32) (h7 : a7.IsWhole) (a8 : Memref sig .tc .vmem S512x2048 .f32) (h8 : a8.IsWhole)
    (a9 : Memref sig .tc .vmem S512x2048 .f32) (h9 : a9.IsWhole) (hf : isFirst i) (hl : ¬isLast i)
    (x : Vec F S512x512 .f32) (mu var g b : Vec F S512 .f32) (w : Vec F S512x2048 .f32) (bias : Vec F S2048 .f32)
    (o : Vec F S512x2048 .f32) (K : PUnit → sProp 𝕄) :
    iprop(owns (c : Thread nD τ) a1 fullShare x ∗ owns (c : Thread nD τ) a2 fullShare mu ∗ owns (c : Thread nD τ) a3 fullShare var
        ∗ owns (c : Thread nD τ) a4 fullShare g ∗ owns (c : Thread nD τ) a5 fullShare b ∗ owns (c : Thread nD τ) a6 fullShare w
        ∗ owns (c : Thread nD τ) a7 fullShare bias ∗ owns (c : Thread nD τ) a8 fullShare o ∗ (∃ d, owns (c : Thread nD τ) a9 fullShare d)
        ∗ (iprop(owns (c : Thread nD τ) a1 fullShare x ∗ owns (c : Thread nD τ) a2 fullShare mu ∗ owns (c : Thread nD τ) a3 fullShare var
        ∗ owns (c : Thread nD τ) a4 fullShare g ∗ owns (c : Thread nD τ) a5 fullShare b ∗ owns (c : Thread nD τ) a6 fullShare w
        ∗ owns (c : Thread nD τ) a7 fullShare bias ∗ owns (c : Thread nD τ) a8 fullShare o
            ∗ owns (c : Thread nD τ) a9 fullShare (k3_pay3 x mu var g b w k3_pay2)) -∗ K ⟨⟩))
      ⊢ wp frame (wpE (defs₀ (F := F)) Variants.none c none) E (cc3__bn_relu_matmul_kernel i a1 h1 a2 h2 a3 h3 a4 h4 a5 h5 a6 h6 a7 h7 a8 h8 a9 h9) K := by
  simp only [cc3__bn_relu_matmul_kernel_eq_skeleton]; unfold cc3__bn_relu_matmul_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%d9, %f9, -, H9⟩, Hk⟩
  subst e1 e2 e3 e4 e5 e6 e7 e8
  sl_exec (disch := first | exact hf | exact hl)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  sl_unfold_words
  rw [View.read_writes_eq_canon _ _ _ (whole_store_covers _ _), View.canon_cons_unit_zero (S := S512x2048) zeros2,
    View.readCov_unit_zero (S := S512x2048) _ zeros2]
  simp only [View.readAt_eq_ld, View.ld_unit_zero (S := S512x512) zeros2, View.ld_unit_zero (S := S512) zeros1,
    View.ld_unit_zero (S := S512x2048) zeros2, View.ld_unit_zero (S := S2048) zeros1]

set_option maxHeartbeats 1000000 in
/-- The last point: after the accumulation the accumulator is read back, the bias added, and the sum stored as the result. -/
theorem run_last (c : Dev nD) (E : Set ℕ) (i : grid3.Coords)
    (a1 : Memref sig .tc .vmem S512x512 .f32) (h1 : a1.IsWhole) (a2 : Memref sig .tc .vmem S512 .f32) (h2 : a2.IsWhole)
    (a3 : Memref sig .tc .vmem S512 .f32) (h3 : a3.IsWhole) (a4 : Memref sig .tc .vmem S512 .f32) (h4 : a4.IsWhole)
    (a5 : Memref sig .tc .vmem S512 .f32) (h5 : a5.IsWhole) (a6 : Memref sig .tc .vmem S512x2048 .f32) (h6 : a6.IsWhole)
    (a7 : Memref sig .tc .vmem S2048 .f32) (h7 : a7.IsWhole) (a8 : Memref sig .tc .vmem S512x2048 .f32) (h8 : a8.IsWhole)
    (a9 : Memref sig .tc .vmem S512x2048 .f32) (h9 : a9.IsWhole) (hf : ¬isFirst i) (hl : isLast i)
    (x : Vec F S512x512 .f32) (mu var g b : Vec F S512 .f32) (w : Vec F S512x2048 .f32) (bias : Vec F S2048 .f32)
    (acc : Vec F S512x2048 .f32) (K : PUnit → sProp 𝕄) :
    iprop(owns (c : Thread nD τ) a1 fullShare x ∗ owns (c : Thread nD τ) a2 fullShare mu ∗ owns (c : Thread nD τ) a3 fullShare var
        ∗ owns (c : Thread nD τ) a4 fullShare g ∗ owns (c : Thread nD τ) a5 fullShare b ∗ owns (c : Thread nD τ) a6 fullShare w
        ∗ owns (c : Thread nD τ) a7 fullShare bias ∗ (∃ d, owns (c : Thread nD τ) a8 fullShare d) ∗ owns (c : Thread nD τ) a9 fullShare acc
        ∗ (iprop(owns (c : Thread nD τ) a1 fullShare x ∗ owns (c : Thread nD τ) a2 fullShare mu ∗ owns (c : Thread nD τ) a3 fullShare var
        ∗ owns (c : Thread nD τ) a4 fullShare g ∗ owns (c : Thread nD τ) a5 fullShare b ∗ owns (c : Thread nD τ) a6 fullShare w
        ∗ owns (c : Thread nD τ) a7 fullShare bias ∗ owns (c : Thread nD τ) a8 fullShare (k3_pay1 (k3_pay3 x mu var g b w acc) bias)
            ∗ owns (c : Thread nD τ) a9 fullShare (k3_pay3 x mu var g b w acc)) -∗ K ⟨⟩))
      ⊢ wp frame (wpE (defs₀ (F := F)) Variants.none c none) E (cc3__bn_relu_matmul_kernel i a1 h1 a2 h2 a3 h3 a4 h4 a5 h5 a6 h6 a7 h7 a8 h8 a9 h9) K := by
  simp only [cc3__bn_relu_matmul_kernel_eq_skeleton]; unfold cc3__bn_relu_matmul_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%f9, %e9, H9⟩, Hk⟩
  subst e1 e2 e3 e4 e5 e6 e7 e9
  sl_exec (disch := first | exact hf | exact hl)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_words
    rw [View.read_writes_eq_canon _ _ _ (whole_store_covers _ _), View.canon_unit_zero zeros2,
      View.readCov_unit_zero (S := S512x2048) _ zeros2]
    simp only [View.readAt_eq_ld, View.ld_unit_zero (S := S512x512) zeros2, View.ld_unit_zero (S := S512) zeros1,
    View.ld_unit_zero (S := S512x2048) zeros2, View.ld_unit_zero (S := S2048) zeros1]
  iexists _; isplitr
  swap; · iexact H9
  ipureintro
  sl_unfold_words
  rw [View.read_writes_eq_canon _ _ _ (whole_store_covers _ _), View.canon_unit_zero zeros2]
  simp only [View.readAt_eq_ld, View.ld_unit_zero (S := S512x512) zeros2, View.ld_unit_zero (S := S512) zeros1,
    View.ld_unit_zero (S := S512x2048) zeros2, View.ld_unit_zero (S := S2048) zeros1]

/-! ## The blocks, and the running accumulator -/

-- the contents of the buffers of the TensorCore when the call is entered
variable (V : (c : Dev nD) → (b : Ref sig .tc) → Buf (Elt F) ((c : Thread nD τ).loc b))

/-- The block of window w at grid point t, read off its array as the call finds it. -/
def blockAt (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the accumulator holds after the body at point n: the zero block at the start, then one matmul term per point,
    added in the order of the points. -/
def accAfter (c : Dev nD) : (n : ℕ) → n < cfg3.N → Vec F S512x2048 .f32
  | 0, h => k3_pay3 (blockAt V c 0 ⟨0, h⟩) (blockAt V c 1 ⟨0, h⟩) (blockAt V c 2 ⟨0, h⟩) (blockAt V c 3 ⟨0, h⟩) (blockAt V c 4 ⟨0, h⟩) (blockAt V c 5 ⟨0, h⟩) k3_pay2
  | n + 1, h => k3_pay3 (blockAt V c 0 ⟨n + 1, h⟩) (blockAt V c 1 ⟨n + 1, h⟩) (blockAt V c 2 ⟨n + 1, h⟩) (blockAt V c 3 ⟨n + 1, h⟩) (blockAt V c 4 ⟨n + 1, h⟩) (blockAt V c 5 ⟨n + 1, h⟩) (accAfter c n (Nat.lt_of_succ_lt h))

/-- The two defining steps of the running accumulator, as equations. -/
theorem accAfter_zero (c : Dev nD) (h : 0 < cfg3.N) :
    accAfter V c 0 h = k3_pay3 (blockAt V c 0 ⟨0, h⟩) (blockAt V c 1 ⟨0, h⟩) (blockAt V c 2 ⟨0, h⟩) (blockAt V c 3 ⟨0, h⟩) (blockAt V c 4 ⟨0, h⟩) (blockAt V c 5 ⟨0, h⟩) k3_pay2 := rfl
theorem accAfter_succ (c : Dev nD) (n : ℕ) (h : n + 1 < cfg3.N) :
    accAfter V c (n + 1) h = k3_pay3 (blockAt V c 0 ⟨n + 1, h⟩) (blockAt V c 1 ⟨n + 1, h⟩) (blockAt V c 2 ⟨n + 1, h⟩) (blockAt V c 3 ⟨n + 1, h⟩) (blockAt V c 4 ⟨n + 1, h⟩) (blockAt V c 5 ⟨n + 1, h⟩) (accAfter V c n (Nat.lt_of_succ_lt h)) := rfl

theorem accAfter_first (c : Dev nD) (t : Fin cfg3.N) (h0 : t.val = 0) :
    accAfter V c t.val t.isLt = k3_pay3 (blockAt V c 0 t) (blockAt V c 1 t) (blockAt V c 2 t) (blockAt V c 3 t) (blockAt V c 4 t) (blockAt V c 5 t) k3_pay2 := by
  obtain ⟨n, hn⟩ := t
  cases n with
  | zero => rfl
  | succ n => exact absurd h0 (Nat.succ_ne_zero n)

theorem accAfter_later (c : Dev nD) (t : Fin cfg3.N) (h0 : t.val ≠ 0) :
    accAfter V c t.val t.isLt = k3_pay3 (blockAt V c 0 t) (blockAt V c 1 t) (blockAt V c 2 t) (blockAt V c 3 t) (blockAt V c 4 t) (blockAt V c 5 t) (accAfter V c (t.val - 1) (Nat.lt_of_le_of_lt (Nat.sub_le _ _) t.isLt)) := by
  obtain ⟨n, hn⟩ := t
  cases n with
  | zero => exact absurd rfl h0
  | succ n => rfl

/-! ## Input windows: the staging buffer holds the block of the point -/

/-- Window 0: its staging buffer holds the block of the point whenever the body runs, fetched there or not (an unfetched
    point has the block index of the point before), for any proof data over V that leaves the block in place. -/
theorem staged0 {c : Dev nD} (dat : Dat τ (Elt F) Unit ℕ (UR sig nD τ) ℕ cfg3 c) (hA : dat.A 0 = V c (Pipeline.arrRef spec3 0))
    (hafter : ∀ t, dat.after 0 t = blockAt V c 0 t) (t : Fin cfg3.N) (d) : dat.before 0 t d = blockAt V c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-- Window 1: its staging buffer holds the block of the point whenever the body runs, fetched there or not (an unfetched
    point has the block index of the point before), for any proof data over V that leaves the block in place. -/
theorem staged1 {c : Dev nD} (dat : Dat τ (Elt F) Unit ℕ (UR sig nD τ) ℕ cfg3 c) (hA : dat.A 1 = V c (Pipeline.arrRef spec3 1))
    (hafter : ∀ t, dat.after 1 t = blockAt V c 1 t) (t : Fin cfg3.N) (d) : dat.before 1 t d = blockAt V c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-- Window 2: its staging buffer holds the block of the point whenever the body runs, fetched there or not (an unfetched
    point has the block index of the point before), for any proof data over V that leaves the block in place. -/
theorem staged2 {c : Dev nD} (dat : Dat τ (Elt F) Unit ℕ (UR sig nD τ) ℕ cfg3 c) (hA : dat.A 2 = V c (Pipeline.arrRef spec3 2))
    (hafter : ∀ t, dat.after 2 t = blockAt V c 2 t) (t : Fin cfg3.N) (d) : dat.before 2 t d = blockAt V c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-- Window 3: its staging buffer holds the block of the point whenever the body runs, fetched there or not (an unfetched
    point has the block index of the point before), for any proof data over V that leaves the block in place. -/
theorem staged3 {c : Dev nD} (dat : Dat τ (Elt F) Unit ℕ (UR sig nD τ) ℕ cfg3 c) (hA : dat.A 3 = V c (Pipeline.arrRef spec3 3))
    (hafter : ∀ t, dat.after 3 t = blockAt V c 3 t) (t : Fin cfg3.N) (d) : dat.before 3 t d = blockAt V c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-- Window 4: its staging buffer holds the block of the point whenever the body runs, fetched there or not (an unfetched
    point has the block index of the point before), for any proof data over V that leaves the block in place. -/
theorem staged4 {c : Dev nD} (dat : Dat τ (Elt F) Unit ℕ (UR sig nD τ) ℕ cfg3 c) (hA : dat.A 4 = V c (Pipeline.arrRef spec3 4))
    (hafter : ∀ t, dat.after 4 t = blockAt V c 4 t) (t : Fin cfg3.N) (d) : dat.before 4 t d = blockAt V c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-- Window 5: its staging buffer holds the block of the point whenever the body runs, fetched there or not (an unfetched
    point has the block index of the point before), for any proof data over V that leaves the block in place. -/
theorem staged5 {c : Dev nD} (dat : Dat τ (Elt F) Unit ℕ (UR sig nD τ) ℕ cfg3 c) (hA : dat.A 5 = V c (Pipeline.arrRef spec3 5))
    (hafter : ∀ t, dat.after 5 t = blockAt V c 5 t) (t : Fin cfg3.N) (d) : dat.before 5 t d = blockAt V c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-- Window 6: its staging buffer holds the block of the point whenever the body runs, fetched there or not (an unfetched
    point has the block index of the point before), for any proof data over V that leaves the block in place. -/
theorem staged6 {c : Dev nD} (dat : Dat τ (Elt F) Unit ℕ (UR sig nD τ) ℕ cfg3 c) (hA : dat.A 6 = V c (Pipeline.arrRef spec3 6))
    (hafter : ∀ t, dat.after 6 t = blockAt V c 6 t) (t : Fin cfg3.N) (d) : dat.before 6 t d = blockAt V c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The invariant: the scoped buffers no window stages, the accumulator among them at its running value -/

/-- The accumulator: the kernel's own scratch buffer, whole. -/
abbrev accM : Memref sig .tc .vmem S512x2048 .f32 := Memref.whole cc3_scratch0

/-- A scoped buffer of the core held whole at some contents. -/
abbrev heldAny (c : Dev nD) (r : Ref sig .tc) : sProp 𝕄 :=
  iprop(∃ f : Buf (Elt F) ((c : Thread nD τ).loc r), ((c : Thread nD τ).loc r) ↦{fullShare} f)

/-- The scoped buffers that are neither staging buffers of this call nor its accumulator: those of the three earlier calls. -/
def otherScoped (c : Dev nD) : sProp 𝕄 :=
  iprop(heldAny (F := F) c cc0_stg0_0 ∗ heldAny (F := F) c cc0_stg0_1 ∗ heldAny (F := F) c cc0_stg1_0 ∗ heldAny (F := F) c cc0_stg1_1 ∗ heldAny (F := F) c cc1_stg0_0 ∗ heldAny (F := F) c cc1_stg0_1 ∗ heldAny (F := F) c cc1_stg1_0 ∗ heldAny (F := F) c cc1_stg1_1 ∗ heldAny (F := F) c cc2_stg0_0 ∗ heldAny (F := F) c cc2_stg0_1 ∗ heldAny (F := F) c cc2_stg1_0 ∗ heldAny (F := F) c cc2_stg1_1 ∗ heldAny (F := F) c cc2_stg2_0 ∗ heldAny (F := F) c cc2_stg3_0 ∗ heldAny (F := F) c cc2_scratch0)

/-- The accumulator before point n: at anything before the first point, then at what the point before left. -/
def accHeld (c : Dev nD) : (n : ℕ) → n ≤ cfg3.N → sProp 𝕄
  | 0, _ => iprop(∃ d, owns (c : Thread nD τ) accM fullShare d)
  | n + 1, hn => owns (c : Thread nD τ) accM fullShare (accAfter V c n hn)

theorem accHeld_zero (c : Dev nD) (n : ℕ) (h : n ≤ cfg3.N) (hz : n = 0) :
    accHeld V c n h = iprop(∃ d, owns (c : Thread nD τ) accM fullShare d) := by
  subst hz; rfl

theorem accHeld_succ (c : Dev nD) (n : ℕ) (hn : n < cfg3.N) :
    accHeld V c (n + 1) hn = owns (c : Thread nD τ) accM fullShare (accAfter V c n hn) := rfl

theorem accHeld_pos (c : Dev nD) (n : ℕ) (h : n ≤ cfg3.N) (hz : n ≠ 0) :
    accHeld V c n h = owns (c : Thread nD τ) accM fullShare (accAfter V c (n - 1) (by omega)) := by
  cases n with
  | zero => exact absurd rfl hz
  | succ n => rfl

/-- The invariant before point n. -/
def carried (c : Dev nD) (n : ℕ) (h : n ≤ cfg3.N) : sProp 𝕄 :=
  iprop(otherScoped (F := F) c ∗ accHeld V c n h ∗ (∃ r, prngReg c r))

/-- What the launch hands the call is the invariant with the accumulator at anything, and back. -/
theorem scoped_open (c : Dev nD) :
    (Pipeline.ΦA spec3 c : sProp 𝕄) ⊢ iprop(otherScoped (F := F) c ∗ (∃ d, owns (c : Thread nD τ) accM fullShare d) ∗ (∃ r, prngReg c r)) := by
  unfold Pipeline.ΦA otherScoped; rw [scopedRest3_eq]; simp only [accM, owns_whole]
  iintro ⟨⟨R0, R1, R2, R3, R4, R5, R6, R7, R8, R9, R10, R11, R12, R13, R14, HS⟩, Hg⟩
  isplitl [R0 R1 R2 R3 R4 R5 R6 R7 R8 R9 R10 R11 R12 R13 R14]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    iexact R14
  isplitl [HS]; · iexact HS
  iexact Hg

theorem scoped_close (c : Dev nD) :
    iprop(otherScoped (F := F) c ∗ (∃ d, owns (c : Thread nD τ) accM fullShare d) ∗ (∃ r, prngReg c r)) ⊢ (Pipeline.ΦA spec3 c : sProp 𝕄) := by
  unfold Pipeline.ΦA otherScoped; rw [scopedRest3_eq]; simp only [accM, owns_whole]
  iintro ⟨⟨R0, R1, R2, R3, R4, R5, R6, R7, R8, R9, R10, R11, R12, R13, R14⟩, HS, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  isplitl [R14]; · iexact R14
  iexact HS

/-! ## The proof data -/

/-- The proof data of the call on core c: the arrays as found; after the body at point t each input buffer at its block
    and the buffer of the result at the running accumulator plus the bias (read at the last point only: elsewhere the
    window is idle); the invariant above; nothing owed; full shares. -/
def dat (c : Dev nD) : Dat τ (Elt F) Unit ℕ (UR sig nD τ) ℕ cfg3 c where
  A w := V c (Pipeline.arrRef spec3 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => k3_pay1 (accAfter V c t.val t.isLt) (blockAt V c 6 t)
  Φ t := carried V c t.val (Nat.le_of_lt_succ t.isLt)
  q _ := fullShare
  owed _ := 0

theorem dat_A (c : Dev nD) (w : Fin cfg3.W) : (dat V c).A w = V c (Pipeline.arrRef spec3 w) := by
  dsimp only [dat]
theorem dat_after0 (c : Dev nD) (t : Fin cfg3.N) : (dat V c).after 0 t = blockAt V c 0 t := by dsimp only [dat]
theorem dat_after1 (c : Dev nD) (t : Fin cfg3.N) : (dat V c).after 1 t = blockAt V c 1 t := by dsimp only [dat]
theorem dat_after2 (c : Dev nD) (t : Fin cfg3.N) : (dat V c).after 2 t = blockAt V c 2 t := by dsimp only [dat]
theorem dat_after3 (c : Dev nD) (t : Fin cfg3.N) : (dat V c).after 3 t = blockAt V c 3 t := by dsimp only [dat]
theorem dat_after4 (c : Dev nD) (t : Fin cfg3.N) : (dat V c).after 4 t = blockAt V c 4 t := by dsimp only [dat]
theorem dat_after5 (c : Dev nD) (t : Fin cfg3.N) : (dat V c).after 5 t = blockAt V c 5 t := by dsimp only [dat]
theorem dat_after6 (c : Dev nD) (t : Fin cfg3.N) : (dat V c).after 6 t = blockAt V c 6 t := by dsimp only [dat]
theorem dat_after_out (c : Dev nD) (t : Fin cfg3.N) :
    (dat V c).after 7 t = k3_pay1 (accAfter V c t.val t.isLt) (blockAt V c 6 t) := by dsimp only [dat]

theorem dat_before0 (c : Dev nD) (t : Fin cfg3.N) (d) : (dat V c).before 0 t d = blockAt V c 0 t :=
  staged0 V (dat V c) (dat_A V c 0) (dat_after0 V c) t d
theorem dat_before1 (c : Dev nD) (t : Fin cfg3.N) (d) : (dat V c).before 1 t d = blockAt V c 1 t :=
  staged1 V (dat V c) (dat_A V c 1) (dat_after1 V c) t d
theorem dat_before2 (c : Dev nD) (t : Fin cfg3.N) (d) : (dat V c).before 2 t d = blockAt V c 2 t :=
  staged2 V (dat V c) (dat_A V c 2) (dat_after2 V c) t d
theorem dat_before3 (c : Dev nD) (t : Fin cfg3.N) (d) : (dat V c).before 3 t d = blockAt V c 3 t :=
  staged3 V (dat V c) (dat_A V c 3) (dat_after3 V c) t d
theorem dat_before4 (c : Dev nD) (t : Fin cfg3.N) (d) : (dat V c).before 4 t d = blockAt V c 4 t :=
  staged4 V (dat V c) (dat_A V c 4) (dat_after4 V c) t d
theorem dat_before5 (c : Dev nD) (t : Fin cfg3.N) (d) : (dat V c).before 5 t d = blockAt V c 5 t :=
  staged5 V (dat V c) (dat_A V c 5) (dat_after5 V c) t d
theorem dat_before6 (c : Dev nD) (t : Fin cfg3.N) (d) : (dat V c).before 6 t d = blockAt V c 6 t :=
  staged6 V (dat V c) (dat_A V c 6) (dat_after6 V c) t d

theorem dat_Φ_start (c : Dev nD) (t : Fin cfg3.N) :
    (dat V c).Φ t.castSucc = carried V c t.val (Nat.le_of_lt t.isLt) := by
  dsimp only [dat]; simp only [Fin.coe_castSucc]

/-! ## The body obligation -/

/-- What the body is called with at point t: the invariant, what the core owes, every current staging buffer at what it
    then holds; -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d))
    ∗ (∃ d, owns (c : Thread nD τ) (st3_7 t) fullShare ((dat V c).before 7 t d)))

/-- and what it returns: the inputs' buffers at their blocks, the buffer of the result as found where its window is idle,
    at the accumulator plus the bias where it is live. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t)
    ∗ (dat V c).leavesExact 7 t)

set_option maxHeartbeats 4800000 in
/-- The body at any point. The inputs' buffers hold their blocks; the point is the first, a middle one or the last, and
    the run of that case applies: the invariant hands the body the accumulator (at anything at the first point, at what the
    point before left elsewhere) and takes it back at the value of this point; the other scoped buffers, the generator
    register and what the core owes pass through unread. -/
theorem body_at (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [dat_before0, dat_before1, dat_before2, dat_before3, dat_before4, dat_before5, dat_before6]
  rw [show (dat V c).owesAt () t.succ = (dat V c).owesAt () t.castSucc from rfl]
  rw [show (dat V c).Φ t.succ = carried V c (t.val + 1) t.isLt from rfl, dat_Φ_start]
  unfold carried
  rw [accHeld_succ, dat_after0, dat_after1, dat_after2, dat_after3, dat_after4, dat_after5, dat_after6]
  have hN : t.val < 4 := lt_of_lt_of_eq t.isLt (show cfg3.N = 4 from N_3)
  by_cases h0 : t.val = 0
  · have hf : isFirst (grid3.coords t) := (isFirst_iff t).mpr h0
    have hl : ¬isLast (grid3.coords t) := fun h => by have := (isLast_iff t).mp h; omega
    rw [Dat.leavesExact_idle (dat V c) 7 t (out_idle t (by omega)) (out_kept t (by omega))]
    rw [accHeld_zero V c _ _ h0, accAfter_first V c t h0]
    iintro ⟨⟨HR, ⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c Set.univ (grid3.coords t) _ _ _ _ _ _ _ _ _ _ _ _ _ _ _ _ _ _ hf hl (blockAt V c 0 t) (blockAt V c 1 t) (blockAt V c 2 t) (blockAt V c 3 t) (blockAt V c 4 t) (blockAt V c 5 t) (blockAt V c 6 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexists _; iexact HS
    iintro ⟨H0, H1, H2, H3, H4, H5, H6, H7, HS⟩
    isplitl [HR HS Hg]
    · isplitl [HR]; · iexact HR
      isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hf : ¬isFirst (grid3.coords t) := fun h => h0 ((isFirst_iff t).mp h)
    by_cases h3 : t.val = 3
    · have hl : isLast (grid3.coords t) := (isLast_iff t).mpr h3
      rw [show (dat V c).leavesExact 7 t = owns (c : Thread nD τ) (st3_7 t) fullShare ((dat V c).after 7 t) from by
        unfold Dat.leavesExact; rw [out_live t h3], dat_after_out]
      rw [accHeld_pos V c _ _ h0, accAfter_later V c t h0]
      iintro ⟨⟨HR, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_last c Set.univ (grid3.coords t) _ _ _ _ _ _ _ _ _ _ _ _ _ _ _ _ _ _ hf hl (blockAt V c 0 t) (blockAt V c 1 t) (blockAt V c 2 t) (blockAt V c 3 t) (blockAt V c 4 t) (blockAt V c 5 t) (blockAt V c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hl : ¬isLast (grid3.coords t) := fun h => h3 ((isLast_iff t).mp h)
      rw [Dat.leavesExact_idle (dat V c) 7 t (out_idle t h3) (out_kept t h3)]
      rw [accHeld_pos V c _ _ h0, accAfter_later V c t h0]
      iintro ⟨⟨HR, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_middle c Set.univ (grid3.coords t) _ _ _ _ _ _ _ _ _ _ _ _ _ _ _ _ _ _ hf hl (blockAt V c 0 t) (blockAt V c 1 t) (blockAt V c 2 t) (blockAt V c 3 t) (blockAt V c 4 t) (blockAt V c 5 t) (blockAt V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation of the call, at every point. -/
theorem body_obligation (c : Dev nD) : BodyObligation (dat (F := F) V c) (defs₀ (F := F)) Variants.none () Set.univ := fun t => by
  rw [bigSep_W3, bigSep_W3]
  exact body_at V c t

/-- What the launch hands the call is the invariant before the first point. -/
theorem phi_in (c : Dev nD) : Pipeline.ΦA spec3 c ⊢ (dat V c).Φ 0 := by
  rw [show (dat V c).Φ 0 = carried V c 0 (Nat.zero_le _) from rfl]
  unfold carried; rw [accHeld_zero V c 0 _ rfl]
  exact scoped_open c

/-- After the last point the invariant gives it back: the value of the accumulator is forgotten. -/
theorem phi_out (c : Dev nD) : (dat V c).Φ (Fin.last cfg3.N) ⊢ Pipeline.ΦA spec3 c := by
  rw [show (dat V c).Φ (Fin.last cfg3.N) = carried V c (Fin.last cfg3.N).val (Nat.le_of_lt_succ (Fin.last cfg3.N).isLt) from rfl]
  unfold carried
  rw [accHeld_pos V c _ _ (by rw [Fin.val_last]; have : cfg3.N = 4 := N_3; omega)]
  iintro ⟨HR, HS, Hg⟩
  iapply (scoped_close c)
  isplitl [HR]; · iexact HR
  isplitl [HS]; · iexists _; iexact HS
  iexact Hg

/-! ## The value the call leaves -/

theorem three_lt : 3 < cfg3.N := by rw [show cfg3.N = 4 from N_3]; decide

/-- After the last point the staging buffer of the result holds the accumulator of the four points plus the bias. -/
theorem out_last (c : Dev nD) :
    (dat V c).after 7 ⟨3, three_lt⟩ = k3_pay1 (accAfter V c 3 three_lt) (blockAt V c 6 ⟨3, three_lt⟩) :=
  dat_after_out V c ⟨3, three_lt⟩

end Cert.KernelIdeal.Call3

end
-- ==== Proof.AssembleKernelIdeal.lean ====
/-
  The four kernel calls of @main put together. Between two items of @main every unscoped TensorCore buffer is held at a
  valuation: the launch contents pushed through the stretches of host operations, and updated at a call's result array by
  what that call leaves there (`left0` … `left3`: the call's write-backs folded over its grid). Each call is a segment
  entered from the valuation before it and left at the one after it; its arrays are split out of the unscoped buffers on
  entry and put back on exit, the generator register and what the core owes (nothing) ride along.
-/
import proofs.«154134_j25494925869443_2_alg».proof.Proof.WholeRunKernelIdeal
import proofs.«154134_j25494925869443_2_alg».proof.Proof.PoolCall0KernelIdeal
import proofs.«154134_j25494925869443_2_alg».proof.Proof.PoolCall1KernelIdeal
import proofs.«154134_j25494925869443_2_alg».proof.Proof.MatmulCall2KernelIdeal
import proofs.«154134_j25494925869443_2_alg».proof.Proof.NormMatmulCall3KernelIdeal
import Idealize.ShloMosaic.Lib.Pipeline.RegionsLoop

set_option maxRecDepth 16384

noncomputable section

namespace Cert.KernelIdeal.Whole

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- For ANY entry contents `W`: proof data whose arrays are `W`'s and whose result array ends at `x` leave every array of
    the call at `W` updated at the result array by `x` (an input array ends as it was found). -/
theorem arrays_after_any2 (c : Dev nD) (W : Valuation τ sig (Elt F)) (x : Buf (Elt F) ((c : Thread nD τ).loc main_v7))
    (dat : Dat τ (Elt F) Unit ℕ (UR sig nD τ) ℕ cfg2 c) (hA : ∀ w, dat.A w = W (Pipeline.arrRef spec2 w))
    (hx : dat.arrAt 3 cfg2.N = x) (w : Fin cfg2.W) :
    dat.arrAt w cfg2.N = Function.update W (Proc.devRef .tc main_v7) x (Pipeline.arrRef spec2 w) := by
  match w with
  | ⟨0, _⟩ =>
    exact ((dat.arrAt_in 0 rfl _).trans (hA 0)).trans
      (Function.update_of_ne (StableHlo.devRef_ne_of_ne (by decide) : (Proc.devRef .tc main_v4 : DevRef τ sig) ≠ Proc.devRef .tc main_v7) x W).symm
  | ⟨1, _⟩ =>
    exact ((dat.arrAt_in 1 rfl _).trans (hA 1)).trans
      (Function.update_of_ne (StableHlo.devRef_ne_of_ne (by decide) : (Proc.devRef .tc main_v5 : DevRef τ sig) ≠ Proc.devRef .tc main_v7) x W).symm
  | ⟨2, _⟩ =>
    exact ((dat.arrAt_in 2 rfl _).trans (hA 2)).trans
      (Function.update_of_ne (StableHlo.devRef_ne_of_ne (by decide) : (Proc.devRef .tc main_arg5 : DevRef τ sig) ≠ Proc.devRef .tc main_v7) x W).symm
  | ⟨3, _⟩ =>
    exact hx.trans (Function.update_self (Proc.devRef .tc main_v7 : DevRef τ sig) x W).symm

set_option maxHeartbeats 1000000 in
/-- For ANY entry contents `W`: proof data whose arrays are `W`'s and whose result array ends at `x` leave every array of
    the call at `W` updated at the result array by `x` (an input array ends as it was found). -/
theorem arrays_after_any3 (c : Dev nD) (W : Valuation τ sig (Elt F)) (x : Buf (Elt F) ((c : Thread nD τ).loc main_v12))
    (dat : Dat τ (Elt F) Unit ℕ (UR sig nD τ) ℕ cfg3 c) (hA : ∀ w, dat.A w = W (Pipeline.arrRef spec3 w))
    (hx : dat.arrAt 7 cfg3.N = x) (w : Fin cfg3.W) :
    dat.arrAt w cfg3.N = Function.update W (Proc.devRef .tc main_v12) x (Pipeline.arrRef spec3 w) := by
  match w with
  | ⟨0, _⟩ =>
    exact ((dat.arrAt_in 0 rfl _).trans (hA 0)).trans
      (Function.update_of_ne (StableHlo.devRef_ne_of_ne (by decide) : (Proc.devRef .tc main_v7 : DevRef τ sig) ≠ Proc.devRef .tc main_v12) x W).symm
  | ⟨1, _⟩ =>
    exact ((dat.arrAt_in 1 rfl _).trans (hA 1)).trans
      (Function.update_of_ne (StableHlo.devRef_ne_of_ne (by decide) : (Proc.devRef .tc main_v10 : DevRef τ sig) ≠ Proc.devRef .tc main_v12) x W).symm
  | ⟨2, _⟩ =>
    exact ((dat.arrAt_in 2 rfl _).trans (hA 2)).trans
      (Function.update_of_ne (StableHlo.devRef_ne_of_ne (by decide) : (Proc.devRef .tc main_v11 : DevRef τ sig) ≠ Proc.devRef .tc main_v12) x W).symm
  | ⟨3, _⟩ =>
    exact ((dat.arrAt_in 3 rfl _).trans (hA 3)).trans
      (Function.update_of_ne (StableHlo.devRef_ne_of_ne (by decide) : (Proc.devRef .tc main_arg6 : DevRef τ sig) ≠ Proc.devRef .tc main_v12) x W).symm
  | ⟨4, _⟩ =>
    exact ((dat.arrAt_in 4 rfl _).trans (hA 4)).trans
      (Function.update_of_ne (StableHlo.devRef_ne_of_ne (by decide) : (Proc.devRef .tc main_arg7 : DevRef τ sig) ≠ Proc.devRef .tc main_v12) x W).symm
  | ⟨5, _⟩ =>
    exact ((dat.arrAt_in 5 rfl _).trans (hA 5)).trans
      (Function.update_of_ne (StableHlo.devRef_ne_of_ne (by decide) : (Proc.devRef .tc main_v6 : DevRef τ sig) ≠ Proc.devRef .tc main_v12) x W).symm
  | ⟨6, _⟩ =>
    exact ((dat.arrAt_in 6 rfl _).trans (hA 6)).trans
      (Function.update_of_ne (StableHlo.devRef_ne_of_ne (by decide) : (Proc.devRef .tc main_arg9 : DevRef τ sig) ≠ Proc.devRef .tc main_v12) x W).symm
  | ⟨7, _⟩ =>
    exact hx.trans (Function.update_self (Proc.devRef .tc main_v12 : DevRef τ sig) x W).symm

/-! ## The valuations at the boundaries, and what each call leaves -/

/-- Before the first call: the launch contents after the first reshape. -/
abbrev B1 (c : Dev nD) : Valuation τ sig (Elt F) := V1 m c
/-- The contents read at the TensorCore's references (what a call's proof data take). -/
abbrev at1 (c : Dev nD) (b : Ref sig .tc) : Buf (Elt F) ((c : Thread nD τ).loc b) := B1 m c b
/-- What the first pooling call leaves in its result array. -/
def left0 (c : Dev nD) : Buf (Elt F) ((c : Thread nD τ).loc main_v1) := (Pool0.dat (at1 m) c).arrAt 1 cfg0.N
abbrev B2 (c : Dev nD) : Valuation τ sig (Elt F) := Function.update (B1 m c) main_v1 (left0 m c)
abbrev B3 (c : Dev nD) : Valuation τ sig (Elt F) := StableHlo.after hostOps1 (B2 m c)
abbrev at3 (c : Dev nD) (b : Ref sig .tc) : Buf (Elt F) ((c : Thread nD τ).loc b) := B3 m c b
/-- What the second pooling call leaves in its result array. -/
def left1 (c : Dev nD) : Buf (Elt F) ((c : Thread nD τ).loc main_v3) := (Pool1.dat (at3 m) c).arrAt 1 cfg1.N
abbrev B4 (c : Dev nD) : Valuation τ sig (Elt F) := Function.update (B3 m c) main_v3 (left1 m c)
abbrev B5 (c : Dev nD) : Valuation τ sig (Elt F) := StableHlo.after hostOps2 (B4 m c)
abbrev at5 (c : Dev nD) (b : Ref sig .tc) : Buf (Elt F) ((c : Thread nD τ).loc b) := B5 m c b
/-- What the first matrix-product call leaves in its result array. -/
def left2 (c : Dev nD) : Buf (Elt F) ((c : Thread nD τ).loc main_v7) := (Call2.dat (at5 m) c).arrAt 3 cfg2.N
abbrev B6 (c : Dev nD) : Valuation τ sig (Elt F) := Function.update (B5 m c) main_v7 (left2 m c)
abbrev B7 (c : Dev nD) : Valuation τ sig (Elt F) := StableHlo.after hostOps3 (B6 m c)
abbrev B8 (c : Dev nD) : Valuation τ sig (Elt F) := StableHlo.after hostOps3_1 (B7 m c)
abbrev at8 (c : Dev nD) (b : Ref sig .tc) : Buf (Elt F) ((c : Thread nD τ).loc b) := B8 m c b
/-- What the normalise-and-multiply call leaves in its result array. -/
def left3 (c : Dev nD) : Buf (Elt F) ((c : Thread nD τ).loc main_v12) := (Call3.dat (at8 m) c).arrAt 7 cfg3.N
abbrev B9 (c : Dev nD) : Valuation τ sig (Elt F) := Function.update (B8 m c) main_v12 (left3 m c)

/-- What the calls leave, as the table the boundary valuations are written over: read only at the four result arrays. -/
def leftBy : Outs (F := F) := fun _ r c =>
  if h1 : r = main_v1 then h1 ▸ left0 m c
  else if h3 : r = main_v3 then h3 ▸ left1 m c
  else if h7 : r = main_v7 then h7 ▸ left2 m c
  else if h12 : r = main_v12 then h12 ▸ left3 m c
  else fun _ => Classical.arbitrary _

theorem leftBy_v1 (J : ℕ) (c : Dev nD) : leftBy m J main_v1 c = left0 m c := by
  unfold leftBy; rw [dif_pos rfl]
theorem leftBy_v3 (J : ℕ) (c : Dev nD) : leftBy m J main_v3 c = left1 m c := by
  unfold leftBy; rw [dif_neg (by decide), dif_pos rfl]
theorem leftBy_v7 (J : ℕ) (c : Dev nD) : leftBy m J main_v7 c = left2 m c := by
  unfold leftBy; rw [dif_neg (by decide), dif_neg (by decide), dif_pos rfl]
theorem leftBy_v12 (J : ℕ) (c : Dev nD) : leftBy m J main_v12 c = left3 m c := by
  unfold leftBy; rw [dif_neg (by decide), dif_neg (by decide), dif_neg (by decide), dif_pos rfl]

/-- The boundary valuations over that table are the staged ones. -/
theorem V2_eq (c : Dev nD) : V2 m (leftBy m) c = B2 m c := by
  show Function.update (V1 m c) main_v1 (leftBy m 2 main_v1 c) = _; rw [leftBy_v1]
theorem V3_eq (c : Dev nD) : V3 m (leftBy m) c = B3 m c := by
  show StableHlo.after hostOps1 (V2 m (leftBy m) c) = _; rw [V2_eq]
theorem V4_eq (c : Dev nD) : V4 m (leftBy m) c = B4 m c := by
  show Function.update (V3 m (leftBy m) c) main_v3 (leftBy m 4 main_v3 c) = _; rw [leftBy_v3, V3_eq]
theorem V5_eq (c : Dev nD) : V5 m (leftBy m) c = B5 m c := by
  show StableHlo.after hostOps2 (V4 m (leftBy m) c) = _; rw [V4_eq]
theorem V6_eq (c : Dev nD) : V6 m (leftBy m) c = B6 m c := by
  show Function.update (V5 m (leftBy m) c) main_v7 (leftBy m 6 main_v7 c) = _; rw [leftBy_v7, V5_eq]
theorem V8_eq (c : Dev nD) : V8 m (leftBy m) c = B8 m c := by
  show StableHlo.after hostOps3_1 (StableHlo.after hostOps3 (V6 m (leftBy m) c)) = _; rw [V6_eq]
theorem V9_eq (c : Dev nD) : V9 m (leftBy m) c = B9 m c := by
  show Function.update (V8 m (leftBy m) c) main_v12 (leftBy m 9 main_v12 c) = _; rw [leftBy_v12, V8_eq]

/-! ## The proof data family and what rides beside the buffers -/

/-- Every call's proof data, each at its entry contents — a literal match, so that the family at a numeral is that call's. -/
def pdats : (p : Fin 4) → (c : Dev nD) → Dat τ (Elt F) Unit ℕ (UR sig nD τ) ℕ (cfgs p) c
  | ⟨0, _⟩ => fun c => Pool0.dat (at1 m) c
  | ⟨1, _⟩ => fun c => Pool1.dat (at3 m) c
  | ⟨2, _⟩ => fun c => Call2.dat (at5 m) c
  | ⟨3, _⟩ => fun c => Call3.dat (at8 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)

/-- The first pooling call leaves its input array as found and its result array at `left0`; every other buffer as found. -/
theorem arrays_after0 (c : Dev nD) (w : Fin cfg0.W) : (pdats m 0 c).arrAt w cfg0.N = B2 m c (Pipeline.arrRef spec0 w) := by
  match w with
  | ⟨0, _⟩ =>
    refine ((pdats m 0 c).arrAt_in 0 rfl _).trans ?_
    show B1 m c main_v0 = Function.update (B1 m c) main_v1 (left0 m c) main_v0
    rw [Function.update_of_ne (StableHlo.devRef_ne_of_ne (by decide) : (Proc.devRef .tc main_v0 : DevRef τ sig) ≠ Proc.devRef .tc main_v1)]
  | ⟨1, _⟩ =>
    show left0 m c = Function.update (B1 m c) main_v1 (left0 m c) main_v1
    rw [Function.update_self]
theorem rest_after0 (c : Dev nD) : ∀ b : Ref sig .tc, b ∉ Finset.univ.image (Pipeline.arrRef spec0) → B2 m c b = B1 m c b := by
  intro b hb
  have hne : b ≠ main_v1 := fun e => hb (Finset.mem_image.mpr ⟨1, Finset.mem_univ _, e.symm ▸ rfl⟩)
  show Function.update (B1 m c) main_v1 (left0 m c) b = _
  rw [Function.update_of_ne (StableHlo.devRef_ne_of_ne hne : (Proc.devRef .tc b : DevRef τ sig) ≠ Proc.devRef .tc main_v1)]

-- a library lemma stated over the pinned configuration unifies with the printed one only when unification may unfold
-- plain definitions in a metavariable's type
set_option backward.isDefEq.respectTransparency.types false in
/-- The first pooling call as a segment of @main: entered with every unscoped buffer at `B1`, left with them at `B2`. -/
def call0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pool0.body_obligation (at1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (at1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (at1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (at1 m c) (fun b => B2 m c b) ((pdats m 0 c).arrAt · cfg0.N) (arrays_after0 m c) (rest_after0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second pooling call leaves its input array as found and its result array at `left1`; every other buffer as found. -/
theorem arrays_after1 (c : Dev nD) (w : Fin cfg1.W) : (pdats m 1 c).arrAt w cfg1.N = B4 m c (Pipeline.arrRef spec1 w) := by
  match w with
  | ⟨0, _⟩ =>
    refine ((pdats m 1 c).arrAt_in 0 rfl _).trans ?_
    show B3 m c main_v2 = Function.update (B3 m c) main_v3 (left1 m c) main_v2
    rw [Function.update_of_ne (StableHlo.devRef_ne_of_ne (by decide) : (Proc.devRef .tc main_v2 : DevRef τ sig) ≠ Proc.devRef .tc main_v3)]
  | ⟨1, _⟩ =>
    show left1 m c = Function.update (B3 m c) main_v3 (left1 m c) main_v3
    rw [Function.update_self]
theorem rest_after1 (c : Dev nD) : ∀ b : Ref sig .tc, b ∉ Finset.univ.image (Pipeline.arrRef spec1) → B4 m c b = B3 m c b := by
  intro b hb
  have hne : b ≠ main_v3 := fun e => hb (Finset.mem_image.mpr ⟨1, Finset.mem_univ _, e.symm ▸ rfl⟩)
  show Function.update (B3 m c) main_v3 (left1 m c) b = _
  rw [Function.update_of_ne (StableHlo.devRef_ne_of_ne hne : (Proc.devRef .tc b : DevRef τ sig) ≠ Proc.devRef .tc main_v3)]

-- a library lemma stated over the pinned configuration unifies with the printed one only when unification may unfold
-- plain definitions in a metavariable's type
set_option backward.isDefEq.respectTransparency.types false in
/-- The second pooling call as a segment of @main: entered with every unscoped buffer at `B3`, left with them at `B4`. -/
def call1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pool1.body_obligation (at3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (at3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (at3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (at3 m c) (fun b => B4 m c b) ((pdats m 1 c).arrAt · cfg1.N) (arrays_after1 m c) (rest_after1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The first matrix-product call leaves its input arrays as found and its result array at `left2`; every other buffer as found. -/
theorem arrays_after2 (c : Dev nD) (w : Fin cfg2.W) : (pdats m 2 c).arrAt w cfg2.N = B6 m c (Pipeline.arrRef spec2 w) :=
  arrays_after_any2 c (B5 m c) (left2 m c) (Call2.dat (at5 m) c) (fun w => Call2.dat_A (at5 m) c w) rfl w
theorem rest_after2 (c : Dev nD) : ∀ b : Ref sig .tc, b ∉ Finset.univ.image (Pipeline.arrRef spec2) → B6 m c b = B5 m c b := by
  intro b hb
  have hne : b ≠ main_v7 := fun e => hb (Finset.mem_image.mpr ⟨3, Finset.mem_univ _, e.symm ▸ rfl⟩)
  show Function.update (B5 m c) main_v7 (left2 m c) b = _
  rw [Function.update_of_ne (StableHlo.devRef_ne_of_ne hne : (Proc.devRef .tc b : DevRef τ sig) ≠ Proc.devRef .tc main_v7)]

set_option backward.isDefEq.respectTransparency.types false in
/-- The first matrix-product call as a segment of @main: entered with every unscoped buffer at `B5`, left with them at `B6`. Its
    invariant takes the scoped buffers no window stages (the accumulator among them) and the generator register in at the
    first point and gives them back after the last. -/
def call2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Call2.body_obligation (at5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec2 c (at5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (at5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Call2.phi_in (at5 m) c
    unfold Pipeline.ΦA at h
    rw [show (pdats m 2 c).Φ 0 = (Call2.dat (at5 m) c).Φ 0 from rfl]
    iintro ⟨Hp, -, Hr⟩
    iapply h
    isplitl [Hr]; · iexact Hr
    iexact Hp
  hout c := by
    have h := Call2.phi_out (at5 m) c
    unfold Pipeline.ΦA at h
    have hswap : (iprop(Pipeline.scopedRest (Ix := Unit) (Name := ℕ) (U := UR sig nD τ) (Lvl := ℕ) (Val := Elt F) spec2 c ∗ ∃ r, prngReg c r) : sProp 𝕄)
        ⊢ iprop((∃ r, prngReg c r) ∗ BI.emp ∗ Pipeline.scopedRest (Ix := Unit) (Name := ℕ) (U := UR sig nD τ) (Lvl := ℕ) (Val := Elt F) spec2 c) := by
      iintro ⟨Hr, Hp⟩
      isplitl [Hp]; · iexact Hp
      isplitr; · iempintro
      iexact Hr
    rw [Pipeline.ownSems0_none, show (pdats m 2 c).Φ (Fin.last _) = (Call2.dat (at5 m) c).Φ (Fin.last cfg2.N) from rfl]
    exact h.trans hswap
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (at5 m c) (fun b => B6 m c b) ((pdats m 2 c).arrAt · cfg2.N) (arrays_after2 m c) (rest_after2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The normalise-and-multiply call leaves its input arrays as found and its result array at `left3`; every other buffer as found. -/
theorem arrays_after3 (c : Dev nD) (w : Fin cfg3.W) : (pdats m 3 c).arrAt w cfg3.N = B9 m c (Pipeline.arrRef spec3 w) :=
  arrays_after_any3 c (B8 m c) (left3 m c) (Call3.dat (at8 m) c) (fun w => Call3.dat_A (at8 m) c w) rfl w
theorem rest_after3 (c : Dev nD) : ∀ b : Ref sig .tc, b ∉ Finset.univ.image (Pipeline.arrRef spec3) → B9 m c b = B8 m c b := by
  intro b hb
  have hne : b ≠ main_v12 := fun e => hb (Finset.mem_image.mpr ⟨7, Finset.mem_univ _, e.symm ▸ rfl⟩)
  show Function.update (B8 m c) main_v12 (left3 m c) b = _
  rw [Function.update_of_ne (StableHlo.devRef_ne_of_ne hne : (Proc.devRef .tc b : DevRef τ sig) ≠ Proc.devRef .tc main_v12)]

set_option backward.isDefEq.respectTransparency.types false in
/-- The normalise-and-multiply call as a segment of @main: entered with every unscoped buffer at `B8`, left with them at `B9`. Its
    invariant takes the scoped buffers no window stages (the accumulator among them) and the generator register in at the
    first point and gives them back after the last. -/
def call3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Call3.body_obligation (at8 m) c).loose
  hwaits := Pipeline.hwaits_of_owed_zero _ _ _ _ L lv 3 fun _ _ => rfl
  pre c := iprop(StableHlo.held (c : Thread nD τ) (Pipeline.ucRefs τ sig) (B8 m c) ∗ R c)
  post c := iprop(StableHlo.held (c : Thread nD τ) (Pipeline.ucRefs τ sig) (B9 m c) ∗ R c)
  X c := iprop(∃ r, prngReg c r)
  Y c := iprop(∃ r, prngReg c r)
  Z c := Pipeline.unscopedRest (Ix := Unit) (Name := ℕ) (U := UR sig nD τ) (Lvl := ℕ) spec3 c (at8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (at8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Call3.phi_in (at8 m) c
    unfold Pipeline.ΦA at h
    rw [show (pdats m 3 c).Φ 0 = (Call3.dat (at8 m) c).Φ 0 from rfl]
    iintro ⟨Hp, -, Hr⟩
    iapply h
    isplitl [Hr]; · iexact Hr
    iexact Hp
  hout c := by
    have h := Call3.phi_out (at8 m) c
    unfold Pipeline.ΦA at h
    have hswap : (iprop(Pipeline.scopedRest (Ix := Unit) (Name := ℕ) (U := UR sig nD τ) (Lvl := ℕ) (Val := Elt F) spec3 c ∗ ∃ r, prngReg c r) : sProp 𝕄)
        ⊢ iprop((∃ r, prngReg c r) ∗ BI.emp ∗ Pipeline.scopedRest (Ix := Unit) (Name := ℕ) (U := UR sig nD τ) (Lvl := ℕ) (Val := Elt F) spec3 c) := by
      iintro ⟨Hr, Hp⟩
      isplitl [Hp]; · iexact Hp
      isplitr; · iempintro
      iexact Hr
    rw [Pipeline.ownSems0_none, show (pdats m 3 c).Φ (Fin.last _) = (Call3.dat (at8 m) c).Φ (Fin.last cfg3.N) from rfl]
    exact h.trans hswap
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (at8 m c) (fun b => B9 m c b) ((pdats m 3 c).arrAt · cfg3.N) (arrays_after3 m c) (rest_after3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- At the launch each core keeps, of what it is dealt, its generator register and its empty account of what it owes. -/
theorem rest_init (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts L lv)
      ⊢ (|={Set.univ}=> bigSep Finset.univ (fun c => R c) : sProp 𝕄) := by
  have hcore : ∀ c : Dev nD, (iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c) : sProp 𝕄) ⊢ R c := fun c => by
    iintro ⟨-, HO, -, Hp, -⟩
    isplitl [Hp]; · iexists _; iexact Hp
    iexists ∅; iexact HO
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c))
      ⊢ (bigSep Finset.univ (fun c => R c) : sProp 𝕄) :=
    bigSep_mono fun c _ => hcore c
  iintro ⟨H, -⟩
  imodintro
  iapply hmono
  iexact H

/-- @main run to its end: every weakly fair execution terminates, nothing faults, and every unscoped TensorCore buffer ends at
    the last boundary's valuation over what the four calls leave. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem ((c : Thread nD τ).1, b) = V13 m (leftBy m) c b) :=
  run_cond m emb₁ () 𝒱₀ L lv (fun _ _ => rfl) ρ (leftBy m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (rest_init ρ)
    (fun c => by iintro ⟨-, H⟩; iexact H)
    (call0 m) (fun c => .rfl) (fun c => by rw [V2_eq]; exact .rfl)
    (call1 m) (fun c => by rw [V3_eq]; exact .rfl) (fun c => by rw [V4_eq]; exact .rfl)
    (call2 m) (fun c => by rw [V5_eq]; exact .rfl) (fun c => by rw [V6_eq]; exact .rfl)
    (call3 m) (fun c => by rw [V8_eq]; exact .rfl) (fun c => by rw [V9_eq]; exact .rfl)

/-- Each argument array ends as launched. -/
theorem args_kept (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (V13_main_arg0 m (leftBy m) c),
     (h c _ (mem_uc main_arg1 (by decide))).trans (V13_main_arg1 m (leftBy m) c),
     (h c _ (mem_uc main_arg2 (by decide))).trans (V13_main_arg2 m (leftBy m) c),
     (h c _ (mem_uc main_arg3 (by decide))).trans (V13_main_arg3 m (leftBy m) c),
     (h c _ (mem_uc main_arg4 (by decide))).trans (V13_main_arg4 m (leftBy m) c),
     (h c _ (mem_uc main_arg5 (by decide))).trans (V13_main_arg5 m (leftBy m) c),
     (h c _ (mem_uc main_arg6 (by decide))).trans (V13_main_arg6 m (leftBy m) c),
     (h c _ (mem_uc main_arg7 (by decide))).trans (V13_main_arg7 m (leftBy m) c),
     (h c _ (mem_uc main_arg8 (by decide))).trans (V13_main_arg8 m (leftBy m) c),
     (h c _ (mem_uc main_arg9 (by decide))).trans (V13_main_arg9 m (leftBy m) c)⟩) (run_all m ρ)

end Cert.KernelIdeal.Whole

end
-- ==== Proof.ReferenceRun.lean ====
/-
  The run of the reference program, written out.

  @main of the reference is a straight line of StableHLO operations on the host side: 105 of its own and,
  at four calls, the bodies of the functions it calls — @_var (nineteen operations and a call of @_where, three
  more), @relu (three), @norm (five) and @_where_0 (three) — each body over the buffers that call names
  (its record). A call means its callee's body on the operands, so @main is the line of all 138
  operations in order: `ops`. `main_eq` is that equation (the bodies unfolded at their calls, the
  sequencing reassociated); `ops_sub` says every buffer an operation touches is a TensorCore reference;
  `run_main` reads the run off the line: every weakly fair execution terminates with each buffer at the
  fold of the operations' results over its launch contents. No operation writes an argument's buffer
  (each writes the one buffer of its own value), so the ten arguments keep their launch contents
  (`args_kept`, `arg0_kept` … `arg9_kept`).
-/
import proofs.«154134_j25494925869443_2_alg».proof.Proof.Gen.ReferenceIdeal
import Idealize.ShloMosaic.Lib.StableHlo.Run

noncomputable section

namespace Cert.ReferenceIdeal.HandRun

open Cert.ReferenceIdeal Cert.ReferenceIdeal.Facts₀ Idealize.ShloMosaic Idealize.ShloMosaic.TcCoe Idealize.SL.Sem

variable {F : FTy → Type} [FloatOps F]

/-- @main's 138 operations in order, each callee's operations listed at its call over that call's record. -/
abbrev ops : List (HloOp τ sig (Elt F)) :=
    -- @main's own operations
  [ StableHlo.binary main_arg0 main_arg1 main_v0 ((fun a b => concatenate S512x2048x8x8 0 [⟨S256x2048x8x8, a⟩, ⟨S256x2048x8x8, b⟩] concatenates_S256x2048x8x8_S256x2048x8x8_S512x2048x8x8_d0) : (⟨S256x2048x8x8, .f32⟩ : BufTy).Contents (Elt F) → (⟨S256x2048x8x8, .f32⟩ : BufTy).Contents (Elt F) → (⟨S512x2048x8x8, .f32⟩ : BufTy).Contents (Elt F)),
    StableHlo.nullary main_cst (constant S_ .f32 0x00000000#32),
    StableHlo.binary main_v0 main_cst main_v1 ((fun x v => Host.reduceAdd x v reducesTo_S512x2048x8x8_S512x2048_d2_3 h_S_) : (⟨S512x2048x8x8, .f32⟩ : BufTy).Contents (Elt F) → (⟨S_, .f32⟩ : BufTy).Contents (Elt F) → (⟨S512x2048, .f32⟩ : BufTy).Contents (Elt F)),
    StableHlo.nullary main_cst_0 (constant S_ .f32 0x42800000#32),
    StableHlo.unary main_cst_0 main_v2 (broadcastInDim S512x2048 ![] bcast_S_S512x2048 : (⟨S_, .f32⟩ : BufTy).Contents (Elt F) → (⟨S512x2048, .f32⟩ : BufTy).Contents (Elt F)),
    StableHlo.binary main_v1 main_v2 main_v3 (Host.divf : (⟨S512x2048, .f32⟩ : BufTy).Contents (Elt F) → (⟨S512x2048, .f32⟩ : BufTy).Contents (Elt F) → (⟨S512x2048, .f32⟩ : BufTy).Contents (Elt F)),
    StableHlo.unary main_arg4 main_v4 ((transpose S2048x2048 [1, 0] · transposes_S2048x2048_S2048x2048_1_0) : (⟨S2048x2048, .f32⟩ : BufTy).Contents (Elt F) → (⟨S2048x2048, .f32⟩ : BufTy).Contents (Elt F)),
    StableHlo.binary main_v3 main_v4 main_v5 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    StableHlo.unary main_arg5 main_v6 (broadcastInDim S1x2048 ![1] bcast_S2048_S1x2048_1 : (⟨S2048, .f32⟩ : BufTy).Contents (Elt F) → (⟨S1x2048, .f32⟩ : BufTy).Contents (Elt F)),
    StableHlo.unary main_v6 main_v7 (broadcastInDim S512x2048 ![0, 1] bcast_S1x2048_S512x2048_0_1 : (⟨S1x2048, .f32⟩ : BufTy).Contents (Elt F) → (⟨S512x2048, .f32⟩ : BufTy).Contents (Elt F)),
    StableHlo.binary main_v5 main_v7 main_v8 (addf : (⟨S512x2048, .f32⟩ : BufTy).Contents (Elt F) → (⟨S512x2048, .f32⟩ : BufTy).Contents (Elt F) → (⟨S512x2048, .f32⟩ : BufTy).Contents (Elt F)),
    StableHlo.nullary main_cst_1 (constant S_ .f32 0x00000000#32),
    StableHlo.binary main_v8 main_cst_1 main_v9 ((fun x v => Host.reduceAdd x v reducesTo_S512x2048_S2048_d0 h_S_) : (⟨S512x2048, .f32⟩ : BufTy).Contents (Elt F) → (⟨S_, .f32⟩ : BufTy).Contents (Elt F) → (⟨S2048, .f32⟩ : BufTy).Contents (Elt F)),
    StableHlo.nullary main_cst_2 (constant S_ .f32 0x44000000#32),
    StableHlo.unary main_cst_2 main_v10 (broadcastInDim S2048 ![] bcast_S_S2048 : (⟨S_, .f32⟩ : BufTy).Contents (Elt F) → (⟨S2048, .f32⟩ : BufTy).Contents (Elt F)),
    StableHlo.binary main_v9 main_v10 main_v11 (Host.divf : (⟨S2048, .f32⟩ : BufTy).Contents (Elt F) → (⟨S2048, .f32⟩ : BufTy).Contents (Elt F) → (⟨S2048, .f32⟩ : BufTy).Contents (Elt F)),
    StableHlo.nullary main_c (constantI S_ 32 0#32),
    -- the body of @_var over main_call0
    StableHlo.TRef.nullary main_call0.cst (constant S_ .f32 0x00000000#32),
    StableHlo.TRef.binary (.of main_v8 : StableHlo.TRef sig ⟨S512x2048, .f32⟩) main_call0.cst main_call0.v0 (fun x v => Host.reduceAdd x v reducesTo_S512x2048_S2048_d0 h_S_),
    StableHlo.TRef.unary main_call0.v0 main_call0.v1 (broadcastInDim S1x2048 ![1] bcast_S2048_S1x2048_1),
    StableHlo.TRef.nullary main_call0.cst_0 (constant S_ .f32 0x44000000#32),
    StableHlo.TRef.unary main_call0.cst_0 main_call0.v2 (broadcastInDim S1x2048 ![] bcast_S_S1x2048),
    StableHlo.TRef.binary main_call0.v1 main_call0.v2 main_call0.v3 Host.divf,
    StableHlo.TRef.unary main_call0.v3 main_call0.v4 (broadcastInDim S512x2048 ![0, 1] bcast_S1x2048_S512x2048_0_1),
    StableHlo.TRef.binary (.of main_v8 : StableHlo.TRef sig ⟨S512x2048, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x44000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S512x2048_S2048_d0 h_S_),
    StableHlo.TRef.unary main_call0.v8 main_call0.v10 (broadcastInDim S2048 ![] bcast_S_S2048),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    -- the body of @_where over main_call0.call0 (called from @_var over main_call0)
    StableHlo.TRef.unary main_call0.cst_4 main_call0.call0.v0 id,
    StableHlo.TRef.unary main_call0.call0.v0 main_call0.call0.v1 (broadcastInDim S2048 ![] bcast_S_S2048),
    StableHlo.TRef.ternary main_call0.v12 main_call0.v11 main_call0.call0.v1 main_call0.call0.v2 (fun p a b => select (broadcastInDim S2048 ![] bcast_S_S2048 p) a b),
    -- @main's own operations
    StableHlo.unary main_v11 main_v13 (broadcastInDim S1x2048 ![1] bcast_S2048_S1x2048_1 : (⟨S2048, .f32⟩ : BufTy).Contents (Elt F) → (⟨S1x2048, .f32⟩ : BufTy).Contents (Elt F)),
    StableHlo.unary main_v13 main_v14 (broadcastInDim S512x2048 ![0, 1] bcast_S1x2048_S512x2048_0_1 : (⟨S1x2048, .f32⟩ : BufTy).Contents (Elt F) → (⟨S512x2048, .f32⟩ : BufTy).Contents (Elt F)),
    StableHlo.binary main_v8 main_v14 main_v15 (subf : (⟨S512x2048, .f32⟩ : BufTy).Contents (Elt F) → (⟨S512x2048, .f32⟩ : BufTy).Contents (Elt F) → (⟨S512x2048, .f32⟩ : BufTy).Contents (Elt F)),
    StableHlo.nullary main_cst_3 (constant S_ .f32 0x3727C5AC#32),
    StableHlo.unary main_cst_3 main_v16 (broadcastInDim S2048 ![] bcast_S_S2048 : (⟨S_, .f32⟩ : BufTy).Contents (Elt F) → (⟨S2048, .f32⟩ : BufTy).Contents (Elt F)),
    StableHlo.binary main_v12 main_v16 main_v17 (addf : (⟨S2048, .f32⟩ : BufTy).Contents (Elt F) → (⟨S2048, .f32⟩ : BufTy).Contents (Elt F) → (⟨S2048, .f32⟩ : BufTy).Contents (Elt F)),
    StableHlo.unary main_v17 main_v18 (Host.rsqrt : (⟨S2048, .f32⟩ : BufTy).Contents (Elt F) → (⟨S2048, .f32⟩ : BufTy).Contents (Elt F)),
    StableHlo.unary main_v18 main_v19 (broadcastInDim S1x2048 ![1] bcast_S2048_S1x2048_1 : (⟨S2048, .f32⟩ : BufTy).Contents (Elt F) → (⟨S1x2048, .f32⟩ : BufTy).Contents (Elt F)),
    StableHlo.unary main_v19 main_v20 (broadcastInDim S512x2048 ![0, 1] bcast_S1x2048_S512x2048_0_1 : (⟨S1x2048, .f32⟩ : BufTy).Contents (Elt F) → (⟨S512x2048, .f32⟩ : BufTy).Contents (Elt F)),
    StableHlo.binary main_v15 main_v20 main_v21 (mulf : (⟨S512x2048, .f32⟩ : BufTy).Contents (Elt F) → (⟨S512x2048, .f32⟩ : BufTy).Contents (Elt F) → (⟨S512x2048, .f32⟩ : BufTy).Contents (Elt F)),
    StableHlo.unary main_arg6 main_v22 (broadcastInDim S1x2048 ![1] bcast_S2048_S1x2048_1 : (⟨S2048, .f32⟩ : BufTy).Contents (Elt F) → (⟨S1x2048, .f32⟩ : BufTy).Contents (Elt F)),
    StableHlo.unary main_v22 main_v23 (broadcastInDim S512x2048 ![0, 1] bcast_S1x2048_S512x2048_0_1 : (⟨S1x2048, .f32⟩ : BufTy).Contents (Elt F) → (⟨S512x2048, .f32⟩ : BufTy).Contents (Elt F)),
    StableHlo.binary main_v21 main_v23 main_v24 (mulf : (⟨S512x2048, .f32⟩ : BufTy).Contents (Elt F) → (⟨S512x2048, .f32⟩ : BufTy).Contents (Elt F) → (⟨S512x2048, .f32⟩ : BufTy).Contents (Elt F)),
    StableHlo.unary main_arg7 main_v25 (broadcastInDim S1x2048 ![1] bcast_S2048_S1x2048_1 : (⟨S2048, .f32⟩ : BufTy).Contents (Elt F) → (⟨S1x2048, .f32⟩ : BufTy).Contents (Elt F)),
    StableHlo.unary main_v25 main_v26 (broadcastInDim S512x2048 ![0, 1] bcast_S1x2048_S512x2048_0_1 : (⟨S1x2048, .f32⟩ : BufTy).Contents (Elt F) → (⟨S512x2048, .f32⟩ : BufTy).Contents (Elt F)),
    StableHlo.binary main_v24 main_v26 main_v27 (addf : (⟨S512x2048, .f32⟩ : BufTy).Contents (Elt F) → (⟨S512x2048, .f32⟩ : BufTy).Contents (Elt F) → (⟨S512x2048, .f32⟩ : BufTy).Contents (Elt F)),
    -- the body of @relu over main_call1
    StableHlo.TRef.nullary main_call1.cst (constant S_ .f32 0x00000000#32),
    StableHlo.TRef.unary main_call1.cst main_call1.v0 (broadcastInDim S512x2048 ![] bcast_S_S512x2048),
    StableHlo.TRef.binary (.of main_v27 : StableHlo.TRef sig ⟨S512x2048, .f32⟩) main_call1.v0 main_call1.v1 maximumf,
    -- @main's own operations
    StableHlo.unary main_arg8 main_v29 ((transpose S2048x2048 [1, 0] · transposes_S2048x2048_S2048x2048_1_0) : (⟨S2048x2048, .f32⟩ : BufTy).Contents (Elt F) → (⟨S2048x2048, .f32⟩ : BufTy).Contents (Elt F)),
    StableHlo.binary main_v28 main_v29 main_v30 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    StableHlo.unary main_arg9 main_v31 (broadcastInDim S1x2048 ![1] bcast_S2048_S1x2048_1 : (⟨S2048, .f32⟩ : BufTy).Contents (Elt F) → (⟨S1x2048, .f32⟩ : BufTy).Contents (Elt F)),
    StableHlo.unary main_v31 main_v32 (broadcastInDim S512x2048 ![0, 1] bcast_S1x2048_S512x2048_0_1 : (⟨S1x2048, .f32⟩ : BufTy).Contents (Elt F) → (⟨S512x2048, .f32⟩ : BufTy).Contents (Elt F)),
    StableHlo.binary main_v30 main_v32 main_v33 (addf : (⟨S512x2048, .f32⟩ : BufTy).Contents (Elt F) → (⟨S512x2048, .f32⟩ : BufTy).Contents (Elt F) → (⟨S512x2048, .f32⟩ : BufTy).Contents (Elt F)),
    -- the body of @norm over main_call2
    StableHlo.TRef.binary (.of main_v33 : StableHlo.TRef sig ⟨S512x2048, .f32⟩) (.of main_v33 : StableHlo.TRef sig ⟨S512x2048, .f32⟩) main_call2.v0 mulf,
    StableHlo.TRef.nullary main_call2.cst (constant S_ .f32 0x00000000#32),
    StableHlo.TRef.binary main_call2.v0 main_call2.cst main_call2.v1 (fun x v => Host.reduceAdd x v reducesTo_S512x2048_S512_d1 h_S_),
    StableHlo.TRef.unary main_call2.v1 main_call2.v2 (broadcastInDim S512x1 ![0] bcast_S512_S512x1_0),
    StableHlo.TRef.unary main_call2.v2 main_call2.v3 Host.sqrt,
    -- @main's own operations
    StableHlo.nullary main_cst_4 (constant S_ .f32 0x322BCC77#32),
    StableHlo.unary main_cst_4 main_v35 (broadcastInDim S512x1 ![] bcast_S_S512x1 : (⟨S_, .f32⟩ : BufTy).Contents (Elt F) → (⟨S512x1, .f32⟩ : BufTy).Contents (Elt F)),
    StableHlo.binary main_v34 main_v35 main_v36 (maximumf : (⟨S512x1, .f32⟩ : BufTy).Contents (Elt F) → (⟨S512x1, .f32⟩ : BufTy).Contents (Elt F) → (⟨S512x1, .f32⟩ : BufTy).Contents (Elt F)),
    StableHlo.unary main_v36 main_v37 (broadcastInDim S512x2048 ![0, 1] bcast_S512x1_S512x2048_0_1 : (⟨S512x1, .f32⟩ : BufTy).Contents (Elt F) → (⟨S512x2048, .f32⟩ : BufTy).Contents (Elt F)),
    StableHlo.binary main_v33 main_v37 main_v38 (Host.divf : (⟨S512x2048, .f32⟩ : BufTy).Contents (Elt F) → (⟨S512x2048, .f32⟩ : BufTy).Contents (Elt F) → (⟨S512x2048, .f32⟩ : BufTy).Contents (Elt F)),
    StableHlo.unary main_v38 main_v39 ((transpose S2048x512 [1, 0] · transposes_S512x2048_S2048x512_1_0) : (⟨S512x2048, .f32⟩ : BufTy).Contents (Elt F) → (⟨S2048x512, .f32⟩ : BufTy).Contents (Elt F)),
    StableHlo.binary main_v38 main_v39 main_v40 ((fun l r => Host.dotGeneral dot_S512x2048_S2048x512_S512x512_1_0_0_1_n_n none l r) : (⟨S512x2048, .f32⟩ : BufTy).Contents (Elt F) → (⟨S2048x512, .f32⟩ : BufTy).Contents (Elt F) → (⟨S512x512, .f32⟩ : BufTy).Contents (Elt F)),
    StableHlo.nullary main_cst_5 (constant S_ .f32 0x3DCCCCCD#32),
    StableHlo.unary main_cst_5 main_v41 (broadcastInDim S512x512 ![] bcast_S_S512x512 : (⟨S_, .f32⟩ : BufTy).Contents (Elt F) → (⟨S512x512, .f32⟩ : BufTy).Contents (Elt F)),
    StableHlo.binary main_v40 main_v41 main_v42 (Host.divf : (⟨S512x512, .f32⟩ : BufTy).Contents (Elt F) → (⟨S512x512, .f32⟩ : BufTy).Contents (Elt F) → (⟨S512x512, .f32⟩ : BufTy).Contents (Elt F)),
    StableHlo.unary main_v42 main_v43 (Host.exp : (⟨S512x512, .f32⟩ : BufTy).Contents (Elt F) → (⟨S512x512, .f32⟩ : BufTy).Contents (Elt F)),
    StableHlo.unary main_arg2 main_v44 (broadcastInDim S256x1 ![0] bcast_S256_S256x1_0 : (⟨S256, .i32⟩ : BufTy).Contents (Elt F) → (⟨S256x1, .i32⟩ : BufTy).Contents (Elt F)),
    StableHlo.unary main_arg2 main_v45 (broadcastInDim S1x256 ![1] bcast_S256_S1x256_1 : (⟨S256, .i32⟩ : BufTy).Contents (Elt F) → (⟨S1x256, .i32⟩ : BufTy).Contents (Elt F)),
    StableHlo.unary main_v44 main_v46 (broadcastInDim S256x256 ![0, 1] bcast_S256x1_S256x256_0_1 : (⟨S256x1, .i32⟩ : BufTy).Contents (Elt F) → (⟨S256x256, .i32⟩ : BufTy).Contents (Elt F)),
    StableHlo.unary main_v45 main_v47 (broadcastInDim S256x256 ![0, 1] bcast_S1x256_S256x256_0_1 : (⟨S1x256, .i32⟩ : BufTy).Contents (Elt F) → (⟨S256x256, .i32⟩ : BufTy).Contents (Elt F)),
    StableHlo.binary main_v46 main_v47 main_v48 (subi : (⟨S256x256, .i32⟩ : BufTy).Contents (Elt F) → (⟨S256x256, .i32⟩ : BufTy).Contents (Elt F) → (⟨S256x256, .i32⟩ : BufTy).Contents (Elt F)),
    StableHlo.unary main_v48 main_v49 (absi : (⟨S256x256, .i32⟩ : BufTy).Contents (Elt F) → (⟨S256x256, .i32⟩ : BufTy).Contents (Elt F)),
    StableHlo.nullary main_v50 (iotaInDim S256x256 32 0),
    StableHlo.nullary main_v51 (iotaInDim S256x256 32 1),
    StableHlo.nullary main_c_6 (constantI S_ 32 0#32),
    StableHlo.unary main_c_6 main_v52 (broadcastInDim S256x256 ![] bcast_S_S256x256 : (⟨S_, .i32⟩ : BufTy).Contents (Elt F) → (⟨S256x256, .i32⟩ : BufTy).Contents (Elt F)),
    StableHlo.binary main_v50 main_v52 main_v53 (addi : (⟨S256x256, .i32⟩ : BufTy).Contents (Elt F) → (⟨S256x256, .i32⟩ : BufTy).Contents (Elt F) → (⟨S256x256, .i32⟩ : BufTy).Contents (Elt F)),
    StableHlo.binary main_v53 main_v51 main_v54 (cmpi .eq : (⟨S256x256, .i32⟩ : BufTy).Contents (Elt F) → (⟨S256x256, .i32⟩ : BufTy).Contents (Elt F) → (⟨S256x256, .i1⟩ : BufTy).Contents (Elt F)),
    StableHlo.nullary main_c_7 (constantI S_ 32 2#32),
    StableHlo.unary main_c_7 main_v55 (broadcastInDim S256x256 ![] bcast_S_S256x256 : (⟨S_, .i32⟩ : BufTy).Contents (Elt F) → (⟨S256x256, .i32⟩ : BufTy).Contents (Elt F)),
    StableHlo.binary main_v49 main_v55 main_v56 (cmpi .sle : (⟨S256x256, .i32⟩ : BufTy).Contents (Elt F) → (⟨S256x256, .i32⟩ : BufTy).Contents (Elt F) → (⟨S256x256, .i1⟩ : BufTy).Contents (Elt F)),
    StableHlo.unary main_v54 main_v57 (noti : (⟨S256x256, .i1⟩ : BufTy).Contents (Elt F) → (⟨S256x256, .i1⟩ : BufTy).Contents (Elt F)),
    StableHlo.binary main_v56 main_v57 main_v58 (andi : (⟨S256x256, .i1⟩ : BufTy).Contents (Elt F) → (⟨S256x256, .i1⟩ : BufTy).Contents (Elt F) → (⟨S256x256, .i1⟩ : BufTy).Contents (Elt F)),
    StableHlo.nullary main_c_8 (constantI S_ 32 2#32),
    StableHlo.unary main_c_8 main_v59 (broadcastInDim S256x256 ![] bcast_S_S256x256 : (⟨S_, .i32⟩ : BufTy).Contents (Elt F) → (⟨S256x256, .i32⟩ : BufTy).Contents (Elt F)),
    StableHlo.binary main_v49 main_v59 main_v60 (cmpi .sgt : (⟨S256x256, .i32⟩ : BufTy).Contents (Elt F) → (⟨S256x256, .i32⟩ : BufTy).Contents (Elt F) → (⟨S256x256, .i1⟩ : BufTy).Contents (Elt F)),
    StableHlo.unary main_v43 main_v61 ((extractStridedSlice S256x256 ![0, 0] · slices_S512x512_S256x256_0_0) : (⟨S512x512, .f32⟩ : BufTy).Contents (Elt F) → (⟨S256x256, .f32⟩ : BufTy).Contents (Elt F)),
    StableHlo.unary main_v60 main_v62 (uitofp .f32 : (⟨S256x256, .i1⟩ : BufTy).Contents (Elt F) → (⟨S256x256, .f32⟩ : BufTy).Contents (Elt F)),
    StableHlo.binary main_v61 main_v62 main_v63 (mulf : (⟨S256x256, .f32⟩ : BufTy).Contents (Elt F) → (⟨S256x256, .f32⟩ : BufTy).Contents (Elt F) → (⟨S256x256, .f32⟩ : BufTy).Contents (Elt F)),
    StableHlo.nullary main_cst_9 (constant S_ .f32 0x00000000#32),
    StableHlo.binary main_v63 main_cst_9 main_v64 ((fun x v => Host.reduceAdd x v reducesTo_S256x256_S256_d1 h_S_) : (⟨S256x256, .f32⟩ : BufTy).Contents (Elt F) → (⟨S_, .f32⟩ : BufTy).Contents (Elt F) → (⟨S256, .f32⟩ : BufTy).Contents (Elt F)),
    StableHlo.unary main_v43 main_v65 ((extractStridedSlice S256x256 ![0, 256] · slices_S512x512_S256x256_0_256) : (⟨S512x512, .f32⟩ : BufTy).Contents (Elt F) → (⟨S256x256, .f32⟩ : BufTy).Contents (Elt F)),
    StableHlo.nullary main_cst_10 (constant S_ .f32 0x00000000#32),
    StableHlo.binary main_v65 main_cst_10 main_v66 ((fun x v => Host.reduceAdd x v reducesTo_S256x256_S256_d1 h_S_) : (⟨S256x256, .f32⟩ : BufTy).Contents (Elt F) → (⟨S_, .f32⟩ : BufTy).Contents (Elt F) → (⟨S256, .f32⟩ : BufTy).Contents (Elt F)),
    StableHlo.binary main_v64 main_v66 main_v67 (addf : (⟨S256, .f32⟩ : BufTy).Contents (Elt F) → (⟨S256, .f32⟩ : BufTy).Contents (Elt F) → (⟨S256, .f32⟩ : BufTy).Contents (Elt F)),
    StableHlo.unary main_v67 main_v68 (broadcastInDim S256x1 ![0] bcast_S256_S256x1_0 : (⟨S256, .f32⟩ : BufTy).Contents (Elt F) → (⟨S256x1, .f32⟩ : BufTy).Contents (Elt F)),
    StableHlo.unary main_v68 main_v69 (broadcastInDim S256x256 ![0, 1] bcast_S256x1_S256x256_0_1 : (⟨S256x1, .f32⟩ : BufTy).Contents (Elt F) → (⟨S256x256, .f32⟩ : BufTy).Contents (Elt F)),
    StableHlo.binary main_v61 main_v69 main_v70 (addf : (⟨S256x256, .f32⟩ : BufTy).Contents (Elt F) → (⟨S256x256, .f32⟩ : BufTy).Contents (Elt F) → (⟨S256x256, .f32⟩ : BufTy).Contents (Elt F)),
    StableHlo.binary main_v61 main_v70 main_v71 (Host.divf : (⟨S256x256, .f32⟩ : BufTy).Contents (Elt F) → (⟨S256x256, .f32⟩ : BufTy).Contents (Elt F) → (⟨S256x256, .f32⟩ : BufTy).Contents (Elt F)),
    StableHlo.unary main_v71 main_v72 (Host.log : (⟨S256x256, .f32⟩ : BufTy).Contents (Elt F) → (⟨S256x256, .f32⟩ : BufTy).Contents (Elt F)),
    StableHlo.unary main_v72 main_v73 (Host.negf : (⟨S256x256, .f32⟩ : BufTy).Contents (Elt F) → (⟨S256x256, .f32⟩ : BufTy).Contents (Elt F)),
    StableHlo.unary main_v58 main_v74 ((extui 32 · natLt_1_32) : (⟨S256x256, .i1⟩ : BufTy).Contents (Elt F) → (⟨S256x256, .i32⟩ : BufTy).Contents (Elt F)),
    StableHlo.nullary main_c_11 (constantI S_ 32 0#32),
    StableHlo.binary main_v74 main_c_11 main_v75 ((fun x v => Host.reduce IntOp.addi x v reducesTo_S256x256_S256_d1 h_S_) : (⟨S256x256, .i32⟩ : BufTy).Contents (Elt F) → (⟨S_, .i32⟩ : BufTy).Contents (Elt F) → (⟨S256, .i32⟩ : BufTy).Contents (Elt F)),
    StableHlo.unary main_v58 main_v76 (uitofp .f32 : (⟨S256x256, .i1⟩ : BufTy).Contents (Elt F) → (⟨S256x256, .f32⟩ : BufTy).Contents (Elt F)),
    StableHlo.binary main_v73 main_v76 main_v77 (mulf : (⟨S256x256, .f32⟩ : BufTy).Contents (Elt F) → (⟨S256x256, .f32⟩ : BufTy).Contents (Elt F) → (⟨S256x256, .f32⟩ : BufTy).Contents (Elt F)),
    StableHlo.nullary main_cst_12 (constant S_ .f32 0x00000000#32),
    StableHlo.binary main_v77 main_cst_12 main_v78 ((fun x v => Host.reduceAdd x v reducesTo_S256x256_S256_d1 h_S_) : (⟨S256x256, .f32⟩ : BufTy).Contents (Elt F) → (⟨S_, .f32⟩ : BufTy).Contents (Elt F) → (⟨S256, .f32⟩ : BufTy).Contents (Elt F)),
    StableHlo.nullary main_c_13 (constantI S_ 32 1#32),
    StableHlo.unary main_c_13 main_v79 (broadcastInDim S256 ![] bcast_S_S256 : (⟨S_, .i32⟩ : BufTy).Contents (Elt F) → (⟨S256, .i32⟩ : BufTy).Contents (Elt F)),
    StableHlo.binary main_v75 main_v79 main_v80 (maxsi : (⟨S256, .i32⟩ : BufTy).Contents (Elt F) → (⟨S256, .i32⟩ : BufTy).Contents (Elt F) → (⟨S256, .i32⟩ : BufTy).Contents (Elt F)),
    StableHlo.unary main_v80 main_v81 (sitofp .f32 : (⟨S256, .i32⟩ : BufTy).Contents (Elt F) → (⟨S256, .f32⟩ : BufTy).Contents (Elt F)),
    StableHlo.binary main_v78 main_v81 main_v82 (Host.divf : (⟨S256, .f32⟩ : BufTy).Contents (Elt F) → (⟨S256, .f32⟩ : BufTy).Contents (Elt F) → (⟨S256, .f32⟩ : BufTy).Contents (Elt F)),
    StableHlo.nullary main_c_14 (constantI S_ 32 0#32),
    StableHlo.unary main_c_14 main_v83 (broadcastInDim S256 ![] bcast_S_S256 : (⟨S_, .i32⟩ : BufTy).Contents (Elt F) → (⟨S256, .i32⟩ : BufTy).Contents (Elt F)),
    StableHlo.binary main_v75 main_v83 main_v84 (cmpi .sgt : (⟨S256, .i32⟩ : BufTy).Contents (Elt F) → (⟨S256, .i32⟩ : BufTy).Contents (Elt F) → (⟨S256, .i1⟩ : BufTy).Contents (Elt F)),
    StableHlo.nullary main_cst_15 (constant S_ .f32 0x00000000#32),
    -- the body of @_where_0 over main_call3
    StableHlo.TRef.unary (.of main_cst_15 : StableHlo.TRef sig ⟨S_, .f32⟩) main_call3.v0 id,
    StableHlo.TRef.unary main_call3.v0 main_call3.v1 (broadcastInDim S256 ![] bcast_S_S256),
    StableHlo.TRef.ternary (.of main_v84 : StableHlo.TRef sig ⟨S256, .i1⟩) (.of main_v82 : StableHlo.TRef sig ⟨S256, .f32⟩) main_call3.v1 main_call3.v2 select,
    -- @main's own operations
    StableHlo.nullary main_cst_16 (constant S_ .f32 0x00000000#32),
    StableHlo.binary main_v85 main_cst_16 main_v86 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    StableHlo.unary main_v84 main_v87 ((extui 32 · natLt_1_32) : (⟨S256, .i1⟩ : BufTy).Contents (Elt F) → (⟨S256, .i32⟩ : BufTy).Contents (Elt F)),
    StableHlo.nullary main_c_17 (constantI S_ 32 0#32),
    StableHlo.binary main_v87 main_c_17 main_v88 ((fun x v => Host.reduce IntOp.addi x v reducesTo_S256_S_d0 h_S_) : (⟨S256, .i32⟩ : BufTy).Contents (Elt F) → (⟨S_, .i32⟩ : BufTy).Contents (Elt F) → (⟨S_, .i32⟩ : BufTy).Contents (Elt F)) ]

set_option maxHeartbeats 40000000 in
set_option maxRecDepth 16384 in
/-- @main is that straight line: the windows and the called functions' bodies unfolded at their calls, the
    records at their fields, both sides are one chain of `hlo` steps once sequencing is reassociated. -/
theorem main_eq (c : Dev nD) : main (F := F) c = StableHlo.seq ops := by
  simp only [main, main_part0, main_part1, fn_var.body, fn_where.body, fn_relu.body, fn_norm.body, fn_where_0.body,
    StableHlo.seq, bind_assoc, pure_bind]

/-- Every buffer an operation of the line touches is a TensorCore reference. -/
theorem ops_sub : (ops : List (HloOp τ sig (Elt F))).Forall fun op => op.bufs ⊆ StableHlo.tcRefs τ sig :=
  ⟨
    StableHlo.binary_bufs_sub .., StableHlo.nullary_bufs_sub .., StableHlo.binary_bufs_sub .., StableHlo.nullary_bufs_sub .., StableHlo.unary_bufs_sub .., StableHlo.binary_bufs_sub ..,
    StableHlo.unary_bufs_sub .., StableHlo.binary_bufs_sub .., StableHlo.unary_bufs_sub .., StableHlo.unary_bufs_sub .., StableHlo.binary_bufs_sub .., StableHlo.nullary_bufs_sub ..,
    StableHlo.binary_bufs_sub .., StableHlo.nullary_bufs_sub .., StableHlo.unary_bufs_sub .., StableHlo.binary_bufs_sub .., StableHlo.nullary_bufs_sub .., StableHlo.nullary_bufs_sub ..,
    StableHlo.binary_bufs_sub .., StableHlo.unary_bufs_sub .., StableHlo.nullary_bufs_sub .., StableHlo.unary_bufs_sub .., StableHlo.binary_bufs_sub .., StableHlo.unary_bufs_sub ..,
    StableHlo.binary_bufs_sub .., StableHlo.binary_bufs_sub .., StableHlo.unary_bufs_sub .., StableHlo.nullary_bufs_sub .., StableHlo.binary_bufs_sub .., StableHlo.nullary_bufs_sub ..,
    StableHlo.binary_bufs_sub .., StableHlo.unary_bufs_sub .., StableHlo.binary_bufs_sub .., StableHlo.nullary_bufs_sub .., StableHlo.binary_bufs_sub .., StableHlo.nullary_bufs_sub ..,
    StableHlo.unary_bufs_sub .., StableHlo.unary_bufs_sub .., StableHlo.ternary_bufs_sub .., StableHlo.unary_bufs_sub .., StableHlo.unary_bufs_sub .., StableHlo.binary_bufs_sub ..,
    StableHlo.nullary_bufs_sub .., StableHlo.unary_bufs_sub .., StableHlo.binary_bufs_sub .., StableHlo.unary_bufs_sub .., StableHlo.unary_bufs_sub .., StableHlo.unary_bufs_sub ..,
    StableHlo.binary_bufs_sub .., StableHlo.unary_bufs_sub .., StableHlo.unary_bufs_sub .., StableHlo.binary_bufs_sub .., StableHlo.unary_bufs_sub .., StableHlo.unary_bufs_sub ..,
    StableHlo.binary_bufs_sub .., StableHlo.nullary_bufs_sub .., StableHlo.unary_bufs_sub .., StableHlo.binary_bufs_sub .., StableHlo.unary_bufs_sub .., StableHlo.binary_bufs_sub ..,
    StableHlo.unary_bufs_sub .., StableHlo.unary_bufs_sub .., StableHlo.binary_bufs_sub .., StableHlo.binary_bufs_sub .., StableHlo.nullary_bufs_sub .., StableHlo.binary_bufs_sub ..,
    StableHlo.unary_bufs_sub .., StableHlo.unary_bufs_sub .., StableHlo.nullary_bufs_sub .., StableHlo.unary_bufs_sub .., StableHlo.binary_bufs_sub .., StableHlo.unary_bufs_sub ..,
    StableHlo.binary_bufs_sub .., StableHlo.unary_bufs_sub .., StableHlo.binary_bufs_sub .., StableHlo.nullary_bufs_sub .., StableHlo.unary_bufs_sub .., StableHlo.binary_bufs_sub ..,
    StableHlo.unary_bufs_sub .., StableHlo.unary_bufs_sub .., StableHlo.unary_bufs_sub .., StableHlo.unary_bufs_sub .., StableHlo.unary_bufs_sub .., StableHlo.binary_bufs_sub ..,
    StableHlo.unary_bufs_sub .., StableHlo.nullary_bufs_sub .., StableHlo.nullary_bufs_sub .., StableHlo.nullary_bufs_sub .., StableHlo.unary_bufs_sub .., StableHlo.binary_bufs_sub ..,
    StableHlo.binary_bufs_sub .., StableHlo.nullary_bufs_sub .., StableHlo.unary_bufs_sub .., StableHlo.binary_bufs_sub .., StableHlo.unary_bufs_sub .., StableHlo.binary_bufs_sub ..,
    StableHlo.nullary_bufs_sub .., StableHlo.unary_bufs_sub .., StableHlo.binary_bufs_sub .., StableHlo.unary_bufs_sub .., StableHlo.unary_bufs_sub .., StableHlo.binary_bufs_sub ..,
    StableHlo.nullary_bufs_sub .., StableHlo.binary_bufs_sub .., StableHlo.unary_bufs_sub .., StableHlo.nullary_bufs_sub .., StableHlo.binary_bufs_sub .., StableHlo.binary_bufs_sub ..,
    StableHlo.unary_bufs_sub .., StableHlo.unary_bufs_sub .., StableHlo.binary_bufs_sub .., StableHlo.binary_bufs_sub .., StableHlo.unary_bufs_sub .., StableHlo.unary_bufs_sub ..,
    StableHlo.unary_bufs_sub .., StableHlo.nullary_bufs_sub .., StableHlo.binary_bufs_sub .., StableHlo.unary_bufs_sub .., StableHlo.binary_bufs_sub .., StableHlo.nullary_bufs_sub ..,
    StableHlo.binary_bufs_sub .., StableHlo.nullary_bufs_sub .., StableHlo.unary_bufs_sub .., StableHlo.binary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.unary_bufs_sub ..,
    StableHlo.ternary_bufs_sub .., StableHlo.nullary_bufs_sub .., StableHlo.binary_bufs_sub .., StableHlo.unary_bufs_sub .., StableHlo.nullary_bufs_sub .., StableHlo.binary_bufs_sub ..⟩

/-- Every operation of the line determines what it writes. -/
theorem ops_fresh : ∀ op ∈ (ops : List (HloOp τ sig (Elt F))), op.fresh = ∅ :=
  List.forall_iff_forall_mem.mp (⟨
    rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl⟩ : (ops : List (HloOp τ sig (Elt F))).Forall fun op => op.fresh = ∅)

theorem scopedRefs_eq : (Finset.univ.filter fun b : Ref sig .tc => b.isScoped) = ∅ := by decide
theorem scopedSems_eq : (Finset.univ.filter fun sm : SemLoc sig => sm.isScoped .tc) = ∅ := by decide

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ (fun _ => ops_fresh)

/-! ## The arguments keep their contents -/

/-- @main's ten arguments. -/
abbrev args : List (Ref sig .tc) :=
  [main_arg0, main_arg1, main_arg2, main_arg3, main_arg4, main_arg5, main_arg6, main_arg7, main_arg8, main_arg9]

/-- An operation that writes the one buffer `y`, no argument's, writes no argument's buffer. -/
theorem keeps {op : HloOp τ sig (Elt F)} {y : Ref sig .tc}
    (hw : op.writes = {(Proc.devRef .tc y : DevRef τ sig)}) (hy : ∀ r ∈ args, r ≠ y) :
    ∀ r ∈ args, (Proc.devRef .tc r : DevRef τ sig) ∉ op.writes := fun r hr h =>
  hy r hr (Proc.devRef_injective _ (Finset.mem_singleton.mp (hw ▸ h)))

/-- No operation of the line writes an argument's buffer: each writes the buffer of its own value. -/
theorem ops_keep : (ops : List (HloOp τ sig (Elt F))).Forall fun op =>
    ∀ r ∈ args, (Proc.devRef .tc r : DevRef τ sig) ∉ op.writes :=
  ⟨
    keeps (StableHlo.binary_writes ..) (by decide), keeps (StableHlo.nullary_writes ..) (by decide), keeps (StableHlo.binary_writes ..) (by decide),
    keeps (StableHlo.nullary_writes ..) (by decide), keeps (StableHlo.unary_writes ..) (by decide), keeps (StableHlo.binary_writes ..) (by decide),
    keeps (StableHlo.unary_writes ..) (by decide), keeps (StableHlo.binary_writes ..) (by decide), keeps (StableHlo.unary_writes ..) (by decide),
    keeps (StableHlo.unary_writes ..) (by decide), keeps (StableHlo.binary_writes ..) (by decide), keeps (StableHlo.nullary_writes ..) (by decide),
    keeps (StableHlo.binary_writes ..) (by decide), keeps (StableHlo.nullary_writes ..) (by decide), keeps (StableHlo.unary_writes ..) (by decide),
    keeps (StableHlo.binary_writes ..) (by decide), keeps (StableHlo.nullary_writes ..) (by decide), keeps (StableHlo.nullary_writes ..) (by decide),
    keeps (StableHlo.binary_writes ..) (by decide), keeps (StableHlo.unary_writes ..) (by decide), keeps (StableHlo.nullary_writes ..) (by decide),
    keeps (StableHlo.unary_writes ..) (by decide), keeps (StableHlo.binary_writes ..) (by decide), keeps (StableHlo.unary_writes ..) (by decide),
    keeps (StableHlo.binary_writes ..) (by decide), keeps (StableHlo.binary_writes ..) (by decide), keeps (StableHlo.unary_writes ..) (by decide),
    keeps (StableHlo.nullary_writes ..) (by decide), keeps (StableHlo.binary_writes ..) (by decide), keeps (StableHlo.nullary_writes ..) (by decide),
    keeps (StableHlo.binary_writes ..) (by decide), keeps (StableHlo.unary_writes ..) (by decide), keeps (StableHlo.binary_writes ..) (by decide),
    keeps (StableHlo.nullary_writes ..) (by decide), keeps (StableHlo.binary_writes ..) (by decide), keeps (StableHlo.nullary_writes ..) (by decide),
    keeps (StableHlo.unary_writes ..) (by decide), keeps (StableHlo.unary_writes ..) (by decide), keeps (StableHlo.ternary_writes ..) (by decide),
    keeps (StableHlo.unary_writes ..) (by decide), keeps (StableHlo.unary_writes ..) (by decide), keeps (StableHlo.binary_writes ..) (by decide),
    keeps (StableHlo.nullary_writes ..) (by decide), keeps (StableHlo.unary_writes ..) (by decide), keeps (StableHlo.binary_writes ..) (by decide),
    keeps (StableHlo.unary_writes ..) (by decide), keeps (StableHlo.unary_writes ..) (by decide), keeps (StableHlo.unary_writes ..) (by decide),
    keeps (StableHlo.binary_writes ..) (by decide), keeps (StableHlo.unary_writes ..) (by decide), keeps (StableHlo.unary_writes ..) (by decide),
    keeps (StableHlo.binary_writes ..) (by decide), keeps (StableHlo.unary_writes ..) (by decide), keeps (StableHlo.unary_writes ..) (by decide),
    keeps (StableHlo.binary_writes ..) (by decide), keeps (StableHlo.nullary_writes ..) (by decide), keeps (StableHlo.unary_writes ..) (by decide),
    keeps (StableHlo.binary_writes ..) (by decide), keeps (StableHlo.unary_writes ..) (by decide), keeps (StableHlo.binary_writes ..) (by decide),
    keeps (StableHlo.unary_writes ..) (by decide), keeps (StableHlo.unary_writes ..) (by decide), keeps (StableHlo.binary_writes ..) (by decide),
    keeps (StableHlo.binary_writes ..) (by decide), keeps (StableHlo.nullary_writes ..) (by decide), keeps (StableHlo.binary_writes ..) (by decide),
    keeps (StableHlo.unary_writes ..) (by decide), keeps (StableHlo.unary_writes ..) (by decide), keeps (StableHlo.nullary_writes ..) (by decide),
    keeps (StableHlo.unary_writes ..) (by decide), keeps (StableHlo.binary_writes ..) (by decide), keeps (StableHlo.unary_writes ..) (by decide),
    keeps (StableHlo.binary_writes ..) (by decide), keeps (StableHlo.unary_writes ..) (by decide), keeps (StableHlo.binary_writes ..) (by decide),
    keeps (StableHlo.nullary_writes ..) (by decide), keeps (StableHlo.unary_writes ..) (by decide), keeps (StableHlo.binary_writes ..) (by decide),
    keeps (StableHlo.unary_writes ..) (by decide), keeps (StableHlo.unary_writes ..) (by decide), keeps (StableHlo.unary_writes ..) (by decide),
    keeps (StableHlo.unary_writes ..) (by decide), keeps (StableHlo.unary_writes ..) (by decide), keeps (StableHlo.binary_writes ..) (by decide),
    keeps (StableHlo.unary_writes ..) (by decide), keeps (StableHlo.nullary_writes ..) (by decide), keeps (StableHlo.nullary_writes ..) (by decide),
    keeps (StableHlo.nullary_writes ..) (by decide), keeps (StableHlo.unary_writes ..) (by decide), keeps (StableHlo.binary_writes ..) (by decide),
    keeps (StableHlo.binary_writes ..) (by decide), keeps (StableHlo.nullary_writes ..) (by decide), keeps (StableHlo.unary_writes ..) (by decide),
    keeps (StableHlo.binary_writes ..) (by decide), keeps (StableHlo.unary_writes ..) (by decide), keeps (StableHlo.binary_writes ..) (by decide),
    keeps (StableHlo.nullary_writes ..) (by decide), keeps (StableHlo.unary_writes ..) (by decide), keeps (StableHlo.binary_writes ..) (by decide),
    keeps (StableHlo.unary_writes ..) (by decide), keeps (StableHlo.unary_writes ..) (by decide), keeps (StableHlo.binary_writes ..) (by decide),
    keeps (StableHlo.nullary_writes ..) (by decide), keeps (StableHlo.binary_writes ..) (by decide), keeps (StableHlo.unary_writes ..) (by decide),
    keeps (StableHlo.nullary_writes ..) (by decide), keeps (StableHlo.binary_writes ..) (by decide), keeps (StableHlo.binary_writes ..) (by decide),
    keeps (StableHlo.unary_writes ..) (by decide), keeps (StableHlo.unary_writes ..) (by decide), keeps (StableHlo.binary_writes ..) (by decide),
    keeps (StableHlo.binary_writes ..) (by decide), keeps (StableHlo.unary_writes ..) (by decide), keeps (StableHlo.unary_writes ..) (by decide),
    keeps (StableHlo.unary_writes ..) (by decide), keeps (StableHlo.nullary_writes ..) (by decide), keeps (StableHlo.binary_writes ..) (by decide),
    keeps (StableHlo.unary_writes ..) (by decide), keeps (StableHlo.binary_writes ..) (by decide), keeps (StableHlo.nullary_writes ..) (by decide),
    keeps (StableHlo.binary_writes ..) (by decide), keeps (StableHlo.nullary_writes ..) (by decide), keeps (StableHlo.unary_writes ..) (by decide),
    keeps (StableHlo.binary_writes ..) (by decide), keeps (StableHlo.unary_writes ..) (by decide), keeps (StableHlo.binary_writes ..) (by decide),
    keeps (StableHlo.nullary_writes ..) (by decide), keeps (StableHlo.unary_writes ..) (by decide), keeps (StableHlo.binary_writes ..) (by decide),
    keeps (StableHlo.nullary_writes ..) (by decide), keeps (StableHlo.unary_writes ..) (by decide), keeps (StableHlo.unary_writes ..) (by decide),
    keeps (StableHlo.ternary_writes ..) (by decide), keeps (StableHlo.nullary_writes ..) (by decide), keeps (StableHlo.binary_writes ..) (by decide),
    keeps (StableHlo.unary_writes ..) (by decide), keeps (StableHlo.nullary_writes ..) (by decide), keeps (StableHlo.binary_writes ..) (by decide)⟩

/-- So after the line each argument's buffer holds what it held. -/
theorem args_kept (V : Valuation τ sig (Elt F)) (r : Ref sig .tc) (hr : r ∈ args) :
    StableHlo.after ops V (r : DevRef τ sig) = V (r : DevRef τ sig) :=
  StableHlo.after_of_forall_not_mem ops V fun op hop => List.forall_iff_forall_mem.mp ops_keep op hop r hr

theorem arg0_kept (V : Valuation τ sig (Elt F)) :
    StableHlo.after ops V (main_arg0 : DevRef τ sig) = V (main_arg0 : DevRef τ sig) := args_kept V main_arg0 (by decide)
theorem arg1_kept (V : Valuation τ sig (Elt F)) :
    StableHlo.after ops V (main_arg1 : DevRef τ sig) = V (main_arg1 : DevRef τ sig) := args_kept V main_arg1 (by decide)
theorem arg2_kept (V : Valuation τ sig (Elt F)) :
    StableHlo.after ops V (main_arg2 : DevRef τ sig) = V (main_arg2 : DevRef τ sig) := args_kept V main_arg2 (by decide)
theorem arg3_kept (V : Valuation τ sig (Elt F)) :
    StableHlo.after ops V (main_arg3 : DevRef τ sig) = V (main_arg3 : DevRef τ sig) := args_kept V main_arg3 (by decide)
theorem arg4_kept (V : Valuation τ sig (Elt F)) :
    StableHlo.after ops V (main_arg4 : DevRef τ sig) = V (main_arg4 : DevRef τ sig) := args_kept V main_arg4 (by decide)
theorem arg5_kept (V : Valuation τ sig (Elt F)) :
    StableHlo.after ops V (main_arg5 : DevRef τ sig) = V (main_arg5 : DevRef τ sig) := args_kept V main_arg5 (by decide)
theorem arg6_kept (V : Valuation τ sig (Elt F)) :
    StableHlo.after ops V (main_arg6 : DevRef τ sig) = V (main_arg6 : DevRef τ sig) := args_kept V main_arg6 (by decide)
theorem arg7_kept (V : Valuation τ sig (Elt F)) :
    StableHlo.after ops V (main_arg7 : DevRef τ sig) = V (main_arg7 : DevRef τ sig) := args_kept V main_arg7 (by decide)
theorem arg8_kept (V : Valuation τ sig (Elt F)) :
    StableHlo.after ops V (main_arg8 : DevRef τ sig) = V (main_arg8 : DevRef τ sig) := args_kept V main_arg8 (by decide)
theorem arg9_kept (V : Valuation τ sig (Elt F)) :
    StableHlo.after ops V (main_arg9 : DevRef τ sig) = V (main_arg9 : DevRef τ sig) := args_kept V main_arg9 (by decide)

end Cert.ReferenceIdeal.HandRun

end
-- ==== Proof.ReferenceRead.lean ====
/-
  The reference program's results, read stage by stage.

  The line of the reference (`HandRun.ops`, 138 operations) is cut where the computation's stages end:
  the pooled features (`main_v3`), the hidden layer (`main_v8`), its batch mean (`main_v11`) and batch
  variance (`main_v12`), the projection (`main_v33`), and everything after it, which ends in the two results
  (`main_v86`, `main_v88`). Each stage is a pure function of the stages before it and of the arguments
  (`pooledOf`, `hiddenOf`, `meanOf`, `varOf`, `projOf`, `lossTail`): the stage's operations applied in
  order to named values. The fold of the whole line at a stage's buffer is that function of the fold at the
  earlier stages' buffers (`pooled_read` … `results_read`): the line is the pieces one after the other
  (`ops_split`), the fold of a concatenation is the folds composed (`after_append`), a piece read at its own
  result over any contents is the stage's function of the contents it reads (`…_piece`), and a buffer
  keeps its contents across a piece that does not write it (`keep…`: each operation writes the one buffer
  of its own value, so a piece writes the listed buffers `wr…` and no other).
-/
import proofs.«154134_j25494925869443_2_alg».proof.Proof.ReferenceRun

noncomputable section

namespace Cert.ReferenceIdeal.HandRead

open Cert.ReferenceIdeal Cert.ReferenceIdeal.Facts₀ Cert.ReferenceIdeal.HandRun Idealize.ShloMosaic Idealize.ShloMosaic.TcCoe Idealize.SL.Sem

variable {F : FTy → Type} [FloatOps F]

/-! ## The stages as functions -/

/-- The pooled features: the two inputs one after the other along the batch, summed over the two trailing axes (8 by
    8) and divided by 64, their mean over those axes. -/
def pooledOf (x0 x1 : FVec F S256x2048x8x8 .f32) : FVec F S512x2048 .f32 :=
  have v0 : FVec F S512x2048x8x8 .f32 := concatenate S512x2048x8x8 0 [⟨S256x2048x8x8, x0⟩, ⟨S256x2048x8x8, x1⟩] concatenates_S256x2048x8x8_S256x2048x8x8_S512x2048x8x8_d0
  have cst : FVec F S_ .f32 := constant (F := F) S_ .f32 0x00000000#32
  have v1 : FVec F S512x2048 .f32 := Host.reduceAdd v0 cst reducesTo_S512x2048x8x8_S512x2048_d2_3 h_S_
  have cst_0 : FVec F S_ .f32 := constant (F := F) S_ .f32 0x42800000#32
  have v2 : FVec F S512x2048 .f32 := broadcastInDim S512x2048 ![] bcast_S_S512x2048 cst_0
  have v3 : FVec F S512x2048 .f32 := Host.divf v1 v2
  v3

/-- The hidden layer before normalisation: the pooled features times the transpose of the first weight, plus the
    first bias along each row. -/
def hiddenOf (p : FVec F S512x2048 .f32) (w : FVec F S2048x2048 .f32) (b : FVec F S2048 .f32) : FVec F S512x2048 .f32 :=
  have v4 : FVec F S2048x2048 .f32 := transpose S2048x2048 [1, 0] w transposes_S2048x2048_S2048x2048_1_0
  have v5 : FVec F S512x2048 .f32 := Host.dotGeneral dot_S512x2048_S2048x2048_S512x2048_1_0_0_1_n_n none p v4
  have v6 : FVec F S1x2048 .f32 := broadcastInDim S1x2048 ![1] bcast_S2048_S1x2048_1 b
  have v7 : FVec F S512x2048 .f32 := broadcastInDim S512x2048 ![0, 1] bcast_S1x2048_S512x2048_0_1 v6
  have v8 : FVec F S512x2048 .f32 := addf v5 v7
  v8

/-- The batch mean of the hidden layer: for each of the 2048 columns the sum down the 512 rows, divided by 512. -/
def meanOf (h : FVec F S512x2048 .f32) : FVec F S2048 .f32 :=
  have cst_1 : FVec F S_ .f32 := constant (F := F) S_ .f32 0x00000000#32
  have v9 : FVec F S2048 .f32 := Host.reduceAdd h cst_1 reducesTo_S512x2048_S2048_d0 h_S_
  have cst_2 : FVec F S_ .f32 := constant (F := F) S_ .f32 0x44000000#32
  have v10 : FVec F S2048 .f32 := broadcastInDim S2048 ![] bcast_S_S2048 cst_2
  have v11 : FVec F S2048 .f32 := Host.divf v9 v10
  v11

/-- The batch variance of the hidden layer (no degrees of freedom removed): for each column the sum down the rows of
    the squared deviations from the column's mean, divided by 512 - 0; kept where that divisor is positive, the
    quiet NaN otherwise. -/
def varOf (h : FVec F S512x2048 .f32) : FVec F S2048 .f32 :=
  have c : IVec S_ 32 := constantI S_ 32 0#32
  have call0_cst : FVec F S_ .f32 := constant (F := F) S_ .f32 0x00000000#32
  have call0_v0 : FVec F S2048 .f32 := Host.reduceAdd h call0_cst reducesTo_S512x2048_S2048_d0 h_S_
  have call0_v1 : FVec F S1x2048 .f32 := broadcastInDim S1x2048 ![1] bcast_S2048_S1x2048_1 call0_v0
  have call0_cst_0 : FVec F S_ .f32 := constant (F := F) S_ .f32 0x44000000#32
  have call0_v2 : FVec F S1x2048 .f32 := broadcastInDim S1x2048 ![] bcast_S_S1x2048 call0_cst_0
  have call0_v3 : FVec F S1x2048 .f32 := Host.divf call0_v1 call0_v2
  have call0_v4 : FVec F S512x2048 .f32 := broadcastInDim S512x2048 ![0, 1] bcast_S1x2048_S512x2048_0_1 call0_v3
  have call0_v5 : FVec F S512x2048 .f32 := subf h call0_v4
  have call0_v6 : FVec F S512x2048 .f32 := mulf call0_v5 call0_v5
  have call0_v7 : FVec F S_ .f32 := sitofp .f32 c
  have call0_cst_1 : FVec F S_ .f32 := constant (F := F) S_ .f32 0x44000000#32
  have call0_v8 : FVec F S_ .f32 := subf call0_cst_1 call0_v7
  have call0_cst_2 : FVec F S_ .f32 := constant (F := F) S_ .f32 0x00000000#32
  have call0_v9 : FVec F S2048 .f32 := Host.reduceAdd call0_v6 call0_cst_2 reducesTo_S512x2048_S2048_d0 h_S_
  have call0_v10 : FVec F S2048 .f32 := broadcastInDim S2048 ![] bcast_S_S2048 call0_v8
  have call0_v11 : FVec F S2048 .f32 := Host.divf call0_v9 call0_v10
  have call0_cst_3 : FVec F S_ .f32 := constant (F := F) S_ .f32 0x00000000#32
  have call0_v12 : IVec S_ 1 := cmpf .ogt call0_v8 call0_cst_3
  have call0_cst_4 : FVec F S_ .f32 := constant (F := F) S_ .f32 0x7FC00000#32
  have call0_call0_v0 : FVec F S_ .f32 := id call0_cst_4
  have call0_call0_v1 : FVec F S2048 .f32 := broadcastInDim S2048 ![] bcast_S_S2048 call0_call0_v0
  have v12 : FVec F S2048 .f32 := select (broadcastInDim S2048 ![] bcast_S_S2048 call0_v12) call0_v11 call0_call0_v1
  v12

/-- The projection: the hidden layer minus its batch mean, times the reciprocal square root of the batch variance
    plus the single-precision value nearest 1e-5, scaled and shifted column by column, clamped below at zero, times
    the transpose of the second weight, plus the second bias along each row. -/
def projOf (h : FVec F S512x2048 .f32) (mu var g be : FVec F S2048 .f32) (w : FVec F S2048x2048 .f32) (b : FVec F S2048 .f32) : FVec F S512x2048 .f32 :=
  have v13 : FVec F S1x2048 .f32 := broadcastInDim S1x2048 ![1] bcast_S2048_S1x2048_1 mu
  have v14 : FVec F S512x2048 .f32 := broadcastInDim S512x2048 ![0, 1] bcast_S1x2048_S512x2048_0_1 v13
  have v15 : FVec F S512x2048 .f32 := subf h v14
  have cst_3 : FVec F S_ .f32 := constant (F := F) S_ .f32 0x3727C5AC#32
  have v16 : FVec F S2048 .f32 := broadcastInDim S2048 ![] bcast_S_S2048 cst_3
  have v17 : FVec F S2048 .f32 := addf var v16
  have v18 : FVec F S2048 .f32 := Host.rsqrt v17
  have v19 : FVec F S1x2048 .f32 := broadcastInDim S1x2048 ![1] bcast_S2048_S1x2048_1 v18
  have v20 : FVec F S512x2048 .f32 := broadcastInDim S512x2048 ![0, 1] bcast_S1x2048_S512x2048_0_1 v19
  have v21 : FVec F S512x2048 .f32 := mulf v15 v20
  have v22 : FVec F S1x2048 .f32 := broadcastInDim S1x2048 ![1] bcast_S2048_S1x2048_1 g
  have v23 : FVec F S512x2048 .f32 := broadcastInDim S512x2048 ![0, 1] bcast_S1x2048_S512x2048_0_1 v22
  have v24 : FVec F S512x2048 .f32 := mulf v21 v23
  have v25 : FVec F S1x2048 .f32 := broadcastInDim S1x2048 ![1] bcast_S2048_S1x2048_1 be
  have v26 : FVec F S512x2048 .f32 := broadcastInDim S512x2048 ![0, 1] bcast_S1x2048_S512x2048_0_1 v25
  have v27 : FVec F S512x2048 .f32 := addf v24 v26
  have call1_cst : FVec F S_ .f32 := constant (F := F) S_ .f32 0x00000000#32
  have call1_v0 : FVec F S512x2048 .f32 := broadcastInDim S512x2048 ![] bcast_S_S512x2048 call1_cst
  have v28 : FVec F S512x2048 .f32 := maximumf v27 call1_v0
  have v29 : FVec F S2048x2048 .f32 := transpose S2048x2048 [1, 0] w transposes_S2048x2048_S2048x2048_1_0
  have v30 : FVec F S512x2048 .f32 := Host.dotGeneral dot_S512x2048_S2048x2048_S512x2048_1_0_0_1_n_n none v28 v29
  have v31 : FVec F S1x2048 .f32 := broadcastInDim S1x2048 ![1] bcast_S2048_S1x2048_1 b
  have v32 : FVec F S512x2048 .f32 := broadcastInDim S512x2048 ![0, 1] bcast_S1x2048_S512x2048_0_1 v31
  have v33 : FVec F S512x2048 .f32 := addf v30 v32
  v33

/-- The loss and its count from the projection `z` and the labels `rel`: each row of `z` over its Euclidean norm (at
    least the single-precision value nearest 1e-8), the matrix of the rows' inner products over the single-precision
    value nearest 0.1, exponentiated; among the first 256 rows a pair is positive when its labels differ by at most
    2 and it is off the diagonal, negative when they differ by more than 2; a row's negative mass is the sum of the
    exponentials over its negatives plus over all of the other 256 columns; a pair's term is minus the logarithm of
    its exponential over that plus the row's negative mass; a row's loss is the sum of its positives' terms over the
    number of its positives (at least 1). The first component sums the rows' losses over the rows that have a
    positive, the second counts those rows. -/
def lossTail (z : FVec F S512x2048 .f32) (rel : IVec S256 32) : FVec F S_ .f32 × IVec S_ 32 :=
  have call2_v0 : FVec F S512x2048 .f32 := mulf z z
  have call2_cst : FVec F S_ .f32 := constant (F := F) S_ .f32 0x00000000#32
  have call2_v1 : FVec F S512 .f32 := Host.reduceAdd call2_v0 call2_cst reducesTo_S512x2048_S512_d1 h_S_
  have call2_v2 : FVec F S512x1 .f32 := broadcastInDim S512x1 ![0] bcast_S512_S512x1_0 call2_v1
  have v34 : FVec F S512x1 .f32 := Host.sqrt call2_v2
  have cst_4 : FVec F S_ .f32 := constant (F := F) S_ .f32 0x322BCC77#32
  have v35 : FVec F S512x1 .f32 := broadcastInDim S512x1 ![] bcast_S_S512x1 cst_4
  have v36 : FVec F S512x1 .f32 := maximumf v34 v35
  have v37 : FVec F S512x2048 .f32 := broadcastInDim S512x2048 ![0, 1] bcast_S512x1_S512x2048_0_1 v36
  have v38 : FVec F S512x2048 .f32 := Host.divf z v37
  have v39 : FVec F S2048x512 .f32 := transpose S2048x512 [1, 0] v38 transposes_S512x2048_S2048x512_1_0
  have v40 : FVec F S512x512 .f32 := Host.dotGeneral dot_S512x2048_S2048x512_S512x512_1_0_0_1_n_n none v38 v39
  have cst_5 : FVec F S_ .f32 := constant (F := F) S_ .f32 0x3DCCCCCD#32
  have v41 : FVec F S512x512 .f32 := broadcastInDim S512x512 ![] bcast_S_S512x512 cst_5
  have v42 : FVec F S512x512 .f32 := Host.divf v40 v41
  have v43 : FVec F S512x512 .f32 := Host.exp v42
  have v44 : IVec S256x1 32 := broadcastInDim S256x1 ![0] bcast_S256_S256x1_0 rel
  have v45 : IVec S1x256 32 := broadcastInDim S1x256 ![1] bcast_S256_S1x256_1 rel
  have v46 : IVec S256x256 32 := broadcastInDim S256x256 ![0, 1] bcast_S256x1_S256x256_0_1 v44
  have v47 : IVec S256x256 32 := broadcastInDim S256x256 ![0, 1] bcast_S1x256_S256x256_0_1 v45
  have v48 : IVec S256x256 32 := subi v46 v47
  have v49 : IVec S256x256 32 := absi v48
  have v50 : IVec S256x256 32 := iotaInDim S256x256 32 0
  have v51 : IVec S256x256 32 := iotaInDim S256x256 32 1
  have c_6 : IVec S_ 32 := constantI S_ 32 0#32
  have v52 : IVec S256x256 32 := broadcastInDim S256x256 ![] bcast_S_S256x256 c_6
  have v53 : IVec S256x256 32 := addi v50 v52
  have v54 : IVec S256x256 1 := cmpi .eq v53 v51
  have c_7 : IVec S_ 32 := constantI S_ 32 2#32
  have v55 : IVec S256x256 32 := broadcastInDim S256x256 ![] bcast_S_S256x256 c_7
  have v56 : IVec S256x256 1 := cmpi .sle v49 v55
  have v57 : IVec S256x256 1 := noti v54
  have v58 : IVec S256x256 1 := andi v56 v57
  have c_8 : IVec S_ 32 := constantI S_ 32 2#32
  have v59 : IVec S256x256 32 := broadcastInDim S256x256 ![] bcast_S_S256x256 c_8
  have v60 : IVec S256x256 1 := cmpi .sgt v49 v59
  have v61 : FVec F S256x256 .f32 := extractStridedSlice S256x256 ![0, 0] v43 slices_S512x512_S256x256_0_0
  have v62 : FVec F S256x256 .f32 := uitofp .f32 v60
  have v63 : FVec F S256x256 .f32 := mulf v61 v62
  have cst_9 : FVec F S_ .f32 := constant (F := F) S_ .f32 0x00000000#32
  have v64 : FVec F S256 .f32 := Host.reduceAdd v63 cst_9 reducesTo_S256x256_S256_d1 h_S_
  have v65 : FVec F S256x256 .f32 := extractStridedSlice S256x256 ![0, 256] v43 slices_S512x512_S256x256_0_256
  have cst_10 : FVec F S_ .f32 := constant (F := F) S_ .f32 0x00000000#32
  have v66 : FVec F S256 .f32 := Host.reduceAdd v65 cst_10 reducesTo_S256x256_S256_d1 h_S_
  have v67 : FVec F S256 .f32 := addf v64 v66
  have v68 : FVec F S256x1 .f32 := broadcastInDim S256x1 ![0] bcast_S256_S256x1_0 v67
  have v69 : FVec F S256x256 .f32 := broadcastInDim S256x256 ![0, 1] bcast_S256x1_S256x256_0_1 v68
  have v70 : FVec F S256x256 .f32 := addf v61 v69
  have v71 : FVec F S256x256 .f32 := Host.divf v61 v70
  have v72 : FVec F S256x256 .f32 := Host.log v71
  have v73 : FVec F S256x256 .f32 := Host.negf v72
  have v74 : IVec S256x256 32 := extui 32 v58 natLt_1_32
  have c_11 : IVec S_ 32 := constantI S_ 32 0#32
  have v75 : IVec S256 32 := Host.reduce IntOp.addi v74 c_11 reducesTo_S256x256_S256_d1 h_S_
  have v76 : FVec F S256x256 .f32 := uitofp .f32 v58
  have v77 : FVec F S256x256 .f32 := mulf v73 v76
  have cst_12 : FVec F S_ .f32 := constant (F := F) S_ .f32 0x00000000#32
  have v78 : FVec F S256 .f32 := Host.reduceAdd v77 cst_12 reducesTo_S256x256_S256_d1 h_S_
  have c_13 : IVec S_ 32 := constantI S_ 32 1#32
  have v79 : IVec S256 32 := broadcastInDim S256 ![] bcast_S_S256 c_13
  have v80 : IVec S256 32 := maxsi v75 v79
  have v81 : FVec F S256 .f32 := sitofp .f32 v80
  have v82 : FVec F S256 .f32 := Host.divf v78 v81
  have c_14 : IVec S_ 32 := constantI S_ 32 0#32
  have v83 : IVec S256 32 := broadcastInDim S256 ![] bcast_S_S256 c_14
  have v84 : IVec S256 1 := cmpi .sgt v75 v83
  have cst_15 : FVec F S_ .f32 := constant (F := F) S_ .f32 0x00000000#32
  have call3_v0 : FVec F S_ .f32 := id cst_15
  have call3_v1 : FVec F S256 .f32 := broadcastInDim S256 ![] bcast_S_S256 call3_v0
  have v85 : FVec F S256 .f32 := select v84 v82 call3_v1
  have cst_16 : FVec F S_ .f32 := constant (F := F) S_ .f32 0x00000000#32
  have v86 : FVec F S_ .f32 := Host.reduceAdd v85 cst_16 reducesTo_S256_S_d0 h_S_
  have v87 : IVec S256 32 := extui 32 v84 natLt_1_32
  have c_17 : IVec S_ 32 := constantI S_ 32 0#32
  have v88 : IVec S_ 32 := Host.reduce IntOp.addi v87 c_17 reducesTo_S256_S_d0 h_S_
  (v86, v88)

/-! ## The line in pieces -/

/-- The line's operations 1 … 6: main_v0 … main_v3. A called function's operations are written at
    the buffers the call names, as @main's own are. -/
def opsPool : List (HloOp τ sig (Elt F)) :=
  [ StableHlo.binary main_arg0 main_arg1 main_v0 ((fun a b => concatenate S512x2048x8x8 0 [⟨S256x2048x8x8, a⟩, ⟨S256x2048x8x8, b⟩] concatenates_S256x2048x8x8_S256x2048x8x8_S512x2048x8x8_d0) : (⟨S256x2048x8x8, .f32⟩ : BufTy).Contents (Elt F) → (⟨S256x2048x8x8, .f32⟩ : BufTy).Contents (Elt F) → (⟨S512x2048x8x8, .f32⟩ : BufTy).Contents (Elt F)),
    StableHlo.nullary main_cst (constant S_ .f32 0x00000000#32),
    StableHlo.binary main_v0 main_cst main_v1 ((fun x v => Host.reduceAdd x v reducesTo_S512x2048x8x8_S512x2048_d2_3 h_S_) : (⟨S512x2048x8x8, .f32⟩ : BufTy).Contents (Elt F) → (⟨S_, .f32⟩ : BufTy).Contents (Elt F) → (⟨S512x2048, .f32⟩ : BufTy).Contents (Elt F)),
    StableHlo.nullary main_cst_0 (constant S_ .f32 0x42800000#32),
    StableHlo.unary main_cst_0 main_v2 (broadcastInDim S512x2048 ![] bcast_S_S512x2048 : (⟨S_, .f32⟩ : BufTy).Contents (Elt F) → (⟨S512x2048, .f32⟩ : BufTy).Contents (Elt F)),
    StableHlo.binary main_v1 main_v2 main_v3 (Host.divf : (⟨S512x2048, .f32⟩ : BufTy).Contents (Elt F) → (⟨S512x2048, .f32⟩ : BufTy).Contents (Elt F) → (⟨S512x2048, .f32⟩ : BufTy).Contents (Elt F)) ]

/-- The line's operations 7 … 11: main_v4 … main_v8. A called function's operations are written at
    the buffers the call names, as @main's own are. -/
def opsHidden : List (HloOp τ sig (Elt F)) :=
  [ StableHlo.unary main_arg4 main_v4 ((transpose S2048x2048 [1, 0] · transposes_S2048x2048_S2048x2048_1_0) : (⟨S2048x2048, .f32⟩ : BufTy).Contents (Elt F) → (⟨S2048x2048, .f32⟩ : BufTy).Contents (Elt F)),
    StableHlo.binary main_v3 main_v4 main_v5 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    StableHlo.unary main_arg5 main_v6 (broadcastInDim S1x2048 ![1] bcast_S2048_S1x2048_1 : (⟨S2048, .f32⟩ : BufTy).Contents (Elt F) → (⟨S1x2048, .f32⟩ : BufTy).Contents (Elt F)),
    StableHlo.unary main_v6 main_v7 (broadcastInDim S512x2048 ![0, 1] bcast_S1x2048_S512x2048_0_1 : (⟨S1x2048, .f32⟩ : BufTy).Contents (Elt F) → (⟨S512x2048, .f32⟩ : BufTy).Contents (Elt F)),
    StableHlo.binary main_v5 main_v7 main_v8 (addf : (⟨S512x2048, .f32⟩ : BufTy).Contents (Elt F) → (⟨S512x2048, .f32⟩ : BufTy).Contents (Elt F) → (⟨S512x2048, .f32⟩ : BufTy).Contents (Elt F)) ]

/-- The line's operations 12 … 16: main_cst_1 … main_v11. A called function's operations are written at
    the buffers the call names, as @main's own are. -/
def opsMean : List (HloOp τ sig (Elt F)) :=
  [ StableHlo.nullary main_cst_1 (constant S_ .f32 0x00000000#32),
    StableHlo.binary main_v8 main_cst_1 main_v9 ((fun x v => Host.reduceAdd x v reducesTo_S512x2048_S2048_d0 h_S_) : (⟨S512x2048, .f32⟩ : BufTy).Contents (Elt F) → (⟨S_, .f32⟩ : BufTy).Contents (Elt F) → (⟨S2048, .f32⟩ : BufTy).Contents (Elt F)),
    StableHlo.nullary main_cst_2 (constant S_ .f32 0x44000000#32),
    StableHlo.unary main_cst_2 main_v10 (broadcastInDim S2048 ![] bcast_S_S2048 : (⟨S_, .f32⟩ : BufTy).Contents (Elt F) → (⟨S2048, .f32⟩ : BufTy).Contents (Elt F)),
    StableHlo.binary main_v9 main_v10 main_v11 (Host.divf : (⟨S2048, .f32⟩ : BufTy).Contents (Elt F) → (⟨S2048, .f32⟩ : BufTy).Contents (Elt F) → (⟨S2048, .f32⟩ : BufTy).Contents (Elt F)) ]

/-- The line's operations 17 … 39: main_c and the call of @_var with its nested call of @_where: main_v12. A called function's operations are written at
    the buffers the call names, as @main's own are. -/
def opsVar : List (HloOp τ sig (Elt F)) :=
  [ StableHlo.nullary main_c (constantI S_ 32 0#32),
    StableHlo.nullary main_call0_cst (constant S_ .f32 0x00000000#32),
    StableHlo.binary main_v8 main_call0_cst main_call0_v0 ((fun x v => Host.reduceAdd x v reducesTo_S512x2048_S2048_d0 h_S_) : (⟨S512x2048, .f32⟩ : BufTy).Contents (Elt F) → (⟨S_, .f32⟩ : BufTy).Contents (Elt F) → (⟨S2048, .f32⟩ : BufTy).Contents (Elt F)),
    StableHlo.unary main_call0_v0 main_call0_v1 (broadcastInDim S1x2048 ![1] bcast_S2048_S1x2048_1 : (⟨S2048, .f32⟩ : BufTy).Contents (Elt F) → (⟨S1x2048, .f32⟩ : BufTy).Contents (Elt F)),
    StableHlo.nullary main_call0_cst_0 (constant S_ .f32 0x44000000#32),
    StableHlo.unary main_call0_cst_0 main_call0_v2 (broadcastInDim S1x2048 ![] bcast_S_S1x2048 : (⟨S_, .f32⟩ : BufTy).Contents (Elt F) → (⟨S1x2048, .f32⟩ : BufTy).Contents (Elt F)),
    StableHlo.binary main_call0_v1 main_call0_v2 main_call0_v3 (Host.divf : (⟨S1x2048, .f32⟩ : BufTy).Contents (Elt F) → (⟨S1x2048, .f32⟩ : BufTy).Contents (Elt F) → (⟨S1x2048, .f32⟩ : BufTy).Contents (Elt F)),
    StableHlo.unary main_call0_v3 main_call0_v4 (broadcastInDim S512x2048 ![0, 1] bcast_S1x2048_S512x2048_0_1 : (⟨S1x2048, .f32⟩ : BufTy).Contents (Elt F) → (⟨S512x2048, .f32⟩ : BufTy).Contents (Elt F)),
    StableHlo.binary main_v8 main_call0_v4 main_call0_v5 (subf : (⟨S512x2048, .f32⟩ : BufTy).Contents (Elt F) → (⟨S512x2048, .f32⟩ : BufTy).Contents (Elt F) → (⟨S512x2048, .f32⟩ : BufTy).Contents (Elt F)),
    StableHlo.binary main_call0_v5 main_call0_v5 main_call0_v6 (mulf : (⟨S512x2048, .f32⟩ : BufTy).Contents (Elt F) → (⟨S512x2048, .f32⟩ : BufTy).Contents (Elt F) → (⟨S512x2048, .f32⟩ : BufTy).Contents (Elt F)),
    StableHlo.unary main_c main_call0_v7 (sitofp .f32 : (⟨S_, .i32⟩ : BufTy).Contents (Elt F) → (⟨S_, .f32⟩ : BufTy).Contents (Elt F)),
    StableHlo.nullary main_call0_cst_1 (constant S_ .f32 0x44000000#32),
    StableHlo.binary main_call0_cst_1 main_call0_v7 main_call0_v8 (subf : (⟨S_, .f32⟩ : BufTy).Contents (Elt F) → (⟨S_, .f32⟩ : BufTy).Contents (Elt F) → (⟨S_, .f32⟩ : BufTy).Contents (Elt F)),
    StableHlo.nullary main_call0_cst_2 (constant S_ .f32 0x00000000#32),
    StableHlo.binary main_call0_v6 main_call0_cst_2 main_call0_v9 ((fun x v => Host.reduceAdd x v reducesTo_S512x2048_S2048_d0 h_S_) : (⟨S512x2048, .f32⟩ : BufTy).Contents (Elt F) → (⟨S_, .f32⟩ : BufTy).Contents (Elt F) → (⟨S2048, .f32⟩ : BufTy).Contents (Elt F)),
    StableHlo.unary main_call0_v8 main_call0_v10 (broadcastInDim S2048 ![] bcast_S_S2048 : (⟨S_, .f32⟩ : BufTy).Contents (Elt F) → (⟨S2048, .f32⟩ : BufTy).Contents (Elt F)),
    StableHlo.binary main_call0_v9 main_call0_v10 main_call0_v11 (Host.divf : (⟨S2048, .f32⟩ : BufTy).Contents (Elt F) → (⟨S2048, .f32⟩ : BufTy).Contents (Elt F) → (⟨S2048, .f32⟩ : BufTy).Contents (Elt F)),
    StableHlo.nullary main_call0_cst_3 (constant S_ .f32 0x00000000#32),
    StableHlo.binary main_call0_v8 main_call0_cst_3 main_call0_v12 (cmpf .ogt : (⟨S_, .f32⟩ : BufTy).Contents (Elt F) → (⟨S_, .f32⟩ : BufTy).Contents (Elt F) → (⟨S_, .i1⟩ : BufTy).Contents (Elt F)),
    StableHlo.nullary main_call0_cst_4 (constant S_ .f32 0x7FC00000#32),
    StableHlo.unary main_call0_cst_4 main_call0_call0_v0 (id : (⟨S_, .f32⟩ : BufTy).Contents (Elt F) → (⟨S_, .f32⟩ : BufTy).Contents (Elt F)),
    StableHlo.unary main_call0_call0_v0 main_call0_call0_v1 (broadcastInDim S2048 ![] bcast_S_S2048 : (⟨S_, .f32⟩ : BufTy).Contents (Elt F) → (⟨S2048, .f32⟩ : BufTy).Contents (Elt F)),
    StableHlo.ternary main_call0_v12 main_call0_v11 main_call0_call0_v1 main_v12 ((fun p a b => select (broadcastInDim S2048 ![] bcast_S_S2048 p) a b) : (⟨S_, .i1⟩ : BufTy).Contents (Elt F) → (⟨S2048, .f32⟩ : BufTy).Contents (Elt F) → (⟨S2048, .f32⟩ : BufTy).Contents (Elt F) → (⟨S2048, .f32⟩ : BufTy).Contents (Elt F)) ]

/-- The line's operations 40 … 63: main_v13 … main_v33, the call of @relu among them. A called function's operations are written at
    the buffers the call names, as @main's own are. -/
def opsProj : List (HloOp τ sig (Elt F)) :=
  [ StableHlo.unary main_v11 main_v13 (broadcastInDim S1x2048 ![1] bcast_S2048_S1x2048_1 : (⟨S2048, .f32⟩ : BufTy).Contents (Elt F) → (⟨S1x2048, .f32⟩ : BufTy).Contents (Elt F)),
    StableHlo.unary main_v13 main_v14 (broadcastInDim S512x2048 ![0, 1] bcast_S1x2048_S512x2048_0_1 : (⟨S1x2048, .f32⟩ : BufTy).Contents (Elt F) → (⟨S512x2048, .f32⟩ : BufTy).Contents (Elt F)),
    StableHlo.binary main_v8 main_v14 main_v15 (subf : (⟨S512x2048, .f32⟩ : BufTy).Contents (Elt F) → (⟨S512x2048, .f32⟩ : BufTy).Contents (Elt F) → (⟨S512x2048, .f32⟩ : BufTy).Contents (Elt F)),
    StableHlo.nullary main_cst_3 (constant S_ .f32 0x3727C5AC#32),
    StableHlo.unary main_cst_3 main_v16 (broadcastInDim S2048 ![] bcast_S_S2048 : (⟨S_, .f32⟩ : BufTy).Contents (Elt F) → (⟨S2048, .f32⟩ : BufTy).Contents (Elt F)),
    StableHlo.binary main_v12 main_v16 main_v17 (addf : (⟨S2048, .f32⟩ : BufTy).Contents (Elt F) → (⟨S2048, .f32⟩ : BufTy).Contents (Elt F) → (⟨S2048, .f32⟩ : BufTy).Contents (Elt F)),
    StableHlo.unary main_v17 main_v18 (Host.rsqrt : (⟨S2048, .f32⟩ : BufTy).Contents (Elt F) → (⟨S2048, .f32⟩ : BufTy).Contents (Elt F)),
    StableHlo.unary main_v18 main_v19 (broadcastInDim S1x2048 ![1] bcast_S2048_S1x2048_1 : (⟨S2048, .f32⟩ : BufTy).Contents (Elt F) → (⟨S1x2048, .f32⟩ : BufTy).Contents (Elt F)),
    StableHlo.unary main_v19 main_v20 (broadcastInDim S512x2048 ![0, 1] bcast_S1x2048_S512x2048_0_1 : (⟨S1x2048, .f32⟩ : BufTy).Contents (Elt F) → (⟨S512x2048, .f32⟩ : BufTy).Contents (Elt F)),
    StableHlo.binary main_v15 main_v20 main_v21 (mulf : (⟨S512x2048, .f32⟩ : BufTy).Contents (Elt F) → (⟨S512x2048, .f32⟩ : BufTy).Contents (Elt F) → (⟨S512x2048, .f32⟩ : BufTy).Contents (Elt F)),
    StableHlo.unary main_arg6 main_v22 (broadcastInDim S1x2048 ![1] bcast_S2048_S1x2048_1 : (⟨S2048, .f32⟩ : BufTy).Contents (Elt F) → (⟨S1x2048, .f32⟩ : BufTy).Contents (Elt F)),
    StableHlo.unary main_v22 main_v23 (broadcastInDim S512x2048 ![0, 1] bcast_S1x2048_S512x2048_0_1 : (⟨S1x2048, .f32⟩ : BufTy).Contents (Elt F) → (⟨S512x2048, .f32⟩ : BufTy).Contents (Elt F)),
    StableHlo.binary main_v21 main_v23 main_v24 (mulf : (⟨S512x2048, .f32⟩ : BufTy).Contents (Elt F) → (⟨S512x2048, .f32⟩ : BufTy).Contents (Elt F) → (⟨S512x2048, .f32⟩ : BufTy).Contents (Elt F)),
    StableHlo.unary main_arg7 main_v25 (broadcastInDim S1x2048 ![1] bcast_S2048_S1x2048_1 : (⟨S2048, .f32⟩ : BufTy).Contents (Elt F) → (⟨S1x2048, .f32⟩ : BufTy).Contents (Elt F)),
    StableHlo.unary main_v25 main_v26 (broadcastInDim S512x2048 ![0, 1] bcast_S1x2048_S512x2048_0_1 : (⟨S1x2048, .f32⟩ : BufTy).Contents (Elt F) → (⟨S512x2048, .f32⟩ : BufTy).Contents (Elt F)),
    StableHlo.binary main_v24 main_v26 main_v27 (addf : (⟨S512x2048, .f32⟩ : BufTy).Contents (Elt F) → (⟨S512x2048, .f32⟩ : BufTy).Contents (Elt F) → (⟨S512x2048, .f32⟩ : BufTy).Contents (Elt F)),
    StableHlo.nullary main_call1_cst (constant S_ .f32 0x00000000#32),
    StableHlo.unary main_call1_cst main_call1_v0 (broadcastInDim S512x2048 ![] bcast_S_S512x2048 : (⟨S_, .f32⟩ : BufTy).Contents (Elt F) → (⟨S512x2048, .f32⟩ : BufTy).Contents (Elt F)),
    StableHlo.binary main_v27 main_call1_v0 main_v28 (maximumf : (⟨S512x2048, .f32⟩ : BufTy).Contents (Elt F) → (⟨S512x2048, .f32⟩ : BufTy).Contents (Elt F) → (⟨S512x2048, .f32⟩ : BufTy).Contents (Elt F)),
    StableHlo.unary main_arg8 main_v29 ((transpose S2048x2048 [1, 0] · transposes_S2048x2048_S2048x2048_1_0) : (⟨S2048x2048, .f32⟩ : BufTy).Contents (Elt F) → (⟨S2048x2048, .f32⟩ : BufTy).Contents (Elt F)),
    StableHlo.binary main_v28 main_v29 main_v30 ((fun l r => Host.dotGeneral dot_S512x2048_S2048x2048_S512x2048_1_0_0_1_n_n none l r) : (⟨S512x2048, .f32⟩ : BufTy).Contents (Elt F) → (⟨S2048x2048, .f32⟩ : BufTy).Contents (Elt F) → (⟨S512x2048, .f32⟩ : BufTy).Contents (Elt F)),
    StableHlo.unary main_arg9 main_v31 (broadcastInDim S1x2048 ![1] bcast_S2048_S1x2048_1 : (⟨S2048, .f32⟩ : BufTy).Contents (Elt F) → (⟨S1x2048, .f32⟩ : BufTy).Contents (Elt F)),
    StableHlo.unary main_v31 main_v32 (broadcastInDim S512x2048 ![0, 1] bcast_S1x2048_S512x2048_0_1 : (⟨S1x2048, .f32⟩ : BufTy).Contents (Elt F) → (⟨S512x2048, .f32⟩ : BufTy).Contents (Elt F)),
    StableHlo.binary main_v30 main_v32 main_v33 (addf : (⟨S512x2048, .f32⟩ : BufTy).Contents (Elt F) → (⟨S512x2048, .f32⟩ : BufTy).Contents (Elt F) → (⟨S512x2048, .f32⟩ : BufTy).Contents (Elt F)) ]

/-- The line's operations 64 … 138: everything after main_v33, the calls of @norm and @_where_0 among them: main_v86 and main_v88. A called function's operations are written at
    the buffers the call names, as @main's own are. -/
def opsTail : List (HloOp τ sig (Elt F)) :=
  [ StableHlo.binary main_v33 main_v33 main_call2_v0 (mulf : (⟨S512x2048, .f32⟩ : BufTy).Contents (Elt F) → (⟨S512x2048, .f32⟩ : BufTy).Contents (Elt F) → (⟨S512x2048, .f32⟩ : BufTy).Contents (Elt F)),
    StableHlo.nullary main_call2_cst (constant S_ .f32 0x00000000#32),
    StableHlo.binary main_call2_v0 main_call2_cst main_call2_v1 ((fun x v => Host.reduceAdd x v reducesTo_S512x2048_S512_d1 h_S_) : (⟨S512x2048, .f32⟩ : BufTy).Contents (Elt F) → (⟨S_, .f32⟩ : BufTy).Contents (Elt F) → (⟨S512, .f32⟩ : BufTy).Contents (Elt F)),
    StableHlo.unary main_call2_v1 main_call2_v2 (broadcastInDim S512x1 ![0] bcast_S512_S512x1_0 : (⟨S512, .f32⟩ : BufTy).Contents (Elt F) → (⟨S512x1, .f32⟩ : BufTy).Contents (Elt F)),
    StableHlo.unary main_call2_v2 main_v34 (Host.sqrt : (⟨S512x1, .f32⟩ : BufTy).Contents (Elt F) → (⟨S512x1, .f32⟩ : BufTy).Contents (Elt F)),
    StableHlo.nullary main_cst_4 (constant S_ .f32 0x322BCC77#32),
    StableHlo.unary main_cst_4 main_v35 (broadcastInDim S512x1 ![] bcast_S_S512x1 : (⟨S_, .f32⟩ : BufTy).Contents (Elt F) → (⟨S512x1, .f32⟩ : BufTy).Contents (Elt F)),
    StableHlo.binary main_v34 main_v35 main_v36 (maximumf : (⟨S512x1, .f32⟩ : BufTy).Contents (Elt F) → (⟨S512x1, .f32⟩ : BufTy).Contents (Elt F) → (⟨S512x1, .f32⟩ : BufTy).Contents (Elt F)),
    StableHlo.unary main_v36 main_v37 (broadcastInDim S512x2048 ![0, 1] bcast_S512x1_S512x2048_0_1 : (⟨S512x1, .f32⟩ : BufTy).Contents (Elt F) → (⟨S512x2048, .f32⟩ : BufTy).Contents (Elt F)),
    StableHlo.binary main_v33 main_v37 main_v38 (Host.divf : (⟨S512x2048, .f32⟩ : BufTy).Contents (Elt F) → (⟨S512x2048, .f32⟩ : BufTy).Contents (Elt F) → (⟨S512x2048, .f32⟩ : BufTy).Contents (Elt F)),
    StableHlo.unary main_v38 main_v39 ((transpose S2048x512 [1, 0] · transposes_S512x2048_S2048x512_1_0) : (⟨S512x2048, .f32⟩ : BufTy).Contents (Elt F) → (⟨S2048x512, .f32⟩ : BufTy).Contents (Elt F)),
    StableHlo.binary main_v38 main_v39 main_v40 ((fun l r => Host.dotGeneral dot_S512x2048_S2048x512_S512x512_1_0_0_1_n_n none l r) : (⟨S512x2048, .f32⟩ : BufTy).Contents (Elt F) → (⟨S2048x512, .f32⟩ : BufTy).Contents (Elt F) → (⟨S512x512, .f32⟩ : BufTy).Contents (Elt F)),
    StableHlo.nullary main_cst_5 (constant S_ .f32 0x3DCCCCCD#32),
    StableHlo.unary main_cst_5 main_v41 (broadcastInDim S512x512 ![] bcast_S_S512x512 : (⟨S_, .f32⟩ : BufTy).Contents (Elt F) → (⟨S512x512, .f32⟩ : BufTy).Contents (Elt F)),
    StableHlo.binary main_v40 main_v41 main_v42 (Host.divf : (⟨S512x512, .f32⟩ : BufTy).Contents (Elt F) → (⟨S512x512, .f32⟩ : BufTy).Contents (Elt F) → (⟨S512x512, .f32⟩ : BufTy).Contents (Elt F)),
    StableHlo.unary main_v42 main_v43 (Host.exp : (⟨S512x512, .f32⟩ : BufTy).Contents (Elt F) → (⟨S512x512, .f32⟩ : BufTy).Contents (Elt F)),
    StableHlo.unary main_arg2 main_v44 (broadcastInDim S256x1 ![0] bcast_S256_S256x1_0 : (⟨S256, .i32⟩ : BufTy).Contents (Elt F) → (⟨S256x1, .i32⟩ : BufTy).Contents (Elt F)),
    StableHlo.unary main_arg2 main_v45 (broadcastInDim S1x256 ![1] bcast_S256_S1x256_1 : (⟨S256, .i32⟩ : BufTy).Contents (Elt F) → (⟨S1x256, .i32⟩ : BufTy).Contents (Elt F)),
    StableHlo.unary main_v44 main_v46 (broadcastInDim S256x256 ![0, 1] bcast_S256x1_S256x256_0_1 : (⟨S256x1, .i32⟩ : BufTy).Contents (Elt F) → (⟨S256x256, .i32⟩ : BufTy).Contents (Elt F)),
    StableHlo.unary main_v45 main_v47 (broadcastInDim S256x256 ![0, 1] bcast_S1x256_S256x256_0_1 : (⟨S1x256, .i32⟩ : BufTy).Contents (Elt F) → (⟨S256x256, .i32⟩ : BufTy).Contents (Elt F)),
    StableHlo.binary main_v46 main_v47 main_v48 (subi : (⟨S256x256, .i32⟩ : BufTy).Contents (Elt F) → (⟨S256x256, .i32⟩ : BufTy).Contents (Elt F) → (⟨S256x256, .i32⟩ : BufTy).Contents (Elt F)),
    StableHlo.unary main_v48 main_v49 (absi : (⟨S256x256, .i32⟩ : BufTy).Contents (Elt F) → (⟨S256x256, .i32⟩ : BufTy).Contents (Elt F)),
    StableHlo.nullary main_v50 (iotaInDim S256x256 32 0),
    StableHlo.nullary main_v51 (iotaInDim S256x256 32 1),
    StableHlo.nullary main_c_6 (constantI S_ 32 0#32),
    StableHlo.unary main_c_6 main_v52 (broadcastInDim S256x256 ![] bcast_S_S256x256 : (⟨S_, .i32⟩ : BufTy).Contents (Elt F) → (⟨S256x256, .i32⟩ : BufTy).Contents (Elt F)),
    StableHlo.binary main_v50 main_v52 main_v53 (addi : (⟨S256x256, .i32⟩ : BufTy).Contents (Elt F) → (⟨S256x256, .i32⟩ : BufTy).Contents (Elt F) → (⟨S256x256, .i32⟩ : BufTy).Contents (Elt F)),
    StableHlo.binary main_v53 main_v51 main_v54 (cmpi .eq : (⟨S256x256, .i32⟩ : BufTy).Contents (Elt F) → (⟨S256x256, .i32⟩ : BufTy).Contents (Elt F) → (⟨S256x256, .i1⟩ : BufTy).Contents (Elt F)),
    StableHlo.nullary main_c_7 (constantI S_ 32 2#32),
    StableHlo.unary main_c_7 main_v55 (broadcastInDim S256x256 ![] bcast_S_S256x256 : (⟨S_, .i32⟩ : BufTy).Contents (Elt F) → (⟨S256x256, .i32⟩ : BufTy).Contents (Elt F)),
    StableHlo.binary main_v49 main_v55 main_v56 (cmpi .sle : (⟨S256x256, .i32⟩ : BufTy).Contents (Elt F) → (⟨S256x256, .i32⟩ : BufTy).Contents (Elt F) → (⟨S256x256, .i1⟩ : BufTy).Contents (Elt F)),
    StableHlo.unary main_v54 main_v57 (noti : (⟨S256x256, .i1⟩ : BufTy).Contents (Elt F) → (⟨S256x256, .i1⟩ : BufTy).Contents (Elt F)),
    StableHlo.binary main_v56 main_v57 main_v58 (andi : (⟨S256x256, .i1⟩ : BufTy).Contents (Elt F) → (⟨S256x256, .i1⟩ : BufTy).Contents (Elt F) → (⟨S256x256, .i1⟩ : BufTy).Contents (Elt F)),
    StableHlo.nullary main_c_8 (constantI S_ 32 2#32),
    StableHlo.unary main_c_8 main_v59 (broadcastInDim S256x256 ![] bcast_S_S256x256 : (⟨S_, .i32⟩ : BufTy).Contents (Elt F) → (⟨S256x256, .i32⟩ : BufTy).Contents (Elt F)),
    StableHlo.binary main_v49 main_v59 main_v60 (cmpi .sgt : (⟨S256x256, .i32⟩ : BufTy).Contents (Elt F) → (⟨S256x256, .i32⟩ : BufTy).Contents (Elt F) → (⟨S256x256, .i1⟩ : BufTy).Contents (Elt F)),
    StableHlo.unary main_v43 main_v61 ((extractStridedSlice S256x256 ![0, 0] · slices_S512x512_S256x256_0_0) : (⟨S512x512, .f32⟩ : BufTy).Contents (Elt F) → (⟨S256x256, .f32⟩ : BufTy).Contents (Elt F)),
    StableHlo.unary main_v60 main_v62 (uitofp .f32 : (⟨S256x256, .i1⟩ : BufTy).Contents (Elt F) → (⟨S256x256, .f32⟩ : BufTy).Contents (Elt F)),
    StableHlo.binary main_v61 main_v62 main_v63 (mulf : (⟨S256x256, .f32⟩ : BufTy).Contents (Elt F) → (⟨S256x256, .f32⟩ : BufTy).Contents (Elt F) → (⟨S256x256, .f32⟩ : BufTy).Contents (Elt F)),
    StableHlo.nullary main_cst_9 (constant S_ .f32 0x00000000#32),
    StableHlo.binary main_v63 main_cst_9 main_v64 ((fun x v => Host.reduceAdd x v reducesTo_S256x256_S256_d1 h_S_) : (⟨S256x256, .f32⟩ : BufTy).Contents (Elt F) → (⟨S_, .f32⟩ : BufTy).Contents (Elt F) → (⟨S256, .f32⟩ : BufTy).Contents (Elt F)),
    StableHlo.unary main_v43 main_v65 ((extractStridedSlice S256x256 ![0, 256] · slices_S512x512_S256x256_0_256) : (⟨S512x512, .f32⟩ : BufTy).Contents (Elt F) → (⟨S256x256, .f32⟩ : BufTy).Contents (Elt F)),
    StableHlo.nullary main_cst_10 (constant S_ .f32 0x00000000#32),
    StableHlo.binary main_v65 main_cst_10 main_v66 ((fun x v => Host.reduceAdd x v reducesTo_S256x256_S256_d1 h_S_) : (⟨S256x256, .f32⟩ : BufTy).Contents (Elt F) → (⟨S_, .f32⟩ : BufTy).Contents (Elt F) → (⟨S256, .f32⟩ : BufTy).Contents (Elt F)),
    StableHlo.binary main_v64 main_v66 main_v67 (addf : (⟨S256, .f32⟩ : BufTy).Contents (Elt F) → (⟨S256, .f32⟩ : BufTy).Contents (Elt F) → (⟨S256, .f32⟩ : BufTy).Contents (Elt F)),
    StableHlo.unary main_v67 main_v68 (broadcastInDim S256x1 ![0] bcast_S256_S256x1_0 : (⟨S256, .f32⟩ : BufTy).Contents (Elt F) → (⟨S256x1, .f32⟩ : BufTy).Contents (Elt F)),
    StableHlo.unary main_v68 main_v69 (broadcastInDim S256x256 ![0, 1] bcast_S256x1_S256x256_0_1 : (⟨S256x1, .f32⟩ : BufTy).Contents (Elt F) → (⟨S256x256, .f32⟩ : BufTy).Contents (Elt F)),
    StableHlo.binary main_v61 main_v69 main_v70 (addf : (⟨S256x256, .f32⟩ : BufTy).Contents (Elt F) → (⟨S256x256, .f32⟩ : BufTy).Contents (Elt F) → (⟨S256x256, .f32⟩ : BufTy).Contents (Elt F)),
    StableHlo.binary main_v61 main_v70 main_v71 (Host.divf : (⟨S256x256, .f32⟩ : BufTy).Contents (Elt F) → (⟨S256x256, .f32⟩ : BufTy).Contents (Elt F) → (⟨S256x256, .f32⟩ : BufTy).Contents (Elt F)),
    StableHlo.unary main_v71 main_v72 (Host.log : (⟨S256x256, .f32⟩ : BufTy).Contents (Elt F) → (⟨S256x256, .f32⟩ : BufTy).Contents (Elt F)),
    StableHlo.unary main_v72 main_v73 (Host.negf : (⟨S256x256, .f32⟩ : BufTy).Contents (Elt F) → (⟨S256x256, .f32⟩ : BufTy).Contents (Elt F)),
    StableHlo.unary main_v58 main_v74 ((extui 32 · natLt_1_32) : (⟨S256x256, .i1⟩ : BufTy).Contents (Elt F) → (⟨S256x256, .i32⟩ : BufTy).Contents (Elt F)),
    StableHlo.nullary main_c_11 (constantI S_ 32 0#32),
    StableHlo.binary main_v74 main_c_11 main_v75 ((fun x v => Host.reduce IntOp.addi x v reducesTo_S256x256_S256_d1 h_S_) : (⟨S256x256, .i32⟩ : BufTy).Contents (Elt F) → (⟨S_, .i32⟩ : BufTy).Contents (Elt F) → (⟨S256, .i32⟩ : BufTy).Contents (Elt F)),
    StableHlo.unary main_v58 main_v76 (uitofp .f32 : (⟨S256x256, .i1⟩ : BufTy).Contents (Elt F) → (⟨S256x256, .f32⟩ : BufTy).Contents (Elt F)),
    StableHlo.binary main_v73 main_v76 main_v77 (mulf : (⟨S256x256, .f32⟩ : BufTy).Contents (Elt F) → (⟨S256x256, .f32⟩ : BufTy).Contents (Elt F) → (⟨S256x256, .f32⟩ : BufTy).Contents (Elt F)),
    StableHlo.nullary main_cst_12 (constant S_ .f32 0x00000000#32),
    StableHlo.binary main_v77 main_cst_12 main_v78 ((fun x v => Host.reduceAdd x v reducesTo_S256x256_S256_d1 h_S_) : (⟨S256x256, .f32⟩ : BufTy).Contents (Elt F) → (⟨S_, .f32⟩ : BufTy).Contents (Elt F) → (⟨S256, .f32⟩ : BufTy).Contents (Elt F)),
    StableHlo.nullary main_c_13 (constantI S_ 32 1#32),
    StableHlo.unary main_c_13 main_v79 (broadcastInDim S256 ![] bcast_S_S256 : (⟨S_, .i32⟩ : BufTy).Contents (Elt F) → (⟨S256, .i32⟩ : BufTy).Contents (Elt F)),
    StableHlo.binary main_v75 main_v79 main_v80 (maxsi : (⟨S256, .i32⟩ : BufTy).Contents (Elt F) → (⟨S256, .i32⟩ : BufTy).Contents (Elt F) → (⟨S256, .i32⟩ : BufTy).Contents (Elt F)),
    StableHlo.unary main_v80 main_v81 (sitofp .f32 : (⟨S256, .i32⟩ : BufTy).Contents (Elt F) → (⟨S256, .f32⟩ : BufTy).Contents (Elt F)),
    StableHlo.binary main_v78 main_v81 main_v82 (Host.divf : (⟨S256, .f32⟩ : BufTy).Contents (Elt F) → (⟨S256, .f32⟩ : BufTy).Contents (Elt F) → (⟨S256, .f32⟩ : BufTy).Contents (Elt F)),
    StableHlo.nullary main_c_14 (constantI S_ 32 0#32),
    StableHlo.unary main_c_14 main_v83 (broadcastInDim S256 ![] bcast_S_S256 : (⟨S_, .i32⟩ : BufTy).Contents (Elt F) → (⟨S256, .i32⟩ : BufTy).Contents (Elt F)),
    StableHlo.binary main_v75 main_v83 main_v84 (cmpi .sgt : (⟨S256, .i32⟩ : BufTy).Contents (Elt F) → (⟨S256, .i32⟩ : BufTy).Contents (Elt F) → (⟨S256, .i1⟩ : BufTy).Contents (Elt F)),
    StableHlo.nullary main_cst_15 (constant S_ .f32 0x00000000#32),
    StableHlo.unary main_cst_15 main_call3_v0 (id : (⟨S_, .f32⟩ : BufTy).Contents (Elt F) → (⟨S_, .f32⟩ : BufTy).Contents (Elt F)),
    StableHlo.unary main_call3_v0 main_call3_v1 (broadcastInDim S256 ![] bcast_S_S256 : (⟨S_, .f32⟩ : BufTy).Contents (Elt F) → (⟨S256, .f32⟩ : BufTy).Contents (Elt F)),
    StableHlo.ternary main_v84 main_v82 main_call3_v1 main_v85 (select : (⟨S256, .i1⟩ : BufTy).Contents (Elt F) → (⟨S256, .f32⟩ : BufTy).Contents (Elt F) → (⟨S256, .f32⟩ : BufTy).Contents (Elt F) → (⟨S256, .f32⟩ : BufTy).Contents (Elt F)),
    StableHlo.nullary main_cst_16 (constant S_ .f32 0x00000000#32),
    StableHlo.binary main_v85 main_cst_16 main_v86 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    StableHlo.unary main_v84 main_v87 ((extui 32 · natLt_1_32) : (⟨S256, .i1⟩ : BufTy).Contents (Elt F) → (⟨S256, .i32⟩ : BufTy).Contents (Elt F)),
    StableHlo.nullary main_c_17 (constantI S_ 32 0#32),
    StableHlo.binary main_v87 main_c_17 main_v88 ((fun x v => Host.reduce IntOp.addi x v reducesTo_S256_S_d0 h_S_) : (⟨S256, .i32⟩ : BufTy).Contents (Elt F) → (⟨S_, .i32⟩ : BufTy).Contents (Elt F) → (⟨S_, .i32⟩ : BufTy).Contents (Elt F)) ]

/-- The line is the six pieces, one after the other: an operation of a called function over the call's record is
    the operation at the buffers the record names, its function moved along the buffers' types, which at these
    literal buffers is no move at all. -/
theorem ops_split : (ops : List (HloOp τ sig (Elt F)))
    = opsPool ++ (opsHidden ++ (opsMean ++ (opsVar ++ (opsProj ++ opsTail)))) := rfl

/-- The fold of two lines run one after the other is the second's fold over the first's. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-- The fold of the whole line, piece by piece. -/
theorem after_ops (V : Valuation τ sig (Elt F)) :
    StableHlo.after ops V = StableHlo.after opsTail (StableHlo.after opsProj (StableHlo.after opsVar
      (StableHlo.after opsMean (StableHlo.after opsHidden (StableHlo.after opsPool V))))) := by
  rw [ops_split]
  simp only [after_append]

/-! ## What each piece writes -/

/-- An operation that writes the one buffer `y` writes inside any list of references holding `y`. -/
theorem writes_sub {L : List (Ref sig .tc)} {op : HloOp τ sig (Elt F)} {y : Ref sig .tc}
    (hw : op.writes = {(Proc.devRef .tc y : DevRef τ sig)}) (hy : y ∈ L) :
    op.writes ⊆ (L.map (Proc.devRef (τ := τ) .tc)).toFinset := by
  rw [hw, Finset.singleton_subset_iff, List.mem_toFinset]
  exact List.mem_map.mpr ⟨y, hy, rfl⟩

/-- The buffers `opsPool` writes, in order. -/
abbrev wrPool : List (Ref sig .tc) :=
  [main_v0, main_cst, main_v1, main_cst_0, main_v2, main_v3]

theorem writesPool : (opsPool : List (HloOp τ sig (Elt F))).Forall fun op =>
    op.writes ⊆ (wrPool.map (Proc.devRef (τ := τ) .tc)).toFinset := by
  unfold opsPool
  exact ⟨
    writes_sub (StableHlo.binary_writes ..) (by decide), writes_sub (StableHlo.nullary_writes ..) (by decide), writes_sub (StableHlo.binary_writes ..) (by decide),
    writes_sub (StableHlo.nullary_writes ..) (by decide), writes_sub (StableHlo.unary_writes ..) (by decide), writes_sub (StableHlo.binary_writes ..) (by decide)⟩

/-- A buffer `opsPool` does not write keeps its contents across it. -/
theorem keepPool {r : Ref sig .tc} (W : Valuation τ sig (Elt F)) (hr : r ∉ wrPool) :
    StableHlo.after opsPool W (Proc.devRef .tc r) = W (Proc.devRef .tc r) :=
  StableHlo.after_of_writes_sub opsPool W writesPool hr

/-- The buffers `opsHidden` writes, in order. -/
abbrev wrHidden : List (Ref sig .tc) :=
  [main_v4, main_v5, main_v6, main_v7, main_v8]

theorem writesHidden : (opsHidden : List (HloOp τ sig (Elt F))).Forall fun op =>
    op.writes ⊆ (wrHidden.map (Proc.devRef (τ := τ) .tc)).toFinset := by
  unfold opsHidden
  exact ⟨
    writes_sub (StableHlo.unary_writes ..) (by decide), writes_sub (StableHlo.binary_writes ..) (by decide), writes_sub (StableHlo.unary_writes ..) (by decide),
    writes_sub (StableHlo.unary_writes ..) (by decide), writes_sub (StableHlo.binary_writes ..) (by decide)⟩

/-- A buffer `opsHidden` does not write keeps its contents across it. -/
theorem keepHidden {r : Ref sig .tc} (W : Valuation τ sig (Elt F)) (hr : r ∉ wrHidden) :
    StableHlo.after opsHidden W (Proc.devRef .tc r) = W (Proc.devRef .tc r) :=
  StableHlo.after_of_writes_sub opsHidden W writesHidden hr

/-- The buffers `opsMean` writes, in order. -/
abbrev wrMean : List (Ref sig .tc) :=
  [main_cst_1, main_v9, main_cst_2, main_v10, main_v11]

theorem writesMean : (opsMean : List (HloOp τ sig (Elt F))).Forall fun op =>
    op.writes ⊆ (wrMean.map (Proc.devRef (τ := τ) .tc)).toFinset := by
  unfold opsMean
  exact ⟨
    writes_sub (StableHlo.nullary_writes ..) (by decide), writes_sub (StableHlo.binary_writes ..) (by decide), writes_sub (StableHlo.nullary_writes ..) (by decide),
    writes_sub (StableHlo.unary_writes ..) (by decide), writes_sub (StableHlo.binary_writes ..) (by decide)⟩

/-- A buffer `opsMean` does not write keeps its contents across it. -/
theorem keepMean {r : Ref sig .tc} (W : Valuation τ sig (Elt F)) (hr : r ∉ wrMean) :
    StableHlo.after opsMean W (Proc.devRef .tc r) = W (Proc.devRef .tc r) :=
  StableHlo.after_of_writes_sub opsMean W writesMean hr

/-- The buffers `opsVar` writes, in order. -/
abbrev wrVar : List (Ref sig .tc) :=
  [main_c, main_call0_cst, main_call0_v0, main_call0_v1, main_call0_cst_0, main_call0_v2, main_call0_v3, main_call0_v4,
   main_call0_v5, main_call0_v6, main_call0_v7, main_call0_cst_1, main_call0_v8, main_call0_cst_2, main_call0_v9, main_call0_v10,
   main_call0_v11, main_call0_cst_3, main_call0_v12, main_call0_cst_4, main_call0_call0_v0, main_call0_call0_v1, main_v12]

theorem writesVar : (opsVar : List (HloOp τ sig (Elt F))).Forall fun op =>
    op.writes ⊆ (wrVar.map (Proc.devRef (τ := τ) .tc)).toFinset := by
  unfold opsVar
  exact ⟨
    writes_sub (StableHlo.nullary_writes ..) (by decide), writes_sub (StableHlo.nullary_writes ..) (by decide), writes_sub (StableHlo.binary_writes ..) (by decide),
    writes_sub (StableHlo.unary_writes ..) (by decide), writes_sub (StableHlo.nullary_writes ..) (by decide), writes_sub (StableHlo.unary_writes ..) (by decide),
    writes_sub (StableHlo.binary_writes ..) (by decide), writes_sub (StableHlo.unary_writes ..) (by decide), writes_sub (StableHlo.binary_writes ..) (by decide),
    writes_sub (StableHlo.binary_writes ..) (by decide), writes_sub (StableHlo.unary_writes ..) (by decide), writes_sub (StableHlo.nullary_writes ..) (by decide),
    writes_sub (StableHlo.binary_writes ..) (by decide), writes_sub (StableHlo.nullary_writes ..) (by decide), writes_sub (StableHlo.binary_writes ..) (by decide),
    writes_sub (StableHlo.unary_writes ..) (by decide), writes_sub (StableHlo.binary_writes ..) (by decide), writes_sub (StableHlo.nullary_writes ..) (by decide),
    writes_sub (StableHlo.binary_writes ..) (by decide), writes_sub (StableHlo.nullary_writes ..) (by decide), writes_sub (StableHlo.unary_writes ..) (by decide),
    writes_sub (StableHlo.unary_writes ..) (by decide), writes_sub (StableHlo.ternary_writes ..) (by decide)⟩

/-- A buffer `opsVar` does not write keeps its contents across it. -/
theorem keepVar {r : Ref sig .tc} (W : Valuation τ sig (Elt F)) (hr : r ∉ wrVar) :
    StableHlo.after opsVar W (Proc.devRef .tc r) = W (Proc.devRef .tc r) :=
  StableHlo.after_of_writes_sub opsVar W writesVar hr

/-- The buffers `opsProj` writes, in order. -/
abbrev wrProj : List (Ref sig .tc) :=
  [main_v13, main_v14, main_v15, main_cst_3, main_v16, main_v17, main_v18, main_v19,
   main_v20, main_v21, main_v22, main_v23, main_v24, main_v25, main_v26, main_v27,
   main_call1_cst, main_call1_v0, main_v28, main_v29, main_v30, main_v31, main_v32, main_v33]

theorem writesProj : (opsProj : List (HloOp τ sig (Elt F))).Forall fun op =>
    op.writes ⊆ (wrProj.map (Proc.devRef (τ := τ) .tc)).toFinset := by
  unfold opsProj
  exact ⟨
    writes_sub (StableHlo.unary_writes ..) (by decide), writes_sub (StableHlo.unary_writes ..) (by decide), writes_sub (StableHlo.binary_writes ..) (by decide),
    writes_sub (StableHlo.nullary_writes ..) (by decide), writes_sub (StableHlo.unary_writes ..) (by decide), writes_sub (StableHlo.binary_writes ..) (by decide),
    writes_sub (StableHlo.unary_writes ..) (by decide), writes_sub (StableHlo.unary_writes ..) (by decide), writes_sub (StableHlo.unary_writes ..) (by decide),
    writes_sub (StableHlo.binary_writes ..) (by decide), writes_sub (StableHlo.unary_writes ..) (by decide), writes_sub (StableHlo.unary_writes ..) (by decide),
    writes_sub (StableHlo.binary_writes ..) (by decide), writes_sub (StableHlo.unary_writes ..) (by decide), writes_sub (StableHlo.unary_writes ..) (by decide),
    writes_sub (StableHlo.binary_writes ..) (by decide), writes_sub (StableHlo.nullary_writes ..) (by decide), writes_sub (StableHlo.unary_writes ..) (by decide),
    writes_sub (StableHlo.binary_writes ..) (by decide), writes_sub (StableHlo.unary_writes ..) (by decide), writes_sub (StableHlo.binary_writes ..) (by decide),
    writes_sub (StableHlo.unary_writes ..) (by decide), writes_sub (StableHlo.unary_writes ..) (by decide), writes_sub (StableHlo.binary_writes ..) (by decide)⟩

/-- A buffer `opsProj` does not write keeps its contents across it. -/
theorem keepProj {r : Ref sig .tc} (W : Valuation τ sig (Elt F)) (hr : r ∉ wrProj) :
    StableHlo.after opsProj W (Proc.devRef .tc r) = W (Proc.devRef .tc r) :=
  StableHlo.after_of_writes_sub opsProj W writesProj hr

/-- The buffers `opsTail` writes, in order. -/
abbrev wrTail : List (Ref sig .tc) :=
  [main_call2_v0, main_call2_cst, main_call2_v1, main_call2_v2, main_v34, main_cst_4, main_v35, main_v36,
   main_v37, main_v38, main_v39, main_v40, main_cst_5, main_v41, main_v42, main_v43,
   main_v44, main_v45, main_v46, main_v47, main_v48, main_v49, main_v50, main_v51,
   main_c_6, main_v52, main_v53, main_v54, main_c_7, main_v55, main_v56, main_v57,
   main_v58, main_c_8, main_v59, main_v60, main_v61, main_v62, main_v63, main_cst_9,
   main_v64, main_v65, main_cst_10, main_v66, main_v67, main_v68, main_v69, main_v70,
   main_v71, main_v72, main_v73, main_v74, main_c_11, main_v75, main_v76, main_v77,
   main_cst_12, main_v78, main_c_13, main_v79, main_v80, main_v81, main_v82, main_c_14,
   main_v83, main_v84, main_cst_15, main_call3_v0, main_call3_v1, main_v85, main_cst_16, main_v86,
   main_v87, main_c_17, main_v88]

theorem writesTail : (opsTail : List (HloOp τ sig (Elt F))).Forall fun op =>
    op.writes ⊆ (wrTail.map (Proc.devRef (τ := τ) .tc)).toFinset := by
  unfold opsTail
  exact ⟨
    writes_sub (StableHlo.binary_writes ..) (by decide), writes_sub (StableHlo.nullary_writes ..) (by decide), writes_sub (StableHlo.binary_writes ..) (by decide),
    writes_sub (StableHlo.unary_writes ..) (by decide), writes_sub (StableHlo.unary_writes ..) (by decide), writes_sub (StableHlo.nullary_writes ..) (by decide),
    writes_sub (StableHlo.unary_writes ..) (by decide), writes_sub (StableHlo.binary_writes ..) (by decide), writes_sub (StableHlo.unary_writes ..) (by decide),
    writes_sub (StableHlo.binary_writes ..) (by decide), writes_sub (StableHlo.unary_writes ..) (by decide), writes_sub (StableHlo.binary_writes ..) (by decide),
    writes_sub (StableHlo.nullary_writes ..) (by decide), writes_sub (StableHlo.unary_writes ..) (by decide), writes_sub (StableHlo.binary_writes ..) (by decide),
    writes_sub (StableHlo.unary_writes ..) (by decide), writes_sub (StableHlo.unary_writes ..) (by decide), writes_sub (StableHlo.unary_writes ..) (by decide),
    writes_sub (StableHlo.unary_writes ..) (by decide), writes_sub (StableHlo.unary_writes ..) (by decide), writes_sub (StableHlo.binary_writes ..) (by decide),
    writes_sub (StableHlo.unary_writes ..) (by decide), writes_sub (StableHlo.nullary_writes ..) (by decide), writes_sub (StableHlo.nullary_writes ..) (by decide),
    writes_sub (StableHlo.nullary_writes ..) (by decide), writes_sub (StableHlo.unary_writes ..) (by decide), writes_sub (StableHlo.binary_writes ..) (by decide),
    writes_sub (StableHlo.binary_writes ..) (by decide), writes_sub (StableHlo.nullary_writes ..) (by decide), writes_sub (StableHlo.unary_writes ..) (by decide),
    writes_sub (StableHlo.binary_writes ..) (by decide), writes_sub (StableHlo.unary_writes ..) (by decide), writes_sub (StableHlo.binary_writes ..) (by decide),
    writes_sub (StableHlo.nullary_writes ..) (by decide), writes_sub (StableHlo.unary_writes ..) (by decide), writes_sub (StableHlo.binary_writes ..) (by decide),
    writes_sub (StableHlo.unary_writes ..) (by decide), writes_sub (StableHlo.unary_writes ..) (by decide), writes_sub (StableHlo.binary_writes ..) (by decide),
    writes_sub (StableHlo.nullary_writes ..) (by decide), writes_sub (StableHlo.binary_writes ..) (by decide), writes_sub (StableHlo.unary_writes ..) (by decide),
    writes_sub (StableHlo.nullary_writes ..) (by decide), writes_sub (StableHlo.binary_writes ..) (by decide), writes_sub (StableHlo.binary_writes ..) (by decide),
    writes_sub (StableHlo.unary_writes ..) (by decide), writes_sub (StableHlo.unary_writes ..) (by decide), writes_sub (StableHlo.binary_writes ..) (by decide),
    writes_sub (StableHlo.binary_writes ..) (by decide), writes_sub (StableHlo.unary_writes ..) (by decide), writes_sub (StableHlo.unary_writes ..) (by decide),
    writes_sub (StableHlo.unary_writes ..) (by decide), writes_sub (StableHlo.nullary_writes ..) (by decide), writes_sub (StableHlo.binary_writes ..) (by decide),
    writes_sub (StableHlo.unary_writes ..) (by decide), writes_sub (StableHlo.binary_writes ..) (by decide), writes_sub (StableHlo.nullary_writes ..) (by decide),
    writes_sub (StableHlo.binary_writes ..) (by decide), writes_sub (StableHlo.nullary_writes ..) (by decide), writes_sub (StableHlo.unary_writes ..) (by decide),
    writes_sub (StableHlo.binary_writes ..) (by decide), writes_sub (StableHlo.unary_writes ..) (by decide), writes_sub (StableHlo.binary_writes ..) (by decide),
    writes_sub (StableHlo.nullary_writes ..) (by decide), writes_sub (StableHlo.unary_writes ..) (by decide), writes_sub (StableHlo.binary_writes ..) (by decide),
    writes_sub (StableHlo.nullary_writes ..) (by decide), writes_sub (StableHlo.unary_writes ..) (by decide), writes_sub (StableHlo.unary_writes ..) (by decide),
    writes_sub (StableHlo.ternary_writes ..) (by decide), writes_sub (StableHlo.nullary_writes ..) (by decide), writes_sub (StableHlo.binary_writes ..) (by decide),
    writes_sub (StableHlo.unary_writes ..) (by decide), writes_sub (StableHlo.nullary_writes ..) (by decide), writes_sub (StableHlo.binary_writes ..) (by decide)⟩

/-- A buffer `opsTail` does not write keeps its contents across it. -/
theorem keepTail {r : Ref sig .tc} (W : Valuation τ sig (Elt F)) (hr : r ∉ wrTail) :
    StableHlo.after opsTail W (Proc.devRef .tc r) = W (Proc.devRef .tc r) :=
  StableHlo.after_of_writes_sub opsTail W writesTail hr

/-! ## Each piece read at its result, over any contents -/

theorem pooledOf_piece (W : Valuation τ sig (Elt F)) :
    StableHlo.after opsPool W (main_v3 : DevRef τ sig) = pooledOf (W (main_arg0 : DevRef τ sig)) (W (main_arg1 : DevRef τ sig)) := by
  unfold opsPool
  after_results_simp
  rfl

theorem hiddenOf_piece (W : Valuation τ sig (Elt F)) :
    StableHlo.after opsHidden W (main_v8 : DevRef τ sig) = hiddenOf (W (main_v3 : DevRef τ sig)) (W (main_arg4 : DevRef τ sig)) (W (main_arg5 : DevRef τ sig)) := by
  unfold opsHidden
  after_results_simp
  rfl

theorem meanOf_piece (W : Valuation τ sig (Elt F)) :
    StableHlo.after opsMean W (main_v11 : DevRef τ sig) = meanOf (W (main_v8 : DevRef τ sig)) := by
  unfold opsMean
  after_results_simp
  rfl

theorem varOf_piece (W : Valuation τ sig (Elt F)) :
    StableHlo.after opsVar W (main_v12 : DevRef τ sig) = varOf (W (main_v8 : DevRef τ sig)) := by
  unfold opsVar
  after_results_simp
  rfl

theorem projOf_piece (W : Valuation τ sig (Elt F)) :
    StableHlo.after opsProj W (main_v33 : DevRef τ sig) = projOf (W (main_v8 : DevRef τ sig)) (W (main_v11 : DevRef τ sig)) (W (main_v12 : DevRef τ sig)) (W (main_arg6 : DevRef τ sig)) (W (main_arg7 : DevRef τ sig)) (W (main_arg8 : DevRef τ sig)) (W (main_arg9 : DevRef τ sig)) := by
  unfold opsProj
  after_results_simp
  rfl

theorem lossTail_piece1 (W : Valuation τ sig (Elt F)) :
    StableHlo.after opsTail W (main_v86 : DevRef τ sig) = (lossTail (W (main_v33 : DevRef τ sig)) (W (main_arg2 : DevRef τ sig))).1 := by
  unfold opsTail
  after_results_simp
  rfl

theorem lossTail_piece2 (W : Valuation τ sig (Elt F)) :
    StableHlo.after opsTail W (main_v88 : DevRef τ sig) = (lossTail (W (main_v33 : DevRef τ sig)) (W (main_arg2 : DevRef τ sig))).2 := by
  unfold opsTail
  after_results_simp
  rfl

/-! ## The stages of the whole line -/

/-- The pooled features are `pooledOf` of the two inputs. -/
theorem pooled_read (V : Valuation τ sig (Elt F)) :
    StableHlo.after ops V (main_v3 : DevRef τ sig) = pooledOf (V (main_arg0 : DevRef τ sig)) (V (main_arg1 : DevRef τ sig)) := by
  rw [after_ops, keepTail (r := main_v3) _ (by decide), keepProj (r := main_v3) _ (by decide),
    keepVar (r := main_v3) _ (by decide), keepMean (r := main_v3) _ (by decide), keepHidden (r := main_v3) _ (by decide),
    pooledOf_piece]

/-- The hidden layer is `hiddenOf` of the pooled features, the first weight and the first bias. -/
theorem hidden_read (V : Valuation τ sig (Elt F)) :
    StableHlo.after ops V (main_v8 : DevRef τ sig) = hiddenOf (StableHlo.after ops V (main_v3 : DevRef τ sig)) (V (main_arg4 : DevRef τ sig)) (V (main_arg5 : DevRef τ sig)) := by
  rw [after_ops, keepTail (r := main_v8) _ (by decide), keepProj (r := main_v8) _ (by decide),
    keepVar (r := main_v8) _ (by decide), keepMean (r := main_v8) _ (by decide), keepTail (r := main_v3) _ (by decide),
    keepProj (r := main_v3) _ (by decide), keepVar (r := main_v3) _ (by decide), keepMean (r := main_v3) _ (by decide),
    keepHidden (r := main_v3) _ (by decide), hiddenOf_piece, keepPool (r := main_arg4) _ (by decide),
    keepPool (r := main_arg5) _ (by decide)]

/-- The batch mean is `meanOf` of the hidden layer. -/
theorem mean_read (V : Valuation τ sig (Elt F)) :
    StableHlo.after ops V (main_v11 : DevRef τ sig) = meanOf (StableHlo.after ops V (main_v8 : DevRef τ sig)) := by
  rw [after_ops, keepTail (r := main_v11) _ (by decide), keepProj (r := main_v11) _ (by decide),
    keepVar (r := main_v11) _ (by decide), keepTail (r := main_v8) _ (by decide), keepProj (r := main_v8) _ (by decide),
    keepVar (r := main_v8) _ (by decide), keepMean (r := main_v8) _ (by decide), meanOf_piece]

/-- The batch variance is `varOf` of the hidden layer. -/
theorem var_read (V : Valuation τ sig (Elt F)) :
    StableHlo.after ops V (main_v12 : DevRef τ sig) = varOf (StableHlo.after ops V (main_v8 : DevRef τ sig)) := by
  rw [after_ops, keepTail (r := main_v12) _ (by decide), keepProj (r := main_v12) _ (by decide),
    keepTail (r := main_v8) _ (by decide), keepProj (r := main_v8) _ (by decide), keepVar (r := main_v8) _ (by decide),
    keepMean (r := main_v8) _ (by decide), varOf_piece, keepMean (r := main_v8) _ (by decide)]

/-- The projection is `projOf` of the hidden layer, its batch mean and variance, the scale, the shift, the second weight and the second bias. -/
theorem proj_read (V : Valuation τ sig (Elt F)) :
    StableHlo.after ops V (main_v33 : DevRef τ sig) = projOf (StableHlo.after ops V (main_v8 : DevRef τ sig)) (StableHlo.after ops V (main_v11 : DevRef τ sig)) (StableHlo.after ops V (main_v12 : DevRef τ sig)) (V (main_arg6 : DevRef τ sig)) (V (main_arg7 : DevRef τ sig))
      (V (main_arg8 : DevRef τ sig)) (V (main_arg9 : DevRef τ sig)) := by
  rw [after_ops, keepTail (r := main_v33) _ (by decide), keepTail (r := main_v8) _ (by decide),
    keepProj (r := main_v8) _ (by decide), keepVar (r := main_v8) _ (by decide), keepMean (r := main_v8) _ (by decide),
    keepTail (r := main_v11) _ (by decide), keepProj (r := main_v11) _ (by decide), keepVar (r := main_v11) _ (by decide),
    keepTail (r := main_v12) _ (by decide), keepProj (r := main_v12) _ (by decide), projOf_piece,
    keepVar (r := main_v8) _ (by decide), keepMean (r := main_v8) _ (by decide), keepVar (r := main_v11) _ (by decide),
    keepVar (r := main_arg6) _ (by decide), keepMean (r := main_arg6) _ (by decide), keepHidden (r := main_arg6) _ (by decide),
    keepPool (r := main_arg6) _ (by decide), keepVar (r := main_arg7) _ (by decide), keepMean (r := main_arg7) _ (by decide),
    keepHidden (r := main_arg7) _ (by decide), keepPool (r := main_arg7) _ (by decide), keepVar (r := main_arg8) _ (by decide),
    keepMean (r := main_arg8) _ (by decide), keepHidden (r := main_arg8) _ (by decide), keepPool (r := main_arg8) _ (by decide),
    keepVar (r := main_arg9) _ (by decide), keepMean (r := main_arg9) _ (by decide), keepHidden (r := main_arg9) _ (by decide),
    keepPool (r := main_arg9) _ (by decide)]

/-- The first result is the first component of `lossTail` of the projection and the labels. -/
theorem result1_read (V : Valuation τ sig (Elt F)) :
    StableHlo.after ops V (main_v86 : DevRef τ sig) = (lossTail (StableHlo.after ops V (main_v33 : DevRef τ sig)) (V (main_arg2 : DevRef τ sig))).1 := by
  rw [after_ops, keepTail (r := main_v33) _ (by decide), lossTail_piece1,
    keepProj (r := main_arg2) _ (by decide), keepVar (r := main_arg2) _ (by decide), keepMean (r := main_arg2) _ (by decide),
    keepHidden (r := main_arg2) _ (by decide), keepPool (r := main_arg2) _ (by decide)]

/-- The second result is its second component. -/
theorem result2_read (V : Valuation τ sig (Elt F)) :
    StableHlo.after ops V (main_v88 : DevRef τ sig) = (lossTail (StableHlo.after ops V (main_v33 : DevRef τ sig)) (V (main_arg2 : DevRef τ sig))).2 := by
  rw [after_ops, keepTail (r := main_v33) _ (by decide), lossTail_piece2,
    keepProj (r := main_arg2) _ (by decide), keepVar (r := main_arg2) _ (by decide), keepMean (r := main_arg2) _ (by decide),
    keepHidden (r := main_arg2) _ (by decide), keepPool (r := main_arg2) _ (by decide)]

/-- Both results are `lossTail` of the projection and the labels. -/
theorem results_read (V : Valuation τ sig (Elt F)) :
    StableHlo.after ops V (main_v86 : DevRef τ sig) = (lossTail (StableHlo.after ops V (main_v33 : DevRef τ sig)) (V (main_arg2 : DevRef τ sig))).1
      ∧ StableHlo.after ops V (main_v88 : DevRef τ sig) = (lossTail (StableHlo.after ops V (main_v33 : DevRef τ sig)) (V (main_arg2 : DevRef τ sig))).2 :=
  ⟨result1_read V, result2_read V⟩

end Cert.ReferenceIdeal.HandRead

end
-- ==== Proof.HostStretches.lean ====
/-
  The kernel program's host operations, read against the reference's stages.

  Between its four kernel launches the kernel program's @main runs stretches of host operations: two reshapes,
  a concatenation and two transposes, the batch mean and the batch variance of the hidden layer, and after the
  last launch the whole of the loss. Each stretch is read here at its results over ANY contents `W` of the
  buffers: the reshapes, the concatenation and the transposes as those operations of what they read; the mean,
  the variance and the loss as the reference's own stage functions (`meanOf`, `varOf`, `lossTail` of the
  reference's read) of the hidden layer, resp. of the projection and the labels. The two programs spell the
  same operations over the same shapes and constants (each in its own vocabulary of shape names and shape
  facts, which are the same literals and the same propositions), so after the stretch's fold is rewritten to
  the composed term the two sides are one term by unfolding.

  The operations of a called function (@_var with its @_where, @norm, @_where_0) are first restated at the
  buffers the call names, their functions at the buffers' types (`varOps`, `normOps`, `whereOps`): equal to
  the stretches as printed, since at literal buffers the move of a function along the buffers' types is no move.

  @_var reads the scalar `main_c`, which the stretch before it writes last (the integer 0): its stretch alone
  is read under that hypothesis (`var_stretch`), and the two stretches together with none (`var_stretch'`).
-/
import proofs.«154134_j25494925869443_2_alg».proof.Proof.LaunchPatchedKernelIdeal
import proofs.«154134_j25494925869443_2_alg».proof.Proof.ReferenceRead

noncomputable section

namespace Cert.KernelIdeal.HostRead

open Cert.KernelIdeal Cert.KernelIdeal.Gen Cert.KernelIdeal.GenP Idealize.ShloMosaic Idealize.ShloMosaic.TcCoe Idealize.SL.Sem

variable {F : FTy → Type} [FloatOps F]

/-! ## The called functions' operations at the buffers their calls name -/

/-- The body of @_var with its nested @_where over the call's buffers: the batch variance of `main_v7` into `main_v11`. -/
def varOps : List (HloOp τ sig (Elt F)) :=
  [ StableHlo.nullary main_call0_cst (constant S_ .f32 0x00000000#32),
    StableHlo.binary main_v7 main_call0_cst main_call0_v0 ((fun x v => Host.reduceAdd x v reducesTo_S512x2048_S2048_d0 h_S_) : (⟨S512x2048, .f32⟩ : BufTy).Contents (Elt F) → (⟨S_, .f32⟩ : BufTy).Contents (Elt F) → (⟨S2048, .f32⟩ : BufTy).Contents (Elt F)),
    StableHlo.unary main_call0_v0 main_call0_v1 (broadcastInDim S1x2048 ![1] bcast_S2048_S1x2048_1 : (⟨S2048, .f32⟩ : BufTy).Contents (Elt F) → (⟨S1x2048, .f32⟩ : BufTy).Contents (Elt F)),
    StableHlo.nullary main_call0_cst_0 (constant S_ .f32 0x44000000#32),
    StableHlo.unary main_call0_cst_0 main_call0_v2 (broadcastInDim S1x2048 ![] bcast_S_S1x2048 : (⟨S_, .f32⟩ : BufTy).Contents (Elt F) → (⟨S1x2048, .f32⟩ : BufTy).Contents (Elt F)),
    StableHlo.binary main_call0_v1 main_call0_v2 main_call0_v3 (Host.divf : (⟨S1x2048, .f32⟩ : BufTy).Contents (Elt F) → (⟨S1x2048, .f32⟩ : BufTy).Contents (Elt F) → (⟨S1x2048, .f32⟩ : BufTy).Contents (Elt F)),
    StableHlo.unary main_call0_v3 main_call0_v4 (broadcastInDim S512x2048 ![0, 1] bcast_S1x2048_S512x2048_0_1 : (⟨S1x2048, .f32⟩ : BufTy).Contents (Elt F) → (⟨S512x2048, .f32⟩ : BufTy).Contents (Elt F)),
    StableHlo.binary main_v7 main_call0_v4 main_call0_v5 (subf : (⟨S512x2048, .f32⟩ : BufTy).Contents (Elt F) → (⟨S512x2048, .f32⟩ : BufTy).Contents (Elt F) → (⟨S512x2048, .f32⟩ : BufTy).Contents (Elt F)),
    StableHlo.binary main_call0_v5 main_call0_v5 main_call0_v6 (mulf : (⟨S512x2048, .f32⟩ : BufTy).Contents (Elt F) → (⟨S512x2048, .f32⟩ : BufTy).Contents (Elt F) → (⟨S512x2048, .f32⟩ : BufTy).Contents (Elt F)),
    StableHlo.unary main_c main_call0_v7 (sitofp .f32 : (⟨S_, .i32⟩ : BufTy).Contents (Elt F) → (⟨S_, .f32⟩ : BufTy).Contents (Elt F)),
    StableHlo.nullary main_call0_cst_1 (constant S_ .f32 0x44000000#32),
    StableHlo.binary main_call0_cst_1 main_call0_v7 main_call0_v8 (subf : (⟨S_, .f32⟩ : BufTy).Contents (Elt F) → (⟨S_, .f32⟩ : BufTy).Contents (Elt F) → (⟨S_, .f32⟩ : BufTy).Contents (Elt F)),
    StableHlo.nullary main_call0_cst_2 (constant S_ .f32 0x00000000#32),
    StableHlo.binary main_call0_v6 main_call0_cst_2 main_call0_v9 ((fun x v => Host.reduceAdd x v reducesTo_S512x2048_S2048_d0 h_S_) : (⟨S512x2048, .f32⟩ : BufTy).Contents (Elt F) → (⟨S_, .f32⟩ : BufTy).Contents (Elt F) → (⟨S2048, .f32⟩ : BufTy).Contents (Elt F)),
    StableHlo.unary main_call0_v8 main_call0_v10 (broadcastInDim S2048 ![] bcast_S_S2048 : (⟨S_, .f32⟩ : BufTy).Contents (Elt F) → (⟨S2048, .f32⟩ : BufTy).Contents (Elt F)),
    StableHlo.binary main_call0_v9 main_call0_v10 main_call0_v11 (Host.divf : (⟨S2048, .f32⟩ : BufTy).Contents (Elt F) → (⟨S2048, .f32⟩ : BufTy).Contents (Elt F) → (⟨S2048, .f32⟩ : BufTy).Contents (Elt F)),
    StableHlo.nullary main_call0_cst_3 (constant S_ .f32 0x00000000#32),
    StableHlo.binary main_call0_v8 main_call0_cst_3 main_call0_v12 (cmpf .ogt : (⟨S_, .f32⟩ : BufTy).Contents (Elt F) → (⟨S_, .f32⟩ : BufTy).Contents (Elt F) → (⟨S_, .i1⟩ : BufTy).Contents (Elt F)),
    StableHlo.nullary main_call0_cst_4 (constant S_ .f32 0x7FC00000#32),
    StableHlo.unary main_call0_cst_4 main_call0_call0_v0 (id : (⟨S_, .f32⟩ : BufTy).Contents (Elt F) → (⟨S_, .f32⟩ : BufTy).Contents (Elt F)),
    StableHlo.unary main_call0_call0_v0 main_call0_call0_v1 (broadcastInDim S2048 ![] bcast_S_S2048 : (⟨S_, .f32⟩ : BufTy).Contents (Elt F) → (⟨S2048, .f32⟩ : BufTy).Contents (Elt F)),
    StableHlo.ternary main_call0_v12 main_call0_v11 main_call0_call0_v1 main_v11 ((fun p a b => select (broadcastInDim S2048 ![] bcast_S_S2048 p) a b) : (⟨S_, .i1⟩ : BufTy).Contents (Elt F) → (⟨S2048, .f32⟩ : BufTy).Contents (Elt F) → (⟨S2048, .f32⟩ : BufTy).Contents (Elt F) → (⟨S2048, .f32⟩ : BufTy).Contents (Elt F)) ]

theorem hostOps3_1_eq : (hostOps3_1 : List (HloOp τ sig (Elt F))) = varOps := rfl

/-- The body of @norm over the call's buffers: the rows' Euclidean norms of `main_v12` into `main_v13`. -/
def normOps : List (HloOp τ sig (Elt F)) :=
  [ StableHlo.binary main_v12 main_v12 main_call1_v0 (mulf : (⟨S512x2048, .f32⟩ : BufTy).Contents (Elt F) → (⟨S512x2048, .f32⟩ : BufTy).Contents (Elt F) → (⟨S512x2048, .f32⟩ : BufTy).Contents (Elt F)),
    StableHlo.nullary main_call1_cst (constant S_ .f32 0x00000000#32),
    StableHlo.binary main_call1_v0 main_call1_cst main_call1_v1 ((fun x v => Host.reduceAdd x v reducesTo_S512x2048_S512_d1 h_S_) : (⟨S512x2048, .f32⟩ : BufTy).Contents (Elt F) → (⟨S_, .f32⟩ : BufTy).Contents (Elt F) → (⟨S512, .f32⟩ : BufTy).Contents (Elt F)),
    StableHlo.unary main_call1_v1 main_call1_v2 (broadcastInDim S512x1 ![0] bcast_S512_S512x1_0 : (⟨S512, .f32⟩ : BufTy).Contents (Elt F) → (⟨S512x1, .f32⟩ : BufTy).Contents (Elt F)),
    StableHlo.unary main_call1_v2 main_v13 (Host.sqrt : (⟨S512x1, .f32⟩ : BufTy).Contents (Elt F) → (⟨S512x1, .f32⟩ : BufTy).Contents (Elt F)) ]

theorem hostOps4_eq : (hostOps4 : List (HloOp τ sig (Elt F))) = normOps := rfl

/-- The body of @_where_0 over the call's buffers: `main_v61` where `main_v63` holds, the scalar `main_cst_12` elsewhere, into `main_v64`. -/
def whereOps : List (HloOp τ sig (Elt F)) :=
  [ StableHlo.unary main_cst_12 main_call2_v0 (id : (⟨S_, .f32⟩ : BufTy).Contents (Elt F) → (⟨S_, .f32⟩ : BufTy).Contents (Elt F)),
    StableHlo.unary main_call2_v0 main_call2_v1 (broadcastInDim S256 ![] bcast_S_S256 : (⟨S_, .f32⟩ : BufTy).Contents (Elt F) → (⟨S256, .f32⟩ : BufTy).Contents (Elt F)),
    StableHlo.ternary main_v63 main_v61 main_call2_v1 main_v64 (select : (⟨S256, .i1⟩ : BufTy).Contents (Elt F) → (⟨S256, .f32⟩ : BufTy).Contents (Elt F) → (⟨S256, .f32⟩ : BufTy).Contents (Elt F) → (⟨S256, .f32⟩ : BufTy).Contents (Elt F)) ]

theorem hostOps4_2_eq : (hostOps4_2 : List (HloOp τ sig (Elt F))) = whereOps := rfl

/-! ## The small stretches -/

/-- The first input with its two trailing axes (8 by 8) merged into one of 64. -/
theorem reshaped0 (W : Valuation τ sig (Elt F)) :
    StableHlo.after hostOps0 W (main_v0 : DevRef τ sig) = shapeCast S256x2048x64 (W (main_arg0 : DevRef τ sig)) shapeCasts_S256x2048x8x8_S256x2048x64 := by
  unfold hostOps0
  after_results_simp <;> rfl

/-- The second input likewise. -/
theorem reshaped1 (W : Valuation τ sig (Elt F)) :
    StableHlo.after hostOps1 W (main_v2 : DevRef τ sig) = shapeCast S256x2048x64 (W (main_arg1 : DevRef τ sig)) shapeCasts_S256x2048x8x8_S256x2048x64 := by
  unfold hostOps1
  after_results_simp <;> rfl

/-- The two pooled halves one after the other along the batch. -/
theorem joined (W : Valuation τ sig (Elt F)) :
    StableHlo.after hostOps2 W (main_v4 : DevRef τ sig)
      = concatenate S512x2048 0 [⟨S256x2048, W (main_v1 : DevRef τ sig)⟩, ⟨S256x2048, W (main_v3 : DevRef τ sig)⟩] concatenates_S256x2048_S256x2048_S512x2048_d0 := by
  unfold hostOps2
  after_results_simp <;> rfl

/-- The first weight transposed. -/
theorem transposed1 (W : Valuation τ sig (Elt F)) :
    StableHlo.after hostOps2 W (main_v5 : DevRef τ sig) = transpose S2048x2048 [1, 0] (W (main_arg4 : DevRef τ sig)) transposes_S2048x2048_S2048x2048_1_0 := by
  unfold hostOps2
  after_results_simp <;> rfl

/-- The second weight transposed. -/
theorem transposed2 (W : Valuation τ sig (Elt F)) :
    StableHlo.after hostOps2 W (main_v6 : DevRef τ sig) = transpose S2048x2048 [1, 0] (W (main_arg8 : DevRef τ sig)) transposes_S2048x2048_S2048x2048_1_0 := by
  unfold hostOps2
  after_results_simp <;> rfl

/-! ## The batch statistics -/

/-- The stretch after the hidden layer's launch leaves at `main_v10` the reference's batch mean of the hidden layer. -/
theorem mean_stretch (W : Valuation τ sig (Elt F)) :
    StableHlo.after hostOps3 W (main_v10 : DevRef τ sig) = Cert.ReferenceIdeal.HandRead.meanOf (W (main_v7 : DevRef τ sig)) := by
  unfold hostOps3
  after_results_simp <;> rfl

/-- @_var's stretch, from contents with the integer 0 at `main_c`, leaves at `main_v11` the reference's batch variance
    of the hidden layer. -/
theorem var_stretch (W : Valuation τ sig (Elt F)) (hc : W (main_c : DevRef τ sig) = constantI S_ 32 0#32) :
    StableHlo.after hostOps3_1 W (main_v11 : DevRef τ sig) = Cert.ReferenceIdeal.HandRead.varOf (W (main_v7 : DevRef τ sig)) := by
  rw [hostOps3_1_eq]
  unfold varOps
  after_results_simp
  rw [hc]
  rfl

/-- The two stretches one after the other: the mean's writes `main_c` itself. -/
theorem var_stretch' (W : Valuation τ sig (Elt F)) :
    StableHlo.after hostOps3_1 (StableHlo.after hostOps3 W) (main_v11 : DevRef τ sig) = Cert.ReferenceIdeal.HandRead.varOf (W (main_v7 : DevRef τ sig)) := by
  rw [hostOps3_1_eq]
  unfold varOps hostOps3
  after_results_simp <;> rfl

/-- @_var's stretch does not write the mean's buffer. -/
theorem mean_stretch' (W : Valuation τ sig (Elt F)) :
    StableHlo.after hostOps3_1 (StableHlo.after hostOps3 W) (main_v10 : DevRef τ sig) = Cert.ReferenceIdeal.HandRead.meanOf (W (main_v7 : DevRef τ sig)) := by
  rw [hostOps3_1_eq]
  unfold varOps hostOps3
  after_results_simp <;> rfl

/-! ## The loss -/

/-- The four stretches after the last launch leave at `main_v65` the first component of the reference's `lossTail` of
    the projection `main_v12` and the labels `main_arg2`. -/
theorem loss_stretch (W : Valuation τ sig (Elt F)) :
    StableHlo.after hostOps4_3 (StableHlo.after hostOps4_2 (StableHlo.after hostOps4_1 (StableHlo.after hostOps4 W))) (main_v65 : DevRef τ sig)
      = (Cert.ReferenceIdeal.HandRead.lossTail (W (main_v12 : DevRef τ sig)) (W (main_arg2 : DevRef τ sig))).1 := by
  rw [hostOps4_eq, hostOps4_2_eq]
  unfold normOps whereOps hostOps4_1 hostOps4_3
  after_results_simp <;> rfl

/-- And at `main_v67` its second component. -/
theorem count_stretch (W : Valuation τ sig (Elt F)) :
    StableHlo.after hostOps4_3 (StableHlo.after hostOps4_2 (StableHlo.after hostOps4_1 (StableHlo.after hostOps4 W))) (main_v67 : DevRef τ sig)
      = (Cert.ReferenceIdeal.HandRead.lossTail (W (main_v12 : DevRef τ sig)) (W (main_arg2 : DevRef τ sig))).2 := by
  rw [hostOps4_eq, hostOps4_2_eq]
  unfold normOps whereOps hostOps4_1 hostOps4_3
  after_results_simp <;> rfl

end Cert.KernelIdeal.HostRead

end
-- ==== Proof.PoolValueKernelIdeal.lean ====
/-
  The pooling calls read as values at the ideal instance. At a grid point the body turns its [128, 256, 64] block into the
  [128, 256] block of sums along the last axis, each scaled by 2⁻⁶ = 1/64; the blocks tile the [256, 2048] result, every
  point writes its block back, and so the result array is the mean along the last axis of the [256, 2048, 64] input:
  entry (p, q) is (∑ k < 64, x (p, q, k)) / 64.
-/
import proofs.«154134_j25494925869443_2_alg».proof.Proof.PoolCall0KernelIdeal
import proofs.«154134_j25494925869443_2_alg».proof.Proof.PoolCall1KernelIdeal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.PoolValue

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat)

/-- The scale the bodies multiply by is one sixty-fourth. -/
theorem scale_eq : Ideal.ofBits .f32 0x3C800000#32 = ((1 / 64 : ℝ) : EReal) := by
  simp [Ideal.ofBits, Ideal.ieee, -EReal.coe_mul]; norm_num

theorem hz2 : (![0, 0] : Fin 2 → Nat) = fun _ => 0 := funext fun a => by fin_cases a <;> rfl
theorem hz3 : (![0, 0, 0] : Fin 3 → Nat) = fun _ => 0 := funext fun a => by fin_cases a <;> rfl

/-- The mean along the last axis of a [256, 2048, 64] array. -/
def rowMeans (x : S256x2048x64.Idx → EReal) : S256x2048.Idx → EReal :=
  fun i => (∑ k : Fin 64, x (ix3 (show Fin 256 from i 0) (show Fin 2048 from i 1) k)) * ((1 / 64 : ℝ) : EReal)

/-! ## Pooling call 0 -/
namespace Call0

/-- The payload of the body at entry (a, b): the sum of the block's last axis there, over 64. -/
theorem pay_read (x : Vec Ideal S128x256x64 .f32) (a : Fin 128) (b : Fin 256) :
    k0_pay1 (F := Ideal) x (ix2 a b) = (∑ k : Fin 64, x (ix3 a b k)) * ((1 / 64 : ℝ) : EReal) := by
  unfold k0_pay1
  show (multiReduction .add [2] S128x256 (shapeCast S128x256x64 x shapeCasts_S128x256x64_S128x256x64) 0x00000000#32 reduces_S128x256x64_S128x256 (.inl rfl) rfl) (ix2 a b)
      * Ideal.ofBits .f32 0x3C800000#32 = _
  rw [scale_eq, shapeCast_self]
  refine congrArg (· * ((1 / 64 : ℝ) : EReal)) ?_
  refine (Ideal.multiReduction_add_single x 0x00000000#32 reduces_S128x256x64_S128x256 (.inl rfl) rfl (ix2 a b)).trans ?_
  refine Finset.sum_congr rfl fun k _ => congrArg x ?_
  funext d; apply Fin.ext
  match d with
  | ⟨0, _⟩ => rfl
  | ⟨1, _⟩ => rfl
  | ⟨2, _⟩ => rfl

/-- The block indices of the two windows move together, the input's last axis is never cut, and every block of the
    result is some point's: decided over the sixteen grid points. -/
theorem idx_facts : ∀ t : Fin cfg0.N, win0_0.index t (0 : Fin 3) = win0_1.index t (0 : Fin 2)
    ∧ win0_0.index t (1 : Fin 3) = win0_1.index t (1 : Fin 2) ∧ win0_0.index t (2 : Fin 3) = 0
    ∧ win0_1.index t (0 : Fin 2) ≤ 1 ∧ win0_1.index t (1 : Fin 2) ≤ 7 :=
  (by decide +kernel : ∀ t : Fin grid0.N, _)
theorem idx_onto : ∀ (q0 : Fin 2) (q1 : Fin 8), ∃ t : Fin cfg0.N, win0_1.index t = ![q0.val, q1.val] :=
  (by decide +kernel : ∀ (q0 : Fin 2) (q1 : Fin 8), ∃ t : Fin grid0.N, win0_1.index t = ![q0.val, q1.val])

variable (V : (c : Dev nD) → (b : Ref sig .tc) → Buf (Elt Ideal) ((c : Thread nD τ).loc b))

/-- The input array as the call finds it. -/
abbrev arrIn (c : Dev nD) : S256x2048x64.Idx → EReal := V c main_v0

/-- What point `t` writes back is block `t` of the row means of the input array as the call finds it. -/
theorem flushed_eq (c : Dev nD) (t : Fin cfg0.N) :
    (Pool0.dat (F := Ideal) V c).flushed 1 t
      = ((cfg0.win 1).blk t).view.read (Elt Ideal) (rowMeans (arrIn V c)) := by
  show (cfg0.win 1).cut (grid0.coords t) ((Pool0.dat V c).after 1 t) = _
  rw [Pool0.dat_after_out]
  unfold Pool0.pooled
  rw [View.canon_unit_zero hz2]
  simp only [View.ld_unit_zero (S := S128x256x64) hz3]
  obtain ⟨e0, e1, e2, -, -⟩ := idx_facts t
  funext j
  obtain ⟨a, b, rfl⟩ : ∃ (a : Fin 128) (b : Fin 256), j = ix2 a b := ⟨j 0, j 1, eq_ix2 j⟩
  refine (pay_read _ a b).trans ?_
  show (∑ k : Fin 64, (arrIn V c) (((cfg0.win 0).blk t).view.emb (ix3 a b k))) * ((1 / 64 : ℝ) : EReal)
    = rowMeans (arrIn V c) (((cfg0.win 1).blk t).view.emb (ix2 a b))
  unfold rowMeans
  refine congrArg (· * ((1 / 64 : ℝ) : EReal)) (Finset.sum_congr rfl fun k _ => congrArg _ ?_)
  funext d; apply Fin.ext
  match d with
  | ⟨0, _⟩ => show win0_0.index t (0 : Fin 3) * 128 + 1 * a.val = win0_1.index t (0 : Fin 2) * 128 + 1 * a.val; omega
  | ⟨1, _⟩ => show win0_0.index t (1 : Fin 3) * 256 + 1 * b.val = win0_1.index t (1 : Fin 2) * 256 + 1 * b.val; omega
  | ⟨2, _⟩ => show win0_0.index t (2 : Fin 3) * 64 + 1 * k.val = k.val; omega

/-- An index of the result array is in point `t`'s block iff each coordinate is in the block's range on its axis. -/
theorem mem_blk (t : Fin cfg0.N) (i : S256x2048.Idx) :
    i ∈ ((cfg0.win 1).blk t).view.set ↔ ∀ a : Fin 2, win0_1.index t a * S128x256.size a ≤ (i a).val ∧ (i a).val < win0_1.index t a * S128x256.size a + S128x256.size a := by
  show i ∈ ((View.whole main_v1).slice (win0_1.rect t)).set ↔ _
  rw [View.set_slice_whole, Rect.mem_set_unit]
  exact Iff.rfl

/-- Every index of the result array lies in the block of the point (row / 128, column / 256), which writes it back. -/
theorem covered (i : S256x2048.Idx) : ∃ t : Fin cfg0.N, (cfg0.win 1).flush t = true ∧ i ∈ ((cfg0.win 1).blk t).view.set := by
  have hi0 : (i 0).val < 256 := (i 0).isLt
  have hi1 : (i 1).val < 2048 := (i 1).isLt
  obtain ⟨t, ht⟩ := idx_onto ⟨(i 0).val / 128, by omega⟩ ⟨(i 1).val / 256, by omega⟩
  have q0 : win0_1.index t (0 : Fin 2) = (i 0).val / 128 := congrFun ht 0
  have q1 : win0_1.index t (1 : Fin 2) = (i 1).val / 256 := congrFun ht 1
  refine ⟨t, flush0_1 t, ?_⟩
  rw [mem_blk]
  intro a
  match a with
  | ⟨0, _⟩ => show win0_1.index t (0 : Fin 2) * 128 ≤ (i 0).val ∧ (i 0).val < win0_1.index t (0 : Fin 2) * 128 + 128; omega
  | ⟨1, _⟩ => show win0_1.index t (1 : Fin 2) * 256 ≤ (i 1).val ∧ (i 1).val < win0_1.index t (1 : Fin 2) * 256 + 256; omega

/-- The result array after the call: the row means of the input array. -/
theorem result_eq (c : Dev nD) :
    (Pool0.dat (F := Ideal) V c).arrAt 1 cfg0.N = (rowMeans (arrIn V c)) :=
  (Pool0.dat V c).arrAt_eq_of_cover 1 _ (fun t _ => flushed_eq V c t) covered

end Call0

/-! ## Pooling call 1 -/
namespace Call1

/-- The payload of the body at entry (a, b): the sum of the block's last axis there, over 64. -/
theorem pay_read (x : Vec Ideal S128x256x64 .f32) (a : Fin 128) (b : Fin 256) :
    k1_pay1 (F := Ideal) x (ix2 a b) = (∑ k : Fin 64, x (ix3 a b k)) * ((1 / 64 : ℝ) : EReal) := by
  unfold k1_pay1
  show (multiReduction .add [2] S128x256 (shapeCast S128x256x64 x shapeCasts_S128x256x64_S128x256x64) 0x00000000#32 reduces_S128x256x64_S128x256 (.inl rfl) rfl) (ix2 a b)
      * Ideal.ofBits .f32 0x3C800000#32 = _
  rw [scale_eq, shapeCast_self]
  refine congrArg (· * ((1 / 64 : ℝ) : EReal)) ?_
  refine (Ideal.multiReduction_add_single x 0x00000000#32 reduces_S128x256x64_S128x256 (.inl rfl) rfl (ix2 a b)).trans ?_
  refine Finset.sum_congr rfl fun k _ => congrArg x ?_
  funext d; apply Fin.ext
  match d with
  | ⟨0, _⟩ => rfl
  | ⟨1, _⟩ => rfl
  | ⟨2, _⟩ => rfl

/-- The block indices of the two windows move together, the input's last axis is never cut, and every block of the
    result is some point's: decided over the sixteen grid points. -/
theorem idx_facts : ∀ t : Fin cfg1.N, win1_0.index t (0 : Fin 3) = win1_1.index t (0 : Fin 2)
    ∧ win1_0.index t (1 : Fin 3) = win1_1.index t (1 : Fin 2) ∧ win1_0.index t (2 : Fin 3) = 0
    ∧ win1_1.index t (0 : Fin 2) ≤ 1 ∧ win1_1.index t (1 : Fin 2) ≤ 7 :=
  (by decide +kernel : ∀ t : Fin grid1.N, _)
theorem idx_onto : ∀ (q0 : Fin 2) (q1 : Fin 8), ∃ t : Fin cfg1.N, win1_1.index t = ![q0.val, q1.val] :=
  (by decide +kernel : ∀ (q0 : Fin 2) (q1 : Fin 8), ∃ t : Fin grid1.N, win1_1.index t = ![q0.val, q1.val])

variable (V : (c : Dev nD) → (b : Ref sig .tc) → Buf (Elt Ideal) ((c : Thread nD τ).loc b))

/-- The input array as the call finds it. -/
abbrev arrIn (c : Dev nD) : S256x2048x64.Idx → EReal := V c main_v2

/-- What point `t` writes back is block `t` of the row means of the input array as the call finds it. -/
theorem flushed_eq (c : Dev nD) (t : Fin cfg1.N) :
    (Pool1.dat (F := Ideal) V c).flushed 1 t
      = ((cfg1.win 1).blk t).view.read (Elt Ideal) (rowMeans (arrIn V c)) := by
  show (cfg1.win 1).cut (grid1.coords t) ((Pool1.dat V c).after 1 t) = _
  rw [Pool1.dat_after_out]
  unfold Pool1.pooled
  rw [View.canon_unit_zero hz2]
  simp only [View.ld_unit_zero (S := S128x256x64) hz3]
  obtain ⟨e0, e1, e2, -, -⟩ := idx_facts t
  funext j
  obtain ⟨a, b, rfl⟩ : ∃ (a : Fin 128) (b : Fin 256), j = ix2 a b := ⟨j 0, j 1, eq_ix2 j⟩
  refine (pay_read _ a b).trans ?_
  show (∑ k : Fin 64, (arrIn V c) (((cfg1.win 0).blk t).view.emb (ix3 a b k))) * ((1 / 64 : ℝ) : EReal)
    = rowMeans (arrIn V c) (((cfg1.win 1).blk t).view.emb (ix2 a b))
  unfold rowMeans
  refine congrArg (· * ((1 / 64 : ℝ) : EReal)) (Finset.sum_congr rfl fun k _ => congrArg _ ?_)
  funext d; apply Fin.ext
  match d with
  | ⟨0, _⟩ => show win1_0.index t (0 : Fin 3) * 128 + 1 * a.val = win1_1.index t (0 : Fin 2) * 128 + 1 * a.val; omega
  | ⟨1, _⟩ => show win1_0.index t (1 : Fin 3) * 256 + 1 * b.val = win1_1.index t (1 : Fin 2) * 256 + 1 * b.val; omega
  | ⟨2, _⟩ => show win1_0.index t (2 : Fin 3) * 64 + 1 * k.val = k.val; omega

/-- An index of the result array is in point `t`'s block iff each coordinate is in the block's range on its axis. -/
theorem mem_blk (t : Fin cfg1.N) (i : S256x2048.Idx) :
    i ∈ ((cfg1.win 1).blk t).view.set ↔ ∀ a : Fin 2, win1_1.index t a * S128x256.size a ≤ (i a).val ∧ (i a).val < win1_1.index t a * S128x256.size a + S128x256.size a := by
  show i ∈ ((View.whole main_v3).slice (win1_1.rect t)).set ↔ _
  rw [View.set_slice_whole, Rect.mem_set_unit]
  exact Iff.rfl

/-- Every index of the result array lies in the block of the point (row / 128, column / 256), which writes it back. -/
theorem covered (i : S256x2048.Idx) : ∃ t : Fin cfg1.N, (cfg1.win 1).flush t = true ∧ i ∈ ((cfg1.win 1).blk t).view.set := by
  have hi0 : (i 0).val < 256 := (i 0).isLt
  have hi1 : (i 1).val < 2048 := (i 1).isLt
  obtain ⟨t, ht⟩ := idx_onto ⟨(i 0).val / 128, by omega⟩ ⟨(i 1).val / 256, by omega⟩
  have q0 : win1_1.index t (0 : Fin 2) = (i 0).val / 128 := congrFun ht 0
  have q1 : win1_1.index t (1 : Fin 2) = (i 1).val / 256 := congrFun ht 1
  refine ⟨t, flush1_1 t, ?_⟩
  rw [mem_blk]
  intro a
  match a with
  | ⟨0, _⟩ => show win1_1.index t (0 : Fin 2) * 128 ≤ (i 0).val ∧ (i 0).val < win1_1.index t (0 : Fin 2) * 128 + 128; omega
  | ⟨1, _⟩ => show win1_1.index t (1 : Fin 2) * 256 ≤ (i 1).val ∧ (i 1).val < win1_1.index t (1 : Fin 2) * 256 + 256; omega

/-- The result array after the call: the row means of the input array. -/
theorem result_eq (c : Dev nD) :
    (Pool1.dat (F := Ideal) V c).arrAt 1 cfg1.N = (rowMeans (arrIn V c)) :=
  (Pool1.dat V c).arrAt_eq_of_cover 1 _ (fun t _ => flushed_eq V c t) covered

end Call1

end Cert.KernelIdeal.PoolValue

end
-- ==== Proof.PoolBridge.lean ====
/-
  The pooled features on the two sides. The kernel reshapes each [256, 2048, 8, 8] input to [256, 2048, 64], takes the mean
  of the 64 last entries and stacks the two results; the reference stacks the inputs, sums each (8, 8) plane and divides by
  64. Entry (i, q) is on both sides (∑ over the 64 entries of plane (i, q)) / 64: the reshape lists a plane's entries in
  row-major order, a sum does not depend on the order, and dividing by 64 is multiplying by 1/64.
-/
import proofs.«154134_j25494925869443_2_alg».proof.Proof.ReferenceRead
import proofs.«154134_j25494925869443_2_alg».proof.Proof.PoolValueKernelIdeal
import Idealize.ShloMosaic.PureOps.Ideal.Laws
import Idealize.ShloMosaic.Lib.ValueIdx
import Idealize.ShloMosaic.Lib.Pipeline.Value

set_option maxRecDepth 16384

noncomputable section

namespace Cert.KernelIdeal.PoolBridge

open Idealize.ShloMosaic Idealize.ShloMosaic.ValueIdx
open Cert.KernelIdeal.PoolValue (rowMeans)

/-- The reference's divisor is sixty-four. -/
theorem sixtyfour : Ideal.ofBits .f32 0x42800000#32 = ((64 : ℝ) : EReal) := by
  simp [Ideal.ofBits, Ideal.ieee, -EReal.coe_mul]; norm_num

/-- The host's sum over the last two axes of a [n, 2048, 8, 8] array at (i, q), from zero: the sum over the plane's 64
    entries listed in row-major order. -/
theorem planeSum {n : ℕ} (h' : (⟨4, ![n, 2048, 8, 8]⟩ : Shape).ReducesTo [2, 3] ⟨2, ![n, 2048]⟩)
    (x : (⟨4, ![n, 2048, 8, 8]⟩ : Shape).Idx → EReal) (i : Fin n) (q : Fin 2048) :
    Ideal.hostReduceAdd h' x 0 (ix2 i q)
      = ∑ k : Fin 64, x (ix4 i q (⟨k.val / 8, by omega⟩ : Fin 8) (⟨k.val % 8, by omega⟩ : Fin 8)) := by
  unfold Ideal.hostReduceAdd
  rw [zero_add]
  symm
  refine Finset.sum_nbij' (fun k : Fin 64 => ix4 i q (⟨k.val / 8, by omega⟩ : Fin 8) (⟨k.val % 8, by omega⟩ : Fin 8))
    (fun idx => (⟨8 * (idx 2).val + (idx 3).val, by have := (idx 2).isLt; have := (idx 3).isLt; simp at *; omega⟩ : Fin 64)) ?_ ?_ ?_ ?_ ?_
  · intro k _
    refine Finset.mem_filter.mpr ⟨Finset.mem_univ _, ?_⟩
    funext b; apply Fin.ext
    match b with
    | ⟨0, _⟩ => rfl
    | ⟨1, _⟩ => rfl
  · intro idx _; exact Finset.mem_univ _
  · intro k _; apply Fin.ext; show 8 * (k.val / 8) + k.val % 8 = k.val; omega
  · intro idx hidx
    have hd := (Finset.mem_filter.mp hidx).2
    have h0 : (idx 0).val = i.val := congrArg (fun j : (⟨2, ![n, 2048]⟩ : Shape).Idx => (j 0).val) hd
    have h1 : (idx 1).val = q.val := congrArg (fun j : (⟨2, ![n, 2048]⟩ : Shape).Idx => (j 1).val) hd
    have h2 := (idx 2).isLt; have h3 := (idx 3).isLt
    funext d; apply Fin.ext
    match d with
    | ⟨0, _⟩ => exact h0.symm
    | ⟨1, _⟩ => exact h1.symm
    | ⟨2, _⟩ => show (8 * (idx 2).val + (idx 3).val) / 8 = (idx 2).val; simp at h2 h3; omega
    | ⟨3, _⟩ => show (8 * (idx 2).val + (idx 3).val) % 8 = (idx 3).val; simp at h2 h3; omega
  · intro k _; rfl

/-- The mean of the 64 last entries of the reshaped array at (i, q): the sum over plane (i, q) of the array itself, over 64. -/
theorem means_reshaped {n : ℕ} (x : (⟨4, ![n, 2048, 8, 8]⟩ : Shape).Idx → EReal)
    (h : (⟨4, ![n, 2048, 8, 8]⟩ : Shape).ShapeCasts ⟨3, ![n, 2048, 64]⟩) (i : Fin n) (q : Fin 2048) :
    (∑ k : Fin 64, shapeCast ⟨3, ![n, 2048, 64]⟩ x h (ix3 i q k))
      = ∑ k : Fin 64, x (ix4 i q (⟨k.val / 8, by omega⟩ : Fin 8) (⟨k.val % 8, by omega⟩ : Fin 8)) :=
  Finset.sum_congr rfl fun k _ => shapeCast_apply x h _ _ (by
    rw [Shape.rowMajor_val_four, Shape.rowMajor_val_three]
    show ((i.val * 2048 + q.val) * 8 + k.val / 8) * 8 + k.val % 8 = (i.val * 2048 + q.val) * 64 + k.val
    omega)

/-- THE POOLED FEATURES AGREE: the stack of the two reshaped means is the reference's pooled array. -/
theorem pooled_math (x0 x1 : (⟨4, ![256, 2048, 8, 8]⟩ : Shape).Idx → EReal)
    (hs : (⟨4, ![256, 2048, 8, 8]⟩ : Shape).ShapeCasts ⟨3, ![256, 2048, 64]⟩)
    (hc : Shape.Concatenates [(⟨2, ![256, 2048]⟩ : Shape), ⟨2, ![256, 2048]⟩] ⟨2, ![512, 2048]⟩ 0) :
    concatenate (⟨2, ![512, 2048]⟩ : Shape) 0
        [⟨⟨2, ![256, 2048]⟩, rowMeans (shapeCast ⟨3, ![256, 2048, 64]⟩ x0 hs)⟩,
         ⟨⟨2, ![256, 2048]⟩, rowMeans (shapeCast ⟨3, ![256, 2048, 64]⟩ x1 hs)⟩] hc
      = Cert.ReferenceIdeal.HandRead.pooledOf (F := Ideal) x0 x1 := by
  funext j
  obtain ⟨i, q, rfl⟩ : ∃ (i : Fin 512) (q : Fin 2048), j = ix2 i q := ⟨j 0, j 1, eq_ix2 j⟩
  -- the reference at (i, q): the plane sum of the stacked inputs, over 64
  have hR : Cert.ReferenceIdeal.HandRead.pooledOf (F := Ideal) x0 x1 (ix2 i q)
      = (∑ k : Fin 64, concatenate (⟨4, ![512, 2048, 8, 8]⟩ : Shape) 0 [⟨⟨4, ![256, 2048, 8, 8]⟩, x0⟩, ⟨⟨4, ![256, 2048, 8, 8]⟩, x1⟩]
            Cert.ReferenceIdeal.Facts₀.concatenates_S256x2048x8x8_S256x2048x8x8_S512x2048x8x8_d0
            (ix4 i q (⟨k.val / 8, by omega⟩ : Fin 8) (⟨k.val % 8, by omega⟩ : Fin 8))) * ((1 / 64 : ℝ) : EReal) := by
    unfold Cert.ReferenceIdeal.HandRead.pooledOf
    show Ideal.div (Ideal.hostReduceAdd Cert.ReferenceIdeal.Facts₀.reducesTo_S512x2048x8x8_S512x2048_d2_3 _ (Ideal.ofBits .f32 0x00000000#32) (ix2 i q))
        (Ideal.ofBits .f32 0x42800000#32) = _
    rw [sixtyfour, Ideal.ofBits_zero_f32, Ideal.div_coe (by norm_num : (64 : ℝ) ≠ 0)]
    exact congrArg (· * ((1 / 64 : ℝ) : EReal)) (planeSum _ _ i q)
  rw [hR]
  by_cases hi : i.val < 256
  · -- the first half: both sides read the first input
    rw [concatenate_pair_apply_left (t := ⟨2, ![512, 2048]⟩) (s₁ := ⟨2, ![256, 2048]⟩) (s₂ := ⟨2, ![256, 2048]⟩) (0 : Fin 2) _ _ hc (ix2 i q) rfl (ix2 (⟨i.val, hi⟩ : Fin 256) q)
      (fun b => by match b with | ⟨0, _⟩ => rfl | ⟨1, _⟩ => rfl)]
    unfold rowMeans
    refine congrArg (· * ((1 / 64 : ℝ) : EReal)) ?_
    refine (means_reshaped x0 hs (⟨i.val, hi⟩ : Fin 256) q).trans (Finset.sum_congr rfl fun k _ => ?_)
    exact (concatenate_pair_apply_left (t := ⟨4, ![512, 2048, 8, 8]⟩) (s₁ := ⟨4, ![256, 2048, 8, 8]⟩) (s₂ := ⟨4, ![256, 2048, 8, 8]⟩) (0 : Fin 4) x0 x1 _ _ rfl
      (ix4 (⟨i.val, hi⟩ : Fin 256) q (⟨k.val / 8, by omega⟩ : Fin 8) (⟨k.val % 8, by omega⟩ : Fin 8))
      (fun b => by match b with | ⟨0, _⟩ => rfl | ⟨1, _⟩ => rfl | ⟨2, _⟩ => rfl | ⟨3, _⟩ => rfl)).symm
  · -- the second half: both sides read the second input, 256 rows down
    have hi' : i.val - 256 < 256 := by have := i.isLt; omega
    rw [concatenate_pair_apply_right (t := ⟨2, ![512, 2048]⟩) (s₁ := ⟨2, ![256, 2048]⟩) (s₂ := ⟨2, ![256, 2048]⟩) (0 : Fin 2) _ _ hc (ix2 i q) rfl rfl (ix2 (⟨i.val - 256, hi'⟩ : Fin 256) q)
      (fun b hb => by match b with | ⟨0, _⟩ => exact absurd rfl hb | ⟨1, _⟩ => rfl)
      (by show i.val - 256 + 256 = i.val; omega)]
    unfold rowMeans
    refine congrArg (· * ((1 / 64 : ℝ) : EReal)) ?_
    refine (means_reshaped x1 hs (⟨i.val - 256, hi'⟩ : Fin 256) q).trans (Finset.sum_congr rfl fun k _ => ?_)
    exact (concatenate_pair_apply_right (t := ⟨4, ![512, 2048, 8, 8]⟩) (s₁ := ⟨4, ![256, 2048, 8, 8]⟩) (s₂ := ⟨4, ![256, 2048, 8, 8]⟩) (0 : Fin 4) x0 x1 _ _ rfl rfl
      (ix4 (⟨i.val - 256, hi'⟩ : Fin 256) q (⟨k.val / 8, by omega⟩ : Fin 8) (⟨k.val % 8, by omega⟩ : Fin 8))
      (fun b hb => by match b with | ⟨0, _⟩ => exact absurd rfl hb | ⟨1, _⟩ => rfl | ⟨2, _⟩ => rfl | ⟨3, _⟩ => rfl)
      (by show i.val - 256 + 256 = i.val; omega)).symm

end Cert.KernelIdeal.PoolBridge

end
-- ==== Proof.LibMatProd.lean ====
/- Matrix products of the ideal float instance read at an entry, for any extents: a rows-by-columns product
   (contracting the left operand's columns with the right operand's rows) accumulated into the zero matrix, and
   the host's product of the same pattern, are both, at (p, q), the sum over t of left (p, t) · right (t, q). -/
import Idealize.ShloMosaic.PureOps.Ideal
import Idealize.ShloMosaic.PureOps.Ideal.Laws
import Idealize.ShloMosaic.Lib.ValueIdx

noncomputable section

namespace Cert.Lib.MatProd

open Idealize.ShloMosaic Idealize.ShloMosaic.ValueIdx
open scoped BigOperators

variable {M K N : ℕ} {φ₁ φ₂ : FTy}

/-- The left operand's index at result entry j and contraction coordinate t: row j₀, column t. -/
theorem plain_lhs (j : (⟨2, ![M, N]⟩ : Shape).Idx) (t : Fin K) :
    (DotDims.plain M K N).lhsIdx j ((contrEquiv1 (DotDims.plain M K N) K rfl rfl).symm t) = ix2 (j 0) t := by
  funext a; apply Fin.ext
  match a with
  | ⟨0, _⟩ => rfl
  | ⟨1, _⟩ =>
    exact ((DotDims.plain M K N).lhsIdx_val_of_single rfl j _).trans
      (contrEquiv1_symm_val (DotDims.plain M K N) K rfl rfl t)

/-- The right operand's index at result entry j and contraction coordinate t: row t, column j₁. -/
theorem plain_rhs (j : (⟨2, ![M, N]⟩ : Shape).Idx) (t : Fin K) :
    (DotDims.plain M K N).rhsIdx j ((contrEquiv1 (DotDims.plain M K N) K rfl rfl).symm t) = ix2 t (j 1) := by
  funext a; apply Fin.ext
  match a with
  | ⟨0, _⟩ =>
    exact ((DotDims.plain M K N).rhsIdx_val_of_single rfl j _).trans
      (contrEquiv1_symm_val (DotDims.plain M K N) K rfl rfl t)
  | ⟨1, _⟩ => rfl

/-- A product accumulated into the zero matrix, read at (p, q). -/
theorem matmul_zero_read (prec : Option ContractPrecision) (l : FVec Ideal ⟨2, ![M, K]⟩ φ₁) (r : FVec Ideal ⟨2, ![K, N]⟩ φ₂)
    (p : Fin M) (q : Fin N) :
    FloatOps.matmul (DotDims.plain M K N) prec l r (constant (F := Ideal) ⟨2, ![M, N]⟩ .f32 0x00000000#32) (ix2 p q)
      = ∑ t : Fin K, l (ix2 p t) * r (ix2 t q) := by
  refine (Ideal.matmul_constant_zero_apply (DotDims.plain M K N) prec l r (ix2 p q)).trans ?_
  rw [← Equiv.sum_comp (contrEquiv1 (DotDims.plain M K N) K rfl rfl).symm]
  exact Finset.sum_congr rfl fun t _ => by rw [plain_lhs, plain_rhs]; rfl

/-- The host's product, read at (p, q). -/
theorem dotGeneral_read (prec : Option ContractPrecision) (sched : HostSchedule) (l : FVec Ideal ⟨2, ![M, K]⟩ φ₁)
    (r : FVec Ideal ⟨2, ![K, N]⟩ φ₂) (p : Fin M) (q : Fin N) :
    FloatOps.dotGeneral (DotDims.plain M K N) prec sched l r (ix2 p q) = ∑ t : Fin K, l (ix2 p t) * r (ix2 t q) := by
  refine (Ideal.dotGeneral_apply (DotDims.plain M K N) prec sched l r (ix2 p q)).trans ?_
  rw [← Equiv.sum_comp (contrEquiv1 (DotDims.plain M K N) K rfl rfl).symm]
  exact Finset.sum_congr rfl fun t _ => by rw [plain_lhs, plain_rhs]; rfl

end Cert.Lib.MatProd

end
-- ==== Proof.LibMatRead.lean ====
/- Vector operations of the ideal float instance read at an entry: reductions along the last axis of a
   matrix or the middle axis of a stack, a column broadcast over rows, slices, casts and concatenations
   of a stack of matrices, and the identity mask. Stated for any extents. -/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Lib.MatRead

open Idealize.ShloMosaic Idealize.ShloMosaic.ValueIdx
open scoped BigOperators

variable {φ : FTy}

/-! ### The index a reduction inserts -/

/-- Row i of a matrix with column k put back: (i, k). -/
theorem lift_row {a b : ℕ} (h : (⟨2, ![a, b]⟩ : Shape).Reduces [1] ⟨1, ![a]⟩) (i : Fin a) (k : Fin b) :
    h.lift (ix1 i) k = ix2 i k := by
  funext c; apply Fin.ext
  match c with
  | ⟨0, _⟩ => rfl
  | ⟨1, _⟩ => rfl

/-- Entry (g, j) of a stack's column sums with the row s put back: (g, s, j). -/
theorem lift_mid {m a b : ℕ} (h : (⟨3, ![m, a, b]⟩ : Shape).Reduces [1] ⟨2, ![m, b]⟩) (g : Fin m) (j : Fin b) (s : Fin a) :
    h.lift (ix2 g j) s = ix3 g s j := by
  funext c; apply Fin.ext
  match c with
  | ⟨0, _⟩ => rfl
  | ⟨1, _⟩ => rfl
  | ⟨2, _⟩ => rfl

/-! ### Reductions -/

/-- The sum along a matrix's rows. -/
theorem rowSum_read {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ t : Fin b, X (ix2 i t) := by
  rw [Ideal.multiReduction_add_single]
  exact Finset.sum_congr rfl fun t _ => congrArg X (lift_row h i t)

/-- The maximum along a matrix's rows, folded from the accumulator's word. -/
theorem rowMax_read {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun t => X (ix2 i t)) := by
  rw [Ideal.multiReduction_maximumf_single]
  congr 1
  funext t
  exact congrArg X (lift_row h i t)

/-- The sums down the columns of each matrix of a stack. -/
theorem colSum_read {m a b : ℕ} (X : FVec Ideal ⟨3, ![m, a, b]⟩ φ) (acc : BitVec φ.bits)
    (h : (⟨3, ![m, a, b]⟩ : Shape).Reduces [1] ⟨2, ![m, b]⟩) (hφ : FKind.Formats φ) (hacc : acc = FKind.add.neutral φ hφ)
    (g : Fin m) (j : Fin b) :
    multiReduction .add [1] ⟨2, ![m, b]⟩ X acc h hφ hacc (ix2 g j) = ∑ s : Fin a, X (ix3 g s j) := by
  rw [Ideal.multiReduction_add_single]
  exact Finset.sum_congr rfl fun s _ => congrArg X (lift_mid h g j s)

/-! ### A vector of row values spread over the columns -/

/-- A vector cast to a one-column matrix and broadcast over b columns reads, at (i, j), the vector at i. -/
theorem colBcast_read {α : Type} {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩) (i : Fin a) (j : Fin b) :
    broadcastTo ⟨2, ![a, b]⟩ (shapeCast ⟨2, ![a, 1]⟩ v hc) hb (ix2 i j) = v (ix1 i) := by
  rw [broadcastTo_apply _ hb (ix2 i j) (ix2 i (0 : Fin 1)) (fun ax => by
    match ax with
    | ⟨0, _⟩ =>
      show i.val = if a = 1 then 0 else i.val
      split
      · have := i.isLt; omega
      · rfl
    | ⟨1, _⟩ => rfl)]
  exact shapeCast_apply v hc _ _ (by
    rw [Shape.rowMajor_val_one, Shape.rowMajor_val_two]
    show i.val = i.val * 1 + 0
    omega)

/-! ### Casts and broadcasts of a stack of matrices -/

section Layout
variable {α : Type}

/-- A vector of m values cast to m × 1 and then to m × 1 × 1 reads, at (g, ·, ·), the vector at g. -/
theorem cast_m_m11_read {m : ℕ} (v : (⟨1, ![m]⟩ : Shape).Idx → α)
    (h1 : (⟨1, ![m]⟩ : Shape).ShapeCasts ⟨2, ![m, 1]⟩) (h2 : (⟨2, ![m, 1]⟩ : Shape).ShapeCasts ⟨3, ![m, 1, 1]⟩)
    (g : Fin m) (u u' : Fin 1) :
    shapeCast ⟨3, ![m, 1, 1]⟩ (shapeCast ⟨2, ![m, 1]⟩ v h1) h2 (ix3 g u u') = v (ix1 g) := by
  have hu : u.val = 0 := by omega
  have hu' : u'.val = 0 := by omega
  rw [shapeCast_apply _ h2 (ix3 g u u') (ix2 g (0 : Fin 1)) (by
    rw [Shape.rowMajor_val_two, Shape.rowMajor_val_three]
    show g.val * 1 + 0 = (g.val * 1 + u.val) * 1 + u'.val
    omega)]
  exact shapeCast_apply v h1 _ _ (by
    rw [Shape.rowMajor_val_one, Shape.rowMajor_val_two]
    show g.val = g.val * 1 + 0
    omega)

/-- An m × 1 × 1 stack of scalars broadcast to m × a × b reads, at (g, i, j), the scalar of g. -/
theorem bcast_m11_read {m a b : ℕ} (x : (⟨3, ![m, 1, 1]⟩ : Shape).Idx → α)
    (h : (⟨3, ![m, 1, 1]⟩ : Shape).Broadcasts ⟨3, ![m, a, b]⟩) (g : Fin m) (i : Fin a) (j : Fin b) :
    broadcastTo ⟨3, ![m, a, b]⟩ x h (ix3 g i j) = x (ix3 g (0 : Fin 1) (0 : Fin 1)) := by
  refine broadcastTo_apply x h (ix3 g i j) (ix3 g (0 : Fin 1) (0 : Fin 1)) fun ax => ?_
  match ax with
  | ⟨0, _⟩ =>
    show g.val = if m = 1 then 0 else g.val
    split
    · have := g.isLt; omega
    · rfl
  | ⟨1, _⟩ => rfl
  | ⟨2, _⟩ => rfl

/-- One matrix broadcast to a stack of m reads, at (g, i, j), the matrix at (i, j). -/
theorem bcast_1ab_read {m a b : ℕ} (x : (⟨3, ![1, a, b]⟩ : Shape).Idx → α)
    (h : (⟨3, ![1, a, b]⟩ : Shape).Broadcasts ⟨3, ![m, a, b]⟩) (g : Fin m) (i : Fin a) (j : Fin b) :
    broadcastTo ⟨3, ![m, a, b]⟩ x h (ix3 g i j) = x (ix3 (0 : Fin 1) i j) := by
  refine broadcastTo_apply x h (ix3 g i j) (ix3 (0 : Fin 1) i j) fun ax => ?_
  match ax with
  | ⟨0, _⟩ => rfl
  | ⟨1, _⟩ =>
    show i.val = if a = 1 then 0 else i.val
    split
    · have := i.isLt; omega
    · rfl
  | ⟨2, _⟩ =>
    show j.val = if b = 1 then 0 else j.val
    split
    · have := j.isLt; omega
    · rfl

/-- Matrix g of a stack, sliced out as a stack of one and cast to a matrix, reads the stack at (g, i, j). -/
theorem sliceMat_read {m a b : ℕ} (o : ℕ) (x : (⟨3, ![m, a, b]⟩ : Shape).Idx → α)
    (hs : (⟨3, ![m, a, b]⟩ : Shape).Slices ![o, 0, 0] ⟨3, ![1, a, b]⟩)
    (hc : (⟨3, ![1, a, b]⟩ : Shape).ShapeCasts ⟨2, ![a, b]⟩) (g : Fin m) (hg : g.val = o) (i : Fin a) (j : Fin b) :
    shapeCast ⟨2, ![a, b]⟩ (extractStridedSlice ⟨3, ![1, a, b]⟩ ![o, 0, 0] x hs) hc (ix2 i j) = x (ix3 g i j) := by
  rw [shapeCast_1ab_ab_apply]
  refine extractStridedSlice_apply _ x hs _ (ix3 g i j) fun ax => ?_
  match ax with
  | ⟨0, _⟩ => show g.val = o + 0; omega
  | ⟨1, _⟩ => show i.val = 0 + i.val; omega
  | ⟨2, _⟩ => show j.val = 0 + j.val; omega

/-- Columns o … o + w' − 1 of a matrix, sliced out, read the matrix at (i, o + d). -/
theorem sliceCols_read {n w w' : ℕ} (o : ℕ) (x : (⟨2, ![n, w]⟩ : Shape).Idx → α)
    (h : (⟨2, ![n, w]⟩ : Shape).Slices ![0, o] ⟨2, ![n, w']⟩) (i : Fin n) (d : Fin w') (c : Fin w) (hc : c.val = o + d.val) :
    extractStridedSlice ⟨2, ![n, w']⟩ ![0, o] x h (ix2 i d) = x (ix2 i c) := by
  refine extractStridedSlice_apply _ x h _ (ix2 i c) fun ax => ?_
  match ax with
  | ⟨0, _⟩ => show i.val = 0 + i.val; omega
  | ⟨1, _⟩ => exact hc

/-- Two matrices set side by side: a column of the first. -/
theorem concatCols_left {n w1 w2 w : ℕ} (x1 : (⟨2, ![n, w1]⟩ : Shape).Idx → α) (x2 : (⟨2, ![n, w2]⟩ : Shape).Idx → α)
    (h : Shape.Concatenates [⟨2, ![n, w1]⟩, ⟨2, ![n, w2]⟩] ⟨2, ![n, w]⟩ 1) (i : Fin n) (d : Fin w1) (c : Fin w) (hc : c.val = d.val) :
    concatenate ⟨2, ![n, w]⟩ 1 [⟨⟨2, ![n, w1]⟩, x1⟩, ⟨⟨2, ![n, w2]⟩, x2⟩] h (ix2 i c) = x1 (ix2 i d) := by
  refine concatenate_pair_apply_left 1 x1 x2 h (ix2 i c) rfl (ix2 i d) fun ax => ?_
  match ax with
  | ⟨0, _⟩ => rfl
  | ⟨1, _⟩ => exact hc.symm

/-- Two matrices set side by side: a column of the second. -/
theorem concatCols_right {n w1 w2 w : ℕ} (x1 : (⟨2, ![n, w1]⟩ : Shape).Idx → α) (x2 : (⟨2, ![n, w2]⟩ : Shape).Idx → α)
    (h : Shape.Concatenates [⟨2, ![n, w1]⟩, ⟨2, ![n, w2]⟩] ⟨2, ![n, w]⟩ 1) (i : Fin n) (d : Fin w2) (c : Fin w) (hc : c.val = d.val + w1) :
    concatenate ⟨2, ![n, w]⟩ 1 [⟨⟨2, ![n, w1]⟩, x1⟩, ⟨⟨2, ![n, w2]⟩, x2⟩] h (ix2 i c) = x2 (ix2 i d) := by
  refine concatenate_pair_apply_right 1 x1 x2 h (ix2 i c) rfl rfl (ix2 i d) (fun ax hne => ?_) hc.symm
  match ax with
  | ⟨0, _⟩ => rfl
  | ⟨1, _⟩ => exact absurd rfl hne

/-- Two matrices stacked: the first. -/
theorem stack2_fst {a b : ℕ} (x1 x2 : (⟨3, ![1, a, b]⟩ : Shape).Idx → α)
    (h : Shape.Concatenates [⟨3, ![1, a, b]⟩, ⟨3, ![1, a, b]⟩] ⟨3, ![2, a, b]⟩ 0) (i : Fin a) (j : Fin b) :
    concatenate ⟨3, ![2, a, b]⟩ 0 [⟨⟨3, ![1, a, b]⟩, x1⟩, ⟨⟨3, ![1, a, b]⟩, x2⟩] h (ix3 (0 : Fin 2) i j) = x1 (ix3 (0 : Fin 1) i j) := by
  refine concatenate_pair_apply_left 0 x1 x2 h (ix3 (0 : Fin 2) i j) rfl (ix3 (0 : Fin 1) i j) fun ax => ?_
  match ax with
  | ⟨0, _⟩ => rfl
  | ⟨1, _⟩ => rfl
  | ⟨2, _⟩ => rfl

/-- Two matrices stacked: the second. -/
theorem stack2_snd {a b : ℕ} (x1 x2 : (⟨3, ![1, a, b]⟩ : Shape).Idx → α)
    (h : Shape.Concatenates [⟨3, ![1, a, b]⟩, ⟨3, ![1, a, b]⟩] ⟨3, ![2, a, b]⟩ 0) (i : Fin a) (j : Fin b) :
    concatenate ⟨3, ![2, a, b]⟩ 0 [⟨⟨3, ![1, a, b]⟩, x1⟩, ⟨⟨3, ![1, a, b]⟩, x2⟩] h (ix3 (1 : Fin 2) i j) = x2 (ix3 (0 : Fin 1) i j) := by
  refine concatenate_pair_apply_right 0 x1 x2 h (ix3 (1 : Fin 2) i j) rfl rfl (ix3 (0 : Fin 1) i j) (fun ax hne => ?_) rfl
  match ax with
  | ⟨0, _⟩ => exact absurd rfl hne
  | ⟨1, _⟩ => rfl
  | ⟨2, _⟩ => rfl

end Layout

/-! ### The identity mask -/

/-- Comparing the row and column counters of an n × n array for equality gives the bit 1 on the diagonal and 0 off it
    (the counters are below 2³²). -/
theorem iotaEq_read {n : ℕ} (hn : n ≤ 4294967296) (κ : Kind) (h0 : (⟨2, ![n, n]⟩ : Shape).Iotas κ 32 [0])
    (h1 : (⟨2, ![n, n]⟩ : Shape).Iotas κ 32 [1]) (i j : Fin n) :
    cmpi .eq (iota κ ⟨2, ![n, n]⟩ 32 [0] h0) (iota κ ⟨2, ![n, n]⟩ 32 [1] h1) (ix2 i j) = if i = j then 1#1 else 0#1 := by
  show IntOp.cmpi .eq (iota κ ⟨2, ![n, n]⟩ 32 [0] h0 (ix2 i j)) (iota κ ⟨2, ![n, n]⟩ 32 [1] h1 (ix2 i j)) = _
  rw [iota_single_apply, iota_single_apply]
  show BitVec.ofBool (BitVec.ofNat 32 i.val == BitVec.ofNat 32 j.val) = _
  have hi := i.isLt; have hj := j.isLt
  by_cases hij : i = j
  · subst hij; simp
  · rw [if_neg hij]
    have hne : (BitVec.ofNat 32 i.val == BitVec.ofNat 32 j.val) = false := by
      rw [beq_eq_false_iff_ne]
      intro he
      have := congrArg BitVec.toNat he
      simp only [BitVec.toNat_ofNat] at this
      rw [Nat.mod_eq_of_lt (by omega), Nat.mod_eq_of_lt (by omega)] at this
      exact hij (Fin.ext this)
    rw [hne]; rfl

end Cert.Lib.MatRead

end
-- ==== Proof.LibHostMatRead.lean ====
/- Host operations of the ideal float instance read at an entry of a matrix, for any extents: a scalar
   splat, a vector spread over the rows or over the columns through a one-row or one-column matrix by two
   broadcasts, and the one-axis reductions along the rows — the maximum (any commutative, associative
   operation) as a fold from the initial value, the sum as the initial value plus the row's sum. -/
import Idealize.ShloMosaic.PureOps.Ideal
import Idealize.ShloMosaic.PureOps.Ideal.Laws
import Idealize.ShloMosaic.Lib.ValueIdx
import Idealize.ShloMosaic.Lib.Pipeline.Value
import proofs.«154134_j25494925869443_2_alg».proof.Proof.LibMatRead

noncomputable section

namespace Cert.Lib.HostMatRead

open Idealize.ShloMosaic Idealize.ShloMosaic.ValueIdx
open scoped BigOperators

variable {α : Type}

/-- A scalar splat reads the scalar everywhere. -/
theorem splat_read {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun ax => ax.elim0)

/-- A vector made a one-row matrix and repeated down a rows reads, at (i, j), the vector at j. -/
theorem rowBcast_read {a b : ℕ} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (j : Fin b) :
    broadcastInDim ⟨2, ![a, b]⟩ ![0, 1] h2 (broadcastInDim ⟨2, ![1, b]⟩ ![1] h1 v) (ix2 i j) = v (ix1 j) := by
  refine (broadcastInDim_apply ![0, 1] h2 _ (ix2 i j) (ix2 (0 : Fin 1) j) (fun ax => ?_)).trans
    (broadcastInDim_apply ![1] h1 v (ix2 (0 : Fin 1) j) (ix1 j) (fun ax => ?_))
  · match ax with
    | ⟨0, _⟩ => rfl
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A vector made a one-column matrix and repeated over b columns reads, at (i, j), the vector at i. -/
theorem colBcast_read {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (j : Fin b) :
    broadcastInDim ⟨2, ![a, b]⟩ ![0, 1] h2 (broadcastInDim ⟨2, ![a, 1]⟩ ![0] h1 v) (ix2 i j) = v (ix1 i) := by
  refine (broadcastInDim_apply ![0, 1] h2 _ (ix2 i j) (ix2 i (0 : Fin 1)) (fun ax => ?_)).trans
    (broadcastInDim_apply ![0] h1 v (ix2 i (0 : Fin 1)) (ix1 i) (fun ax => ?_))
  · match ax with
    | ⟨0, _⟩ =>
      show i.val = if a = 1 then 0 else i.val
      split
      · have := i.isLt; omega
      · rfl
    | ⟨1, _⟩ => rfl
  · match ax with
    | ⟨0, _⟩ =>
      show i.val = if a = 1 then 0 else i.val
      split
      · have := i.isLt; omega
      · rfl

/-- A vector made a one-column matrix reads, at (i, 0), the vector at i. -/
theorem col_read {a : ℕ} (v : (⟨1, ![a]⟩ : Shape).Idx → α)
    (h1 : (⟨1, ![a]⟩ : Shape).BroadcastsInDim ⟨2, ![a, 1]⟩ (![0] : Fin 1 → Fin 2)) (i : Fin a) (u : Fin 1) :
    broadcastInDim ⟨2, ![a, 1]⟩ ![0] h1 v (ix2 i u) = v (ix1 i) := by
  refine broadcastInDim_apply ![0] h1 v (ix2 i u) (ix1 i) (fun ax => ?_)
  match ax with
  | ⟨0, _⟩ =>
    show i.val = if a = 1 then 0 else i.val
    split
    · have := i.isLt; omega
    · rfl

/-- A one-column matrix repeated over b columns reads, at (i, j), the column at (i, 0). -/
theorem colRepeat_read {a b : ℕ} (x : (⟨2, ![a, 1]⟩ : Shape).Idx → α)
    (h2 : (⟨2, ![a, 1]⟩ : Shape).BroadcastsInDim ⟨2, ![a, b]⟩ (![0, 1] : Fin 2 → Fin 2)) (i : Fin a) (j : Fin b) :
    broadcastInDim ⟨2, ![a, b]⟩ ![0, 1] h2 x (ix2 i j) = x (ix2 i (0 : Fin 1)) := by
  refine broadcastInDim_apply ![0, 1] h2 x (ix2 i j) (ix2 i (0 : Fin 1)) (fun ax => ?_)
  match ax with
  | ⟨0, _⟩ =>
    show i.val = if a = 1 then 0 else i.val
    split
    · have := i.isLt; omega
    · rfl
  | ⟨1, _⟩ => rfl

/-- The host's reduction of each row by a commutative, associative operation: the fold over the row from the
    initial value. -/
theorem rowFold_read {a b : ℕ} (f : α → α → α) [Std.Commutative f] [Std.Associative f]
    (X : (⟨2, ![a, b]⟩ : Shape).Idx → α) (init : (⟨0, ![]⟩ : Shape).Idx → α)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduce f X init h' hu (ix1 i) = (Finset.univ : Finset (Fin b)).fold f (init ix0) (fun t => X (ix2 i t)) := by
  rw [Host.reduce_eq_fold_single f X init h' h hu (ix1 i)]
  congr 1
  · exact congrArg init (eq_ix0 _)
  · funext t
    exact congrArg X (Cert.Lib.MatRead.lift_row h i t)

/-- The host's sum of each row: the initial value plus the row's sum. -/
theorem rowSum_read {a b : ℕ} {φ : FTy} (X : FVec Ideal ⟨2, ![a, b]⟩ φ) (init : (⟨0, ![]⟩ : Shape).Idx → Ideal φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduceAdd (F := Ideal) X init h' hu (ix1 i) = init ix0 + ∑ t : Fin b, X (ix2 i t) := by
  show Ideal.hostReduceAdd h' X (init (Shape.Idx.first hu)) (ix1 i) = _
  rw [Ideal.hostReduceAdd_single h' h, show Shape.Idx.first hu = ix0 from eq_ix0 _]
  exact congrArg (init ix0 + ·) (Finset.sum_congr rfl fun t _ => congrArg X (Cert.Lib.MatRead.lift_row h i t))

end Cert.Lib.HostMatRead

end
-- ==== Proof.StageCore.lean ====
/-
  Two stages of the reference as functions of an already transposed weight matrix: the hidden layer p · Wᵀ + b, and the
  projection max(((h − μ) · rsqrt(σ² + ε)) · γ + β, 0) · Wᵀ + b. The idealized kernel is handed the transposed weights by
  its host program, so it meets the reference at these.
-/
import proofs.«154134_j25494925869443_2_alg».proof.Proof.Gen.ReferenceIdeal

noncomputable section

namespace Cert.ReferenceIdeal.Core

open Cert.ReferenceIdeal Cert.ReferenceIdeal.Facts₀ Idealize.ShloMosaic

variable {F : FTy → Type} [FloatOps F]

/-- The hidden layer from the pooled features `p`, the transposed first weight `wT` and the first bias `b`. -/
def hiddenCore (p : FVec F S512x2048 .f32) (wT : FVec F S2048x2048 .f32) (b : FVec F S2048 .f32) : FVec F S512x2048 .f32 :=
  have v5 : FVec F S512x2048 .f32 := Host.dotGeneral dot_S512x2048_S2048x2048_S512x2048_1_0_0_1_n_n none p wT
  have v6 : FVec F S1x2048 .f32 := broadcastInDim S1x2048 ![1] bcast_S2048_S1x2048_1 b
  have v7 : FVec F S512x2048 .f32 := broadcastInDim S512x2048 ![0, 1] bcast_S1x2048_S512x2048_0_1 v6
  have v8 : FVec F S512x2048 .f32 := addf v5 v7
  v8

/-- The normalised, scaled, shifted and clamped hidden layer: what the second product multiplies. -/
def activation (h : FVec F S512x2048 .f32) (mu var g be : FVec F S2048 .f32) : FVec F S512x2048 .f32 :=
  have v13 : FVec F S1x2048 .f32 := broadcastInDim S1x2048 ![1] bcast_S2048_S1x2048_1 mu
  have v14 : FVec F S512x2048 .f32 := broadcastInDim S512x2048 ![0, 1] bcast_S1x2048_S512x2048_0_1 v13
  have v15 : FVec F S512x2048 .f32 := subf h v14
  have cst_3 : FVec F S_ .f32 := constant (F := F) S_ .f32 0x3727C5AC#32
  have v16 : FVec F S2048 .f32 := broadcastInDim S2048 ![] bcast_S_S2048 cst_3
  have v17 : FVec F S2048 .f32 := addf var v16
  have v18 : FVec F S2048 .f32 := Host.rsqrt v17
  have v19 : FVec F S1x2048 .f32 := broadcastInDim S1x2048 ![1] bcast_S2048_S1x2048_1 v18
  have v20 : FVec F S512x2048 .f32 := broadcastInDim S512x2048 ![0, 1] bcast_S1x2048_S512x2048_0_1 v19
  have v21 : FVec F S512x2048 .f32 := mulf v15 v20
  have v22 : FVec F S1x2048 .f32 := broadcastInDim S1x2048 ![1] bcast_S2048_S1x2048_1 g
  have v23 : FVec F S512x2048 .f32 := broadcastInDim S512x2048 ![0, 1] bcast_S1x2048_S512x2048_0_1 v22
  have v24 : FVec F S512x2048 .f32 := mulf v21 v23
  have v25 : FVec F S1x2048 .f32 := broadcastInDim S1x2048 ![1] bcast_S2048_S1x2048_1 be
  have v26 : FVec F S512x2048 .f32 := broadcastInDim S512x2048 ![0, 1] bcast_S1x2048_S512x2048_0_1 v25
  have v27 : FVec F S512x2048 .f32 := addf v24 v26
  have call1_cst : FVec F S_ .f32 := constant (F := F) S_ .f32 0x00000000#32
  have call1_v0 : FVec F S512x2048 .f32 := broadcastInDim S512x2048 ![] bcast_S_S512x2048 call1_cst
  have v28 : FVec F S512x2048 .f32 := maximumf v27 call1_v0
  v28

/-- The projection from the hidden layer, its column statistics, the scale and shift, the transposed second weight and
    the second bias. -/
def projCore (h : FVec F S512x2048 .f32) (mu var g be : FVec F S2048 .f32) (wT : FVec F S2048x2048 .f32) (b : FVec F S2048 .f32) : FVec F S512x2048 .f32 :=
  have v30 : FVec F S512x2048 .f32 := Host.dotGeneral dot_S512x2048_S2048x2048_S512x2048_1_0_0_1_n_n none (activation h mu var g be) wT
  have v31 : FVec F S1x2048 .f32 := broadcastInDim S1x2048 ![1] bcast_S2048_S1x2048_1 b
  have v32 : FVec F S512x2048 .f32 := broadcastInDim S512x2048 ![0, 1] bcast_S1x2048_S512x2048_0_1 v31
  have v33 : FVec F S512x2048 .f32 := addf v30 v32
  v33

end Cert.ReferenceIdeal.Core

end
-- ==== Proof.MatmulValue.lean ====
/-
  The values of the matmul-with-bias call (pipeline 2 of @main): what the accumulator holds after each point and what
  the last point stores as the result, over the named payloads of the body; the result's array after the call; and, in
  the idealized arithmetic, that array read at an entry as the sum over the contraction axis plus the bias.
-/
import proofs.«154134_j25494925869443_2_alg».proof.Proof.MatmulCall2KernelIdeal
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import proofs.«154134_j25494925869443_2_alg».proof.Proof.LibMatProd
import proofs.«154134_j25494925869443_2_alg».proof.Proof.LibHostMatRead
import proofs.«154134_j25494925869443_2_alg».proof.Proof.StageCore

set_option maxRecDepth 16384

noncomputable section

namespace Cert.KernelIdeal.Call2Value

open Cert.KernelIdeal Cert.KernelIdeal.Gen Cert.KernelIdeal.GenP Cert.KernelIdeal.Call2
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the call is entered
variable (V : (c : Dev nD) → (b : Ref sig .tc) → Buf (Elt F) ((c : Thread nD τ).loc b))

/-! ## What each case leaves, over the named payloads -/

theorem zero2 : (![0, 0] : Fin 2 → Nat) = fun _ => 0 := funext fun a => by fin_cases a <;> rfl
theorem zero1 : (![0] : Fin 1 → Nat) = fun _ => 0 := funext fun a => by fin_cases a <;> rfl

/-- The accumulator's whole buffer read back at the contents it was owned at. -/
theorem acc_read_unread (h : (acc : Memref sig .tc .vmem S512x2048 .f32).IsWhole) (xs : Vec F S512x2048 .f32) :
    View.read (Elt F) (View.whole cc2_scratch0) (h.unread xs) = xs := h.read_unread xs

/-- The first point leaves in the accumulator the product of its blocks added to the zero fill: the load that follows
    the fill reads it back, and the last store covers the buffer. -/
theorem accFirst_eq (c : Dev nD) (t : Fin cfg2.N) (h0 : atFirst (grid2.coords t)) (h1 : ¬atLast (grid2.coords t))
    (x0 : Vec F S512x512 .f32) (x1 : Vec F S512x2048 .f32) :
    accFirst c t h0 h1 x0 x1 = k2_pay2 x0 x1 k2_pay1 := by
  unfold accFirst
  rw [View.read_writes_eq_canon _ _ _ (cover_first c t h0 h1 x0 x1)]
  unfold runFirst
  dsimp only
  sl_unfold_words
  rw [View.canon_cons_unit_zero zero2]
  simp only [View.readCov_unit_zero (S := S512x2048) _ zero2, acc_read_unread, View.readAt_eq_ld, Memref.IsWhole.read_unread,
    View.ld_unit_zero (S := S512x512) zero2, View.ld_unit_zero (S := S512x2048) zero2]

/-- A middle point leaves the product of its blocks added to what the accumulator held. -/
theorem accMiddle_eq (c : Dev nD) (t : Fin cfg2.N) (h0 : ¬atFirst (grid2.coords t)) (h1 : ¬atLast (grid2.coords t))
    (x0 : Vec F S512x512 .f32) (x1 : Vec F S512x2048 .f32) (xs : Vec F S512x2048 .f32) :
    accMiddle c t h0 h1 x0 x1 xs = k2_pay2 x0 x1 xs := by
  unfold accMiddle
  rw [View.read_writes_eq_canon _ _ _ (cover_middle c t h0 h1 x0 x1 xs)]
  unfold runMiddle
  dsimp only
  sl_unfold_words
  rw [View.canon_unit_zero zero2]
  simp only [View.readAt_eq_ld, Memref.IsWhole.read_unread, acc_read_unread,
    View.ld_unit_zero (S := S512x512) zero2, View.ld_unit_zero (S := S512x2048) zero2]

/-- So does the last point, -/
theorem accLast_eq (c : Dev nD) (t : Fin cfg2.N) (h0 : ¬atFirst (grid2.coords t)) (h1 : atLast (grid2.coords t))
    (x0 : Vec F S512x512 .f32) (x1 : Vec F S512x2048 .f32) (x2 : Vec F S2048 .f32) (xs : Vec F S512x2048 .f32) :
    accLast c t h0 h1 x0 x1 x2 xs = k2_pay2 x0 x1 xs := by
  unfold accLast
  rw [View.read_writes_eq_canon _ _ _ (cover_last_acc c t h0 h1 x0 x1 x2 xs)]
  unfold runLast
  dsimp only
  sl_unfold_words
  rw [View.canon_unit_zero zero2]
  simp only [View.readAt_eq_ld, Memref.IsWhole.read_unread, acc_read_unread,
    View.ld_unit_zero (S := S512x512) zero2, View.ld_unit_zero (S := S512x2048) zero2]

/-- which stores as the result that sum, read back from the accumulator, plus the bias spread over the rows. -/
theorem outLast_eq (c : Dev nD) (t : Fin cfg2.N) (h0 : ¬atFirst (grid2.coords t)) (h1 : atLast (grid2.coords t))
    (x0 : Vec F S512x512 .f32) (x1 : Vec F S512x2048 .f32) (x2 : Vec F S2048 .f32) (xs : Vec F S512x2048 .f32) :
    outLast c t h0 h1 x0 x1 x2 xs = k2_pay3 (k2_pay2 x0 x1 xs) x2 := by
  unfold outLast
  rw [View.read_writes_eq_canon _ _ _ (cover_last_out c t h0 h1 x0 x1 x2 xs)]
  unfold runLast
  dsimp only
  sl_unfold_words
  rw [View.canon_unit_zero zero2]
  simp only [View.readCov_unit_zero (S := S512x2048) _ zero2, acc_read_unread, View.readAt_eq_ld, Memref.IsWhole.read_unread,
    View.ld_unit_zero (S := S512x512) zero2, View.ld_unit_zero (S := S512x2048) zero2, View.ld_unit_zero (S := S2048) zero1]

/-! ## Point by point -/

theorem lt3 : 3 < cfg2.N := by rw [show cfg2.N = 4 from N_2]; decide

/-- What the accumulator holds after the body at point `n`, over the named payloads: the product of the point's blocks
    added to the zero fill at the first point, to what the point before left afterwards. -/
def accAfter (c : Dev nD) : (n : ℕ) → n < cfg2.N → Vec F S512x2048 .f32
  | 0, hn => k2_pay2 (blockAt V c 0 ⟨0, hn⟩) (blockAt V c 1 ⟨0, hn⟩) k2_pay1
  | n + 1, hn => k2_pay2 (blockAt V c 0 ⟨n + 1, hn⟩) (blockAt V c 1 ⟨n + 1, hn⟩) (accAfter c n (Nat.lt_of_succ_lt hn))

/-- It is what the frame's recursion through the runs computes. -/
theorem accAt_eq (c : Dev nD) (n : ℕ) : ∀ hn : n < cfg2.N, accAt V c n hn = accAfter V c n hn := by
  induction n with
  | zero =>
    intro hn
    rw [show accAt V c 0 hn = _ from accAt_first V c ⟨0, hn⟩ rfl, accFirst_eq]; rfl
  | succ n ih =>
    intro hn
    by_cases h3 : n + 1 = 3
    · rw [show accAt V c (n + 1) hn = _ from accAt_last V c ⟨n + 1, hn⟩ (Nat.succ_ne_zero n) h3, accLast_eq]
      show k2_pay2 _ _ (accAt V c n _) = _
      rw [ih]; rfl
    · rw [show accAt V c (n + 1) hn = _ from accAt_middle V c ⟨n + 1, hn⟩ (Nat.succ_ne_zero n) h3, accMiddle_eq]
      show k2_pay2 _ _ (accAt V c n _) = _
      rw [ih]; rfl

/-- What the result's staging buffer holds after the last point: the accumulated sum plus the bias. -/
theorem out_last (c : Dev nD) :
    (dat V c).after 3 ⟨3, lt3⟩ = k2_pay3 (accAfter V c 3 lt3) (blockAt V c 2 ⟨3, lt3⟩) := by
  rw [dat_after_out, outAt_last V c ⟨3, lt3⟩ (by decide) rfl, outLast_eq]
  show k2_pay3 (k2_pay2 _ _ (accAt V c 2 _)) _ = _
  rw [accAt_eq]; rfl

/-! ## The result's array after the call -/

/-- The result's index map is constant at block (0, 0), decided over the grid. -/
theorem out_index : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)

/-- The result's one block is its whole array: an element of the block sits in the array at its own coordinates. -/
theorem out_emb (t : Fin cfg2.N) (j : S512x2048.Idx) : ((cfg2.win 3).blk t).view.emb j = j := by
  obtain ⟨e0, e1⟩ := out_index t
  funext a; apply Fin.ext
  match a with
  | ⟨0, _⟩ => show win2_3.index t (0 : Fin 2) * 512 + 1 * (j 0).val = (j 0).val; omega
  | ⟨1, _⟩ => show win2_3.index t (1 : Fin 2) * 2048 + 1 * (j 1).val = (j 1).val; omega

/-- THE RESULT after the call: only the last point writes its block back, the block is the whole array, and what that
    point left in the staging buffer is the accumulated sum plus the bias. -/
theorem result_eq (c : Dev nD) :
    (dat (F := F) V c).arrAt 3 cfg2.N = k2_pay3 (accAfter V c 3 lt3) (blockAt V c 2 ⟨3, lt3⟩) := by
  refine (dat V c).arrAt_eq_of_cover 3 _ (fun t hf => ?_) (fun i => ?_)
  · have hN : t.val < 4 := lt_of_lt_of_eq t.isLt (show cfg2.N = 4 from N_2)
    have h3 : t.val = 3 := by have := (flush2_3 t).mp hf; omega
    obtain rfl : t = ⟨3, lt3⟩ := Fin.ext h3
    show (cfg2.win 3).cut (grid2.coords ⟨3, lt3⟩) ((dat V c).after 3 ⟨3, lt3⟩) = _
    rw [out_last]
    funext j
    show k2_pay3 (accAfter V c 3 lt3) (blockAt V c 2 ⟨3, lt3⟩) j
      = k2_pay3 (accAfter V c 3 lt3) (blockAt V c 2 ⟨3, lt3⟩) (((cfg2.win 3).blk ⟨3, lt3⟩).view.emb j)
    rw [out_emb]
  · refine ⟨⟨3, lt3⟩, (flush2_3 _).mpr rfl, ?_⟩
    have h := ((cfg2.win 3).blk ⟨3, lt3⟩).view.emb_mem_set (i : S512x2048.Idx)
    rwa [out_emb] at h

/-! ## In the idealized arithmetic: the result read at an entry -/

section AtIdeal

open Idealize.ShloMosaic.ValueIdx
open scoped BigOperators

/-- The zero fill reads 0. -/
theorem pay1_read (j : S512x2048.Idx) : (k2_pay1 (F := Ideal)) j = 0 := by
  simp only [k2_pay1, shapeCast_self, broadcast_apply]
  exact Ideal.ofBits_zero_f32

/-- The accumulated product at (i, q): what was there plus the sum over the block's 512 contraction coordinates (the
    narrowing of the operands is the identity on ideal values). -/
theorem pay2_read (x0 : Vec Ideal S512x512 .f32) (x1 a : Vec Ideal S512x2048 .f32) (i : Fin 512) (q : Fin 2048) :
    k2_pay2 (F := Ideal) x0 x1 a (ix2 i q) = a (ix2 i q) + ∑ l : Fin 512, x0 (ix2 i l) * x1 (ix2 l q) := by
  simp only [k2_pay2, shapeCast_self]
  rw [addf_apply]
  congr 1
  exact Cert.Lib.MatProd.matmul_zero_read (M := 512) (K := 512) (N := 2048) none
    (truncf .bf16 x0 bitsLt_bf16_f32) (truncf .bf16 x1 bitsLt_bf16_f32) i q

/-- The stored result at (i, q): the accumulated sum plus the bias at q. -/
theorem pay3_read (a : Vec Ideal S512x2048 .f32) (b : Vec Ideal S2048 .f32) (i : Fin 512) (q : Fin 2048) :
    k2_pay3 (F := Ideal) a b (ix2 i q) = a (ix2 i q) + b (ix1 q) := by
  simp only [k2_pay3]
  rw [addf_apply, broadcastTo_1b_ab_apply, shapeCast_a_1a_apply]

/-- A sum over 2048 coordinates is the sum of the sums over its four consecutive runs of 512. -/
theorem sum_blocks {M : Type} [AddCommMonoid M] (f : Fin 2048 → M) :
    ∑ k : Fin 2048, f k
      = ∑ t : Fin 4, ∑ l : Fin 512, f ⟨512 * t.val + l.val, by have := t.isLt; have := l.isLt; omega⟩ := by
  calc ∑ k : Fin 2048, f k
      = ∑ x : Fin 4 × Fin 512, f (finProdFinEquiv x) := (Equiv.sum_comp (finProdFinEquiv (m := 4) (n := 512)) f).symm
    _ = ∑ t : Fin 4, ∑ l : Fin 512, f (finProdFinEquiv (t, l)) := Fintype.sum_prod_type _
    _ = _ := Finset.sum_congr rfl fun t _ => Finset.sum_congr rfl fun l _ => congrArg f (Fin.ext (by
        show l.val + 512 * t.val = 512 * t.val + l.val; omega))

/-- The operands' index maps, decided over the grid: the left operand's block moves along its columns with the point, the
    right operand's along its rows; the bias has one block. -/
theorem in_index : ∀ t : Fin cfg2.N, win2_0.index t (0 : Fin 2) = 0 ∧ win2_0.index t (1 : Fin 2) = t.val
    ∧ win2_1.index t (0 : Fin 2) = t.val ∧ win2_1.index t (1 : Fin 2) = 0 ∧ win2_2.index t (0 : Fin 1) = 0 :=
  (by decide +kernel : ∀ t : Fin grid2.N, win2_0.index t (0 : Fin 2) = 0 ∧ win2_0.index t (1 : Fin 2) = t.val
    ∧ win2_1.index t (0 : Fin 2) = t.val ∧ win2_1.index t (1 : Fin 2) = 0 ∧ win2_2.index t (0 : Fin 1) = 0)

theorem col_lt (t : Fin cfg2.N) (l : Fin 512) : 512 * t.val + l.val < 2048 := by
  have := lt_of_lt_of_eq t.isLt (show cfg2.N = 4 from N_2); have := l.isLt; omega

/-- The left operand's block at point `t`, at (i, l): the array at (i, 512 t + l). -/
theorem lhs_read (c : Dev nD) (t : Fin cfg2.N) (i l : Fin 512) :
    blockAt V c 0 t (ix2 i l) = V c main_v4 (ix2 i ⟨512 * t.val + l.val, col_lt t l⟩) := by
  obtain ⟨e0, e1, -, -, -⟩ := in_index t
  show V c main_v4 (((cfg2.win 0).blk t).view.emb (ix2 i l)) = _
  congr 1
  funext a; apply Fin.ext
  match a with
  | ⟨0, _⟩ => show win2_0.index t (0 : Fin 2) * 512 + 1 * i.val = i.val; omega
  | ⟨1, _⟩ => show win2_0.index t (1 : Fin 2) * 512 + 1 * l.val = 512 * t.val + l.val; omega

/-- The right operand's block at point `t`, at (l, q): the array at (512 t + l, q). -/
theorem rhs_read (c : Dev nD) (t : Fin cfg2.N) (l : Fin 512) (q : Fin 2048) :
    blockAt V c 1 t (ix2 l q) = V c main_v5 (ix2 ⟨512 * t.val + l.val, col_lt t l⟩ q) := by
  obtain ⟨-, -, e0, e1, -⟩ := in_index t
  show V c main_v5 (((cfg2.win 1).blk t).view.emb (ix2 l q)) = _
  congr 1
  funext a; apply Fin.ext
  match a with
  | ⟨0, _⟩ => show win2_1.index t (0 : Fin 2) * 512 + 1 * l.val = 512 * t.val + l.val; omega
  | ⟨1, _⟩ => show win2_1.index t (1 : Fin 2) * 2048 + 1 * q.val = q.val; omega

/-- The bias's one block is the bias. -/
theorem bias_read (c : Dev nD) (t : Fin cfg2.N) (q : Fin 2048) :
    blockAt V c 2 t (ix1 q) = V c main_arg5 (ix1 q) := by
  obtain ⟨-, -, -, -, e0⟩ := in_index t
  show V c main_arg5 (((cfg2.win 2).blk t).view.emb (ix1 q)) = _
  congr 1
  funext a; apply Fin.ext
  match a with
  | ⟨0, _⟩ => show win2_2.index t (0 : Fin 1) * 2048 + 1 * q.val = q.val; omega

-- the TensorCore's buffer contents when the call is entered, of ideal values
variable (W : (c : Dev nD) → (b : Ref sig .tc) → Buf (Elt Ideal) ((c : Thread nD τ).loc b))

/-- The arrays the call finds, at their shapes: the left operand, the right operand, the bias. -/
abbrev lhsArr (c : Dev nD) : FVec Ideal S512x2048 .f32 := W c main_v4
abbrev rhsArr (c : Dev nD) : FVec Ideal S2048x2048 .f32 := W c main_v5
abbrev biasArr (c : Dev nD) : FVec Ideal S2048 .f32 := W c main_arg5

/-- One point's accumulation at (i, q), over the arrays the call finds. -/
theorem step_read (c : Dev nD) (t : Fin cfg2.N) (a : Vec Ideal S512x2048 .f32) (i : Fin 512) (q : Fin 2048) :
    k2_pay2 (blockAt W c 0 t) (blockAt W c 1 t) a (ix2 i q)
      = a (ix2 i q) + ∑ l : Fin 512, lhsArr W c (ix2 i ⟨512 * t.val + l.val, col_lt t l⟩) * rhsArr W c (ix2 ⟨512 * t.val + l.val, col_lt t l⟩ q) := by
  rw [pay2_read]
  congr 1
  exact Finset.sum_congr rfl fun l _ => by rw [lhs_read, rhs_read]

/-- THE RESULT AT AN ENTRY: the sum, over the four blocks of the contraction axis and the 512 coordinates of each, of the
    products of the operands as the call finds them, plus the bias. -/
theorem entry_read (c : Dev nD) (i : Fin 512) (q : Fin 2048) :
    ((dat (F := Ideal) W c).arrAt 3 cfg2.N : FVec Ideal S512x2048 .f32) (ix2 i q)
      = (∑ t : Fin 4, ∑ l : Fin 512,
          lhsArr W c (ix2 i ⟨512 * t.val + l.val, by have := t.isLt; have := l.isLt; omega⟩)
            * rhsArr W c (ix2 ⟨512 * t.val + l.val, by have := t.isLt; have := l.isLt; omega⟩ q))
        + biasArr W c (ix1 q) := by
  rw [result_eq, pay3_read, bias_read]
  congr 1
  rw [Fin.sum_univ_four]
  show k2_pay2 _ _ (k2_pay2 _ _ (k2_pay2 _ _ (k2_pay2 _ _ k2_pay1))) (ix2 i q) = _
  rw [step_read, step_read, step_read, step_read, pay1_read, zero_add]
  rfl

/-- THE BRIDGE: the result's array after the call is the reference's hidden layer of the arrays the call finds. -/
theorem value_eq (c : Dev nD) :
    ((dat (F := Ideal) W c).arrAt 3 cfg2.N : FVec Ideal S512x2048 .f32)
      = Cert.ReferenceIdeal.Core.hiddenCore (F := Ideal) (lhsArr W c) (rhsArr W c) (biasArr W c) := by
  funext j
  obtain ⟨i, q, rfl⟩ : ∃ (i : Fin 512) (q : Fin 2048), j = ix2 i q := ⟨j 0, j 1, eq_ix2 j⟩
  rw [entry_read]
  simp only [Cert.ReferenceIdeal.Core.hiddenCore]
  rw [addf_apply, Cert.Lib.HostMatRead.rowBcast_read]
  congr 1
  refine Eq.trans ?_ (Cert.Lib.MatProd.dotGeneral_read (M := 512) (K := 2048) (N := 2048) none .single
    (lhsArr W c) (rhsArr W c) i q).symm
  exact (sum_blocks fun k => lhsArr W c (ix2 i k) * rhsArr W c (ix2 k q)).symm

end AtIdeal

end Cert.KernelIdeal.Call2Value

end
-- ==== Proof.NormMatmulValue.lean ====
/-
  The value the fused normalise / ReLU / matmul call (pipeline 3 of @main) leaves in its result array: first as the
  named payloads of the blocks (for any float instance), then, over the extended reals, read at an entry as a function of
  the arrays the call finds, and last as the reference's own projection of those arrays.
-/
import proofs.«154134_j25494925869443_2_alg».proof.Proof.NormMatmulCall3KernelIdeal
import proofs.«154134_j25494925869443_2_alg».proof.Proof.LibMatProd
import proofs.«154134_j25494925869443_2_alg».proof.Proof.LibHostMatRead
import proofs.«154134_j25494925869443_2_alg».proof.Proof.StageCore
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Call3Value

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.ValueIdx
open scoped BigOperators

section AnyFloat

variable {F : FTy → Type} [FloatOps F]

-- the contents of the buffers of the TensorCore when the call is entered
variable (V : (c : Dev nD) → (b : Ref sig .tc) → Buf (Elt F) ((c : Thread nD τ).loc b))

/-! ## The result array after the call -/

/-- The window of the result has one block, the whole array: its block index is (0, 0) at every point. -/
theorem out_index_zero : ∀ (t : Fin cfg3.N) (a : Fin 2), win3_7.index t a = 0 :=
  (by decide +kernel : ∀ (t : Fin grid3.N) (a : Fin 2), win3_7.index t a = 0)

/-- So an element of the block sits in the array at its own coordinates. -/
theorem out_emb (t : Fin cfg3.N) (y : S512x2048.Idx) : ((cfg3.win 7).blk t).view.emb y = y := by
  funext a; apply Fin.ext
  match a with
  | ⟨0, _⟩ => show win3_7.index t (0 : Fin 2) * 512 + 1 * (y 0).val = (y 0).val; rw [out_index_zero t 0]; omega
  | ⟨1, _⟩ => show win3_7.index t (1 : Fin 2) * 2048 + 1 * (y 1).val = (y 1).val; rw [out_index_zero t 1]; omega

/-- An index of the array is in the block of point t iff each coordinate is in the range of the block on its axis. -/
theorem out_mem (t : Fin cfg3.N) (i : S512x2048.Idx) :
    i ∈ ((cfg3.win 7).blk t).view.set ↔ ∀ a : Fin 2, win3_7.index t a * S512x2048.size a ≤ (i a).val ∧ (i a).val < win3_7.index t a * S512x2048.size a + S512x2048.size a := by
  show i ∈ ((View.whole main_v12).slice (win3_7.rect t)).set ↔ _
  rw [View.set_slice_whole, Rect.mem_set_unit]
  exact Iff.rfl

/-- The result array after the call: only the last point writes the block back, and it holds the accumulator of the four
    points plus the bias. -/
theorem result_eq (c : Dev nD) :
    (Call3.dat (F := F) V c).arrAt 7 cfg3.N = k3_pay1 (Call3.accAfter V c 3 Call3.three_lt) (Call3.blockAt V c 6 ⟨3, Call3.three_lt⟩) := by
  refine (Call3.dat (F := F) V c).arrAt_eq_of_cover 7 _ (fun t hf => ?_) (fun i => ⟨⟨3, Call3.three_lt⟩, (flush3_7 _).mpr rfl, ?_⟩)
  · have h3 : t.val = 3 := by
      have h := (flush3_7 t).mp hf
      have hN : t.val < 4 := lt_of_lt_of_eq t.isLt (show cfg3.N = 4 from N_3)
      omega
    obtain ⟨n, hn⟩ := t
    obtain rfl : n = 3 := h3
    show (cfg3.win 7).cut (grid3.coords ⟨3, hn⟩) ((Call3.dat V c).after 7 ⟨3, hn⟩) = _
    rw [Call3.dat_after_out]
    funext y
    show _ = k3_pay1 (Call3.accAfter V c 3 Call3.three_lt) (Call3.blockAt V c 6 ⟨3, Call3.three_lt⟩) (((cfg3.win 7).blk ⟨3, hn⟩).view.emb y)
    rw [out_emb]
  · rw [out_mem]
    intro a
    rw [out_index_zero]
    have := (i a).isLt
    constructor
    · omega
    · simpa using this

end AnyFloat

/-! ## The payloads read at an entry, over the extended reals -/

section Payloads

theorem rsqrt_apply {s : Shape} {φ : FTy} (a : FVec Ideal s φ) (i : s.Idx) : rsqrt a i = Ideal.rsqrt (a i) := rfl

/-- A [512] vector laid along the rows of a [512, 512] block, read at (p, l): its entry l. -/
theorem row512 (v : S512.Idx → EReal) (h1 : S512.ShapeCasts S1x512) (h2 : S1x512.Broadcasts S512x512) (p l : Fin 512) :
    broadcastTo S512x512 (shapeCast S1x512 v h1) h2 (ix2 p l) = v (ix1 l) :=
  (broadcastTo_1b_ab_apply _ h2 p l).trans (shapeCast_a_1a_apply v h1 0 l)

/-- A [2048] vector laid along the rows of a [512, 2048] block, read at (p, q): its entry q. -/
theorem row2048 (v : S2048.Idx → EReal) (h1 : S2048.ShapeCasts S1x2048) (h2 : S1x2048.Broadcasts S512x2048) (p : Fin 512) (q : Fin 2048) :
    broadcastTo S512x2048 (shapeCast S1x2048 v h1) h2 (ix2 p q) = v (ix1 q) :=
  (broadcastTo_1b_ab_apply _ h2 p q).trans (shapeCast_a_1a_apply v h1 0 q)

/-- The normalised, scaled, shifted and clamped activation at row p, column l, of blocks x, mu, var, g, b. -/
def act (x : S512x512.Idx → EReal) (mu var g b : S512.Idx → EReal) (p l : Fin 512) : EReal :=
  max ((((x (ix2 p l) - mu (ix1 l)) * Ideal.rsqrt (var (ix1 l) + Ideal.ofBits .f32 0x3727C5AC#32)) * g (ix1 l)) + b (ix1 l))
    (Ideal.ofBits .f32 0x00000000#32)

/-- The printed product, accumulated into the zero matrix, read at (p, q). -/
theorem mm_read (l : FVec Ideal S512x512 .bf16) (r : FVec Ideal S512x2048 .bf16) (p : Fin 512) (q : Fin 2048) :
    matmul dot_S512x512_S512x2048_S512x2048_1_0_0_1_n_n none l r (constant (F := Ideal) S512x2048 .f32 0x00000000#32) (ix2 p q)
      = ∑ t : Fin 512, l (ix2 p t) * r (ix2 t q) :=
  Cert.Lib.MatProd.matmul_zero_read (M := 512) (K := 512) (N := 2048) none l r p q

/-- The accumulation step at (p, q): the accumulator there plus the row of activations times the column of the block. -/
theorem pay3_read (x : S512x512.Idx → EReal) (mu var g b : S512.Idx → EReal) (w acc : S512x2048.Idx → EReal) (p : Fin 512) (q : Fin 2048) :
    k3_pay3 (F := Ideal) x mu var g b w acc (ix2 p q) = acc (ix2 p q) + ∑ l : Fin 512, act x mu var g b p l * w (ix2 l q) := by
  unfold k3_pay3
  simp only [shapeCast_self]
  rw [addf_apply]
  refine congrArg (acc (ix2 p q) + ·) ((mm_read _ _ p q).trans (Finset.sum_congr rfl fun l _ => ?_))
  simp only [truncf_apply, maximumf_apply, addf_apply, mulf_apply, subf_apply, broadcast_apply, rsqrt_apply, row512,
    broadcastTo_1b_ab_apply, shapeCast_a_1a_apply]
  rfl

/-- The zero block at any entry. -/
theorem pay2_read (p : Fin 512) (q : Fin 2048) : k3_pay2 (F := Ideal) (ix2 p q) = 0 := by
  unfold k3_pay2
  simp only [shapeCast_self]
  rw [broadcast_apply]
  exact Ideal.ofBits_zero_f32

/-- The final step at (p, q): the accumulator there plus the bias at q. -/
theorem pay1_read (acc : S512x2048.Idx → EReal) (bias : S2048.Idx → EReal) (p : Fin 512) (q : Fin 2048) :
    k3_pay1 (F := Ideal) acc bias (ix2 p q) = acc (ix2 p q) + bias (ix1 q) := by
  unfold k3_pay1
  simp only [addf_apply, row2048]

end Payloads

section Bridge

/-! ## One sum over 2048 as four blocks of 512 -/

/-- Column (or row) 512 t + l of the 2048: entry l of block t. -/
def at512 (t : Fin 4) (l : Fin 512) : Fin 2048 := ⟨512 * t.val + l.val, by have := t.isLt; have := l.isLt; omega⟩

/-- A sum over the 2048 indices, taken block by block: needs only that the addition is commutative and associative. -/
theorem sum_blocks {M : Type*} [AddCommMonoid M] (f : Fin 2048 → M) :
    ∑ k : Fin 2048, f k = ∑ t : Fin 4, ∑ l : Fin 512, f (at512 t l) := by
  have e : Fin 4 × Fin 512 ≃ Fin 2048 := finProdFinEquiv.trans (finCongr (by norm_num))
  have he : ∀ x : Fin 4 × Fin 512, finProdFinEquiv.trans (finCongr (by norm_num : 4 * 512 = 2048)) x = at512 x.1 x.2 := fun x =>
    Fin.ext (by show x.2.val + 512 * x.1.val = 512 * x.1.val + x.2.val; omega)
  calc ∑ k : Fin 2048, f k
      = ∑ x : Fin 4 × Fin 512, f (finProdFinEquiv.trans (finCongr (by norm_num : 4 * 512 = 2048)) x) :=
        (Equiv.sum_comp (finProdFinEquiv.trans (finCongr (by norm_num : 4 * 512 = 2048))) f).symm
    _ = ∑ x : Fin 4 × Fin 512, f (at512 x.1 x.2) := Finset.sum_congr rfl fun x _ => congrArg f (he x)
    _ = ∑ t : Fin 4, ∑ l : Fin 512, f (at512 t l) := Fintype.sum_prod_type _

/-! ## The reference's projection read at an entry -/

/-- The normalised, scaled, shifted and clamped activation at row i, column k, of a [512, 2048] hidden layer h and its
    [2048] column mean mu, column variance var, scale g and shift be. -/
def actOf (h : (⟨2, ![512, 2048]⟩ : Shape).Idx → EReal) (mu var g be : (⟨1, ![2048]⟩ : Shape).Idx → EReal) (i : Fin 512) (k : Fin 2048) : EReal :=
  max ((((h (ix2 i k) - mu (ix1 k)) * Ideal.rsqrt (var (ix1 k) + Ideal.ofBits .f32 0x3727C5AC#32)) * g (ix1 k)) + be (ix1 k))
    (Ideal.ofBits .f32 0x00000000#32)

theorem host_rsqrt_apply {s : Shape} {φ : FTy} (a : FVec Ideal s φ) (i : s.Idx) : Host.rsqrt a i = Ideal.rsqrt (a i) := rfl

/-- The host's product of a [512, 2048] by a [2048, 2048] matrix, read at (p, q). -/
theorem host_mm_read (l : FVec Ideal Cert.ReferenceIdeal.S512x2048 .f32) (r : FVec Ideal Cert.ReferenceIdeal.S2048x2048 .f32) (p : Fin 512) (q : Fin 2048) :
    Host.dotGeneral Cert.ReferenceIdeal.dot_S512x2048_S2048x2048_S512x2048_1_0_0_1_n_n none l r (ix2 p q)
      = ∑ t : Fin 2048, l (ix2 p t) * r (ix2 t q) :=
  Cert.Lib.MatProd.dotGeneral_read (M := 512) (K := 2048) (N := 2048) none .single l r p q

/-- The reference's activation at (i, k). -/
theorem activation_read (h : FVec Ideal Cert.ReferenceIdeal.S512x2048 .f32) (mu var g be : FVec Ideal Cert.ReferenceIdeal.S2048 .f32) (i : Fin 512) (k : Fin 2048) :
    Cert.ReferenceIdeal.Core.activation (F := Ideal) h mu var g be (ix2 i k) = actOf h mu var g be i k := by
  unfold Cert.ReferenceIdeal.Core.activation actOf
  simp only [maximumf_apply, addf_apply, mulf_apply, subf_apply]
  refine congrArg₂ max (congrArg₂ (· + ·) (congrArg₂ (· * ·) (congrArg₂ (· * ·) (congrArg₂ (· - ·) rfl ?_) ?_) ?_) ?_) ?_
  · exact Cert.Lib.HostMatRead.rowBcast_read (a := 512) (b := 2048) _ _ _ i k
  · refine (Cert.Lib.HostMatRead.rowBcast_read (a := 512) (b := 2048) _ _ _ i k).trans ?_
    exact congrArg (fun z => Ideal.rsqrt (var (ix1 k) + z)) (Cert.Lib.HostMatRead.splat_read _ _ (ix1 k))
  · exact Cert.Lib.HostMatRead.rowBcast_read (a := 512) (b := 2048) _ _ _ i k
  · exact Cert.Lib.HostMatRead.rowBcast_read (a := 512) (b := 2048) _ _ _ i k
  · exact Cert.Lib.HostMatRead.splat_read _ _ _

/-- The reference's projection at (i, q): one sum over the 2048 columns of the hidden layer, plus the bias. -/
theorem proj_read (h : FVec Ideal Cert.ReferenceIdeal.S512x2048 .f32) (mu var g be : FVec Ideal Cert.ReferenceIdeal.S2048 .f32)
    (wT : FVec Ideal Cert.ReferenceIdeal.S2048x2048 .f32) (b : FVec Ideal Cert.ReferenceIdeal.S2048 .f32) (i : Fin 512) (q : Fin 2048) :
    Cert.ReferenceIdeal.Core.projCore (F := Ideal) h mu var g be wT b (ix2 i q)
      = (∑ k : Fin 2048, actOf h mu var g be i k * wT (ix2 k q)) + b (ix1 q) := by
  unfold Cert.ReferenceIdeal.Core.projCore
  simp only [addf_apply]
  exact congrArg₂ (· + ·) ((host_mm_read _ _ i q).trans (Finset.sum_congr rfl fun k _ => by rw [activation_read]))
    (Cert.Lib.HostMatRead.rowBcast_read (a := 512) (b := 2048) _ _ _ i q)

end Bridge

/-! ## The blocks read off the arrays the call finds -/

section AtIdeal

variable (V : (c : Dev nD) → (b : Ref sig .tc) → Buf (Elt Ideal) ((c : Thread nD τ).loc b))

/-- Grid point t of the four. -/
def pt (t : Fin 4) : Fin cfg3.N := ⟨t.val, lt_of_lt_of_eq t.isLt (show cfg3.N = 4 from N_3).symm⟩

/-- The printed index maps, decided over the grid: the activations move along their columns, the four vectors and the
    right operand's rows with the grid coordinate, the bias not at all. -/
theorem idx_facts : ∀ t : Fin cfg3.N, win3_0.index t (0 : Fin 2) = 0 ∧ win3_0.index t (1 : Fin 2) = t.val
    ∧ win3_1.index t (0 : Fin 1) = t.val ∧ win3_2.index t (0 : Fin 1) = t.val ∧ win3_3.index t (0 : Fin 1) = t.val
    ∧ win3_4.index t (0 : Fin 1) = t.val ∧ win3_5.index t (0 : Fin 2) = t.val ∧ win3_5.index t (1 : Fin 2) = 0
    ∧ win3_6.index t (0 : Fin 1) = 0 :=
  (by decide +kernel : ∀ t : Fin grid3.N, _)

theorem block_x (c : Dev nD) (t : Fin 4) (p l : Fin 512) :
    Call3.blockAt V c 0 (pt t) (ix2 p l) = V c main_v7 (ix2 p (at512 t l)) := by
  obtain ⟨e0, e1, -⟩ := idx_facts (pt t)
  show V c main_v7 (((cfg3.win 0).blk (pt t)).view.emb (ix2 p l)) = V c main_v7 (ix2 p (at512 t l))
  refine congrArg (V c main_v7) (funext fun a => Fin.ext ?_)
  match a with
  | ⟨0, _⟩ => show win3_0.index (pt t) (0 : Fin 2) * 512 + 1 * p.val = p.val; rw [e0]; omega
  | ⟨1, _⟩ => show win3_0.index (pt t) (1 : Fin 2) * 512 + 1 * l.val = 512 * t.val + l.val; rw [e1]; show t.val * 512 + 1 * l.val = _; omega

theorem block_mu (c : Dev nD) (t : Fin 4) (l : Fin 512) :
    Call3.blockAt V c 1 (pt t) (ix1 l) = V c main_v10 (ix1 (at512 t l)) := by
  obtain ⟨e0, e1, e2, e3, e4, e5, -⟩ := idx_facts (pt t)
  show V c main_v10 (((cfg3.win 1).blk (pt t)).view.emb (ix1 l)) = V c main_v10 (ix1 (at512 t l))
  refine congrArg (V c main_v10) (funext fun a => Fin.ext ?_)
  match a with
  | ⟨0, _⟩ => show win3_1.index (pt t) (0 : Fin 1) * 512 + 1 * l.val = 512 * t.val + l.val; rw [e2]; show t.val * 512 + 1 * l.val = _; omega

theorem block_var (c : Dev nD) (t : Fin 4) (l : Fin 512) :
    Call3.blockAt V c 2 (pt t) (ix1 l) = V c main_v11 (ix1 (at512 t l)) := by
  obtain ⟨e0, e1, e2, e3, e4, e5, -⟩ := idx_facts (pt t)
  show V c main_v11 (((cfg3.win 2).blk (pt t)).view.emb (ix1 l)) = V c main_v11 (ix1 (at512 t l))
  refine congrArg (V c main_v11) (funext fun a => Fin.ext ?_)
  match a with
  | ⟨0, _⟩ => show win3_2.index (pt t) (0 : Fin 1) * 512 + 1 * l.val = 512 * t.val + l.val; rw [e3]; show t.val * 512 + 1 * l.val = _; omega

theorem block_g (c : Dev nD) (t : Fin 4) (l : Fin 512) :
    Call3.blockAt V c 3 (pt t) (ix1 l) = V c main_arg6 (ix1 (at512 t l)) := by
  obtain ⟨e0, e1, e2, e3, e4, e5, -⟩ := idx_facts (pt t)
  show V c main_arg6 (((cfg3.win 3).blk (pt t)).view.emb (ix1 l)) = V c main_arg6 (ix1 (at512 t l))
  refine congrArg (V c main_arg6) (funext fun a => Fin.ext ?_)
  match a with
  | ⟨0, _⟩ => show win3_3.index (pt t) (0 : Fin 1) * 512 + 1 * l.val = 512 * t.val + l.val; rw [e4]; show t.val * 512 + 1 * l.val = _; omega

theorem block_b (c : Dev nD) (t : Fin 4) (l : Fin 512) :
    Call3.blockAt V c 4 (pt t) (ix1 l) = V c main_arg7 (ix1 (at512 t l)) := by
  obtain ⟨e0, e1, e2, e3, e4, e5, -⟩ := idx_facts (pt t)
  show V c main_arg7 (((cfg3.win 4).blk (pt t)).view.emb (ix1 l)) = V c main_arg7 (ix1 (at512 t l))
  refine congrArg (V c main_arg7) (funext fun a => Fin.ext ?_)
  match a with
  | ⟨0, _⟩ => show win3_4.index (pt t) (0 : Fin 1) * 512 + 1 * l.val = 512 * t.val + l.val; rw [e5]; show t.val * 512 + 1 * l.val = _; omega

theorem block_w (c : Dev nD) (t : Fin 4) (l : Fin 512) (q : Fin 2048) :
    Call3.blockAt V c 5 (pt t) (ix2 l q) = V c main_v6 (ix2 (at512 t l) q) := by
  obtain ⟨e0, e1, e2, e3, e4, e5, e6, e7, -⟩ := idx_facts (pt t)
  show V c main_v6 (((cfg3.win 5).blk (pt t)).view.emb (ix2 l q)) = V c main_v6 (ix2 (at512 t l) q)
  refine congrArg (V c main_v6) (funext fun a => Fin.ext ?_)
  match a with
  | ⟨0, _⟩ => show win3_5.index (pt t) (0 : Fin 2) * 512 + 1 * l.val = 512 * t.val + l.val; rw [e6]; show t.val * 512 + 1 * l.val = _; omega
  | ⟨1, _⟩ => show win3_5.index (pt t) (1 : Fin 2) * 2048 + 1 * q.val = q.val; rw [e7]; omega

theorem block_bias (c : Dev nD) (t : Fin 4) (q : Fin 2048) :
    Call3.blockAt V c 6 (pt t) (ix1 q) = V c main_arg9 (ix1 q) := by
  obtain ⟨e0, e1, e2, e3, e4, e5, e6, e7, e8⟩ := idx_facts (pt t)
  show V c main_arg9 (((cfg3.win 6).blk (pt t)).view.emb (ix1 q)) = V c main_arg9 (ix1 q)
  refine congrArg (V c main_arg9) (funext fun a => Fin.ext ?_)
  match a with
  | ⟨0, _⟩ => show win3_6.index (pt t) (0 : Fin 1) * 2048 + 1 * q.val = q.val; rw [e8]; omega

/-! ## The result read at an entry -/

/-- The same of the arrays the call finds. -/
abbrev actAt (c : Dev nD) (i : Fin 512) (k : Fin 2048) : EReal :=
  actOf (V c main_v7) (V c main_v10) (V c main_v11) (V c main_arg6) (V c main_arg7) i k

/-- The matmul term of point t at (i, j), over the arrays. -/
theorem term_read (c : Dev nD) (t : Fin 4) (i : Fin 512) (j : Fin 2048) :
    (∑ l : Fin 512, act (Call3.blockAt V c 0 (pt t)) (Call3.blockAt V c 1 (pt t)) (Call3.blockAt V c 2 (pt t)) (Call3.blockAt V c 3 (pt t)) (Call3.blockAt V c 4 (pt t)) i l * Call3.blockAt V c 5 (pt t) (ix2 l j))
      = ∑ l : Fin 512, actAt V c i (at512 t l) * V c main_v6 (ix2 (at512 t l) j) :=
  Finset.sum_congr rfl fun l _ => by
    unfold act actAt actOf
    rw [block_x, block_mu, block_var, block_g, block_b, block_w]

/-- The accumulator after the last point at (i, j): the four matmul terms, added in the order of the points. -/
theorem acc_read (c : Dev nD) (i : Fin 512) (j : Fin 2048) :
    Call3.accAfter V c 3 Call3.three_lt (ix2 i j)
      = ∑ t : Fin 4, ∑ l : Fin 512, actAt V c i (at512 t l) * V c main_v6 (ix2 (at512 t l) j) := by
  have h2 : 2 < cfg3.N := Nat.lt_of_succ_lt Call3.three_lt
  have h1 : 1 < cfg3.N := Nat.lt_of_succ_lt h2
  have h0 : 0 < cfg3.N := Nat.lt_of_succ_lt h1
  have e3 : Call3.accAfter V c 3 Call3.three_lt = k3_pay3 (Call3.blockAt V c 0 (pt 3)) (Call3.blockAt V c 1 (pt 3)) (Call3.blockAt V c 2 (pt 3)) (Call3.blockAt V c 3 (pt 3)) (Call3.blockAt V c 4 (pt 3)) (Call3.blockAt V c 5 (pt 3)) (Call3.accAfter V c 2 h2) :=
    Call3.accAfter_succ V c 2 Call3.three_lt
  have e2 : Call3.accAfter V c 2 h2 = k3_pay3 (Call3.blockAt V c 0 (pt 2)) (Call3.blockAt V c 1 (pt 2)) (Call3.blockAt V c 2 (pt 2)) (Call3.blockAt V c 3 (pt 2)) (Call3.blockAt V c 4 (pt 2)) (Call3.blockAt V c 5 (pt 2)) (Call3.accAfter V c 1 h1) :=
    Call3.accAfter_succ V c 1 h2
  have e1 : Call3.accAfter V c 1 h1 = k3_pay3 (Call3.blockAt V c 0 (pt 1)) (Call3.blockAt V c 1 (pt 1)) (Call3.blockAt V c 2 (pt 1)) (Call3.blockAt V c 3 (pt 1)) (Call3.blockAt V c 4 (pt 1)) (Call3.blockAt V c 5 (pt 1)) (Call3.accAfter V c 0 h0) :=
    Call3.accAfter_succ V c 0 h1
  have e0 : Call3.accAfter V c 0 h0 = k3_pay3 (Call3.blockAt V c 0 (pt 0)) (Call3.blockAt V c 1 (pt 0)) (Call3.blockAt V c 2 (pt 0)) (Call3.blockAt V c 3 (pt 0)) (Call3.blockAt V c 4 (pt 0)) (Call3.blockAt V c 5 (pt 0)) (k3_pay2 (F := Ideal)) :=
    Call3.accAfter_zero V c h0
  rw [e3, pay3_read, e2, pay3_read, e1, pay3_read, e0, pay3_read, pay2_read, zero_add,
    term_read V c 3, term_read V c 2, term_read V c 1, term_read V c 0, Fin.sum_univ_four]

/-- THE RESULT at (i, j): the sum over the four points and the 512 columns of each block of activation times right operand,
    plus the bias. -/
theorem result_read (c : Dev nD) (i : Fin 512) (j : Fin 2048) :
    (Call3.dat (F := Ideal) V c).arrAt 7 cfg3.N (ix2 i j)
      = (∑ t : Fin 4, ∑ l : Fin 512, actAt V c i (at512 t l) * V c main_v6 (ix2 (at512 t l) j)) + V c main_arg9 (ix1 j) := by
  rw [result_eq V c]
  rw [show Call3.blockAt V c 6 ⟨3, Call3.three_lt⟩ = Call3.blockAt V c 6 (pt 3) from rfl]
  rw [pay1_read, acc_read, block_bias]

/-- THE SAME VALUE AS THE REFERENCE: the result array after the call is the reference's projection of the arrays the call
    finds (hidden layer, its column mean and variance, scale, shift, transposed second weight, second bias). Entry by entry,
    the four block terms of the kernel are the reference's one sum over the 2048 columns. -/
theorem value_eq (c : Dev nD) :
    ((Call3.dat (F := Ideal) V c).arrAt 7 cfg3.N)
      = Cert.ReferenceIdeal.Core.projCore (F := Ideal) (V c main_v7) (V c main_v10) (V c main_v11) (V c main_arg6) (V c main_arg7) (V c main_v6) (V c main_arg9) := by
  funext j
  obtain ⟨i, q, rfl⟩ : ∃ (i : Fin 512) (q : Fin 2048), j = ix2 i q := ⟨j 0, j 1, eq_ix2 j⟩
  rw [result_read, proj_read, sum_blocks]

end AtIdeal

end Cert.KernelIdeal.Call3Value

end
-- ==== Proof.ValueChain.lean ====
/-
  The two results of the idealized kernel's @main as the reference's functions of the arguments. Stage by stage: the
  pooled features (two pooling calls, a stack), the hidden layer (the first product call), its column mean and variance
  (host operations), the projection (the normalise-and-multiply call), then the loss and its count (host operations) — each
  stage's buffer is the reference's stage function of the earlier stages, and nothing in between disturbs an earlier buffer.
-/
import proofs.«154134_j25494925869443_2_alg».proof.Proof.AssembleKernelIdeal
import proofs.«154134_j25494925869443_2_alg».proof.Proof.HostStretches
import proofs.«154134_j25494925869443_2_alg».proof.Proof.PoolValueKernelIdeal
import proofs.«154134_j25494925869443_2_alg».proof.Proof.PoolBridge
import proofs.«154134_j25494925869443_2_alg».proof.Proof.MatmulValue
import proofs.«154134_j25494925869443_2_alg».proof.Proof.NormMatmulValue
import proofs.«154134_j25494925869443_2_alg».proof.Proof.StageCore
import proofs.«154134_j25494925869443_2_alg».proof.Proof.ReferenceRead

set_option maxRecDepth 16384

noncomputable section

namespace Cert.KernelIdeal.Whole

open Cert.KernelIdeal Cert.KernelIdeal.Gen Cert.KernelIdeal.GenP
open Idealize.ShloMosaic Idealize.ShloMosaic.TcCoe
open Idealize.SL.Sem
open Cert.ReferenceIdeal.HandRead (pooledOf hiddenOf meanOf varOf projOf lossTail)

variable (m : (ℓ : Loc nD τ sig) → Buf (Elt Ideal) ℓ) (c : Dev nD)

/-- An argument's launch contents. -/
abbrev arg (r : Ref sig .tc) : Buf (Elt Ideal) ((c : Thread nD τ).loc r) := m ((c : Thread nD τ).loc r)

/-! ## What each boundary still holds of the earlier ones -/

theorem B2_arg1 : B2 m c main_arg1 = arg m c main_arg1 := by
  rw [← V2_eq]; exact (V2_of m _ c main_arg1 (by decide)).trans ((V1_of m c main_arg1 (by decide)).trans rfl)
theorem B2_v1 : B2 m c main_v1 = left0 m c := Function.update_self _ _ _
theorem B4_v1 : B4 m c main_v1 = left0 m c := by
  rw [← V4_eq]; refine (V4_of m _ c main_v1 (by decide)).trans ((V3_of m _ c main_v1 (by decide)).trans ?_)
  rw [V2_eq]; exact B2_v1 m c
theorem B4_v3 : B4 m c main_v3 = left1 m c := Function.update_self _ _ _
theorem B4_arg4 : B4 m c main_arg4 = arg m c main_arg4 := by
  rw [← V4_eq]; exact (V4_of m _ c main_arg4 (by decide)).trans ((V3_of m _ c main_arg4 (by decide)).trans ((V2_of m _ c main_arg4 (by decide)).trans ((V1_of m c main_arg4 (by decide)).trans rfl)))
theorem B4_arg8 : B4 m c main_arg8 = arg m c main_arg8 := by
  rw [← V4_eq]; exact (V4_of m _ c main_arg8 (by decide)).trans ((V3_of m _ c main_arg8 (by decide)).trans ((V2_of m _ c main_arg8 (by decide)).trans ((V1_of m c main_arg8 (by decide)).trans rfl)))
theorem B5_arg5 : B5 m c main_arg5 = arg m c main_arg5 := by
  rw [← V5_eq]; exact (V5_of m _ c main_arg5 (by decide)).trans ((V4_of m _ c main_arg5 (by decide)).trans ((V3_of m _ c main_arg5 (by decide)).trans ((V2_of m _ c main_arg5 (by decide)).trans ((V1_of m c main_arg5 (by decide)).trans rfl))))
theorem B6_v7 : B6 m c main_v7 = left2 m c := Function.update_self _ _ _
theorem B8_v7 : B8 m c main_v7 = left2 m c := by
  rw [← V8_eq]; refine (V8_of m _ c main_v7 (by decide)).trans ((V7_of m _ c main_v7 (by decide)).trans ?_)
  rw [V6_eq]; exact B6_v7 m c
theorem B8_v6 : B8 m c main_v6 = B5 m c main_v6 := by
  rw [← V8_eq, ← V5_eq]; exact (V8_of m _ c main_v6 (by decide)).trans ((V7_of m _ c main_v6 (by decide)).trans (V6_of m _ c main_v6 (by decide)))
theorem B8_arg (r : Ref sig .tc) (h0 : r ∉ hostOps0_W) (h1 : r ∉ ([main_v1] : List (Ref sig .tc))) (h2 : r ∉ hostOps1_W) (h3 : r ∉ ([main_v3] : List (Ref sig .tc)))
    (h4 : r ∉ hostOps2_W) (h5 : r ∉ ([main_v7] : List (Ref sig .tc))) (h6 : r ∉ hostOps3_W) (h7 : r ∉ hostOps3_1_W) : B8 m c r = arg m c r := by
  rw [← V8_eq]
  exact (V8_of m _ c r h7).trans ((V7_of m _ c r h6).trans ((V6_of m _ c r h5).trans ((V5_of m _ c r h4).trans ((V4_of m _ c r h3).trans ((V3_of m _ c r h2).trans ((V2_of m _ c r h1).trans ((V1_of m c r h0).trans rfl)))))))
theorem V9_v12 : V9 m (leftBy m) c main_v12 = left3 m c := by rw [V9_eq]; exact Function.update_self _ _ _
theorem V9_arg2 : V9 m (leftBy m) c main_arg2 = arg m c main_arg2 :=
  (V9_of m _ c main_arg2 (by decide)).trans ((V8_of m _ c main_arg2 (by decide)).trans ((V7_of m _ c main_arg2 (by decide)).trans ((V6_of m _ c main_arg2 (by decide)).trans ((V5_of m _ c main_arg2 (by decide)).trans ((V4_of m _ c main_arg2 (by decide)).trans ((V3_of m _ c main_arg2 (by decide)).trans ((V2_of m _ c main_arg2 (by decide)).trans ((V1_of m c main_arg2 (by decide)).trans rfl))))))))

/-! ## The stages, each typed as the reference types it -/

abbrev a0 : FVec Ideal Cert.ReferenceIdeal.S256x2048x8x8 .f32 := arg m c main_arg0
abbrev a1 : FVec Ideal Cert.ReferenceIdeal.S256x2048x8x8 .f32 := arg m c main_arg1
abbrev a2 : IVec Cert.ReferenceIdeal.S256 32 := arg m c main_arg2
abbrev a4 : FVec Ideal Cert.ReferenceIdeal.S2048x2048 .f32 := arg m c main_arg4
abbrev a5 : FVec Ideal Cert.ReferenceIdeal.S2048 .f32 := arg m c main_arg5
abbrev a6 : FVec Ideal Cert.ReferenceIdeal.S2048 .f32 := arg m c main_arg6
abbrev a7 : FVec Ideal Cert.ReferenceIdeal.S2048 .f32 := arg m c main_arg7
abbrev a8 : FVec Ideal Cert.ReferenceIdeal.S2048x2048 .f32 := arg m c main_arg8
abbrev a9 : FVec Ideal Cert.ReferenceIdeal.S2048 .f32 := arg m c main_arg9
/-- The pooled features the first product call finds, the hidden layer it leaves, the projection the last call leaves, and
    the two results. -/
abbrev pooledK : FVec Ideal Cert.ReferenceIdeal.S512x2048 .f32 := B5 m c main_v4
abbrev hiddenK : FVec Ideal Cert.ReferenceIdeal.S512x2048 .f32 := left2 m c
abbrev projK : FVec Ideal Cert.ReferenceIdeal.S512x2048 .f32 := left3 m c
abbrev lossK : FVec Ideal Cert.ReferenceIdeal.S_ .f32 := V13 m (leftBy m) c main_v65
abbrev countK : IVec Cert.ReferenceIdeal.S_ 32 := V13 m (leftBy m) c main_v67

/-- The pooled features the first product call finds are the reference's. -/
theorem pooled_stage : pooledK m c = pooledOf (F := Ideal) (a0 m c) (a1 m c) := by
  unfold pooledK a0 a1
  refine (HostRead.joined (B4 m c)).trans ?_
  rw [B4_v1, B4_v3]
  unfold left0 left1
  rw [PoolValue.Call0.result_eq (at1 m) c, PoolValue.Call1.result_eq (at3 m) c]
  have e0 : PoolValue.Call0.arrIn (at1 m) c = shapeCast S256x2048x64 (arg m c main_arg0) shapeCasts_S256x2048x8x8_S256x2048x64 :=
    HostRead.reshaped0 (V0 m c)
  have e1 : PoolValue.Call1.arrIn (at3 m) c = shapeCast S256x2048x64 (arg m c main_arg1) shapeCasts_S256x2048x8x8_S256x2048x64 :=
    (HostRead.reshaped1 (B2 m c)).trans (by rw [B2_arg1])
  rw [e0, e1]
  exact PoolBridge.pooled_math _ _ _ _

/-- The hidden layer the first product call leaves is the reference's. -/
theorem hidden_stage : hiddenK m c = hiddenOf (F := Ideal) (pooledOf (F := Ideal) (a0 m c) (a1 m c)) (a4 m c) (a5 m c) := by
  unfold hiddenK left2
  rw [Call2Value.value_eq (at5 m) c]
  have e1 : Call2Value.lhsArr (at5 m) c = pooledOf (F := Ideal) (a0 m c) (a1 m c) := pooled_stage m c
  have e2 : Call2Value.rhsArr (at5 m) c = transpose S2048x2048 [1, 0] (arg m c main_arg4) transposes_S2048x2048_S2048x2048_1_0 :=
    (HostRead.transposed1 (B4 m c)).trans (by rw [B4_arg4])
  have e3 : Call2Value.biasArr (at5 m) c = arg m c main_arg5 := B5_arg5 m c
  rw [e1, e2, e3]
  rfl

/-- The projection the normalise-and-multiply call leaves is the reference's. -/
theorem proj_stage : projK m c = projOf (F := Ideal) (hiddenK m c) (meanOf (F := Ideal) (hiddenK m c)) (varOf (F := Ideal) (hiddenK m c)) (a6 m c) (a7 m c) (a8 m c) (a9 m c) := by
  unfold projK left3
  rw [Call3Value.value_eq (at8 m) c]
  have e7 : at8 m c main_v7 = left2 m c := B8_v7 m c
  have e10 : at8 m c main_v10 = meanOf (F := Ideal) (hiddenK m c) := (HostRead.mean_stretch' (B6 m c)).trans (by rw [B6_v7])
  have e11 : at8 m c main_v11 = varOf (F := Ideal) (hiddenK m c) := (HostRead.var_stretch' (B6 m c)).trans (by rw [B6_v7])
  have e6 : at8 m c main_arg6 = arg m c main_arg6 := B8_arg m c main_arg6 (by decide) (by decide) (by decide) (by decide) (by decide) (by decide) (by decide) (by decide)
  have e7' : at8 m c main_arg7 = arg m c main_arg7 := B8_arg m c main_arg7 (by decide) (by decide) (by decide) (by decide) (by decide) (by decide) (by decide) (by decide)
  have e9 : at8 m c main_arg9 = arg m c main_arg9 := B8_arg m c main_arg9 (by decide) (by decide) (by decide) (by decide) (by decide) (by decide) (by decide) (by decide)
  have ew : at8 m c main_v6 = transpose S2048x2048 [1, 0] (arg m c main_arg8) transposes_S2048x2048_S2048x2048_1_0 :=
    (B8_v6 m c).trans ((HostRead.transposed2 (B4 m c)).trans (by rw [B4_arg8]))
  rw [e7, e10, e11, e6, e7', e9, ew]
  rfl

/-- The two results are the reference's loss and count of that projection and the labels. -/
theorem loss_stage : lossK m c = (lossTail (F := Ideal) (projK m c) (a2 m c)).1 := by
  unfold lossK projK a2
  refine (HostRead.loss_stretch (V9 m (leftBy m) c)).trans ?_
  rw [V9_v12, V9_arg2]
theorem count_stage : countK m c = (lossTail (F := Ideal) (projK m c) (a2 m c)).2 := by
  unfold countK projK a2
  refine (HostRead.count_stretch (V9 m (leftBy m) c)).trans ?_
  rw [V9_v12, V9_arg2]

end Cert.KernelIdeal.Whole

end
-- ==== Proof.lean ====
/-
  The certificate. Frames: each program runs to its end with its argument arrays unchanged — the two kernel programs
  through their four calls put together, the reference as one straight line of host operations. The idealization
  rewrote nothing, so nothing is to be preserved. The value: at the ideal instance both programs end holding the same
  loss and the same count, because stage by stage — pooled features, hidden layer, its column mean and variance,
  projection — the kernel's buffers are the reference's functions of the same arguments, and the loss and count are
  the same host operations applied to the projection and the labels.
-/
import proofs.«154134_j25494925869443_2_alg».proof.Defs
import proofs.«154134_j25494925869443_2_alg».proof.Proof.Gen.Kernel
import proofs.«154134_j25494925869443_2_alg».proof.Proof.Gen.KernelIdeal
import proofs.«154134_j25494925869443_2_alg».proof.Proof.Gen.ReferenceIdeal
import proofs.«154134_j25494925869443_2_alg».proof.Proof.Gen.Pre_finite_inputs
import proofs.«154134_j25494925869443_2_alg».proof.Proof.AssembleKernel
import proofs.«154134_j25494925869443_2_alg».proof.Proof.AssembleKernelIdeal
import proofs.«154134_j25494925869443_2_alg».proof.Proof.ReferenceRun
import proofs.«154134_j25494925869443_2_alg».proof.Proof.ReferenceRead
import proofs.«154134_j25494925869443_2_alg».proof.Proof.ValueChain

set_option maxRecDepth 16384

noncomputable section

namespace Cert.Proof

open Idealize.ShloMosaic Idealize.ShloMosaic.TcCoe Idealize.SL.Sem

theorem frame_k : Cert.frame_Kernel := fun m ρ _ => Cert.Kernel.Whole.args_kept (F := Bits) m ρ

theorem frame_ki : Cert.frame_KernelIdeal := fun m ρ _ => Cert.KernelIdeal.Whole.args_kept (F := Ideal) m ρ

theorem frame_ri : Cert.frame_ReferenceIdeal := fun m ρ _ =>
  (θ_run Cert.ReferenceIdeal.defs _ _).mono (fun r h c =>
    ⟨(h c _).trans (Cert.ReferenceIdeal.HandRun.arg0_kept _), (h c _).trans (Cert.ReferenceIdeal.HandRun.arg1_kept _),
     (h c _).trans (Cert.ReferenceIdeal.HandRun.arg2_kept _), (h c _).trans (Cert.ReferenceIdeal.HandRun.arg3_kept _),
     (h c _).trans (Cert.ReferenceIdeal.HandRun.arg4_kept _), (h c _).trans (Cert.ReferenceIdeal.HandRun.arg5_kept _),
     (h c _).trans (Cert.ReferenceIdeal.HandRun.arg6_kept _), (h c _).trans (Cert.ReferenceIdeal.HandRun.arg7_kept _),
     (h c _).trans (Cert.ReferenceIdeal.HandRun.arg8_kept _), (h c _).trans (Cert.ReferenceIdeal.HandRun.arg9_kept _)⟩)
    (Cert.ReferenceIdeal.HandRun.run_main (F := Ideal) m ρ)

theorem preserves : Cert.preserves_Kernel_KernelIdeal := trivial

open Cert.ReferenceIdeal.HandRead Cert.KernelIdeal.Whole in
/-- Both programs end at the reference's loss and count of the reference's projection of the same arguments. -/
theorem algebraic : Cert.algebraic_KernelIdeal_ReferenceIdeal := by
  intro m ρ m' ρ' _ hagree
  refine ⟨fun c => Cert.KernelIdeal.GenP.V13 m (Cert.KernelIdeal.Whole.leftBy m) c Cert.KernelIdeal.main_v65,
    fun c => Cert.KernelIdeal.GenP.V13 m (Cert.KernelIdeal.Whole.leftBy m) c Cert.KernelIdeal.main_v67, ?_, ?_⟩
  · -- the kernel's run: the two results read off the last valuation, the arguments kept
    refine (θ_run Cert.KernelIdeal.defs _ _).mono (fun r h c => ?_) (Cert.KernelIdeal.Whole.run_all (F := Ideal) m ρ)
    have ha := fun (b : Ref Cert.KernelIdeal.sig .tc) (hb : ¬ (Proc.devRef .tc b : DevRef Cert.KernelIdeal.τ Cert.KernelIdeal.sig).isScoped) =>
      h c _ (Cert.KernelIdeal.Whole.mem_uc b hb)
    exact ⟨ha Cert.KernelIdeal.main_v65 (by decide), ha Cert.KernelIdeal.main_v67 (by decide),
      (ha Cert.KernelIdeal.main_arg0 (by decide)).trans (Cert.KernelIdeal.GenP.V13_main_arg0 m _ c),
      (ha Cert.KernelIdeal.main_arg1 (by decide)).trans (Cert.KernelIdeal.GenP.V13_main_arg1 m _ c),
      (ha Cert.KernelIdeal.main_arg2 (by decide)).trans (Cert.KernelIdeal.GenP.V13_main_arg2 m _ c),
      (ha Cert.KernelIdeal.main_arg3 (by decide)).trans (Cert.KernelIdeal.GenP.V13_main_arg3 m _ c),
      (ha Cert.KernelIdeal.main_arg4 (by decide)).trans (Cert.KernelIdeal.GenP.V13_main_arg4 m _ c),
      (ha Cert.KernelIdeal.main_arg5 (by decide)).trans (Cert.KernelIdeal.GenP.V13_main_arg5 m _ c),
      (ha Cert.KernelIdeal.main_arg6 (by decide)).trans (Cert.KernelIdeal.GenP.V13_main_arg6 m _ c),
      (ha Cert.KernelIdeal.main_arg7 (by decide)).trans (Cert.KernelIdeal.GenP.V13_main_arg7 m _ c),
      (ha Cert.KernelIdeal.main_arg8 (by decide)).trans (Cert.KernelIdeal.GenP.V13_main_arg8 m _ c),
      (ha Cert.KernelIdeal.main_arg9 (by decide)).trans (Cert.KernelIdeal.GenP.V13_main_arg9 m _ c)⟩
  · -- the reference's run: each stage's read, the arguments' agreement, and the kernel's stage theorems
    refine (θ_run Cert.ReferenceIdeal.defs _ _).mono (fun r h c => ?_) (Cert.ReferenceIdeal.HandRun.run_main (F := Ideal) m' ρ')
    obtain ⟨e0, e1, e2, e3, e4, e5, e6, e7, e8, e9⟩ := hagree c
    have q0 : StableHlo.launchContents m' c (Cert.ReferenceIdeal.main_arg0 : DevRef Cert.ReferenceIdeal.τ Cert.ReferenceIdeal.sig) = a0 m c := e0
    have q1 : StableHlo.launchContents m' c (Cert.ReferenceIdeal.main_arg1 : DevRef Cert.ReferenceIdeal.τ Cert.ReferenceIdeal.sig) = a1 m c := e1
    have q2 : StableHlo.launchContents m' c (Cert.ReferenceIdeal.main_arg2 : DevRef Cert.ReferenceIdeal.τ Cert.ReferenceIdeal.sig) = a2 m c := e2
    have q4 : StableHlo.launchContents m' c (Cert.ReferenceIdeal.main_arg4 : DevRef Cert.ReferenceIdeal.τ Cert.ReferenceIdeal.sig) = a4 m c := e4
    have q5 : StableHlo.launchContents m' c (Cert.ReferenceIdeal.main_arg5 : DevRef Cert.ReferenceIdeal.τ Cert.ReferenceIdeal.sig) = a5 m c := e5
    have q6 : StableHlo.launchContents m' c (Cert.ReferenceIdeal.main_arg6 : DevRef Cert.ReferenceIdeal.τ Cert.ReferenceIdeal.sig) = a6 m c := e6
    have q7 : StableHlo.launchContents m' c (Cert.ReferenceIdeal.main_arg7 : DevRef Cert.ReferenceIdeal.τ Cert.ReferenceIdeal.sig) = a7 m c := e7
    have q8 : StableHlo.launchContents m' c (Cert.ReferenceIdeal.main_arg8 : DevRef Cert.ReferenceIdeal.τ Cert.ReferenceIdeal.sig) = a8 m c := e8
    have q9 : StableHlo.launchContents m' c (Cert.ReferenceIdeal.main_arg9 : DevRef Cert.ReferenceIdeal.τ Cert.ReferenceIdeal.sig) = a9 m c := e9
    have hp : StableHlo.after Cert.ReferenceIdeal.HandRun.ops (StableHlo.launchContents m' c) (Cert.ReferenceIdeal.main_v3 : DevRef Cert.ReferenceIdeal.τ Cert.ReferenceIdeal.sig)
        = pooledOf (F := Ideal) (a0 m c) (a1 m c) := by rw [pooled_read, q0, q1]
    have hh : StableHlo.after Cert.ReferenceIdeal.HandRun.ops (StableHlo.launchContents m' c) (Cert.ReferenceIdeal.main_v8 : DevRef Cert.ReferenceIdeal.τ Cert.ReferenceIdeal.sig)
        = hiddenK m c := by rw [hidden_read, hp, q4, q5]; exact (hidden_stage m c).symm
    have hm : StableHlo.after Cert.ReferenceIdeal.HandRun.ops (StableHlo.launchContents m' c) (Cert.ReferenceIdeal.main_v11 : DevRef Cert.ReferenceIdeal.τ Cert.ReferenceIdeal.sig)
        = meanOf (F := Ideal) (hiddenK m c) := by rw [mean_read, hh]
    have hv : StableHlo.after Cert.ReferenceIdeal.HandRun.ops (StableHlo.launchContents m' c) (Cert.ReferenceIdeal.main_v12 : DevRef Cert.ReferenceIdeal.τ Cert.ReferenceIdeal.sig)
        = varOf (F := Ideal) (hiddenK m c) := by rw [var_read, hh]
    have hz : StableHlo.after Cert.ReferenceIdeal.HandRun.ops (StableHlo.launchContents m' c) (Cert.ReferenceIdeal.main_v33 : DevRef Cert.ReferenceIdeal.τ Cert.ReferenceIdeal.sig)
        = projK m c := by rw [proj_read, hh, hm, hv, q6, q7, q8, q9]; exact (proj_stage m c).symm
    refine ⟨?_, ?_, (h c _).trans (Cert.ReferenceIdeal.HandRun.arg0_kept _), (h c _).trans (Cert.ReferenceIdeal.HandRun.arg1_kept _),
      (h c _).trans (Cert.ReferenceIdeal.HandRun.arg2_kept _), (h c _).trans (Cert.ReferenceIdeal.HandRun.arg3_kept _),
      (h c _).trans (Cert.ReferenceIdeal.HandRun.arg4_kept _), (h c _).trans (Cert.ReferenceIdeal.HandRun.arg5_kept _),
      (h c _).trans (Cert.ReferenceIdeal.HandRun.arg6_kept _), (h c _).trans (Cert.ReferenceIdeal.HandRun.arg7_kept _),
      (h c _).trans (Cert.ReferenceIdeal.HandRun.arg8_kept _), (h c _).trans (Cert.ReferenceIdeal.HandRun.arg9_kept _)⟩
    · refine (h c _).trans ?_
      rw [result1_read, hz, q2]
      exact (loss_stage m c).symm
    · refine (h c _).trans ?_
      rw [result2_read, hz, q2]
      exact (count_stage m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
